-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096 : Shape := ⟨1, ![4096]⟩
abbrev S2000x50x128 : Shape := ⟨3, ![2000, 50, 128]⟩
abbrev S_ : Shape := ⟨0, ![]⟩

class Facts : Prop where
  bcast_S_S2000x50x128 : S_.BroadcastsInDim S2000x50x128 (![] : Fin 0 → Fin S2000x50x128.rank)
  reducesTo_S2000x50x128_S_d0_1_2 : S2000x50x128.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v10 : IVec S_ 1) (main_v15 : IVec S4096 1) (main_c_5 : IVec S_ 1) : IVec S_ 1 :=
  let main_v16 : IVec S_ 1 := (fun x v => Host.reduce IntOp.andi x v reducesTo_S4096_S_d0 h_S_) main_v15 main_c_5
  let main_v17 : IVec S_ 1 := andi main_v10 main_v16
  main_v17

def fn {F : FTy → Type} [FloatOps F] (main_arg0 : IVec S4096 32) (main_arg1 : IVec S4096 32) (main_arg2 : FVec F S2000x50x128 .f32) : IVec S_ 1 :=
  let main_v0 : FVec F S2000x50x128 .f32 := Host.absf main_arg2
  let main_cst : FVec F S_ .f32 := constant S_ .f32 0x7F800000#32
  let main_v1 : FVec F S2000x50x128 .f32 := broadcastInDim S2000x50x128 ![] bcast_S_S2000x50x128 main_cst
  let main_v2 : IVec S2000x50x128 1 := cmpf .olt main_v0 main_v1
  let main_c : IVec S_ 1 := constantI S_ 1 1#1
  let main_v3 : IVec S_ 1 := (fun x v => Host.reduce IntOp.andi x v reducesTo_S2000x50x128_S_d0_1_2 h_S_) main_v2 main_c
  let main_c_0 : IVec S_ 32 := constantI S_ 32 0#32
  let main_v4 : IVec S4096 32 := broadcastInDim S4096 ![] bcast_S_S4096 main_c_0
  let main_v5 : IVec S4096 1 := cmpi .sge main_arg0 main_v4
  let main_c_1 : IVec S_ 32 := constantI S_ 32 1999#32
  let main_v6 : IVec S4096 32 := broadcastInDim S4096 ![] bcast_S_S4096 main_c_1
  let main_v7 : IVec S4096 1 := cmpi .sle main_arg0 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  let main_c_3 : IVec S_ 32 := constantI S_ 32 0#32
  let main_v11 : IVec S4096 32 := broadcastInDim S4096 ![] bcast_S_S4096 main_c_3
  let main_v12 : IVec S4096 1 := cmpi .sge main_arg1 main_v11
  let main_c_4 : IVec S_ 32 := constantI S_ 32 49#32
  let main_v13 : IVec S4096 32 := broadcastInDim S4096 ![] bcast_S_S4096 main_c_4
  let main_v14 : IVec S4096 1 := cmpi .sle main_arg1 main_v13
  let main_v15 : IVec S4096 1 := andi main_v12 main_v14
  let main_c_5 : IVec S_ 1 := constantI S_ 1 1#1
  fn_part1 (F := F) main_v10 main_v15 main_c_5
-- ==== Kernel.lean ====
abbrev S4096 : Shape := ⟨1, ![4096]⟩
abbrev S2000x50x128 : Shape := ⟨3, ![2000, 50, 128]⟩
abbrev S50x2000x128 : Shape := ⟨3, ![50, 2000, 128]⟩
abbrev S100000x128 : Shape := ⟨2, ![100000, 128]⟩
abbrev S4096x128 : Shape := ⟨2, ![4096, 128]⟩
abbrev S200704x128 : Shape := ⟨2, ![200704, 128]⟩
abbrev S128 : Shape := ⟨1, ![128]⟩
abbrev S49x128 : Shape := ⟨2, ![49, 128]⟩
abbrev S128x128 : Shape := ⟨2, ![128, 128]⟩
abbrev S6x128x128 : Shape := ⟨3, ![6, 128, 128]⟩
abbrev S_ : Shape := ⟨0, ![]⟩
abbrev S16 : Shape := ⟨1, ![16]⟩
abbrev S1x16 : Shape := ⟨2, ![1, 16]⟩
abbrev S1x128x128 : Shape := ⟨3, ![1, 128, 128]⟩
abbrev S1x128 : Shape := ⟨2, ![1, 128]⟩
abbrev S49x4096x128 : Shape := ⟨3, ![49, 4096, 128]⟩
abbrev S4096x49x128 : Shape := ⟨3, ![4096, 49, 128]⟩

abbrev nBuf : Table → Nat
  | .hbm => 9
  | .local .scVector .vmem => 6
  | _ => 0

abbrev bufTy : (tb : Table) → Fin (nBuf tb) → BufTy
  | .hbm, ⟨0, _⟩ => ⟨S4096, .i32⟩
  | .hbm, ⟨1, _⟩ => ⟨S4096, .i32⟩
  | .hbm, ⟨2, _⟩ => ⟨S2000x50x128, .f32⟩
  | .hbm, ⟨3, _⟩ => ⟨S50x2000x128, .f32⟩
  | .hbm, ⟨4, _⟩ => ⟨S100000x128, .f32⟩
  | .hbm, ⟨5, _⟩ => ⟨S4096x128, .f32⟩
  | .hbm, ⟨6, _⟩ => ⟨S200704x128, .f32⟩
  | .hbm, ⟨7, _⟩ => ⟨S49x4096x128, .f32⟩
  | .hbm, ⟨8, _⟩ => ⟨S4096x49x128, .f32⟩
  | .local .scVector .vmem, ⟨0, _⟩ => ⟨S128, .i32⟩
  | .local .scVector .vmem, ⟨1, _⟩ => ⟨S128, .i32⟩
  | .local .scVector .vmem, ⟨2, _⟩ => ⟨S128, .i32⟩
  | .local .scVector .vmem, ⟨3, _⟩ => ⟨S49x128, .i32⟩
  | .local .scVector .vmem, ⟨4, _⟩ => ⟨S128x128, .f32⟩
  | .local .scVector .vmem, ⟨5, _⟩ => ⟨S6x128x128, .f32⟩
  | _, _ => ⟨S4096, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_arg0_scv : Ref sig .scVector := ⟨.hbm, 0, rfl⟩
abbrev main_arg1_scv : Ref sig .scVector := ⟨.hbm, 1, rfl⟩
abbrev main_v1_scv : Ref sig .scVector := ⟨.hbm, 4, rfl⟩
abbrev main_v2_0_scv : Ref sig .scVector := ⟨.hbm, 5, rfl⟩
abbrev main_v2_1_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
@[reducible] def k0_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k0_off2 (k0_t1 : Fin k0_t1_loop.trips) : Fin 2 → Nat :=
  let c0_i32_0 : BitVec 32 := 0#32
  let c1_i32 : BitVec 32 := 1#32
  let arg26 : BitVec 32 := Scf.iv c0_i32_0 c1_i32 k0_t1
  let v154 : Index := Scalar.indexCast arg26
  let c0_103 : Index := 0#32
  ![v154.toNat, 0]
def k0_off3 (k0_t1 : Fin k0_t1_loop.trips) : Fin 2 → Nat :=
  let c0_i32_0 : BitVec 32 := 0#32
  let c1_i32 : BitVec 32 := 1#32
  let arg26 : BitVec 32 := Scf.iv c0_i32_0 c1_i32 k0_t1
  let v171 : Index := Scalar.indexCast arg26
  let c16_109 : Index := 16#32
  ![v171.toNat, 16]
def k0_off4 (k0_t1 : Fin k0_t1_loop.trips) : Fin 2 → Nat :=
  let c0_i32_0 : BitVec 32 := 0#32
  let c1_i32 : BitVec 32 := 1#32
  let arg26 : BitVec 32 := Scf.iv c0_i32_0 c1_i32 k0_t1
  let v188 : Index := Scalar.indexCast arg26
  let c32_115 : Index := 32#32
  ![v188.toNat, 32]
def k0_off5 (k0_t1 : Fin k0_t1_loop.trips) : Fin 2 → Nat :=
  let c0_i32_0 : BitVec 32 := 0#32
  let c1_i32 : BitVec 32 := 1#32
  let arg26 : BitVec 32 := Scf.iv c0_i32_0 c1_i32 k0_t1
  let v205 : Index := Scalar.indexCast arg26
  let c48_121 : Index := 48#32
  ![v205.toNat, 48]
def k0_off6 (k0_t1 : Fin k0_t1_loop.trips) : Fin 2 → Nat :=
  let c0_i32_0 : BitVec 32 := 0#32
  let c1_i32 : BitVec 32 := 1#32
  let arg26 : BitVec 32 := Scf.iv c0_i32_0 c1_i32 k0_t1
  let v222 : Index := Scalar.indexCast arg26
  let c64_127 : Index := 64#32
  ![v222.toNat, 64]
def k0_off7 (k0_t1 : Fin k0_t1_loop.trips) : Fin 2 → Nat :=
  let c0_i32_0 : BitVec 32 := 0#32
  let c1_i32 : BitVec 32 := 1#32
  let arg26 : BitVec 32 := Scf.iv c0_i32_0 c1_i32 k0_t1
  let v239 : Index := Scalar.indexCast arg26
  let c80_133 : Index := 80#32
  ![v239.toNat, 80]
def k0_off8 (k0_t1 : Fin k0_t1_loop.trips) : Fin 2 → Nat :=
  let c0_i32_0 : BitVec 32 := 0#32
  let c1_i32 : BitVec 32 := 1#32
  let arg26 : BitVec 32 := Scf.iv c0_i32_0 c1_i32 k0_t1
  let v256 : Index := Scalar.indexCast arg26
  let c96_139 : Index := 96#32
  ![v256.toNat, 96]
def k0_off9 (k0_t1 : Fin k0_t1_loop.trips) : Fin 2 → Nat :=
  let c0_i32_0 : BitVec 32 := 0#32
  let c1_i32 : BitVec 32 := 1#32
  let arg26 : BitVec 32 := Scf.iv c0_i32_0 c1_i32 k0_t1
  let v273 : Index := Scalar.indexCast arg26
  let c112_145 : Index := 112#32
  ![v273.toNat, 112]
@[reducible] def k0_t2_loop : Scf.Loop 32 :=
  let c4_i32_55 : BitVec 32 := 4#32
  let c45_i32 : BitVec 32 := 45#32
  let v105 : BitVec 32 := Scalar.addi c4_i32_55 c45_i32
  let c1_i32_56 : BitVec 32 := 1#32
  ⟨c4_i32_55, v105, c1_i32_56⟩
def k0_off10 (k0_t2 : Fin k0_t2_loop.trips) : Fin 2 → Nat :=
  let c4_i32_55 : BitVec 32 := 4#32
  let c1_i32_56 : BitVec 32 := 1#32
  let arg26 : BitVec 32 := Scf.iv c4_i32_55 c1_i32_56 k0_t2
  let v154 : Index := Scalar.indexCast arg26
  let c0_103 : Index := 0#32
  ![v154.toNat, 0]
def k0_off11 (k0_t2 : Fin k0_t2_loop.trips) : Fin 2 → Nat :=
  let c4_i32_55 : BitVec 32 := 4#32
  let c1_i32_56 : BitVec 32 := 1#32
  let arg26 : BitVec 32 := Scf.iv c4_i32_55 c1_i32_56 k0_t2
  let v171 : Index := Scalar.indexCast arg26
  let c16_109 : Index := 16#32
  ![v171.toNat, 16]
def k0_off12 (k0_t2 : Fin k0_t2_loop.trips) : Fin 2 → Nat :=
  let c4_i32_55 : BitVec 32 := 4#32
  let c1_i32_56 : BitVec 32 := 1#32
  let arg26 : BitVec 32 := Scf.iv c4_i32_55 c1_i32_56 k0_t2
  let v188 : Index := Scalar.indexCast arg26
  let c32_115 : Index := 32#32
  ![v188.toNat, 32]
def k0_off13 (k0_t2 : Fin k0_t2_loop.trips) : Fin 2 → Nat :=
  let c4_i32_55 : BitVec 32 := 4#32
  let c1_i32_56 : BitVec 32 := 1#32
  let arg26 : BitVec 32 := Scf.iv c4_i32_55 c1_i32_56 k0_t2
  let v205 : Index := Scalar.indexCast arg26
  let c48_121 : Index := 48#32
  ![v205.toNat, 48]
def k0_off14 (k0_t2 : Fin k0_t2_loop.trips) : Fin 2 → Nat :=
  let c4_i32_55 : BitVec 32 := 4#32
  let c1_i32_56 : BitVec 32 := 1#32
  let arg26 : BitVec 32 := Scf.iv c4_i32_55 c1_i32_56 k0_t2
  let v222 : Index := Scalar.indexCast arg26
  let c64_127 : Index := 64#32
  ![v222.toNat, 64]
def k0_off15 (k0_t2 : Fin k0_t2_loop.trips) : Fin 2 → Nat :=
  let c4_i32_55 : BitVec 32 := 4#32
  let c1_i32_56 : BitVec 32 := 1#32
  let arg26 : BitVec 32 := Scf.iv c4_i32_55 c1_i32_56 k0_t2
  let v239 : Index := Scalar.indexCast arg26
  let c80_133 : Index := 80#32
  ![v239.toNat, 80]
def k0_off16 (k0_t2 : Fin k0_t2_loop.trips) : Fin 2 → Nat :=
  let c4_i32_55 : BitVec 32 := 4#32
  let c1_i32_56 : BitVec 32 := 1#32
  let arg26 : BitVec 32 := Scf.iv c4_i32_55 c1_i32_56 k0_t2
  let v256 : Index := Scalar.indexCast arg26
  let c96_139 : Index := 96#32
  ![v256.toNat, 96]
def k0_off17 (k0_t2 : Fin k0_t2_loop.trips) : Fin 2 → Nat :=
  let c4_i32_55 : BitVec 32 := 4#32
  let c1_i32_56 : BitVec 32 := 1#32
  let arg26 : BitVec 32 := Scf.iv c4_i32_55 c1_i32_56 k0_t2
  let v273 : Index := Scalar.indexCast arg26
  let c112_145 : Index := 112#32
  ![v273.toNat, 112]
@[reducible] def k0_t3_loop : Scf.Loop 32 :=
  let c0_i32_59 : BitVec 32 := 0#32
  let c8_i32 : BitVec 32 := 8#32
  let v106 : BitVec 32 := Scalar.addi c0_i32_59 c8_i32
  let c1_i32_60 : BitVec 32 := 1#32
  ⟨c0_i32_59, v106, c1_i32_60⟩
def k0_off18 (k0_t3 : Fin k0_t3_loop.trips) (c0_i32_98 : BitVec 32) : Fin 2 → Nat :=
  let c6_i32 : BitVec 32 := 6#32
  let c0_i32_59 : BitVec 32 := 0#32
  let c1_i32_60 : BitVec 32 := 1#32
  let arg26 : BitVec 32 := Scf.iv c0_i32_59 c1_i32_60 k0_t3
  let v141 : BitVec 32 := Scalar.muli c6_i32 arg26
  let v142 : BitVec 32 := Scalar.addi v141 c0_i32_98
  let c0_i32_102 : BitVec 32 := 0#32
  ![v142.toNat, 0]
def k0_off19 (i : grid0.Coords) (k0_t3 : Fin k0_t3_loop.trips) (c0_i32_98 : BitVec 32) : Fin 2 → Nat :=
  let c6_i32 : BitVec 32 := 6#32
  let c0_i32_59 : BitVec 32 := 0#32
  let c1_i32_60 : BitVec 32 := 1#32
  let arg26 : BitVec 32 := Scf.iv c0_i32_59 c1_i32_60 k0_t3
  let v141 : BitVec 32 := Scalar.muli c6_i32 arg26
  let v142 : BitVec 32 := Scalar.addi v141 c0_i32_98
  let c4096_i32 : BitVec 32 := 4096#32
  let v148 : BitVec 32 := Scalar.muli v142 c4096_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v149 : BitVec 32 := Scalar.addi v148 v2
  let c0_i32_108 : BitVec 32 := 0#32
  ![v149.toNat, 0]
def k0_cond1 (k0_t3 : Fin k0_t3_loop.trips) : BitVec 1 :=
  let c0_i32_59 : BitVec 32 := 0#32
  let c1_i32_60 : BitVec 32 := 1#32
  let arg26 : BitVec 32 := Scf.iv c0_i32_59 c1_i32_60 k0_t3
  let c1_i32_112 : BitVec 32 := 1#32
  let v156 : BitVec 1 := Scalar.cmpi .sge arg26 c1_i32_112
  let v157 : BitVec 32 := Scalar.extui v156
  let c0_i32_113 : BitVec 32 := 0#32
  let v158 : BitVec 1 := Scalar.cmpi .ne v157 c0_i32_113
  v158

def k0_off20 (i : grid0.Coords) (k0_t3 : Fin k0_t3_loop.trips) : Fin 2 → Nat :=
  let c6_i32 : BitVec 32 := 6#32
  let c0_i32_59 : BitVec 32 := 0#32
  let c1_i32_60 : BitVec 32 := 1#32
  let arg26 : BitVec 32 := Scf.iv c0_i32_59 c1_i32_60 k0_t3
  let v141 : BitVec 32 := Scalar.muli c6_i32 arg26
  let c0_i32_98 : BitVec 32 := 0#32
  let v142 : BitVec 32 := Scalar.addi v141 c0_i32_98
  let c2_i32_263 : BitVec 32 := 2#32
  let v307 : BitVec 32 := Scalar.subi v142 c2_i32_263
  let c4096_i32_264 : BitVec 32 := 4096#32
  let v308 : BitVec 32 := Scalar.muli v307 c4096_i32_264
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v309 : BitVec 32 := Scalar.addi v308 v2
  let c0_i32_268 : BitVec 32 := 0#32
  ![v309.toNat, 0]
def k0_off21 (k0_t3 : Fin k0_t3_loop.trips) (c0_i32_98 : BitVec 32) : Fin 2 → Nat :=
  let c6_i32 : BitVec 32 := 6#32
  let c0_i32_59 : BitVec 32 := 0#32
  let c1_i32_60 : BitVec 32 := 1#32
  let arg26 : BitVec 32 := Scf.iv c0_i32_59 c1_i32_60 k0_t3
  let v141 : BitVec 32 := Scalar.muli c6_i32 arg26
  let v142 : BitVec 32 := Scalar.addi v141 c0_i32_98
  let c6_i32_114 : BitVec 32 := 6#32
  let v159 : BitVec 32 := Scalar.addi v142 c6_i32_114
  let c2_i32_115 : BitVec 32 := 2#32
  let v160 : BitVec 32 := Scalar.subi v159 c2_i32_115
  let c0_i32_119 : BitVec 32 := 0#32
  ![v160.toNat, 0]
def k0_cond2 (k0_t3 : Fin k0_t3_loop.trips) : BitVec 1 :=
  let c0_i32_59 : BitVec 32 := 0#32
  let c1_i32_60 : BitVec 32 := 1#32
  let arg26 : BitVec 32 := Scf.iv c0_i32_59 c1_i32_60 k0_t3
  let c1_i32_138 : BitVec 32 := 1#32
  let v181 : BitVec 1 := Scalar.cmpi .sge arg26 c1_i32_138
  let v182 : BitVec 32 := Scalar.extui v181
  let c0_i32_139 : BitVec 32 := 0#32
  let v183 : BitVec 1 := Scalar.cmpi .ne v182 c0_i32_139
  v183

def k0_off22 (i : grid0.Coords) (k0_t3 : Fin k0_t3_loop.trips) : Fin 2 → Nat :=
  let c6_i32_122 : BitVec 32 := 6#32
  let c0_i32_59 : BitVec 32 := 0#32
  let c1_i32_60 : BitVec 32 := 1#32
  let arg26 : BitVec 32 := Scf.iv c0_i32_59 c1_i32_60 k0_t3
  let v166 : BitVec 32 := Scalar.muli c6_i32_122 arg26
  let c1_i32_123 : BitVec 32 := 1#32
  let v167 : BitVec 32 := Scalar.addi v166 c1_i32_123
  let c2_i32_263 : BitVec 32 := 2#32
  let v307 : BitVec 32 := Scalar.subi v167 c2_i32_263
  let c4096_i32_264 : BitVec 32 := 4096#32
  let v308 : BitVec 32 := Scalar.muli v307 c4096_i32_264
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v309 : BitVec 32 := Scalar.addi v308 v2
  let c0_i32_268 : BitVec 32 := 0#32
  ![v309.toNat, 0]
def k0_off23 (i : grid0.Coords) (k0_t3 : Fin k0_t3_loop.trips) (c2_i32_149 : BitVec 32) : Fin 2 → Nat :=
  let c6_i32_148 : BitVec 32 := 6#32
  let c0_i32_59 : BitVec 32 := 0#32
  let c1_i32_60 : BitVec 32 := 1#32
  let arg26 : BitVec 32 := Scf.iv c0_i32_59 c1_i32_60 k0_t3
  let v191 : BitVec 32 := Scalar.muli c6_i32_148 arg26
  let v192 : BitVec 32 := Scalar.addi v191 c2_i32_149
  let c2_i32_164 : BitVec 32 := 2#32
  let v206 : BitVec 32 := Scalar.subi v192 c2_i32_164
  let c4096_i32_165 : BitVec 32 := 4096#32
  let v207 : BitVec 32 := Scalar.muli v206 c4096_i32_165
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v208 : BitVec 32 := Scalar.addi v207 v2
  let c0_i32_169 : BitVec 32 := 0#32
  ![v208.toNat, 0]
def k0_cond3 (k0_t3 : Fin k0_t3_loop.trips) : BitVec 1 :=
  let c6_i32_148 : BitVec 32 := 6#32
  let c0_i32_59 : BitVec 32 := 0#32
  let c1_i32_60 : BitVec 32 := 1#32
  let arg26 : BitVec 32 := Scf.iv c0_i32_59 c1_i32_60 k0_t3
  let v191 : BitVec 32 := Scalar.muli c6_i32_148 arg26
  let c2_i32_149 : BitVec 32 := 2#32
  let v192 : BitVec 32 := Scalar.addi v191 c2_i32_149
  let c6_i32_173 : BitVec 32 := 6#32
  let v215 : BitVec 32 := Scalar.addi v192 c6_i32_173
  let c2_i32_174 : BitVec 32 := 2#32
  let v216 : BitVec 32 := Scalar.subi v215 c2_i32_174
  let c49_i32 : BitVec 32 := 49#32
  let v217 : BitVec 1 := Scalar.cmpi .slt v216 c49_i32
  let v218 : BitVec 32 := Scalar.extui v217
  let c0_i32_175 : BitVec 32 := 0#32
  let v219 : BitVec 1 := Scalar.cmpi .ne v218 c0_i32_175
  v219

def k0_off24 (k0_t3 : Fin k0_t3_loop.trips) : Fin 2 → Nat :=
  let c6_i32_148 : BitVec 32 := 6#32
  let c0_i32_59 : BitVec 32 := 0#32
  let c1_i32_60 : BitVec 32 := 1#32
  let arg26 : BitVec 32 := Scf.iv c0_i32_59 c1_i32_60 k0_t3
  let v191 : BitVec 32 := Scalar.muli c6_i32_148 arg26
  let c2_i32_149 : BitVec 32 := 2#32
  let v192 : BitVec 32 := Scalar.addi v191 c2_i32_149
  let c6_i32_263 : BitVec 32 := 6#32
  let v307 : BitVec 32 := Scalar.addi v192 c6_i32_263
  let c2_i32_264 : BitVec 32 := 2#32
  let v308 : BitVec 32 := Scalar.subi v307 c2_i32_264
  let c0_i32_268 : BitVec 32 := 0#32
  ![v308.toNat, 0]
def k0_cond4 (k0_t3 : Fin k0_t3_loop.trips) : BitVec 1 :=
  let c6_i32_176 : BitVec 32 := 6#32
  let c0_i32_59 : BitVec 32 := 0#32
  let c1_i32_60 : BitVec 32 := 1#32
  let arg26 : BitVec 32 := Scf.iv c0_i32_59 c1_i32_60 k0_t3
  let v220 : BitVec 32 := Scalar.muli c6_i32_176 arg26
  let c3_i32_177 : BitVec 32 := 3#32
  let v221 : BitVec 32 := Scalar.addi v220 c3_i32_177
  let c6_i32_201 : BitVec 32 := 6#32
  let v244 : BitVec 32 := Scalar.addi v221 c6_i32_201
  let c2_i32_202 : BitVec 32 := 2#32
  let v245 : BitVec 32 := Scalar.subi v244 c2_i32_202
  let c49_i32_203 : BitVec 32 := 49#32
  let v246 : BitVec 1 := Scalar.cmpi .slt v245 c49_i32_203
  let v247 : BitVec 32 := Scalar.extui v246
  let c0_i32_204 : BitVec 32 := 0#32
  let v248 : BitVec 1 := Scalar.cmpi .ne v247 c0_i32_204
  v248

def k0_off25 (k0_t3 : Fin k0_t3_loop.trips) : Fin 2 → Nat :=
  let c6_i32_176 : BitVec 32 := 6#32
  let c0_i32_59 : BitVec 32 := 0#32
  let c1_i32_60 : BitVec 32 := 1#32
  let arg26 : BitVec 32 := Scf.iv c0_i32_59 c1_i32_60 k0_t3
  let v220 : BitVec 32 := Scalar.muli c6_i32_176 arg26
  let c3_i32_177 : BitVec 32 := 3#32
  let v221 : BitVec 32 := Scalar.addi v220 c3_i32_177
  let c6_i32_263 : BitVec 32 := 6#32
  let v307 : BitVec 32 := Scalar.addi v221 c6_i32_263
  let c2_i32_264 : BitVec 32 := 2#32
  let v308 : BitVec 32 := Scalar.subi v307 c2_i32_264
  let c0_i32_268 : BitVec 32 := 0#32
  ![v308.toNat, 0]
def k0_cond5 (k0_t3 : Fin k0_t3_loop.trips) : BitVec 1 :=
  let c6_i32_205 : BitVec 32 := 6#32
  let c0_i32_59 : BitVec 32 := 0#32
  let c1_i32_60 : BitVec 32 := 1#32
  let arg26 : BitVec 32 := Scf.iv c0_i32_59 c1_i32_60 k0_t3
  let v249 : BitVec 32 := Scalar.muli c6_i32_205 arg26
  let c4_i32_206 : BitVec 32 := 4#32
  let v250 : BitVec 32 := Scalar.addi v249 c4_i32_206
  let c6_i32_230 : BitVec 32 := 6#32
  let v273 : BitVec 32 := Scalar.addi v250 c6_i32_230
  let c2_i32_231 : BitVec 32 := 2#32
  let v274 : BitVec 32 := Scalar.subi v273 c2_i32_231
  let c49_i32_232 : BitVec 32 := 49#32
  let v275 : BitVec 1 := Scalar.cmpi .slt v274 c49_i32_232
  let v276 : BitVec 32 := Scalar.extui v275
  let c0_i32_233 : BitVec 32 := 0#32
  let v277 : BitVec 1 := Scalar.cmpi .ne v276 c0_i32_233
  v277

def k0_off26 (k0_t3 : Fin k0_t3_loop.trips) : Fin 2 → Nat :=
  let c6_i32_205 : BitVec 32 := 6#32
  let c0_i32_59 : BitVec 32 := 0#32
  let c1_i32_60 : BitVec 32 := 1#32
  let arg26 : BitVec 32 := Scf.iv c0_i32_59 c1_i32_60 k0_t3
  let v249 : BitVec 32 := Scalar.muli c6_i32_205 arg26
  let c4_i32_206 : BitVec 32 := 4#32
  let v250 : BitVec 32 := Scalar.addi v249 c4_i32_206
  let c6_i32_263 : BitVec 32 := 6#32
  let v307 : BitVec 32 := Scalar.addi v250 c6_i32_263
  let c2_i32_264 : BitVec 32 := 2#32
  let v308 : BitVec 32 := Scalar.subi v307 c2_i32_264
  let c0_i32_268 : BitVec 32 := 0#32
  ![v308.toNat, 0]
def k0_cond6 (k0_t3 : Fin k0_t3_loop.trips) : BitVec 1 :=
  let c6_i32_234 : BitVec 32 := 6#32
  let c0_i32_59 : BitVec 32 := 0#32
  let c1_i32_60 : BitVec 32 := 1#32
  let arg26 : BitVec 32 := Scf.iv c0_i32_59 c1_i32_60 k0_t3
  let v278 : BitVec 32 := Scalar.muli c6_i32_234 arg26
  let c5_i32_235 : BitVec 32 := 5#32
  let v279 : BitVec 32 := Scalar.addi v278 c5_i32_235
  let c6_i32_259 : BitVec 32 := 6#32
  let v302 : BitVec 32 := Scalar.addi v279 c6_i32_259
  let c2_i32_260 : BitVec 32 := 2#32
  let v303 : BitVec 32 := Scalar.subi v302 c2_i32_260
  let c49_i32_261 : BitVec 32 := 49#32
  let v304 : BitVec 1 := Scalar.cmpi .slt v303 c49_i32_261
  let v305 : BitVec 32 := Scalar.extui v304
  let c0_i32_262 : BitVec 32 := 0#32
  let v306 : BitVec 1 := Scalar.cmpi .ne v305 c0_i32_262
  v306

def k0_off27 (k0_t3 : Fin k0_t3_loop.trips) : Fin 2 → Nat :=
  let c6_i32_234 : BitVec 32 := 6#32
  let c0_i32_59 : BitVec 32 := 0#32
  let c1_i32_60 : BitVec 32 := 1#32
  let arg26 : BitVec 32 := Scf.iv c0_i32_59 c1_i32_60 k0_t3
  let v278 : BitVec 32 := Scalar.muli c6_i32_234 arg26
  let c5_i32_235 : BitVec 32 := 5#32
  let v279 : BitVec 32 := Scalar.addi v278 c5_i32_235
  let c6_i32_263 : BitVec 32 := 6#32
  let v307 : BitVec 32 := Scalar.addi v279 c6_i32_263
  let c2_i32_264 : BitVec 32 := 2#32
  let v308 : BitVec 32 := Scalar.subi v307 c2_i32_264
  let c0_i32_268 : BitVec 32 := 0#32
  ![v308.toNat, 0]
def k0_off28 (i : grid0.Coords) (c188416_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v107 : BitVec 32 := Scalar.addi c188416_i32 v2
  let c0_i32_65 : BitVec 32 := 0#32
  ![v107.toNat, 0]
def k0_off29 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_98_r2 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S2000x50x128_S50x2000x128_1_0_2 : S2000x50x128.Transposes [1, 0, 2] S50x2000x128
  shapeCasts_S50x2000x128_S100000x128 : S50x2000x128.ShapeCasts S100000x128
  inb_S128_S16_0 : ∀ a, (![0] : Fin 1 → Nat) a + S16.size a ≤ S128.size a
  h_S16 : 0 < S16.numel
  shapeCasts_S16_S16 : S16.ShapeCasts S16
  h_S1x16 : 0 < S1x16.numel
  shapeCasts_S1x16_S16 : S1x16.ShapeCasts S16
  shapeCasts_S16_S1x16 : S16.ShapeCasts S1x16
  inb_S128_S16_16 : ∀ a, (![16] : Fin 1 → Nat) a + S16.size a ≤ S128.size a
  inb_S128_S16_32 : ∀ a, (![32] : Fin 1 → Nat) a + S16.size a ≤ S128.size a
  inb_S128_S16_48 : ∀ a, (![48] : Fin 1 → Nat) a + S16.size a ≤ S128.size a
  inb_S128_S16_64 : ∀ a, (![64] : Fin 1 → Nat) a + S16.size a ≤ S128.size a
  inb_S128_S16_80 : ∀ a, (![80] : Fin 1 → Nat) a + S16.size a ≤ S128.size a
  inb_S128_S16_96 : ∀ a, (![96] : Fin 1 → Nat) a + S16.size a ≤ S128.size a
  inb_S128_S16_112 : ∀ a, (![112] : Fin 1 → Nat) a + S16.size a ≤ S128.size a
  inb_S6x128x128_S1x128x128_0_0_0 : ∀ a, (![0, 0, 0] : Fin 3 → Nat) a + S1x128x128.size a ≤ S6x128x128.size a
  squeezes_S1x128x128_S128x128 : S1x128x128.Squeezes S128x128
  inb_S49x128_S1x128_0_0 : ∀ a, (![0, 0] : Fin 2 → Nat) a + S1x128.size a ≤ S49x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S6x128x128_S1x128x128_1_0_0 : ∀ a, (![1, 0, 0] : Fin 3 → Nat) a + S1x128x128.size a ≤ S6x128x128.size a
  inb_S49x128_S1x128_1_0 : ∀ a, (![1, 0] : Fin 2 → Nat) a + S1x128.size a ≤ S49x128.size a
  inb_S6x128x128_S1x128x128_2_0_0 : ∀ a, (![2, 0, 0] : Fin 3 → Nat) a + S1x128x128.size a ≤ S6x128x128.size a
  inb_S49x128_S1x128_2_0 : ∀ a, (![2, 0] : Fin 2 → Nat) a + S1x128.size a ≤ S49x128.size a
  inb_S6x128x128_S1x128x128_3_0_0 : ∀ a, (![3, 0, 0] : Fin 3 → Nat) a + S1x128x128.size a ≤ S6x128x128.size a
  inb_S49x128_S1x128_3_0 : ∀ a, (![3, 0] : Fin 2 → Nat) a + S1x128.size a ≤ S49x128.size a
  inb_S6x128x128_S1x128x128_4_0_0 : ∀ a, (![4, 0, 0] : Fin 3 → Nat) a + S1x128x128.size a ≤ S6x128x128.size a
  inb_S6x128x128_S1x128x128_5_0_0 : ∀ a, (![5, 0, 0] : Fin 3 → Nat) a + S1x128x128.size a ≤ S6x128x128.size a
  inb_S49x128_S1x128_48_0 : ∀ a, (![48, 0] : Fin 2 → Nat) a + S1x128.size a ≤ S49x128.size a
  shapeCasts_S200704x128_S49x4096x128 : S200704x128.ShapeCasts S49x4096x128
  transposes_S49x4096x128_S4096x49x128_1_0_2 : S49x4096x128.Transposes [1, 0, 2] S4096x49x128
  hcc0_scratch6 : 0 + S_.numel ≤ 16
  hcc0_scratch7 : 1 + S_.numel ≤ 16
  hcc0_scratch8 : 2 + S_.numel ≤ 16
  hcc0_scratch9 : 3 + S_.numel ≤ 16
  hcc0_scratch10 : 4 + S_.numel ≤ 16
  hcc0_scratch11 : 5 + S_.numel ≤ 16
  hcc0_scratch12 : 6 + S_.numel ≤ 16
  hcc0_scratch13 : 7 + S_.numel ≤ 16
  hcc0_scratch14 : 8 + S_.numel ≤ 16
  hcc0_scratch15 : 9 + S_.numel ≤ 16
  hcc0_scratch16 : 10 + S_.numel ≤ 16
  hcc0_scratch17 : 11 + S_.numel ≤ 16
  hcc0_scratch18 : 12 + S_.numel ≤ 16
  hcc0_scoped0 : 13 + S_.numel ≤ 16
  hcc0_scoped1 : 14 + S_.numel ≤ 16
  hcc0_scoped2 : 15 + S_.numel ≤ 16
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128.size a ≤ S4096.size a
  k0_t1_ok : k0_t1_loop.OK
  k0_off2_inb : ∀ k0_t1 : Fin k0_t1_loop.trips, ∀ a, (k0_off2 k0_t1) a + S1x16.size a ≤ S49x128.size a
  k0_off3_inb : ∀ k0_t1 : Fin k0_t1_loop.trips, ∀ a, (k0_off3 k0_t1) a + S1x16.size a ≤ S49x128.size a
  k0_off4_inb : ∀ k0_t1 : Fin k0_t1_loop.trips, ∀ a, (k0_off4 k0_t1) a + S1x16.size a ≤ S49x128.size a
  k0_off5_inb : ∀ k0_t1 : Fin k0_t1_loop.trips, ∀ a, (k0_off5 k0_t1) a + S1x16.size a ≤ S49x128.size a
  k0_off6_inb : ∀ k0_t1 : Fin k0_t1_loop.trips, ∀ a, (k0_off6 k0_t1) a + S1x16.size a ≤ S49x128.size a
  k0_off7_inb : ∀ k0_t1 : Fin k0_t1_loop.trips, ∀ a, (k0_off7 k0_t1) a + S1x16.size a ≤ S49x128.size a
  k0_off8_inb : ∀ k0_t1 : Fin k0_t1_loop.trips, ∀ a, (k0_off8 k0_t1) a + S1x16.size a ≤ S49x128.size a
  k0_off9_inb : ∀ k0_t1 : Fin k0_t1_loop.trips, ∀ a, (k0_off9 k0_t1) a + S1x16.size a ≤ S49x128.size a
  k0_t2_ok : k0_t2_loop.OK
  k0_off10_inb : ∀ k0_t2 : Fin k0_t2_loop.trips, ∀ a, (k0_off10 k0_t2) a + S1x16.size a ≤ S49x128.size a
  k0_off11_inb : ∀ k0_t2 : Fin k0_t2_loop.trips, ∀ a, (k0_off11 k0_t2) a + S1x16.size a ≤ S49x128.size a
  k0_off12_inb : ∀ k0_t2 : Fin k0_t2_loop.trips, ∀ a, (k0_off12 k0_t2) a + S1x16.size a ≤ S49x128.size a
  k0_off13_inb : ∀ k0_t2 : Fin k0_t2_loop.trips, ∀ a, (k0_off13 k0_t2) a + S1x16.size a ≤ S49x128.size a
  k0_off14_inb : ∀ k0_t2 : Fin k0_t2_loop.trips, ∀ a, (k0_off14 k0_t2) a + S1x16.size a ≤ S49x128.size a
  k0_off15_inb : ∀ k0_t2 : Fin k0_t2_loop.trips, ∀ a, (k0_off15 k0_t2) a + S1x16.size a ≤ S49x128.size a
  k0_off16_inb : ∀ k0_t2 : Fin k0_t2_loop.trips, ∀ a, (k0_off16 k0_t2) a + S1x16.size a ≤ S49x128.size a
  k0_off17_inb : ∀ k0_t2 : Fin k0_t2_loop.trips, ∀ a, (k0_off17 k0_t2) a + S1x16.size a ≤ S49x128.size a
  k0_t3_ok : k0_t3_loop.OK
  k0_off18_inb : ∀ k0_t3 : Fin k0_t3_loop.trips, ∀ (r : Fin 6), ∀ a, (k0_off18 k0_t3 (BitVec.ofNat 32 r.val)) a + S1x128.size a ≤ S49x128.size a
  k0_off19_inb : ∀ (i : grid0.Coords) (k0_t3 : Fin k0_t3_loop.trips), ∀ (r : Fin 6), ∀ a, (k0_off19 i k0_t3 (BitVec.ofNat 32 r.val)) a + S128x128.size a ≤ S200704x128.size a
  k0_off20_inb : ∀ (i : grid0.Coords) (k0_t3 : Fin k0_t3_loop.trips), ∀ (k0_h1 : k0_cond1 k0_t3 = 1#1), ∀ a, (k0_off20 i k0_t3) a + S128x128.size a ≤ S200704x128.size a
  k0_off21_inb : ∀ k0_t3 : Fin k0_t3_loop.trips, ∀ (r : Fin 2), ∀ a, (k0_off21 k0_t3 (BitVec.ofNat 32 r.val)) a + S1x128.size a ≤ S49x128.size a
  k0_off22_inb : ∀ (i : grid0.Coords) (k0_t3 : Fin k0_t3_loop.trips), ∀ (k0_h2 : k0_cond2 k0_t3 = 1#1), ∀ a, (k0_off22 i k0_t3) a + S128x128.size a ≤ S200704x128.size a
  k0_off23_inb : ∀ (i : grid0.Coords) (k0_t3 : Fin k0_t3_loop.trips), ∀ (r : Fin 4), ∀ a, (k0_off23 i k0_t3 (BitVec.ofNat 32 (2 + r.val))) a + S128x128.size a ≤ S200704x128.size a
  k0_off24_inb : ∀ k0_t3 : Fin k0_t3_loop.trips, ∀ (k0_h3 : k0_cond3 k0_t3 = 1#1), ∀ a, (k0_off24 k0_t3) a + S1x128.size a ≤ S49x128.size a
  k0_off25_inb : ∀ k0_t3 : Fin k0_t3_loop.trips, ∀ (k0_h4 : k0_cond4 k0_t3 = 1#1), ∀ a, (k0_off25 k0_t3) a + S1x128.size a ≤ S49x128.size a
  k0_off26_inb : ∀ k0_t3 : Fin k0_t3_loop.trips, ∀ (k0_h5 : k0_cond5 k0_t3 = 1#1), ∀ a, (k0_off26 k0_t3) a + S1x128.size a ≤ S49x128.size a
  k0_off27_inb : ∀ k0_t3 : Fin k0_t3_loop.trips, ∀ (k0_h6 : k0_cond6 k0_t3 = 1#1), ∀ a, (k0_off27 k0_t3) a + S1x128.size a ≤ S49x128.size a
  k0_off28_inb : ∀ i : grid0.Coords, ∀ (r : Fin 3), ∀ a, (k0_off28 i (BitVec.ofNat 32 (188416 + 4096 * r.val))) a + S128x128.size a ≤ S200704x128.size a
  k0_off29_inb : ∀ i : grid0.Coords, ∀ a, (k0_off29 i) a + S128x128.size a ≤ S4096x128.size a

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scratch10 : DmaSems sig S_ := SemArray.consecutive 4 S_ hcc0_scratch10
abbrev cc0_scratch11 : DmaSems sig S_ := SemArray.consecutive 5 S_ hcc0_scratch11
abbrev cc0_scratch12 : DmaSems sig S_ := SemArray.consecutive 6 S_ hcc0_scratch12
abbrev cc0_scratch13 : DmaSems sig S_ := SemArray.consecutive 7 S_ hcc0_scratch13
abbrev cc0_scratch14 : DmaSems sig S_ := SemArray.consecutive 8 S_ hcc0_scratch14
abbrev cc0_scratch15 : DmaSems sig S_ := SemArray.consecutive 9 S_ hcc0_scratch15
abbrev cc0_scratch16 : DmaSems sig S_ := SemArray.consecutive 10 S_ hcc0_scratch16
abbrev cc0_scratch17 : DmaSems sig S_ := SemArray.consecutive 11 S_ hcc0_scratch17
abbrev cc0_scratch18 : DmaSems sig S_ := SemArray.consecutive 12 S_ hcc0_scratch18
abbrev cc0_scoped0 : DmaSems sig S_ := SemArray.consecutive 13 S_ hcc0_scoped0
abbrev cc0_scoped1 : DmaSems sig S_ := SemArray.consecutive 14 S_ hcc0_scoped1
abbrev cc0_scoped2 : DmaSems sig S_ := SemArray.consecutive 15 S_ hcc0_scoped2

class Facts : Prop extends Facts₀ where

variable [Facts]
-- ==== ReferenceIdeal.lean ====
abbrev S4096 : Shape := ⟨1, ![4096]⟩
abbrev S2000x50x128 : Shape := ⟨3, ![2000, 50, 128]⟩
abbrev S_ : Shape := ⟨0, ![]⟩
abbrev S4096x1 : Shape := ⟨2, ![4096, 1]⟩
abbrev S4096x2 : Shape := ⟨2, ![4096, 2]⟩
abbrev S4096x128 : Shape := ⟨2, ![4096, 128]⟩
abbrev S4096x50x128 : Shape := ⟨3, ![4096, 50, 128]⟩
abbrev S49 : Shape := ⟨1, ![49]⟩
abbrev S1x49 : Shape := ⟨2, ![1, 49]⟩
abbrev S4096x49 : Shape := ⟨2, ![4096, 49]⟩
abbrev S4096x49x1 : Shape := ⟨3, ![4096, 49, 1]⟩
abbrev S1 : Shape := ⟨1, ![1]⟩
abbrev S1x1x1 : Shape := ⟨3, ![1, 1, 1]⟩
abbrev S4096x49x128 : Shape := ⟨3, ![4096, 49, 128]⟩

abbrev nBuf : Space → Nat
  | .hbm => 62
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S2000x50x128, .f32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S4096x1, .i32⟩
  | .hbm, ⟨19, _⟩ => ⟨S4096x2, .i32⟩
  | .hbm, ⟨20, _⟩ => ⟨S4096x128, .f32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S4096x1, .i32⟩
  | .hbm, ⟨29, _⟩ => ⟨S4096x50x128, .f32⟩
  | .hbm, ⟨30, _⟩ => ⟨S49, .i32⟩
  | .hbm, ⟨31, _⟩ => ⟨S1x49, .i32⟩
  | .hbm, ⟨32, _⟩ => ⟨S4096x1, .i32⟩
  | .hbm, ⟨33, _⟩ => ⟨S4096x49, .i32⟩
  | .hbm, ⟨34, _⟩ => ⟨S4096x49, .i32⟩
  | .hbm, ⟨35, _⟩ => ⟨S4096x49, .i1⟩
  | .hbm, ⟨36, _⟩ => ⟨S4096x49, .i32⟩
  | .hbm, ⟨37, _⟩ => ⟨S4096x49, .i32⟩
  | .hbm, ⟨38, _⟩ => ⟨S4096x49, .i32⟩
  | .hbm, ⟨39, _⟩ => ⟨S4096x49x1, .i32⟩
  | .hbm, ⟨40, _⟩ => ⟨S_, .i32⟩
  | .hbm, ⟨41, _⟩ => ⟨S4096x49x1, .i32⟩
  | .hbm, ⟨42, _⟩ => ⟨S4096x49x1, .i1⟩
  | .hbm, ⟨43, _⟩ => ⟨S_, .i32⟩
  | .hbm, ⟨44, _⟩ => ⟨S4096x49x1, .i32⟩
  | .hbm, ⟨45, _⟩ => ⟨S4096x49x1, .i32⟩
  | .hbm, ⟨46, _⟩ => ⟨S4096x49x1, .i32⟩
  | .hbm, ⟨47, _⟩ => ⟨S1, .i32⟩
  | .hbm, ⟨48, _⟩ => ⟨S_, .i32⟩
  | .hbm, ⟨49, _⟩ => ⟨S4096x49x1, .i32⟩
  | .hbm, ⟨50, _⟩ => ⟨S4096x49x1, .i1⟩
  | .hbm, ⟨51, _⟩ => ⟨S1x1x1, .i32⟩
  | .hbm, ⟨52, _⟩ => ⟨S4096x49x1, .i32⟩
  | .hbm, ⟨53, _⟩ => ⟨S4096x49x1, .i1⟩
  | .hbm, ⟨54, _⟩ => ⟨S4096x49x1, .i1⟩
  | .hbm, ⟨55, _⟩ => ⟨S_, .i1⟩
  | .hbm, ⟨56, _⟩ => ⟨S4096x49, .i1⟩
  | .hbm, ⟨57, _⟩ => ⟨S4096x49x128, .f32⟩
  | .hbm, ⟨58, _⟩ => ⟨S4096x49x128, .i1⟩
  | .hbm, ⟨59, _⟩ => ⟨S_, .f32⟩
  | .hbm, ⟨60, _⟩ => ⟨S4096x49x128, .f32⟩
  | .hbm, ⟨61, _⟩ => ⟨S4096x49x128, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call0_c : Ref sig .tc := ⟨.hbm, 40, rfl⟩
abbrev main_call0_v0 : Ref sig .tc := ⟨.hbm, 41, rfl⟩
abbrev main_call0_v1 : Ref sig .tc := ⟨.hbm, 42, rfl⟩
abbrev main_call0_c_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_c_1 : Ref sig .tc := ⟨.hbm, 47, rfl⟩
abbrev main_call0_c_2 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_c_3 : Ref sig .tc := ⟨.hbm, 55, rfl⟩
abbrev main_call0_v11 : Ref sig .tc := ⟨.hbm, 56, rfl⟩
abbrev main_call0_v12 : Ref sig .tc := ⟨.hbm, 57, rfl⟩
abbrev main_call0_v13 : Ref sig .tc := ⟨.hbm, 58, rfl⟩
abbrev main_call0_cst : Ref sig .tc := ⟨.hbm, 59, rfl⟩
abbrev main_call0_v14 : Ref sig .tc := ⟨.hbm, 60, rfl⟩
abbrev main_v31 : Ref sig .tc := ⟨.hbm, 61, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S49_S1x49_1 : S49.BroadcastsInDim S1x49 (![1] : Fin 1 → Fin S1x49.rank)
  bcast_S1x49_S4096x49_0_1 : S1x49.BroadcastsInDim S4096x49 (![0, 1] : Fin 2 → Fin S4096x49.rank)
  bcast_S4096x1_S4096x49_0_1 : S4096x1.BroadcastsInDim S4096x49 (![0, 1] : Fin 2 → Fin S4096x49.rank)
  natLt_1_32 : 1 < 32
  bcast_S4096x49_S4096x49x1_0_1 : S4096x49.BroadcastsInDim S4096x49x1 (![0, 1] : Fin 2 → Fin S4096x49x1.rank)
  bcast_S_S4096x49x1 : S_.BroadcastsInDim S4096x49x1 (![] : Fin 0 → Fin S4096x49x1.rank)
  bcast_S1_S1x1x1_2 : S1.BroadcastsInDim S1x1x1 (![2] : Fin 1 → Fin S1x1x1.rank)
  bcast_S1x1x1_S4096x49x1_0_1_2 : S1x1x1.BroadcastsInDim S4096x49x1 (![0, 1, 2] : Fin 3 → Fin S4096x49x1.rank)
  reducesTo_S4096x49x1_S4096x49_d2 : S4096x49x1.ReducesTo [2] S4096x49
  h_S_ : 0 < S_.numel
  bcast_S4096x49_S4096x49x128_0_1 : S4096x49.BroadcastsInDim S4096x49x128 (![0, 1] : Fin 2 → Fin S4096x49x128.rank)
  bcast_S_S4096x49x128 : S_.BroadcastsInDim S4096x49x128 (![] : Fin 0 → Fin S4096x49x128.rank)
  gather_S2000x50x128_S4096x2_S4096x128_1_01_n_n_01_1_11128_wf : GatherDims.WF S2000x50x128 S4096x2 S4096x128 [1] [0, 1] [] [0, 1] [] 1 ![1, 1, 128]
  gather_S2000x50x128_S4096x1_S4096x50x128_12_0_n_n_0_1_150128_wf : GatherDims.WF S2000x50x128 S4096x1 S4096x50x128 [1, 2] [0] [] [0] [] 1 ![1, 50, 128]
  gather_S4096x50x128_S4096x49x1_S4096x49x128_2_1_0_0_1_2_11128_wf : GatherDims.WF S4096x50x128 S4096x49x1 S4096x49x128 [2] [1] [0] [1] [0] 2 ![1, 1, 128]

variable [Facts₀]

def gather_S2000x50x128_S4096x2_S4096x128_1_01_n_n_01_1_11128 : GatherDims S2000x50x128 S4096x2 S4096x128 where
  offsetDims := [1]
  collapsedSliceDims := [0, 1]
  operandBatchingDims := []
  startIndicesBatchingDims := []
  startIndexMap := [0, 1]
  indexVectorDim := 1
  sliceSizes := ![1, 1, 128]
  wf := gather_S2000x50x128_S4096x2_S4096x128_1_01_n_n_01_1_11128_wf
def gather_S2000x50x128_S4096x1_S4096x50x128_12_0_n_n_0_1_150128 : GatherDims S2000x50x128 S4096x1 S4096x50x128 where
  offsetDims := [1, 2]
  collapsedSliceDims := [0]
  operandBatchingDims := []
  startIndicesBatchingDims := []
  startIndexMap := [0]
  indexVectorDim := 1
  sliceSizes := ![1, 50, 128]
  wf := gather_S2000x50x128_S4096x1_S4096x50x128_12_0_n_n_0_1_150128_wf
def gather_S4096x50x128_S4096x49x1_S4096x49x128_2_1_0_0_1_2_11128 : GatherDims S4096x50x128 S4096x49x1 S4096x49x128 where
  offsetDims := [2]
  collapsedSliceDims := [1]
  operandBatchingDims := [0]
  startIndicesBatchingDims := [0]
  startIndexMap := [1]
  indexVectorDim := 2
  sliceSizes := ![1, 1, 128]
  wf := gather_S4096x50x128_S4096x49x1_S4096x49x128_2_1_0_0_1_2_11128_wf

class Facts : Prop extends Facts₀ where

variable [Facts]
-- ==== Proof.RefGather.lean ====
import proofs.«210835_g78632261255710_cont_9to1_m_350_20_alg».proof.Proof.Gen.ReferenceIdeal
import Idealize.ShloMosaic.Lib.ValueIdx

/-! The three gathers of the reference program, each read at an index: the operand at the index whose
    coordinates are the start indices (read signed, clamped so that the slice fits) plus the batch and
    offset coordinates of the result index. -/

noncomputable section

namespace Cert.RefSide

open Idealize.ShloMosaic Idealize.ShloMosaic.ValueIdx Cert.ReferenceIdeal Cert.ReferenceIdeal.Gen

variable {α : Type}

/-- The gather of one row of 128 at the pair of start indices in row `b` of the start-index array:
    element `(b, l)` of the result is the operand at `(idx[b, 0], idx[b, 1], l)`, each start index read
    signed and clamped into its axis. -/
theorem gather_pair_apply (x : S2000x50x128.Idx → α) (idx : IVec S4096x2 32) (j : S4096x128.Idx)
    (k : S2000x50x128.Idx)
    (h0 : (k 0).val = min (idx (ix2 (⟨(j 0).val, (j 0).isLt⟩ : Fin 4096) (0 : Fin 2))).toInt.toNat 1999)
    (h1 : (k 1).val = min (idx (ix2 (⟨(j 0).val, (j 0).isLt⟩ : Fin 4096) (1 : Fin 2))).toInt.toNat 49)
    (h2 : (k 2).val = (j 1).val) :
    Host.gather gather_S2000x50x128_S4096x2_S4096x128_1_01_n_n_01_1_11128 x idx j = x k := by
  unfold Host.gather
  congr 1
  funext a
  refine Fin.ext ?_
  match a with
  | ⟨0, _⟩ =>
    refine Eq.trans ?_ h0.symm
    show gather_S2000x50x128_S4096x2_S4096x128_1_01_n_n_01_1_11128.start j idx 0 + gather_S2000x50x128_S4096x2_S4096x128_1_01_n_n_01_1_11128.batchCoord j 0 + gather_S2000x50x128_S4096x2_S4096x128_1_01_n_n_01_1_11128.offCoord j 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ gather_S2000x50x128_S4096x2_S4096x128_1_01_n_n_01_1_11128.startIndexMap from by decide)]
    have hsi : gather_S2000x50x128_S4096x2_S4096x128_1_01_n_n_01_1_11128.siIdx j ⟨List.idxOf (0 : Fin 3) gather_S2000x50x128_S4096x2_S4096x128_1_01_n_n_01_1_11128.startIndexMap,
        List.idxOf_lt_length_iff.2 (by decide)⟩ = ix2 (⟨(j 0).val, (j 0).isLt⟩ : Fin 4096) (0 : Fin 2) := by
      funext b; refine Fin.ext ?_
      match b with
      | ⟨0, _⟩ => rfl
      | ⟨1, _⟩ => rfl
    rw [hsi]
    rfl
  | ⟨1, _⟩ =>
    refine Eq.trans ?_ h1.symm
    show gather_S2000x50x128_S4096x2_S4096x128_1_01_n_n_01_1_11128.start j idx 1 + gather_S2000x50x128_S4096x2_S4096x128_1_01_n_n_01_1_11128.batchCoord j 1 + gather_S2000x50x128_S4096x2_S4096x128_1_01_n_n_01_1_11128.offCoord j 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ gather_S2000x50x128_S4096x2_S4096x128_1_01_n_n_01_1_11128.startIndexMap from by decide)]
    have hsi : gather_S2000x50x128_S4096x2_S4096x128_1_01_n_n_01_1_11128.siIdx j ⟨List.idxOf (1 : Fin 3) gather_S2000x50x128_S4096x2_S4096x128_1_01_n_n_01_1_11128.startIndexMap,
        List.idxOf_lt_length_iff.2 (by decide)⟩ = ix2 (⟨(j 0).val, (j 0).isLt⟩ : Fin 4096) (1 : Fin 2) := by
      funext b; refine Fin.ext ?_
      match b with
      | ⟨0, _⟩ => rfl
      | ⟨1, _⟩ => rfl
    rw [hsi]
    rfl
  | ⟨2, _⟩ =>
    refine Eq.trans ?_ h2.symm
    show gather_S2000x50x128_S4096x2_S4096x128_1_01_n_n_01_1_11128.start j idx 2 + gather_S2000x50x128_S4096x2_S4096x128_1_01_n_n_01_1_11128.batchCoord j 2 + gather_S2000x50x128_S4096x2_S4096x128_1_01_n_n_01_1_11128.offCoord j 2 = _
    rw [GatherDims.batchCoord_eq_zero _ _ _ List.not_mem_nil]
    unfold GatherDims.start GatherDims.offCoord
    rw [dif_neg (show (2 : Fin 3) ∉ gather_S2000x50x128_S4096x2_S4096x128_1_01_n_n_01_1_11128.startIndexMap from by decide),
      dif_pos (show (2 : Fin 3) ∈ gather_S2000x50x128_S4096x2_S4096x128_1_01_n_n_01_1_11128.sKept from by decide)]
    rw [show gather_S2000x50x128_S4096x2_S4096x128_1_01_n_n_01_1_11128.offsetDims[List.idxOf (2 : Fin 3) gather_S2000x50x128_S4096x2_S4096x128_1_01_n_n_01_1_11128.sKept]'(by decide) = (1 : Fin 2) from by decide]
    simp only [Nat.zero_add]

/-- The gather of one whole `50 × 128` slab at the start index in row `b`: element `(b, v, l)` of the
    result is the operand at `(idx[b, 0], v, l)`, the start index read signed and clamped into the axis. -/
theorem gather_slab_apply (x : S2000x50x128.Idx → α) (idx : IVec S4096x1 32) (j : S4096x50x128.Idx)
    (k : S2000x50x128.Idx)
    (h0 : (k 0).val = min (idx (ix2 (⟨(j 0).val, (j 0).isLt⟩ : Fin 4096) (0 : Fin 1))).toInt.toNat 1999)
    (h1 : (k 1).val = (j 1).val) (h2 : (k 2).val = (j 2).val) :
    Host.gather gather_S2000x50x128_S4096x1_S4096x50x128_12_0_n_n_0_1_150128 x idx j = x k := by
  unfold Host.gather
  congr 1
  funext a
  refine Fin.ext ?_
  match a with
  | ⟨0, _⟩ =>
    refine Eq.trans ?_ h0.symm
    show gather_S2000x50x128_S4096x1_S4096x50x128_12_0_n_n_0_1_150128.start j idx 0 + gather_S2000x50x128_S4096x1_S4096x50x128_12_0_n_n_0_1_150128.batchCoord j 0 + gather_S2000x50x128_S4096x1_S4096x50x128_12_0_n_n_0_1_150128.offCoord j 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ gather_S2000x50x128_S4096x1_S4096x50x128_12_0_n_n_0_1_150128.startIndexMap from by decide)]
    have hsi : gather_S2000x50x128_S4096x1_S4096x50x128_12_0_n_n_0_1_150128.siIdx j ⟨List.idxOf (0 : Fin 3) gather_S2000x50x128_S4096x1_S4096x50x128_12_0_n_n_0_1_150128.startIndexMap,
        List.idxOf_lt_length_iff.2 (by decide)⟩ = ix2 (⟨(j 0).val, (j 0).isLt⟩ : Fin 4096) (0 : Fin 1) := by
      funext b; refine Fin.ext ?_
      match b with
      | ⟨0, _⟩ => rfl
      | ⟨1, _⟩ => rfl
    rw [hsi]
    rfl
  | ⟨1, _⟩ =>
    refine Eq.trans ?_ h1.symm
    show gather_S2000x50x128_S4096x1_S4096x50x128_12_0_n_n_0_1_150128.start j idx 1 + gather_S2000x50x128_S4096x1_S4096x50x128_12_0_n_n_0_1_150128.batchCoord j 1 + gather_S2000x50x128_S4096x1_S4096x50x128_12_0_n_n_0_1_150128.offCoord j 1 = _
    rw [GatherDims.batchCoord_eq_zero _ _ _ List.not_mem_nil]
    unfold GatherDims.start GatherDims.offCoord
    rw [dif_neg (show (1 : Fin 3) ∉ gather_S2000x50x128_S4096x1_S4096x50x128_12_0_n_n_0_1_150128.startIndexMap from by decide),
      dif_pos (show (1 : Fin 3) ∈ gather_S2000x50x128_S4096x1_S4096x50x128_12_0_n_n_0_1_150128.sKept from by decide)]
    rw [show gather_S2000x50x128_S4096x1_S4096x50x128_12_0_n_n_0_1_150128.offsetDims[List.idxOf (1 : Fin 3) gather_S2000x50x128_S4096x1_S4096x50x128_12_0_n_n_0_1_150128.sKept]'(by decide) = (1 : Fin 3) from by decide]
    simp only [Nat.zero_add]
  | ⟨2, _⟩ =>
    refine Eq.trans ?_ h2.symm
    show gather_S2000x50x128_S4096x1_S4096x50x128_12_0_n_n_0_1_150128.start j idx 2 + gather_S2000x50x128_S4096x1_S4096x50x128_12_0_n_n_0_1_150128.batchCoord j 2 + gather_S2000x50x128_S4096x1_S4096x50x128_12_0_n_n_0_1_150128.offCoord j 2 = _
    rw [GatherDims.batchCoord_eq_zero _ _ _ List.not_mem_nil]
    unfold GatherDims.start GatherDims.offCoord
    rw [dif_neg (show (2 : Fin 3) ∉ gather_S2000x50x128_S4096x1_S4096x50x128_12_0_n_n_0_1_150128.startIndexMap from by decide),
      dif_pos (show (2 : Fin 3) ∈ gather_S2000x50x128_S4096x1_S4096x50x128_12_0_n_n_0_1_150128.sKept from by decide)]
    rw [show gather_S2000x50x128_S4096x1_S4096x50x128_12_0_n_n_0_1_150128.offsetDims[List.idxOf (2 : Fin 3) gather_S2000x50x128_S4096x1_S4096x50x128_12_0_n_n_0_1_150128.sKept]'(by decide) = (2 : Fin 3) from by decide]
    simp only [Nat.zero_add]

/-- The batched gather along the middle axis: element `(b, q, l)` of the result is the operand at
    `(b, idx[b, q, 0], l)`, the start index read signed and clamped into the axis of 50. -/
theorem gather_along_apply (x : S4096x50x128.Idx → α) (idx : IVec S4096x49x1 32) (j : S4096x49x128.Idx)
    (k : S4096x50x128.Idx)
    (h0 : (k 0).val = (j 0).val)
    (h1 : (k 1).val = min (idx (ix3 (⟨(j 0).val, (j 0).isLt⟩ : Fin 4096) (⟨(j 1).val, (j 1).isLt⟩ : Fin 49) (0 : Fin 1))).toInt.toNat 49)
    (h2 : (k 2).val = (j 2).val) :
    Host.gather gather_S4096x50x128_S4096x49x1_S4096x49x128_2_1_0_0_1_2_11128 x idx j = x k := by
  unfold Host.gather
  congr 1
  funext a
  refine Fin.ext ?_
  match a with
  | ⟨0, _⟩ =>
    refine Eq.trans ?_ h0.symm
    show gather_S4096x50x128_S4096x49x1_S4096x49x128_2_1_0_0_1_2_11128.start j idx 0 + gather_S4096x50x128_S4096x49x1_S4096x49x128_2_1_0_0_1_2_11128.batchCoord j 0 + gather_S4096x50x128_S4096x49x1_S4096x49x128_2_1_0_0_1_2_11128.offCoord j 0 = _
    rw [GatherDims.offCoord_eq_zero _ _ _ (fun h => ((GatherDims.mem_sKept _ _).mp h).2 (by decide))]
    unfold GatherDims.start GatherDims.batchCoord
    rw [dif_neg (show (0 : Fin 3) ∉ gather_S4096x50x128_S4096x49x1_S4096x49x128_2_1_0_0_1_2_11128.startIndexMap from by decide),
      dif_pos (show (0 : Fin 3) ∈ gather_S4096x50x128_S4096x49x1_S4096x49x128_2_1_0_0_1_2_11128.operandBatchingDims from by decide)]
    unfold GatherDims.siCoord
    simp only [Fin.coe_cast, Nat.zero_add, Nat.add_zero]
    rw [show gather_S4096x50x128_S4096x49x1_S4096x49x128_2_1_0_0_1_2_11128.batchDims[List.idxOf (gather_S4096x50x128_S4096x49x1_S4096x49x128_2_1_0_0_1_2_11128.startIndicesBatchingDims[List.idxOf (0 : Fin 3) gather_S4096x50x128_S4096x49x1_S4096x49x128_2_1_0_0_1_2_11128.operandBatchingDims]'(by decide)) gather_S4096x50x128_S4096x49x1_S4096x49x128_2_1_0_0_1_2_11128.siKept]'(by decide) = (0 : Fin 3) from by decide]
  | ⟨1, _⟩ =>
    refine Eq.trans ?_ h1.symm
    show gather_S4096x50x128_S4096x49x1_S4096x49x128_2_1_0_0_1_2_11128.start j idx 1 + gather_S4096x50x128_S4096x49x1_S4096x49x128_2_1_0_0_1_2_11128.batchCoord j 1 + gather_S4096x50x128_S4096x49x1_S4096x49x128_2_1_0_0_1_2_11128.offCoord j 1 = _
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (1 : Fin 3) ∈ gather_S4096x50x128_S4096x49x1_S4096x49x128_2_1_0_0_1_2_11128.startIndexMap from by decide)]
    have hsi : gather_S4096x50x128_S4096x49x1_S4096x49x128_2_1_0_0_1_2_11128.siIdx j ⟨List.idxOf (1 : Fin 3) gather_S4096x50x128_S4096x49x1_S4096x49x128_2_1_0_0_1_2_11128.startIndexMap,
        List.idxOf_lt_length_iff.2 (by decide)⟩
        = ix3 (⟨(j 0).val, (j 0).isLt⟩ : Fin 4096) (⟨(j 1).val, (j 1).isLt⟩ : Fin 49) (0 : Fin 1) := by
      funext b; refine Fin.ext ?_
      match b with
      | ⟨0, _⟩ => rfl
      | ⟨1, _⟩ => rfl
      | ⟨2, _⟩ => rfl
    rw [hsi]
    rfl
  | ⟨2, _⟩ =>
    refine Eq.trans ?_ h2.symm
    show gather_S4096x50x128_S4096x49x1_S4096x49x128_2_1_0_0_1_2_11128.start j idx 2 + gather_S4096x50x128_S4096x49x1_S4096x49x128_2_1_0_0_1_2_11128.batchCoord j 2 + gather_S4096x50x128_S4096x49x1_S4096x49x128_2_1_0_0_1_2_11128.offCoord j 2 = _
    rw [GatherDims.batchCoord_eq_zero _ _ _ (by decide)]
    unfold GatherDims.start GatherDims.offCoord
    rw [dif_neg (show (2 : Fin 3) ∉ gather_S4096x50x128_S4096x49x1_S4096x49x128_2_1_0_0_1_2_11128.startIndexMap from by decide),
      dif_pos (show (2 : Fin 3) ∈ gather_S4096x50x128_S4096x49x1_S4096x49x128_2_1_0_0_1_2_11128.sKept from by decide)]
    rw [show gather_S4096x50x128_S4096x49x1_S4096x49x128_2_1_0_0_1_2_11128.offsetDims[List.idxOf (2 : Fin 3) gather_S4096x50x128_S4096x49x1_S4096x49x128_2_1_0_0_1_2_11128.sKept]'(by decide) = (2 : Fin 3) from by decide]
    simp only [Nat.zero_add]

end Cert.RefSide

end
-- ==== Proof.RefWords.lean ====
import Idealize.ShloMosaic.Lib.ReduceAll
import Idealize.ShloMosaic.Lib.ValueIdx

/-! Facts about 32-bit words that the reference's index arithmetic needs: a small word is non-negative as a
    signed integer, so wrapping a negative index is the identity on it and its signed and unsigned readings
    agree; the index "position, plus one from the excluded value on" as a word; and a reduction by `and`
    of all-ones. -/

noncomputable section

namespace Cert.RefSide

open Idealize.ShloMosaic Idealize.ShloMosaic.ValueIdx

/-- A word below `2 ^ 31` reads the same signed and unsigned. -/
theorem toInt_eq_toNat_of_small (v : BitVec 32) (hv : v.toNat < 2147483648) : v.toInt = (v.toNat : Int) := by
  rw [BitVec.toInt_eq_toNat_cond, if_pos (by simp only [Nat.reducePow]; omega)]

/-- … so its signed reading, as a natural number, is its unsigned reading. -/
theorem toInt_toNat_of_small (v : BitVec 32) (hv : v.toNat < 2147483648) : v.toInt.toNat = v.toNat := by
  rw [toInt_eq_toNat_of_small v hv]; exact Int.toNat_natCast _

/-- A small word does not test negative … -/
theorem cmpi_slt_zero_of_small (v : BitVec 32) (hv : v.toNat < 2147483648) : IntOp.cmpi .slt v 0#32 = 0#1 := by
  refine eq_zero_of_ne_one fun h => ?_
  rw [IntOp.cmpi_slt, toInt_eq_toNat_of_small v hv] at h
  simp at h
  omega

/-- … so the wrap of a negative index (`x < 0 ? x + size : x`) leaves it as it is. -/
theorem select_slt_zero_of_small (v c : BitVec 32) (hv : v.toNat < 2147483648) :
    Scalar.select (IntOp.cmpi .slt v 0#32) (IntOp.addi v c) v = v := by
  rw [cmpi_slt_zero_of_small v hv, select_zero]

/-- A word that reads at most `n` unsigned (`n` below `2 ^ 31`) tests non-negative and at most `n` signed. -/
theorem signed_range_of_toNat_le (v : BitVec 32) (n : Nat) (hn : n < 2147483648) (hv : v.toNat ≤ n) :
    IntOp.andi (IntOp.cmpi .sge v 0#32) (IntOp.cmpi .sle v (BitVec.ofNat 32 n)) = 1#1 := by
  rw [IntOp.andi_eq_one, IntOp.cmpi_sge, IntOp.cmpi_sle, toInt_eq_toNat_of_small v (by omega),
    toInt_eq_toNat_of_small (BitVec.ofNat 32 n) (by rw [BitVec.toNat_ofNat]; simp only [Nat.reducePow]; omega)]
  rw [BitVec.toNat_ofNat]
  simp only [Nat.reducePow]
  rw [Nat.mod_eq_of_lt (by omega)]
  constructor
  · simp
  · exact_mod_cast hv

/-- The index of the `t`-th value other than `w`: `t`, plus one when `t` is at or past `w`. -/
def skipWord (w : BitVec 32) (t : Nat) : BitVec 32 :=
  IntOp.addi (BitVec.ofNat 32 t) ((IntOp.cmpi .sge (BitVec.ofNat 32 t) w).setWidth 32)

/-- Its unsigned reading, for a position below `2 ^ 30` and a small `w`. -/
theorem skipWord_toNat (w : BitVec 32) (t : Nat) (ht : t < 1073741824) (hw : w.toNat < 2147483648) :
    (skipWord w t).toNat = t + (if w.toNat ≤ t then 1 else 0) := by
  have ht' : (BitVec.ofNat 32 t).toNat = t := by
    rw [BitVec.toNat_ofNat]; simp only [Nat.reducePow]; exact Nat.mod_eq_of_lt (by omega)
  unfold skipWord
  by_cases h : w.toNat ≤ t
  · have e : IntOp.cmpi .sge (BitVec.ofNat 32 t) w = 1#1 := by
      rw [IntOp.cmpi_sge, toInt_eq_toNat_of_small w hw, toInt_eq_toNat_of_small _ (by rw [ht']; omega), ht']
      exact_mod_cast h
    rw [e, if_pos h, IntOp.addi_eq_add]
    show (BitVec.ofNat 32 t + (1#1).setWidth 32).toNat = t + 1
    rw [BitVec.toNat_add, ht']
    simp
    omega
  · have e : IntOp.cmpi .sge (BitVec.ofNat 32 t) w = 0#1 := by
      refine eq_zero_of_ne_one fun h1 => h ?_
      rw [IntOp.cmpi_sge, toInt_eq_toNat_of_small w hw, toInt_eq_toNat_of_small _ (by rw [ht']; omega), ht'] at h1
      exact_mod_cast h1
    rw [e, if_neg h, IntOp.addi_eq_add]
    show (BitVec.ofNat 32 t + (0#1).setWidth 32).toNat = t + 0
    rw [BitVec.toNat_add, ht']
    simp
    omega

/-- A left fold by `and` from 1 over ones is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_ones f l fun n hn => h n (List.mem_cons_of_mem _ hn)

/-- A reduction by `and`, from 1, of an array of ones is 1 everywhere. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x _ fun n _ => hx n

end Cert.RefSide

end
-- ==== Proof.RefSide.lean ====
import proofs.«210835_g78632261255710_cont_9to1_m_350_20_alg».proof.Proof.RefRead
import proofs.«210835_g78632261255710_cont_9to1_m_350_20_alg».proof.Proof.RefGather
import proofs.«210835_g78632261255710_cont_9to1_m_350_20_alg».proof.Proof.RefWords

/-! The reference side of the certificate. `refPos` and `refNeg` are the two results of the reference program
    as functions of its three arguments; `run`: every execution of the reference ends with its results at
    them and its arguments unchanged; `refPos_apply`, `refNeg_apply`: where the attributes lie in
    `[0, 1999]` and the values in `[0, 49]`, element `(b, l)` of the first result is
    `bank[attr b, value b, l]` and element `(b, t, l)` of the second is `bank[attr b, t', l]` with `t'` the
    `t`-th value other than `value b` (`t`, plus one from `value b` on): wrapping a negative index is the
    identity on these indices, no index is out of range, and the fill of out-of-range rows is never taken. -/

noncomputable section

namespace Cert.RefSide

open Idealize.ShloMosaic Idealize.ShloMosaic.ValueIdx Idealize.ShloMosaic.TcCoe Idealize.SL.Sem
  Idealize.ShloMosaic.StableHlo Cert.ReferenceIdeal Cert.ReferenceIdeal.Gen

variable {F : FTy → Type} [FloatOps F]

/-- The reference's first result, `bank[attrs, values]`, as a function of the arguments. -/
def refPos (A Vv : IVec S4096 32) (X : FVec F S2000x50x128 .f32) : FVec F S4096x128 .f32 :=
  ReadP.val_main_v13 (F := F) A Vv X

/-- The reference's second result, the rows of the other values of each sample's attribute. -/
def refNeg (A Vv : IVec S4096 32) (X : FVec F S2000x50x128 .f32) : FVec F S4096x49x128 .f32 :=
  ReadP.val_main_v31 (F := F) A Vv X

/-- On every device, from any memory with zero counters, every weakly fair execution of the reference
    terminates with its two results at `refPos` and `refNeg` of the arguments' launch contents, and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v13)
          = refPos (F := F) (m ((c.tc : Thread nD τ).loc main_arg0)) (m ((c.tc : Thread nD τ).loc main_arg1)) (m ((c.tc : Thread nD τ).loc main_arg2))
      ∧ r.2.mem ((c.tc : Thread nD τ).loc main_v31)
          = refNeg (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (ReadP.val_main_v13_eq _ _ _),
      (h c).2.1.trans (ReadP.val_main_v31_eq m c), (h c).2.2⟩) (ValueP.run (F := F) m ρ)

/-! ## The start indices -/

/-- The wrapped attribute in column 0 of the pair of start indices is the attribute. -/
theorem v12_left (A Vv : IVec S4096 32) (hA : ∀ b : S4096.Idx, (A b).toNat ≤ 1999) (b : Fin 4096) :
    ReadP.val_main_v12 (F := F) A Vv (ix2 b (0 : Fin 2)) = A (ix1 b) := by
  unfold ReadP.val_main_v12
  refine (concatenate_pair_apply_left (t := S4096x2) (s₁ := S4096x1) (s₂ := S4096x1) 1 _ _ _ (ix2 b (0 : Fin 2)) rfl
    (ix2 b (0 : Fin 1)) (fun c => match c with | ⟨0, _⟩ => rfl | ⟨1, _⟩ => rfl)).trans ?_
  rw [ReadP.val_main_v10_apply, ReadP.val_main_v4_apply, ReadP.val_main_v1_apply, ReadP.val_main_v0_apply,
    ReadP.val_main_c_apply, ReadP.val_main_v3_apply, ReadP.val_main_v2_apply, ReadP.val_main_c_0_apply]
  rw [show ReadP.idx_main_v10 (ix2 b (0 : Fin 1)) = ix1 b from funext fun a => match a with | ⟨0, _⟩ => rfl]
  exact select_slt_zero_of_small _ _ (by have := hA (ix1 b); omega)

/-- The wrapped value in column 1 of the pair of start indices is the value. -/
theorem v12_right (A Vv : IVec S4096 32) (hV : ∀ b : S4096.Idx, (Vv b).toNat ≤ 49) (b : Fin 4096) :
    ReadP.val_main_v12 (F := F) A Vv (ix2 b (1 : Fin 2)) = Vv (ix1 b) := by
  unfold ReadP.val_main_v12
  refine (concatenate_pair_apply_right (t := S4096x2) (s₁ := S4096x1) (s₂ := S4096x1) 1 _ _ _ (ix2 b (1 : Fin 2)) rfl rfl
    (ix2 b (0 : Fin 1)) (fun c => match c with | ⟨0, _⟩ => fun _ => rfl | ⟨1, _⟩ => fun h => absurd rfl h) rfl).trans ?_
  rw [ReadP.val_main_v11_apply, ReadP.val_main_v9_apply, ReadP.val_main_v6_apply, ReadP.val_main_v5_apply,
    ReadP.val_main_c_1_apply, ReadP.val_main_v8_apply, ReadP.val_main_v7_apply, ReadP.val_main_c_2_apply]
  rw [show ReadP.idx_main_v11 (ix2 b (0 : Fin 1)) = ix1 b from funext fun a => match a with | ⟨0, _⟩ => rfl]
  exact select_slt_zero_of_small _ _ (by have := hV (ix1 b); omega)

/-- The wrapped attribute that starts the slab gather is the attribute. -/
theorem v19_attr (A : IVec S4096 32) (hA : ∀ b : S4096.Idx, (A b).toNat ≤ 1999) (b : Fin 4096) :
    ReadP.val_main_v19 (F := F) A (ix2 b (0 : Fin 1)) = A (ix1 b) := by
  rw [ReadP.val_main_v19_apply, ReadP.val_main_v18_apply, ReadP.val_main_v15_apply, ReadP.val_main_v14_apply,
    ReadP.val_main_c_3_apply, ReadP.val_main_v17_apply, ReadP.val_main_v16_apply, ReadP.val_main_c_4_apply]
  rw [show ReadP.idx_main_v19 (ix2 b (0 : Fin 1)) = ix1 b from funext fun a => match a with | ⟨0, _⟩ => rfl]
  exact select_slt_zero_of_small _ _ (by have := hA (ix1 b); omega)

/-- The index array `ids + (ids ≥ value)` at `(b, t)` is the word `t`, plus one from `value b` on. -/
theorem v29_word (Vv : IVec S4096 32) (q : S4096x49.Idx) :
    ReadP.val_main_v29 (F := F) Vv q = skipWord (Vv (ix1 (⟨(q 0).val, (q 0).isLt⟩ : Fin 4096))) (q 1).val := by
  rw [ReadP.val_main_v29_apply, ReadP.val_main_v28_apply, ReadP.val_main_v22_apply, ReadP.val_main_v21_apply,
    ReadP.val_main_v27_apply, ReadP.val_main_v26_apply, ReadP.val_main_v24_apply, ReadP.val_main_v22_apply,
    ReadP.val_main_v21_apply, ReadP.val_main_v25_apply, ReadP.val_main_v23_apply]
  rw [show ReadP.idx_main_v23 (ReadP.idx_main_v25 q) = ix1 (⟨(q 0).val, (q 0).isLt⟩ : Fin 4096) from
    funext fun a => match a with | ⟨0, _⟩ => rfl]
  rfl

/-- That word is at most 49 where the value is and the position is below 49. -/
theorem skipWord_le (w : BitVec 32) (t : Nat) (hw : w.toNat ≤ 49) (ht : t < 49) : (skipWord w t).toNat ≤ 49 := by
  rw [skipWord_toNat w t (by omega) (by omega)]; split <;> omega

/-- … so it is small. -/
theorem skipWord_small (w : BitVec 32) (t : Nat) (hw : w.toNat ≤ 49) (ht : t < 49) : (skipWord w t).toNat < 2147483648 := by
  have := skipWord_le w t hw ht; omega

/-- The wrapped index inside `take_along_axis` is that word. -/
theorem call0_v4_word (Vv : IVec S4096 32) (hV : ∀ b : S4096.Idx, (Vv b).toNat ≤ 49) (i : S4096x49x1.Idx) :
    ReadP.val_main_call0_v4 (F := F) Vv i = skipWord (Vv (ix1 (⟨(i 0).val, (i 0).isLt⟩ : Fin 4096))) (i 1).val := by
  rw [ReadP.val_main_call0_v4_apply, ReadP.val_main_call0_v1_apply, ReadP.val_main_call0_v0_apply,
    ReadP.val_main_call0_c_apply, ReadP.val_main_call0_v3_apply, ReadP.val_main_call0_v2_apply,
    ReadP.val_main_call0_c_0_apply, ReadP.val_main_v30_apply, v29_word]
  have ht : (i 1).val < 49 := (i 1).isLt
  exact select_slt_zero_of_small _ _ (skipWord_small _ _ (hV _) ht)

/-- The range check of `take_along_axis` passes at every index … -/
theorem call0_v10_one (Vv : IVec S4096 32) (hV : ∀ b : S4096.Idx, (Vv b).toNat ≤ 49) (i : S4096x49x1.Idx) :
    ReadP.val_main_call0_v10 (F := F) Vv i = 1#1 := by
  rw [ReadP.val_main_call0_v10_apply, ReadP.val_main_call0_v6_apply, ReadP.val_main_call0_v9_apply,
    ReadP.val_main_call0_v5_apply, ReadP.val_main_call0_c_2_apply, ReadP.val_main_call0_v8_apply,
    ReadP.val_main_call0_v7_apply, ReadP.val_main_call0_c_1_apply, call0_v4_word Vv hV]
  have ht : (i 1).val < 49 := (i 1).isLt
  exact signed_range_of_toNat_le _ 49 (by decide) (skipWord_le _ _ (hV _) ht)

/-- … so its conjunction over the index vector is 1 for every row. -/
theorem call0_v11_one (Vv : IVec S4096 32) (hV : ∀ b : S4096.Idx, (Vv b).toNat ≤ 49) (q : S4096x49.Idx) :
    ReadP.val_main_call0_v11 (F := F) Vv q = 1#1 := by
  unfold ReadP.val_main_call0_v11
  exact reduce_andi_ones _ _ _ _ rfl (call0_v10_one Vv hV) q

/-! ## The results at an index -/

/-- Element `(b, l)` of the first result is `bank[attr b, value b, l]`. -/
theorem refPos_apply (A Vv : IVec S4096 32) (X : FVec F S2000x50x128 .f32)
    (hA : ∀ b : S4096.Idx, (A b).toNat ≤ 1999) (hV : ∀ b : S4096.Idx, (Vv b).toNat ≤ 49)
    (i : S4096x128.Idx) (k : S2000x50x128.Idx)
    (h0 : (k 0).val = (A (ix1 (⟨(i 0).val, (i 0).isLt⟩ : Fin 4096))).toNat)
    (h1 : (k 1).val = (Vv (ix1 (⟨(i 0).val, (i 0).isLt⟩ : Fin 4096))).toNat)
    (h2 : (k 2).val = (i 1).val) :
    refPos A Vv X i = X k := by
  unfold refPos ReadP.val_main_v13
  refine gather_pair_apply X _ i k ?_ ?_ h2
  · have := hA (ix1 (⟨(i 0).val, (i 0).isLt⟩ : Fin 4096))
    rw [h0, v12_left A Vv hA, toInt_toNat_of_small _ (by omega)]
    exact (Nat.min_eq_left this).symm
  · have := hV (ix1 (⟨(i 0).val, (i 0).isLt⟩ : Fin 4096))
    rw [h1, v12_right A Vv hV, toInt_toNat_of_small _ (by omega)]
    exact (Nat.min_eq_left this).symm

/-- Element `(b, t, l)` of the second result is `bank[attr b, t + [value b ≤ t], l]`. -/
theorem refNeg_apply (A Vv : IVec S4096 32) (X : FVec F S2000x50x128 .f32)
    (hA : ∀ b : S4096.Idx, (A b).toNat ≤ 1999) (hV : ∀ b : S4096.Idx, (Vv b).toNat ≤ 49)
    (i : S4096x49x128.Idx) (k : S2000x50x128.Idx)
    (h0 : (k 0).val = (A (ix1 (⟨(i 0).val, (i 0).isLt⟩ : Fin 4096))).toNat)
    (h1 : (k 1).val = (i 1).val + (if (Vv (ix1 (⟨(i 0).val, (i 0).isLt⟩ : Fin 4096))).toNat ≤ (i 1).val then 1 else 0))
    (h2 : (k 2).val = (i 2).val) :
    refNeg A Vv X i = X k := by
  have ht : (i 1).val < 49 := (i 1).isLt
  have hw := hV (ix1 (⟨(i 0).val, (i 0).isLt⟩ : Fin 4096))
  have ha := hA (ix1 (⟨(i 0).val, (i 0).isLt⟩ : Fin 4096))
  have hk1 : (k 1).val < 50 := (k 1).isLt
  unfold refNeg
  rw [ReadP.val_main_v31_apply, ReadP.val_main_call0_v13_apply, call0_v11_one Vv hV, select_one]
  unfold ReadP.val_main_call0_v12
  refine (gather_along_apply _ _ i
    (ix3 (⟨(i 0).val, (i 0).isLt⟩ : Fin 4096) (⟨(k 1).val, hk1⟩ : Fin 50) (⟨(i 2).val, (i 2).isLt⟩ : Fin 128)) rfl ?_ rfl).trans ?_
  · have e4 : ReadP.val_main_call0_v4 (F := F) Vv (ix3 (⟨(i 0).val, (i 0).isLt⟩ : Fin 4096) (⟨(i 1).val, (i 1).isLt⟩ : Fin 49) (0 : Fin 1))
        = skipWord (Vv (ix1 (⟨(i 0).val, (i 0).isLt⟩ : Fin 4096))) (i 1).val := call0_v4_word Vv hV _
    show (k 1).val = _
    rw [e4, toInt_toNat_of_small _ (skipWord_small _ _ hw ht), skipWord_toNat _ _ (by omega) (by omega), h1]
    exact (Nat.min_eq_left (by split <;> omega)).symm
  · unfold ReadP.val_main_v20
    refine gather_slab_apply X _ _ k ?_ rfl h2
    show (k 0).val = min ((ReadP.val_main_v19 (F := F) A (ix2 (⟨(i 0).val, (i 0).isLt⟩ : Fin 4096) (0 : Fin 1))).toInt.toNat) 1999
    rw [h0, v19_attr A hA, toInt_toNat_of_small _ (by omega)]
    exact (Nat.min_eq_left ha).symm

end Cert.RefSide

end
-- ==== Proof.RefPre.lean ====
import proofs.«210835_g78632261255710_cont_9to1_m_350_20_alg».proof.Pre_input_domain
import Idealize.ShloMosaic.Lib.ReduceAll

/-! The precondition read back: where the printed predicate is all ones, every attribute word is a
    non-negative signed integer at most 1999 and every value word one at most 49, so each is its own
    unsigned reading. -/

noncomputable section

namespace Cert.RefSide

open Idealize.ShloMosaic

/-- A word that tests non-negative and at most `n` as a signed integer (`n` below `2 ^ 31`) reads, unsigned,
    at most `n`. -/
theorem toNat_le_of_signed_range (v : BitVec 32) (n : Nat) (hn : n < 2147483648)
    (e : IntOp.andi (IntOp.cmpi .sge v 0#32) (IntOp.cmpi .sle v (BitVec.ofNat 32 n)) = 1#1) : v.toNat ≤ n := by
  obtain ⟨e1, e2⟩ := IntOp.andi_eq_one.1 e
  rw [IntOp.cmpi_sge] at e1
  rw [IntOp.cmpi_sle] at e2
  have hv := v.isLt
  simp only [BitVec.toInt_eq_toNat_cond, BitVec.toNat_ofNat, Nat.reducePow] at e1 e2
  rw [Nat.mod_eq_of_lt (by omega)] at e1 e2
  omega

instance : Subsingleton Cert.Pre_input_domain.S_.Idx := ⟨fun a b => funext fun d => d.elim0⟩

/-- Where the input-domain predicate holds, the attributes lie in `[0, 1999]` and the values in `[0, 49]`. -/
theorem ranges_of_pre {F : FTy → Type} [FloatOps F] [Cert.Pre_input_domain.Facts]
    (A Vv : IVec Cert.Pre_input_domain.S4096 32) (X : FVec F Cert.Pre_input_domain.S2000x50x128 .f32)
    (h : Cert.Pre_input_domain.fn (F := F) A Vv X = fun _ => 1#1) :
    (∀ b : Cert.Pre_input_domain.S4096.Idx, (A b).toNat ≤ 1999)
      ∧ (∀ b : Cert.Pre_input_domain.S4096.Idx, (Vv b).toNat ≤ 49) := by
  have e := congrFun h (fun a => a.elim0)
  dsimp only [Cert.Pre_input_domain.fn, Cert.Pre_input_domain.fn_part1] at e
  obtain ⟨e12, e3⟩ := IntOp.andi_eq_one.1 e
  obtain ⟨_, e2⟩ := IntOp.andi_eq_one.1 e12
  exact ⟨fun b => toNat_le_of_signed_range (A b) 1999 (by decide) (Host.reduce_andi_all _ _ _ _ _ e2 b),
    fun b => toNat_le_of_signed_range (Vv b) 49 (by decide) (Host.reduce_andi_all _ _ _ _ _ e3 b)⟩

end Cert.RefSide

end
-- ==== Proof.Spec.lean ====
/-
  The lookup kernel read as mathematics, and the launch data shared by its body and its launch.

  The prototype bank `X : [2000, 50, 128]` is re-laid on the host as the table `T : [100000, 128]`, row `v * 2000 + a`
  holding `X[a, v, :]`.  Sample `b` (attribute `a_b`, value `v_b`) takes as its positive row the table's row
  `v_b * 2000 + a_b`, and as its `j`-th negative row (`j < 49`) the row `j * 2000 + a_b + (2000 if v_b ≤ j else 0)`,
  i.e. the prototype of value `j` below `v_b` and of value `j + 1` from `v_b` on.  The 32 vector subcores take 128
  consecutive samples each: subcore `(c, s)` the samples `128 * (2 s + c) + [0, 128)`; the negatives leave the kernel
  plane by plane, plane `j` at rows `4096 j + b`.
-/
import proofs.«210835_g78632261255710_cont_9to1_m_350_20_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«210835_g78632261255710_cont_9to1_m_350_20_alg».proof.Proof.Gen.KernelIdeal
import proofs.«210835_g78632261255710_cont_9to1_m_350_20_alg».proof.Proof.Gen.KernelIdeal.Skeleton

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

/-! ## The arrays -/

abbrev aLoc (d : Dev nD) : Loc nD τ sig := (SparseCore.T d).loc main_arg0
abbrev vLoc (d : Dev nD) : Loc nD τ sig := (SparseCore.T d).loc main_arg1
abbrev xLoc (d : Dev nD) : Loc nD τ sig := (SparseCore.T d).loc main_arg2
abbrev tLoc (d : Dev nD) : Loc nD τ sig := (SparseCore.T d).loc main_v1
abbrev pLoc (d : Dev nD) : Loc nD τ sig := (SparseCore.T d).loc main_v2_0
abbrev nLoc (d : Dev nD) : Loc nD τ sig := (SparseCore.T d).loc main_v2_1

/-- The table as the host lays it out from the bank: the transpose of the first two axes, then rows flattened. -/
def tblOf (X : S2000x50x128.Idx → Elt F .f32) : S100000x128.Idx → Elt F .f32 :=
  shapeCast S100000x128 (transpose S50x2000x128 [1, 0, 2] X transposes_S2000x50x128_S50x2000x128_1_0_2) shapeCasts_S50x2000x128_S100000x128

/-- The positive row's number for a sample: `v * 2000 + a`, in 32-bit words. -/
def pidxW (a v : BitVec 32) : BitVec 32 := IntOp.addi (IntOp.muli v 2000#32) a

/-- Negative plane `j`'s row number for a sample: `j * 2000 + a`, plus `2000` when `v ≤ j` (signed), in 32-bit words. -/
def nidxW (j : BitVec 32) (a v : BitVec 32) : BitVec 32 :=
  IntOp.addi (IntOp.addi (Scalar.muli j 2000#32) a) (Scalar.select (IntOp.cmpi .sle v j) 2000#32 0#32)

/-- Row `w` of the table at lane `l` (row 0 when the word names no row: never the case under the precondition). -/
def tblRow (T : S100000x128.Idx → Elt F .f32) (w : BitVec 32) (l : Fin 128) : Elt F .f32 :=
  if h : w.toNat < 100000 then T (ValueIdx.ix2 ⟨w.toNat, h⟩ l) else T (ValueIdx.ix2 ⟨0, by decide⟩ l)

/-- The positives, whole: row `b` is the table's row `v_b * 2000 + a_b`. -/
def Gpos (A Vv : S4096.Idx → BitVec 32) (T : S100000x128.Idx → Elt F .f32) : S4096x128.Idx → Elt F .f32 :=
  fun i => tblRow T (pidxW (A (ValueIdx.ix1 (i 0))) (Vv (ValueIdx.ix1 (i 0)))) (i 1)

/-- The negatives as the kernel leaves them, plane-major: row `4096 j + b` is the table's row for plane `j` of sample `b`. -/
def Gneg (A Vv : S4096.Idx → BitVec 32) (T : S100000x128.Idx → Elt F .f32) : S200704x128.Idx → Elt F .f32 :=
  fun i => tblRow T (nidxW (BitVec.ofNat 32 ((i 0).val / 4096)) (A (ValueIdx.ix1 ⟨(i 0).val % 4096, Nat.mod_lt _ (by decide)⟩))
    (Vv (ValueIdx.ix1 ⟨(i 0).val % 4096, Nat.mod_lt _ (by decide)⟩))) (i 1)

/-- The negatives as the program returns them: planes to the middle axis. -/
def negOut (N : S200704x128.Idx → Elt F .f32) : S4096x49x128.Idx → Elt F .f32 :=
  transpose S4096x49x128 [1, 0, 2] (shapeCast S49x4096x128 N shapeCasts_S200704x128_S49x4096x128) transposes_S49x4096x128_S4096x49x128_1_0_2

end Cert.KI

end
-- ==== Proof.Words.lean ====
import proofs.«210835_g78632261255710_cont_9to1_m_350_20_alg».proof.Proof.Spec

/-! The kernel's row numbers as natural numbers. Under the ranges of the precondition nothing wraps, and the signed
    compare of two small non-negative words is the compare of their unsigned readings. -/

noncomputable section

namespace Cert.KI

open Cert.KernelIdeal Cert.KernelIdeal.Gen
open Idealize.ShloMosaic Idealize.ShloMosaic.ValueIdx

/-- A word below `2 ^ 31` reads the same signed and unsigned. -/
theorem toInt_eq_toNat_of_lt (v : BitVec 32) (hv : v.toNat < 2147483648) : v.toInt = (v.toNat : Int) := by
  rw [BitVec.toInt_eq_toNat_cond, if_pos (by simp only [Nat.reducePow]; omega)]
/-! ## The row numbers as natural numbers -/

/-- The positive row's number is `v * 2000 + a`: nothing wraps. -/
theorem pidxW_toNat (a v : BitVec 32) (ha : a.toNat ≤ 1999) (hv : v.toNat ≤ 49) :
    (pidxW a v).toNat = v.toNat * 2000 + a.toNat := by
  unfold pidxW IntOp.addi IntOp.muli
  rw [BitVec.toNat_add, BitVec.toNat_mul, BitVec.toNat_ofNat]
  simp only [Nat.reducePow, Nat.reduceMod]
  omega

/-- … so it names a row of the table. -/
theorem pidxW_lt (a v : BitVec 32) (ha : a.toNat ≤ 1999) (hv : v.toNat ≤ 49) : (pidxW a v).toNat < 100000 := by
  rw [pidxW_toNat a v ha hv]; omega

/-- Plane `j`'s row number is `(j + [v ≤ j]) * 2000 + a`: nothing wraps, and the signed compare of the two small
    non-negative words is the compare of their unsigned readings. -/
theorem nidxW_toNat (j : Nat) (a v : BitVec 32) (hj : j < 49) (ha : a.toNat ≤ 1999) (hv : v.toNat ≤ 49) :
    (nidxW (BitVec.ofNat 32 j) a v).toNat = (j + (if v.toNat ≤ j then 1 else 0)) * 2000 + a.toNat := by
  have hj' : (BitVec.ofNat 32 j).toNat = j := by
    rw [BitVec.toNat_ofNat]; simp only [Nat.reducePow]; exact Nat.mod_eq_of_lt (by omega)
  have hcmp : IntOp.cmpi .sle v (BitVec.ofNat 32 j) = 1#1 ↔ v.toNat ≤ j := by
    rw [IntOp.cmpi_sle, toInt_eq_toNat_of_lt v (by omega), toInt_eq_toNat_of_lt _ (by rw [hj']; omega), hj']
    exact Int.ofNat_le
  unfold nidxW
  by_cases h : v.toNat ≤ j
  · rw [hcmp.2 h, select_one, if_pos h]
    unfold Scalar.muli IntOp.addi IntOp.muli
    rw [BitVec.toNat_add, BitVec.toNat_add, BitVec.toNat_mul, hj', BitVec.toNat_ofNat]
    simp only [Nat.reducePow, Nat.reduceMod]
    omega
  · rw [eq_zero_of_ne_one (fun e => h (hcmp.1 e)), select_zero, if_neg h]
    unfold Scalar.muli IntOp.addi IntOp.muli
    rw [BitVec.toNat_add, BitVec.toNat_add, BitVec.toNat_mul, hj', BitVec.toNat_ofNat, BitVec.toNat_ofNat]
    simp only [Nat.reducePow, Nat.reduceMod, Nat.zero_mod]
    omega

/-- … so it names a row of the table. -/
theorem nidxW_lt (j : Nat) (a v : BitVec 32) (hj : j < 49) (ha : a.toNat ≤ 1999) (hv : v.toNat ≤ 49) :
    (nidxW (BitVec.ofNat 32 j) a v).toNat < 100000 := by
  rw [nidxW_toNat j a v hj ha hv]; split <;> omega

end Cert.KI

end
-- ==== Proof.Bridge.lean ====
import proofs.«210835_g78632261255710_cont_9to1_m_350_20_alg».proof.Proof.Spec
import proofs.«210835_g78632261255710_cont_9to1_m_350_20_alg».proof.Proof.Words
import proofs.«210835_g78632261255710_cont_9to1_m_350_20_alg».proof.Proof.RefSide

/-! The kernel's specification is the reference. Under the ranges of the precondition the kernel's row numbers
    are exact natural-number arithmetic (no word wraps, the signed compare is the compare of the unsigned
    readings); row `v * 2000 + a` of the host's table is the bank's `[a, v, :]`; and the kernel's plane-major
    negatives, re-laid as the program returns them, are the reference's rows of the other values. -/

noncomputable section

namespace Cert.KI

open Cert.KernelIdeal Cert.KernelIdeal.Gen
open Idealize.ShloMosaic Idealize.ShloMosaic.ValueIdx

variable {F : FTy → Type}

/-! ## The table read at a row -/

/-- Row `v * 2000 + a` of the table, at lane `l`, is the bank's `[a, v, l]`: the flattening reads the transposed bank at
    `(v, a, l)`, and the transpose reads the bank at `(a, v, l)`. -/
theorem tblOf_apply (X : S2000x50x128.Idx → Elt F .f32) (j : S100000x128.Idx) (k : S2000x50x128.Idx)
    (hr : (j 0).val = (k 1).val * 2000 + (k 0).val) (hl : (j 1).val = (k 2).val) : tblOf X j = X k := by
  unfold tblOf
  refine (shapeCast_apply _ _ j
    (ix3 (⟨(k 1).val, (k 1).isLt⟩ : Fin 50) (⟨(k 0).val, (k 0).isLt⟩ : Fin 2000) (⟨(k 2).val, (k 2).isLt⟩ : Fin 128)) ?_).trans
    (transpose_apply _ X _ _ k fun b => match b with | ⟨0, _⟩ => rfl | ⟨1, _⟩ => rfl | ⟨2, _⟩ => rfl)
  rw [Shape.rowMajor_val_three, Shape.rowMajor_val_two]
  show ((k 1).val * 2000 + (k 0).val) * 128 + (k 2).val = (j 0).val * 128 + (j 1).val
  rw [hr, hl]

/-- A word that names a row reads that row. -/
theorem tblRow_of_lt (T : S100000x128.Idx → Elt F .f32) (w : BitVec 32) (l : Fin 128) (h : w.toNat < 100000) :
    tblRow T w l = T (ix2 (⟨w.toNat, h⟩ : Fin 100000) l) := by
  unfold tblRow; rw [dif_pos h]

/-! ## The negatives, plane-major and as returned -/

/-- Row `4096 j + b` of the plane-major negatives is the table's row for plane `j` of sample `b`. -/
theorem Gneg_apply (A Vv : S4096.Idx → BitVec 32) (T : S100000x128.Idx → Elt F .f32) (n : S200704x128.Idx)
    (b : Fin 4096) (j : Nat) (hn : (n 0).val = j * 4096 + b.val) :
    Gneg A Vv T n = tblRow T (nidxW (BitVec.ofNat 32 j) (A (ix1 b)) (Vv (ix1 b))) (n 1) := by
  have e1 : (n 0).val / 4096 = j := by have := b.isLt; omega
  have e2 : (⟨(n 0).val % 4096, Nat.mod_lt _ (by decide)⟩ : Fin 4096) = b :=
    Fin.ext (by show (n 0).val % 4096 = b.val; have := b.isLt; omega)
  unfold Gneg
  rw [e1, e2]

/-- The negatives as returned, at `(b, j, l)`, are the plane-major ones at row `4096 j + b`, lane `l`. -/
theorem negOut_apply (N : S200704x128.Idx → Elt F .f32) (i : S4096x49x128.Idx) (n : S200704x128.Idx)
    (hn0 : (n 0).val = (i 1).val * 4096 + (i 0).val) (hn1 : (n 1).val = (i 2).val) : negOut N i = N n := by
  unfold negOut
  refine (transpose_apply _ _ _ i
    (ix3 (⟨(i 1).val, (i 1).isLt⟩ : Fin 49) (⟨(i 0).val, (i 0).isLt⟩ : Fin 4096) (⟨(i 2).val, (i 2).isLt⟩ : Fin 128))
    fun c => match c with | ⟨0, _⟩ => rfl | ⟨1, _⟩ => rfl | ⟨2, _⟩ => rfl).trans (shapeCast_apply N _ _ n ?_)
  rw [Shape.rowMajor_val_two, Shape.rowMajor_val_three]
  show (n 0).val * 128 + (n 1).val = ((i 1).val * 4096 + (i 0).val) * 128 + (i 2).val
  rw [hn0, hn1]

/-! ## The bridge -/

/-- Under the ranges of the precondition the kernel's positives are the reference's first result … -/
theorem Gpos_eq_refPos (A Vv : S4096.Idx → BitVec 32) (X : S2000x50x128.Idx → Elt F .f32)
    (hA : ∀ b : S4096.Idx, (A b).toNat ≤ 1999) (hV : ∀ b : S4096.Idx, (Vv b).toNat ≤ 49) [FloatOps F] :
    Gpos A Vv (tblOf X) = Cert.RefSide.refPos (F := F) A Vv X := by
  funext i
  have ha := hA (ix1 (⟨(i 0).val, (i 0).isLt⟩ : Fin 4096))
  have hv := hV (ix1 (⟨(i 0).val, (i 0).isLt⟩ : Fin 4096))
  have hk : ∃ k : S2000x50x128.Idx, (k 0).val = (A (ix1 (⟨(i 0).val, (i 0).isLt⟩ : Fin 4096))).toNat ∧ (k 1).val = (Vv (ix1 (⟨(i 0).val, (i 0).isLt⟩ : Fin 4096))).toNat
      ∧ (k 2).val = (i 1).val :=
    ⟨ix3 (⟨(A (ix1 (⟨(i 0).val, (i 0).isLt⟩ : Fin 4096))).toNat, by omega⟩ : Fin 2000) (⟨(Vv (ix1 (⟨(i 0).val, (i 0).isLt⟩ : Fin 4096))).toNat, by omega⟩ : Fin 50)
      (⟨(i 1).val, (i 1).isLt⟩ : Fin 128), rfl, rfl, rfl⟩
  obtain ⟨k, h0, h1, h2⟩ := hk
  rw [Cert.RefSide.refPos_apply A Vv X hA hV i k h0 h1 h2]
  show tblRow (tblOf X) (pidxW (A (ix1 (⟨(i 0).val, (i 0).isLt⟩ : Fin 4096))) (Vv (ix1 (⟨(i 0).val, (i 0).isLt⟩ : Fin 4096)))) (i 1) = X k
  refine (tblRow_of_lt _ _ _ (pidxW_lt _ _ ha hv)).trans ?_
  refine tblOf_apply X _ k ?_ h2.symm
  show (pidxW (A (ix1 (⟨(i 0).val, (i 0).isLt⟩ : Fin 4096))) (Vv (ix1 (⟨(i 0).val, (i 0).isLt⟩ : Fin 4096)))).toNat = _
  rw [pidxW_toNat _ _ ha hv, h0, h1]

/-- … and its negatives, re-laid as the program returns them, the second. -/
theorem negOut_Gneg_eq_refNeg (A Vv : S4096.Idx → BitVec 32) (X : S2000x50x128.Idx → Elt F .f32)
    (hA : ∀ b : S4096.Idx, (A b).toNat ≤ 1999) (hV : ∀ b : S4096.Idx, (Vv b).toNat ≤ 49) [FloatOps F] :
    negOut (Gneg A Vv (tblOf X)) = Cert.RefSide.refNeg (F := F) A Vv X := by
  funext i
  have ha := hA (ix1 (⟨(i 0).val, (i 0).isLt⟩ : Fin 4096))
  have hv := hV (ix1 (⟨(i 0).val, (i 0).isLt⟩ : Fin 4096))
  have hj : (i 1).val < 49 := (i 1).isLt
  have hb : (i 0).val < 4096 := (i 0).isLt
  have hk : ∃ k : S2000x50x128.Idx, (k 0).val = (A (ix1 (⟨(i 0).val, (i 0).isLt⟩ : Fin 4096))).toNat
      ∧ (k 1).val = (i 1).val + (if (Vv (ix1 (⟨(i 0).val, (i 0).isLt⟩ : Fin 4096))).toNat ≤ (i 1).val then 1 else 0) ∧ (k 2).val = (i 2).val :=
    ⟨ix3 (⟨(A (ix1 (⟨(i 0).val, (i 0).isLt⟩ : Fin 4096))).toNat, by omega⟩ : Fin 2000)
      (⟨(i 1).val + (if (Vv (ix1 (⟨(i 0).val, (i 0).isLt⟩ : Fin 4096))).toNat ≤ (i 1).val then 1 else 0), by split <;> omega⟩ : Fin 50)
      (⟨(i 2).val, (i 2).isLt⟩ : Fin 128), rfl, rfl, rfl⟩
  obtain ⟨k, h0, h1, h2⟩ := hk
  rw [Cert.RefSide.refNeg_apply A Vv X hA hV i k h0 h1 h2]
  rw [negOut_apply _ i (ix2 (⟨(i 1).val * 4096 + (i 0).val, by omega⟩ : Fin 200704) (⟨(i 2).val, (i 2).isLt⟩ : Fin 128)) rfl rfl,
    Gneg_apply A Vv _ _ (⟨(i 0).val, (i 0).isLt⟩ : Fin 4096) (i 1).val rfl, tblRow_of_lt _ _ _ (nidxW_lt _ _ _ hj ha hv)]
  refine tblOf_apply X _ k ?_ h2.symm
  show (nidxW (BitVec.ofNat 32 (i 1).val) (A (ix1 (⟨(i 0).val, (i 0).isLt⟩ : Fin 4096))) (Vv (ix1 (⟨(i 0).val, (i 0).isLt⟩ : Fin 4096)))).toNat = _
  rw [nidxW_toNat _ _ _ hj ha hv, h0, h1]

/-- THE BRIDGE: the kernel's two results, as its body leaves them, are the reference's. -/
theorem kernel_eq_ref [FloatOps F] (A Vv : S4096.Idx → BitVec 32) (X : S2000x50x128.Idx → Elt F .f32)
    (hA : ∀ b : S4096.Idx, (A b).toNat ≤ 1999) (hV : ∀ b : S4096.Idx, (Vv b).toNat ≤ 49) :
    Gpos A Vv (tblOf X) = Cert.RefSide.refPos (F := F) A Vv X
      ∧ negOut (Gneg A Vv (tblOf X)) = Cert.RefSide.refNeg (F := F) A Vv X :=
  ⟨Gpos_eq_refPos A Vv X hA hV, negOut_Gneg_eq_refNeg A Vv X hA hV⟩

end Cert.KI

end
-- ==== Proof.TileSpec.lean ====
/-
  What one vector subcore's task is handed and what it hands back: its 128 attributes and values, a share of the
  table, its 128 rows of the positives and its 128 rows of each of the 49 negative planes, the output rows going in at
  the launch contents and coming back at the rows of the table the sample's index words name.
-/
import proofs.«210835_g78632261255710_cont_9to1_m_350_20_alg».proof.Proof.Spec

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aV" => (Memref.whole Cert.KernelIdeal.main_arg0_scv : Memref Cert.KernelIdeal.sig Kind.scVector Space.hbm Cert.KernelIdeal.S4096 EltTy.i32)
local notation "vV" => (Memref.whole Cert.KernelIdeal.main_arg1_scv : Memref Cert.KernelIdeal.sig Kind.scVector Space.hbm Cert.KernelIdeal.S4096 EltTy.i32)
local notation "tV" => (Memref.whole Cert.KernelIdeal.main_v1_scv : Memref Cert.KernelIdeal.sig Kind.scVector Space.hbm Cert.KernelIdeal.S100000x128 EltTy.f32)
local notation "pV" => (Memref.whole Cert.KernelIdeal.main_v2_0_scv : Memref Cert.KernelIdeal.sig Kind.scVector Space.hbm Cert.KernelIdeal.S4096x128 EltTy.f32)
local notation "nV" => (Memref.whole Cert.KernelIdeal.main_v2_1_scv : Memref Cert.KernelIdeal.sig Kind.scVector Space.hbm Cert.KernelIdeal.S200704x128 EltTy.f32)
local notation "b0" => (Memref.whole Cert.KernelIdeal.cc0_scratch0 : Memref Cert.KernelIdeal.sig Kind.scVector Space.vmem Cert.KernelIdeal.S128 EltTy.i32)
local notation "b1" => (Memref.whole Cert.KernelIdeal.cc0_scratch1 : Memref Cert.KernelIdeal.sig Kind.scVector Space.vmem Cert.KernelIdeal.S128 EltTy.i32)
local notation "b2" => (Memref.whole Cert.KernelIdeal.cc0_scratch2 : Memref Cert.KernelIdeal.sig Kind.scVector Space.vmem Cert.KernelIdeal.S128 EltTy.i32)
local notation "b3" => (Memref.whole Cert.KernelIdeal.cc0_scratch3 : Memref Cert.KernelIdeal.sig Kind.scVector Space.vmem Cert.KernelIdeal.S49x128 EltTy.i32)
local notation "b4" => (Memref.whole Cert.KernelIdeal.cc0_scratch4 : Memref Cert.KernelIdeal.sig Kind.scVector Space.vmem Cert.KernelIdeal.S128x128 EltTy.f32)
local notation "b5" => (Memref.whole Cert.KernelIdeal.cc0_scratch5 : Memref Cert.KernelIdeal.sig Kind.scVector Space.vmem Cert.KernelIdeal.S6x128x128 EltTy.f32)

variable (m : (ℓ : Loc nD τ sig) → Buf (Elt F) ℓ)

abbrev cV (L : grid0.Coords) : Fin τ.nSC := (L 0).castLE hcore0
abbrev jV (L : grid0.Coords) : Fin τ.nSub := (L 1).castLE hsub0

/-- The first sample of subcore `L`'s block: `128 * (2 * s + c)`. -/
abbrev base (L : grid0.Coords) : ℕ := 256 * (L 1).val + 128 * (L 0).val

abbrev aRowK (L : grid0.Coords) : Memref sig .scVector .hbm S128 .i32 :=
  (aV).slice (Rect.unit (s := S4096) (k0_off1 L) S128.size (k0_off1_inb L)) (fun _ => rfl)
abbrev vRowK (L : grid0.Coords) : Memref sig .scVector .hbm S128 .i32 :=
  (vV).slice (Rect.unit (s := S4096) (k0_off1 L) S128.size (k0_off1_inb L)) (fun _ => rfl)
abbrev pRowK (L : grid0.Coords) : Memref sig .scVector .hbm S128x128 .f32 :=
  (pV).slice (Rect.unit (s := S4096x128) (k0_off29 L) S128x128.size (k0_off29_inb L)) (fun _ => rfl)

/-- Where subcore `L`'s block of negative plane `j` starts: row `4096 j + base`. -/
abbrev nOff (L : grid0.Coords) (j : Fin 49) : Fin 2 → ℕ := ![4096 * j.val + base L, 0]

theorem nOff_inb (L : grid0.Coords) (j : Fin 49) : ∀ a, (nOff L j) a + S128x128.size a ≤ S200704x128.size a := by
  have h0 : (L 0).val < 2 := (L 0).isLt
  have h1 : (L 1).val < 16 := (L 1).isLt
  have hj : j.val < 49 := j.isLt
  intro a
  match a with
  | 0 => show 4096 * j.val + (256 * (L 1).val + 128 * (L 0).val) + 128 ≤ 200704; omega
  | 1 => show 0 + 128 ≤ 128; omega

abbrev nRowK (L : grid0.Coords) (j : Fin 49) : Memref sig .scVector .hbm S128x128 .f32 :=
  (nV).slice (Rect.unit (s := S200704x128) (nOff L j) S128x128.size (nOff_inb L j)) (fun _ => rfl)

/-- What the proof asks of the launch memory: attributes below 2000, values below 50 (as unsigned words). -/
def PreOK : Prop := ∀ d : Dev nD, (∀ b, (m (aLoc d) b).toNat ≤ 1999) ∧ (∀ b, (m (vLoc d) b).toNat ≤ 49)

/-- The table the kernel gathers from, on device `d`: the host's re-laying of the bank at the launch contents. -/
abbrev tbl (d : Dev nD) : Buf (Elt F) (tLoc d) := tblOf (m (xLoc d))
/-- The positives the kernel leaves on device `d`. -/
abbrev posOf (d : Dev nD) : Buf (Elt F) (pLoc d) := Gpos (m (aLoc d)) (m (vLoc d)) (tbl m d)
/-- The negatives the kernel leaves on device `d`, plane-major. -/
abbrev negOf (d : Dev nD) : Buf (Elt F) (nLoc d) := Gneg (m (aLoc d)) (m (vLoc d)) (tbl m d)

/-- The task's operands on subcore `L` of device `d`, the table at share `q`, the output rows at contents `fp`, `fn`. -/
def tileRes (d : Dev nD) (L : grid0.Coords) (q : PosShare TreeShare) (fp : Buf (Elt F) (pLoc d)) (fn : Buf (Elt F) (nLoc d)) : sProp 𝕄 :=
  iprop(((aRowK L).view.loc (V d (cV L) (jV L)) ↦[(aRowK L).view.set]{fullShare} m (aLoc d))
    ∗ ((vRowK L).view.loc (V d (cV L) (jV L)) ↦[(vRowK L).view.set]{fullShare} m (vLoc d))
    ∗ ((tV).view.loc (V d (cV L) (jV L)) ↦{q} tbl m d)
    ∗ ((pRowK L).view.loc (V d (cV L) (jV L)) ↦[(pRowK L).view.set]{fullShare} fp)
    ∗ bigSep (Finset.univ : Finset (Fin 49)) fun j => (nRowK L j).view.loc (V d (cV L) (jV L)) ↦[(nRowK L j).view.set]{fullShare} fn)

/-- The body obligation of one vector subcore, at a symbolic subcore `L` of a symbolic device `d`, for any share `q` of
    the table: from the operands at the launch contents to the output rows at the looked-up rows. -/
def TileBody [FloatOps F] : Prop :=
  ∀ (hF : (K (F := F)).Facts) (d : Dev nD) (L : grid0.Coords) (O : CellTallies nD τ sig (HIx 1)) (W : Waits sig (HIx 1)) (hO : ∀ g, O g none = 0)
    (q : PosShare TreeShare),
    (iprop(levAts (K (F := F)).L (K (F := F)).lev ∗ emp ∗ tileRes m d L q (m (pLoc d)) (m (nLoc d))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_sc_kernel L aV (Memref.isWhole_whole _) vV (Memref.isWhole_whole _) tV (Memref.isWhole_whole _) pV (Memref.isWhole_whole _) nV (Memref.isWhole_whole _)
            b0 (Memref.isWhole_whole _) b1 (Memref.isWhole_whole _) b2 (Memref.isWhole_whole _) b3 (Memref.isWhole_whole _) b4 (Memref.isWhole_whole _) b5 (Memref.isWhole_whole _)
            cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 cc0_scoped1 cc0_scoped2)
          fun _ => iprop(tileRes m d L q (posOf m d) (negOf m d)
            ∗ scopedBufs (V d (cV L) (jV L)) ∗ scopedSems0 (V d (cV L) (jV L))
            ∗ ∃ W', ⌜∀ p ∈ W', p ∈ W ∨ p.2 = none⌝ ∗ owes (V d (cV L) (jV L)) O W')

end Cert.KI

end
-- ==== Proof.LaunchPay.lean ====
/-
  The launch, first part: what the handshakes carry, and each vector subcore's obligation from its body's proof.
-/
import proofs.«210835_g78632261255710_cont_9to1_m_350_20_alg».proof.Proof.TileSpec

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

local notation "aV" => (Memref.whole Cert.KernelIdeal.main_arg0_scv : Memref Cert.KernelIdeal.sig Kind.scVector Space.hbm Cert.KernelIdeal.S4096 EltTy.i32)
local notation "vV" => (Memref.whole Cert.KernelIdeal.main_arg1_scv : Memref Cert.KernelIdeal.sig Kind.scVector Space.hbm Cert.KernelIdeal.S4096 EltTy.i32)
local notation "tV" => (Memref.whole Cert.KernelIdeal.main_v1_scv : Memref Cert.KernelIdeal.sig Kind.scVector Space.hbm Cert.KernelIdeal.S100000x128 EltTy.f32)
local notation "pV" => (Memref.whole Cert.KernelIdeal.main_v2_0_scv : Memref Cert.KernelIdeal.sig Kind.scVector Space.hbm Cert.KernelIdeal.S4096x128 EltTy.f32)
local notation "nV" => (Memref.whole Cert.KernelIdeal.main_v2_1_scv : Memref Cert.KernelIdeal.sig Kind.scVector Space.hbm Cert.KernelIdeal.S200704x128 EltTy.f32)
local notation "b0" => (Memref.whole Cert.KernelIdeal.cc0_scratch0 : Memref Cert.KernelIdeal.sig Kind.scVector Space.vmem Cert.KernelIdeal.S128 EltTy.i32)
local notation "b1" => (Memref.whole Cert.KernelIdeal.cc0_scratch1 : Memref Cert.KernelIdeal.sig Kind.scVector Space.vmem Cert.KernelIdeal.S128 EltTy.i32)
local notation "b2" => (Memref.whole Cert.KernelIdeal.cc0_scratch2 : Memref Cert.KernelIdeal.sig Kind.scVector Space.vmem Cert.KernelIdeal.S128 EltTy.i32)
local notation "b3" => (Memref.whole Cert.KernelIdeal.cc0_scratch3 : Memref Cert.KernelIdeal.sig Kind.scVector Space.vmem Cert.KernelIdeal.S49x128 EltTy.i32)
local notation "b4" => (Memref.whole Cert.KernelIdeal.cc0_scratch4 : Memref Cert.KernelIdeal.sig Kind.scVector Space.vmem Cert.KernelIdeal.S128x128 EltTy.f32)
local notation "b5" => (Memref.whole Cert.KernelIdeal.cc0_scratch5 : Memref Cert.KernelIdeal.sig Kind.scVector Space.vmem Cert.KernelIdeal.S6x128x128 EltTy.f32)

/-! ## Shares of the table: a share halved `n` times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- SparseCore `c`'s share of the table, and subcore `(c, i)`'s. -/
abbrev qC (c : Fin 2) : PosShare TreeShare := leaf 1 fullShare c
abbrev qT (c : Fin 2) (i : Fin 16) : PosShare TreeShare := leaf 4 (qC c) i

/-! ## The grid's points -/

def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

/-- Subcore `i` of SparseCore `c`, as a point of the kernel's grid. -/
abbrev co (c : Fin 2) (i : Fin 16) : grid0.Coords := coordsV (Fin.cast bound_zero.symm c) (Fin.cast bound_one.symm i)

variable (m : (ℓ : Loc nD τ sig) → Buf (Elt F) ℓ) (ρ : Dev nD → PrngReg)

/-! ## What the handshakes carry -/

/-- Subcore `(c, i)`'s operands, the output rows at contents `fp`, `fn`. -/
def goRes (d : Dev nD) (c : Fin 2) (i : Fin 16) (fp : Buf (Elt F) (pLoc d)) (fn : Buf (Elt F) (nLoc d)) : sProp 𝕄 :=
  tileRes m d (co c i) (qT c i) fp fn
/-- SparseCore `c`'s operands: its sixteen subcores'. -/
def stRes (d : Dev nD) (c : Fin 2) (fp : Buf (Elt F) (pLoc d)) (fn : Buf (Elt F) (nLoc d)) : sProp 𝕄 :=
  bigSep Finset.univ fun i : Fin 16 => goRes m d c i fp fn

instance tileRes_storable (d : Dev nD) (L : grid0.Coords) (q : PosShare TreeShare) (fp : Buf (Elt F) (pLoc d)) (fn : Buf (Elt F) (nLoc d)) :
    BI.Storable (upEmb : UEmb _ 𝕄) (tileRes m d L q fp fn) := by
  unfold tileRes; infer_instance

/-- The one call's grid, at every call index (there is one). -/
theorem nCore_all (q : Fin 1) : (K (F := F)).nCore q = 2 := match q with | 0 => rfl
theorem nSub_all (q : Fin 1) : (K (F := F)).nSub q = 16 := match q with | 0 => rfl

variable [FloatOps F]

/-- The one call takes the five arrays, each SparseCore its subcores' pieces, each subcore its rows and its share of
    the table, the output rows in at the launch contents and back at the looked-up rows. -/
def P : (K (F := F)).Pay (nD := nD) (Val := Elt F) (Name := ℕ) (U := UU) where
  st := fun q d c => stRes m d (Fin.cast (nCore_all q) c) (m (pLoc d)) (m (nLoc d))
  dn := fun q d c => stRes m d (Fin.cast (nCore_all q) c) (posOf m d) (negOf m d)
  go := fun q d c i => goRes m d (Fin.cast (nCore_all q) c) (Fin.cast (nSub_all q) i) (m (pLoc d)) (m (nLoc d))
  td := fun q d c i => goRes m d (Fin.cast (nCore_all q) c) (Fin.cast (nSub_all q) i) (posOf m d) (negOf m d)
  x := fun _ _ => iprop(emp)

theorem P_st (d : Dev nD) (c : Fin ((K (F := F)).nCore 0)) : (P m).st 0 d c = stRes m d (Fin.cast nCore_zero c) (m (pLoc d)) (m (nLoc d)) := by
  unfold P; show stRes m d (Fin.cast (nCore_all 0) c) (m (pLoc d)) (m (nLoc d)) = _; rfl
theorem P_dn (d : Dev nD) (c : Fin ((K (F := F)).nCore 0)) : (P m).dn 0 d c = stRes m d (Fin.cast nCore_zero c) (posOf m d) (negOf m d) := by
  unfold P; show stRes m d (Fin.cast (nCore_all 0) c) (posOf m d) (negOf m d) = _; rfl
theorem P_go (d : Dev nD) (c : Fin ((K (F := F)).nCore 0)) (i : Fin ((K (F := F)).nSub 0)) :
    (P m).go 0 d c i = goRes m d (Fin.cast nCore_zero c) (Fin.cast nSub_zero i) (m (pLoc d)) (m (nLoc d)) := by unfold P; rfl
theorem P_td (d : Dev nD) (c : Fin ((K (F := F)).nCore 0)) (i : Fin ((K (F := F)).nSub 0)) :
    (P m).td 0 d c i = goRes m d (Fin.cast nCore_zero c) (Fin.cast nSub_zero i) (posOf m d) (negOf m d) := by unfold P; rfl

omit [FloatOps F] in
theorem goRes_storable (d : Dev nD) (c : Fin 2) (i : Fin 16) (fp : Buf (Elt F) (pLoc d)) (fn : Buf (Elt F) (nLoc d)) :
    BI.Storable (upEmb : UEmb _ 𝕄) (goRes m d c i fp fn) := by unfold goRes; exact tileRes_storable m d _ _ fp fn
omit [FloatOps F] in
theorem stRes_storable (d : Dev nD) (c : Fin 2) (fp : Buf (Elt F) (pLoc d)) (fn : Buf (Elt F) (nLoc d)) :
    BI.Storable (upEmb : UEmb _ 𝕄) (stRes m d c fp fn) := by
  have : ∀ i : Fin 16, BI.Storable (upEmb : UEmb _ 𝕄) (goRes m d c i fp fn) := fun i => goRes_storable m d c i fp fn
  unfold stRes; exact BI.Storable.bigSep _ Finset.univ _

instance P_storable : (P (F := F) m).IsStorable where
  st _ d _ := stRes_storable m d _ _ _
  dn _ d _ := stRes_storable m d _ _ _
  go _ d _ _ := goRes_storable m d _ _ _ _
  td _ d _ _ := goRes_storable m d _ _ _ _

/-! ## The obligation -/

theorem defs₀_vector (c : Fin τ.nSC) (s : Fin τ.nSub) :
    defs₀ (F := F) (.scVector c s) 0 ()
      = SparseCore.onTile hcore0 hsub0 (fun c s => cc0_sc_kernel (coordsV c s)
          aV (Memref.isWhole_whole _) vV (Memref.isWhole_whole _) tV (Memref.isWhole_whole _) pV (Memref.isWhole_whole _) nV (Memref.isWhole_whole _)
          b0 (Memref.isWhole_whole _) b1 (Memref.isWhole_whole _) b2 (Memref.isWhole_whole _) b3 (Memref.isWhole_whole _) b4 (Memref.isWhole_whole _) b5 (Memref.isWhole_whole _)
          cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hbody : TileBody m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [P_go, P_td]; unfold goRes
  exact (hbody hF d (coordsV ⟨_, hci.1⟩ ⟨_, hci.2⟩) O W hO (qT (Fin.cast nCore_zero c) (Fin.cast nSub_zero i))).trans (wp_mono frame _ _ fun _ => obl_post)

end Cert.KI

end
-- ==== Proof.LaunchSplit.lean ====
/-
  The launch, second part: the arrays dealt to the vector subcores and gathered back.

  Subcore (c, i)'s rows of the attributes, the values and the positives are rows 256 i + 128 c + [0, 128); its rows of
  negative plane j are rows 4096 j + 256 i + 128 c + [0, 128).  Over the 2 × 16 subcores (and the 49 planes) these
  sets are pairwise disjoint and cover the array: two that share a row have the same quotients of that row by 4096,
  256 and 128, and every row below 4096 (below 49 · 4096) has such quotients in range.  So a whole array is the
  separating conjunction of the subcores' pieces; the table, read by all, goes out in shares.
-/
import proofs.«210835_g78632261255710_cont_9to1_m_350_20_alg».proof.Proof.LaunchPay

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

local notation "aV" => (Memref.whole Cert.KernelIdeal.main_arg0_scv : Memref Cert.KernelIdeal.sig Kind.scVector Space.hbm Cert.KernelIdeal.S4096 EltTy.i32)
local notation "vV" => (Memref.whole Cert.KernelIdeal.main_arg1_scv : Memref Cert.KernelIdeal.sig Kind.scVector Space.hbm Cert.KernelIdeal.S4096 EltTy.i32)
local notation "tV" => (Memref.whole Cert.KernelIdeal.main_v1_scv : Memref Cert.KernelIdeal.sig Kind.scVector Space.hbm Cert.KernelIdeal.S100000x128 EltTy.f32)
local notation "pV" => (Memref.whole Cert.KernelIdeal.main_v2_0_scv : Memref Cert.KernelIdeal.sig Kind.scVector Space.hbm Cert.KernelIdeal.S4096x128 EltTy.f32)
local notation "nV" => (Memref.whole Cert.KernelIdeal.main_v2_1_scv : Memref Cert.KernelIdeal.sig Kind.scVector Space.hbm Cert.KernelIdeal.S200704x128 EltTy.f32)
local notation "b0" => (Memref.whole Cert.KernelIdeal.cc0_scratch0 : Memref Cert.KernelIdeal.sig Kind.scVector Space.vmem Cert.KernelIdeal.S128 EltTy.i32)
local notation "b1" => (Memref.whole Cert.KernelIdeal.cc0_scratch1 : Memref Cert.KernelIdeal.sig Kind.scVector Space.vmem Cert.KernelIdeal.S128 EltTy.i32)
local notation "b2" => (Memref.whole Cert.KernelIdeal.cc0_scratch2 : Memref Cert.KernelIdeal.sig Kind.scVector Space.vmem Cert.KernelIdeal.S128 EltTy.i32)
local notation "b3" => (Memref.whole Cert.KernelIdeal.cc0_scratch3 : Memref Cert.KernelIdeal.sig Kind.scVector Space.vmem Cert.KernelIdeal.S49x128 EltTy.i32)
local notation "b4" => (Memref.whole Cert.KernelIdeal.cc0_scratch4 : Memref Cert.KernelIdeal.sig Kind.scVector Space.vmem Cert.KernelIdeal.S128x128 EltTy.f32)
local notation "b5" => (Memref.whole Cert.KernelIdeal.cc0_scratch5 : Memref Cert.KernelIdeal.sig Kind.scVector Space.vmem Cert.KernelIdeal.S6x128x128 EltTy.f32)

variable (m : (ℓ : Loc nD τ sig) → Buf (Elt F) ℓ)

/-! ## The row sets, as intervals of rows -/

theorem set_aRowK (L : grid0.Coords) : (aRowK L).view.set = (Rect.unit (s := S4096) (k0_off1 L) S128.size (k0_off1_inb L)).set := by
  show ((View.whole (main_arg0_scv : Ref sig .scVector)).slice (Rect.unit (s := S4096) (k0_off1 L) S128.size (k0_off1_inb L))).set = _
  rw [View.set_slice]; exact Finset.map_refl
theorem set_vRowK (L : grid0.Coords) : (vRowK L).view.set = (Rect.unit (s := S4096) (k0_off1 L) S128.size (k0_off1_inb L)).set := by
  show ((View.whole (main_arg1_scv : Ref sig .scVector)).slice (Rect.unit (s := S4096) (k0_off1 L) S128.size (k0_off1_inb L))).set = _
  rw [View.set_slice]; exact Finset.map_refl
theorem set_pRowK (L : grid0.Coords) : (pRowK L).view.set = (Rect.unit (s := S4096x128) (k0_off29 L) S128x128.size (k0_off29_inb L)).set := by
  show ((View.whole (main_v2_0_scv : Ref sig .scVector)).slice (Rect.unit (s := S4096x128) (k0_off29 L) S128x128.size (k0_off29_inb L))).set = _
  rw [View.set_slice]; exact Finset.map_refl
theorem set_nRowK (L : grid0.Coords) (j : Fin 49) : (nRowK L j).view.set = (Rect.unit (s := S200704x128) (nOff L j) S128x128.size (nOff_inb L j)).set := by
  show ((View.whole (main_v2_1_scv : Ref sig .scVector)).slice (Rect.unit (s := S200704x128) (nOff L j) S128x128.size (nOff_inb L j))).set = _
  rw [View.set_slice]; exact Finset.map_refl

theorem mem_aRow (L : grid0.Coords) (x : S4096.Idx) : x ∈ (aRowK L).view.set ↔ base L ≤ (x 0).val ∧ (x 0).val < base L + 128 := by
  rw [set_aRowK, Rect.mem_set_unit, k0_off1_eq, Fin.forall_fin_one]; exact Iff.rfl
theorem mem_vRow (L : grid0.Coords) (x : S4096.Idx) : x ∈ (vRowK L).view.set ↔ base L ≤ (x 0).val ∧ (x 0).val < base L + 128 := by
  rw [set_vRowK, Rect.mem_set_unit, k0_off1_eq, Fin.forall_fin_one]; exact Iff.rfl
theorem mem_pRow (L : grid0.Coords) (x : S4096x128.Idx) : x ∈ (pRowK L).view.set ↔ base L ≤ (x 0).val ∧ (x 0).val < base L + 128 := by
  rw [set_pRowK, Rect.mem_set_unit, k0_off29_eq, Fin.forall_fin_two]
  have h1 : (x 1).val < 128 := (x 1).isLt
  constructor
  · rintro ⟨h0, -⟩; exact h0
  · intro h; exact ⟨h, Nat.zero_le _, show (x 1).val < 0 + 128 by omega⟩
theorem mem_nRow (L : grid0.Coords) (j : Fin 49) (x : S200704x128.Idx) :
    x ∈ (nRowK L j).view.set ↔ 4096 * j.val + base L ≤ (x 0).val ∧ (x 0).val < 4096 * j.val + base L + 128 := by
  rw [set_nRowK, Rect.mem_set_unit, Fin.forall_fin_two]
  have h1 : (x 1).val < 128 := (x 1).isLt
  constructor
  · rintro ⟨h0, -⟩; exact h0
  · intro h; exact ⟨h, Nat.zero_le _, show (x 1).val < 0 + 128 by omega⟩

/-! ## The subcores' sets partition each array -/

abbrev TI : Type := Fin 2 × Fin 16
abbrev TN : Type := (Fin 2 × Fin 16) × Fin 49

abbrev aK (t : TI) : Finset S4096.Idx := (aRowK (co t.1 t.2)).view.set
abbrev vK (t : TI) : Finset S4096.Idx := (vRowK (co t.1 t.2)).view.set
abbrev pK (t : TI) : Finset S4096x128.Idx := (pRowK (co t.1 t.2)).view.set
abbrev nK (t : TN) : Finset S200704x128.Idx := (nRowK (co t.1.1 t.1.2) t.2).view.set

theorem mem_aK (c : Fin 2) (i : Fin 16) (x : S4096.Idx) :
    x ∈ aK (c, i) ↔ 256 * i.val + 128 * c.val ≤ (x 0).val ∧ (x 0).val < 256 * i.val + 128 * c.val + 128 := mem_aRow (co c i) x
theorem mem_vK (c : Fin 2) (i : Fin 16) (x : S4096.Idx) :
    x ∈ vK (c, i) ↔ 256 * i.val + 128 * c.val ≤ (x 0).val ∧ (x 0).val < 256 * i.val + 128 * c.val + 128 := mem_vRow (co c i) x
theorem mem_pK (c : Fin 2) (i : Fin 16) (x : S4096x128.Idx) :
    x ∈ pK (c, i) ↔ 256 * i.val + 128 * c.val ≤ (x 0).val ∧ (x 0).val < 256 * i.val + 128 * c.val + 128 := mem_pRow (co c i) x
theorem mem_nK (c : Fin 2) (i : Fin 16) (j : Fin 49) (x : S200704x128.Idx) :
    x ∈ nK ((c, i), j) ↔ 4096 * j.val + (256 * i.val + 128 * c.val) ≤ (x 0).val ∧ (x 0).val < 4096 * j.val + (256 * i.val + 128 * c.val) + 128 :=
  mem_nRow (co c i) j x

theorem aK_disjoint : ∀ t ∈ (Finset.univ : Finset TI), ∀ t' ∈ (Finset.univ : Finset TI), t ≠ t' → Disjoint (aK t) (aK t') := by
  rintro ⟨c, i⟩ - ⟨c', i'⟩ - hne
  rw [Finset.disjoint_left]; intro x hx hx'
  rw [mem_aK] at hx hx'
  have hc := c.isLt; have hc' := c'.isLt
  have h : i.val = i'.val ∧ c.val = c'.val := by omega
  exact hne (Prod.ext (Fin.ext h.2) (Fin.ext h.1))
theorem vK_disjoint : ∀ t ∈ (Finset.univ : Finset TI), ∀ t' ∈ (Finset.univ : Finset TI), t ≠ t' → Disjoint (vK t) (vK t') := by
  rintro ⟨c, i⟩ - ⟨c', i'⟩ - hne
  rw [Finset.disjoint_left]; intro x hx hx'
  rw [mem_vK] at hx hx'
  have hc := c.isLt; have hc' := c'.isLt
  have h : i.val = i'.val ∧ c.val = c'.val := by omega
  exact hne (Prod.ext (Fin.ext h.2) (Fin.ext h.1))
theorem pK_disjoint : ∀ t ∈ (Finset.univ : Finset TI), ∀ t' ∈ (Finset.univ : Finset TI), t ≠ t' → Disjoint (pK t) (pK t') := by
  rintro ⟨c, i⟩ - ⟨c', i'⟩ - hne
  rw [Finset.disjoint_left]; intro x hx hx'
  rw [mem_pK] at hx hx'
  have hc := c.isLt; have hc' := c'.isLt
  have h : i.val = i'.val ∧ c.val = c'.val := by omega
  exact hne (Prod.ext (Fin.ext h.2) (Fin.ext h.1))
theorem nK_disjoint : ∀ t ∈ (Finset.univ : Finset TN), ∀ t' ∈ (Finset.univ : Finset TN), t ≠ t' → Disjoint (nK t) (nK t') := by
  rintro ⟨⟨c, i⟩, j⟩ - ⟨⟨c', i'⟩, j'⟩ - hne
  rw [Finset.disjoint_left]; intro x hx hx'
  rw [mem_nK] at hx hx'
  have hc := c.isLt; have hc' := c'.isLt; have hi := i.isLt; have hi' := i'.isLt
  have h : j.val = j'.val ∧ i.val = i'.val ∧ c.val = c'.val := by omega
  exact hne (Prod.ext (Prod.ext (Fin.ext h.2.2) (Fin.ext h.2.1)) (Fin.ext h.1))

theorem aK_cover : (Finset.univ : Finset TI).biUnion aK = Finset.univ := by
  ext x; simp only [Finset.mem_biUnion, Finset.mem_univ, true_and, iff_true]
  have hx : (x 0).val < 4096 := (x 0).isLt
  exact ⟨(⟨(x 0).val / 128 % 2, by omega⟩, ⟨(x 0).val / 256, by omega⟩), (mem_aK _ _ x).mpr (by constructor <;> (dsimp only; omega))⟩
theorem vK_cover : (Finset.univ : Finset TI).biUnion vK = Finset.univ := by
  ext x; simp only [Finset.mem_biUnion, Finset.mem_univ, true_and, iff_true]
  have hx : (x 0).val < 4096 := (x 0).isLt
  exact ⟨(⟨(x 0).val / 128 % 2, by omega⟩, ⟨(x 0).val / 256, by omega⟩), (mem_vK _ _ x).mpr (by constructor <;> (dsimp only; omega))⟩
theorem pK_cover : (Finset.univ : Finset TI).biUnion pK = Finset.univ := by
  ext x; simp only [Finset.mem_biUnion, Finset.mem_univ, true_and, iff_true]
  have hx : (x 0).val < 4096 := (x 0).isLt
  exact ⟨(⟨(x 0).val / 128 % 2, by omega⟩, ⟨(x 0).val / 256, by omega⟩), (mem_pK _ _ x).mpr (by constructor <;> (dsimp only; omega))⟩
theorem nK_cover : (Finset.univ : Finset TN).biUnion nK = Finset.univ := by
  ext x; simp only [Finset.mem_biUnion, Finset.mem_univ, true_and, iff_true]
  have hx : (x 0).val < 200704 := (x 0).isLt
  exact ⟨((⟨(x 0).val / 128 % 2, by omega⟩, ⟨(x 0).val % 4096 / 256, by omega⟩), ⟨(x 0).val / 4096, by omega⟩),
    (mem_nK _ _ _ x).mpr (by constructor <;> (dsimp only; omega))⟩

/-! ## A whole array is its subcores' pieces -/

theorem a_split (d : Dev nD) (f : Buf (Elt F) (aLoc d)) :
    (aLoc d ↦{fullShare} f : sProp 𝕄) = bigSep Finset.univ fun c : Fin 2 => bigSep Finset.univ fun i : Fin 16 =>
      ((aRowK (co c i)).view.loc (V d (cV (co c i)) (jV (co c i))) ↦[(aRowK (co c i)).view.set]{fullShare} f) := by
  have h : (aLoc d ↦{fullShare} f : sProp 𝕄) = bigSep Finset.univ fun t : TI => aLoc d ↦[aK t]{fullShare} f := by
    rw [← pointsTo_biUnion Finset.univ (ℓ := aLoc d) aK aK_disjoint, aK_cover]; try rfl
  exact h.trans (bigSep_univ_prod _)
theorem v_split (d : Dev nD) (f : Buf (Elt F) (vLoc d)) :
    (vLoc d ↦{fullShare} f : sProp 𝕄) = bigSep Finset.univ fun c : Fin 2 => bigSep Finset.univ fun i : Fin 16 =>
      ((vRowK (co c i)).view.loc (V d (cV (co c i)) (jV (co c i))) ↦[(vRowK (co c i)).view.set]{fullShare} f) := by
  have h : (vLoc d ↦{fullShare} f : sProp 𝕄) = bigSep Finset.univ fun t : TI => vLoc d ↦[vK t]{fullShare} f := by
    rw [← pointsTo_biUnion Finset.univ (ℓ := vLoc d) vK vK_disjoint, vK_cover]; try rfl
  exact h.trans (bigSep_univ_prod _)
theorem p_split (d : Dev nD) (f : Buf (Elt F) (pLoc d)) :
    (pLoc d ↦{fullShare} f : sProp 𝕄) = bigSep Finset.univ fun c : Fin 2 => bigSep Finset.univ fun i : Fin 16 =>
      ((pRowK (co c i)).view.loc (V d (cV (co c i)) (jV (co c i))) ↦[(pRowK (co c i)).view.set]{fullShare} f) := by
  have h : (pLoc d ↦{fullShare} f : sProp 𝕄) = bigSep Finset.univ fun t : TI => pLoc d ↦[pK t]{fullShare} f := by
    rw [← pointsTo_biUnion Finset.univ (ℓ := pLoc d) pK pK_disjoint, pK_cover]; try rfl
  exact h.trans (bigSep_univ_prod _)
theorem n_split (d : Dev nD) (f : Buf (Elt F) (nLoc d)) :
    (nLoc d ↦{fullShare} f : sProp 𝕄) = bigSep Finset.univ fun c : Fin 2 => bigSep Finset.univ fun i : Fin 16 =>
      bigSep (Finset.univ : Finset (Fin 49)) fun j =>
        ((nRowK (co c i) j).view.loc (V d (cV (co c i)) (jV (co c i))) ↦[(nRowK (co c i) j).view.set]{fullShare} f) := by
  have h : (nLoc d ↦{fullShare} f : sProp 𝕄) = bigSep Finset.univ fun t : TN => nLoc d ↦[nK t]{fullShare} f := by
    rw [← pointsTo_biUnion Finset.univ (ℓ := nLoc d) nK nK_disjoint, nK_cover]; try rfl
  refine h.trans ((bigSep_univ_prod _).trans ?_)
  exact (bigSep_univ_prod (fun t : TI => bigSep Finset.univ fun j : Fin 49 => (nLoc d ↦[nK (t, j)]{fullShare} f : sProp 𝕄)))
theorem t_split (d : Dev nD) (f : Buf (Elt F) (tLoc d)) :
    (tLoc d ↦{fullShare} f : sProp 𝕄) = bigSep Finset.univ fun c : Fin 2 => bigSep Finset.univ fun i : Fin 16 =>
      ((tV).view.loc (V d (cV (co c i)) (jV (co c i))) ↦{qT c i} f) := by
  have h : (tLoc d ↦{fullShare} f : sProp 𝕄) = bigSep Finset.univ fun c : Fin 2 => (tLoc d ↦{qC c} f : sProp 𝕄) :=
    pointsTo_leaves Finset.univ f 1 fullShare
  exact h.trans (bigSep_congr fun c _ => pointsTo_leaves Finset.univ f 4 (qC c))

/-- The five arrays of the call, whole, are the two SparseCores' operands. -/
theorem arrays_split (d : Dev nD) (fp : Buf (Elt F) (pLoc d)) (fn : Buf (Elt F) (nLoc d)) :
    (iprop((aLoc d ↦{fullShare} m (aLoc d)) ∗ (vLoc d ↦{fullShare} m (vLoc d)) ∗ (tLoc d ↦{fullShare} tbl m d)
        ∗ (pLoc d ↦{fullShare} fp) ∗ (nLoc d ↦{fullShare} fn)) : sProp 𝕄)
      = bigSep Finset.univ fun c : Fin 2 => stRes m d c fp fn := by
  rw [a_split, v_split, t_split, p_split, n_split]
  unfold stRes goRes tileRes
  simp only [bigSep_sep']

end Cert.KI

end
-- ==== Proof.Launch.lean ====
/-
  The launch, last part: the launch element, @main on the TensorCore, how the final memory reads the results, and
  the run of the whole program.

  @main lays the bank out as the table (a transpose of the first two axes, then the rows flattened: the table of the
  specification by definition), hands the call the five arrays whole, which are the two SparseCores' operands, gets
  them back with the positives and the plane-major negatives at the looked-up rows, and re-lays the negatives (the
  planes unflattened, then moved to the middle axis: the specification's returned negatives by definition).
-/
import proofs.«210835_g78632261255710_cont_9to1_m_350_20_alg».proof.Proof.LaunchSplit

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

local notation "aV" => (Memref.whole Cert.KernelIdeal.main_arg0_scv : Memref Cert.KernelIdeal.sig Kind.scVector Space.hbm Cert.KernelIdeal.S4096 EltTy.i32)
local notation "vV" => (Memref.whole Cert.KernelIdeal.main_arg1_scv : Memref Cert.KernelIdeal.sig Kind.scVector Space.hbm Cert.KernelIdeal.S4096 EltTy.i32)
local notation "tV" => (Memref.whole Cert.KernelIdeal.main_v1_scv : Memref Cert.KernelIdeal.sig Kind.scVector Space.hbm Cert.KernelIdeal.S100000x128 EltTy.f32)
local notation "pV" => (Memref.whole Cert.KernelIdeal.main_v2_0_scv : Memref Cert.KernelIdeal.sig Kind.scVector Space.hbm Cert.KernelIdeal.S4096x128 EltTy.f32)
local notation "nV" => (Memref.whole Cert.KernelIdeal.main_v2_1_scv : Memref Cert.KernelIdeal.sig Kind.scVector Space.hbm Cert.KernelIdeal.S200704x128 EltTy.f32)
local notation "b0" => (Memref.whole Cert.KernelIdeal.cc0_scratch0 : Memref Cert.KernelIdeal.sig Kind.scVector Space.vmem Cert.KernelIdeal.S128 EltTy.i32)
local notation "b1" => (Memref.whole Cert.KernelIdeal.cc0_scratch1 : Memref Cert.KernelIdeal.sig Kind.scVector Space.vmem Cert.KernelIdeal.S128 EltTy.i32)
local notation "b2" => (Memref.whole Cert.KernelIdeal.cc0_scratch2 : Memref Cert.KernelIdeal.sig Kind.scVector Space.vmem Cert.KernelIdeal.S128 EltTy.i32)
local notation "b3" => (Memref.whole Cert.KernelIdeal.cc0_scratch3 : Memref Cert.KernelIdeal.sig Kind.scVector Space.vmem Cert.KernelIdeal.S49x128 EltTy.i32)
local notation "b4" => (Memref.whole Cert.KernelIdeal.cc0_scratch4 : Memref Cert.KernelIdeal.sig Kind.scVector Space.vmem Cert.KernelIdeal.S128x128 EltTy.f32)
local notation "b5" => (Memref.whole Cert.KernelIdeal.cc0_scratch5 : Memref Cert.KernelIdeal.sig Kind.scVector Space.vmem Cert.KernelIdeal.S6x128x128 EltTy.f32)

variable (m : (ℓ : Loc nD τ sig) → Buf (Elt F) ℓ) (ρ : Dev nD → PrngReg)

variable [FloatOps F]

/-! ## A SparseCore's operands go to its subcores and come back -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  rw [P_st, P_dn]
  simp only [P_go, P_td]
  unfold stRes
  rw [bigSep_tasks (F := F) (fun i => goRes m d (Fin.cast nCore_zero c) i (m (pLoc d)) (m (nLoc d))),
    bigSep_tasks (F := F) (fun i => goRes m d (Fin.cast nCore_zero c) i (posOf m d) (negOf m d))]
  iintro H; imodintro
  isplitl [H]; · iexact H
  iintro H; iexact H

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev x' : DevRef τ sig := Proc.devRef .tc (main_arg2 : Ref sig .tc)
abbrev w0' : DevRef τ sig := Proc.devRef .tc (main_v0 : Ref sig .tc)
abbrev t' : DevRef τ sig := Proc.devRef .tc (main_v1 : Ref sig .tc)
abbrev n' : DevRef τ sig := Proc.devRef .tc (main_v2_1 : Ref sig .tc)
abbrev w3' : DevRef τ sig := Proc.devRef .tc (main_v3 : Ref sig .tc)
abbrev w4' : DevRef τ sig := Proc.devRef .tc (main_v4 : Ref sig .tc)
abbrev w0Loc (d : Dev nD) : Loc nD τ sig := (SparseCore.T d).loc main_v0
abbrev w3Loc (d : Dev nD) : Loc nD τ sig := (SparseCore.T d).loc main_v3
abbrev w4Loc (d : Dev nD) : Loc nD τ sig := (SparseCore.T d).loc main_v4

/-- The four host operations: the bank's transpose and flattening before the call, the negatives' unflattening and
    transpose after it. -/
abbrev opT1 : HloOp τ sig (Elt F) := StableHlo.unary main_arg2 main_v0 ((transpose S50x2000x128 [1, 0, 2] · transposes_S2000x50x128_S50x2000x128_1_0_2) : (⟨S2000x50x128, .f32⟩ : BufTy).Contents (Elt F) → (⟨S50x2000x128, .f32⟩ : BufTy).Contents (Elt F))
abbrev opR1 : HloOp τ sig (Elt F) := StableHlo.reshape main_v0 main_v1 rfl shapeCasts_S50x2000x128_S100000x128
abbrev opR2 : HloOp τ sig (Elt F) := StableHlo.reshape main_v2_1 main_v3 rfl shapeCasts_S200704x128_S49x4096x128
abbrev opT2 : HloOp τ sig (Elt F) := StableHlo.unary main_v3 main_v4 ((transpose S4096x49x128 [1, 0, 2] · transposes_S49x4096x128_S4096x49x128_1_0_2) : (⟨S49x4096x128, .f32⟩ : BufTy).Contents (Elt F) → (⟨S4096x49x128, .f32⟩ : BufTy).Contents (Elt F))

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (vLoc d ↦{fullShare} W main_arg1) ∗ (xLoc d ↦{fullShare} W main_arg2)
          ∗ (w0Loc d ↦{fullShare} W main_v0) ∗ (tLoc d ↦{fullShare} W main_v1) ∗ (pLoc d ↦{fullShare} W main_v2_0)
          ∗ (nLoc d ↦{fullShare} W main_v2_1) ∗ (w3Loc d ↦{fullShare} W main_v3) ∗ (w4Loc d ↦{fullShare} W main_v4)) := by
  unfold unscopedBufs
  rw [show (Finset.univ.filter fun b : Ref sig .tc => ¬ b.isScoped)
      = {main_arg0, main_arg1, main_arg2, main_v0, main_v1, main_v2_0, main_v2_1, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
/-- Two whole buffers held: the pair an operation reads and writes. -/
theorem held_pair (d : Dev nD) (r s : Ref sig .tc) (h : r ≠ s) (W : Valuation τ sig (Elt F)) :
    (held (T d) ({Proc.devRef .tc r, Proc.devRef .tc s} : Finset (DevRef τ sig)) W : sProp 𝕄)
      = iprop(((SparseCore.T d).loc r ↦{fullShare} W (Proc.devRef .tc r)) ∗ ((SparseCore.T d).loc s ↦{fullShare} W (Proc.devRef .tc s))) := by
  unfold held
  rw [SparseCore.bigSep_insert' (by rw [Finset.mem_singleton]; exact StableHlo.devRef_ne_of_ne h), bigSep_singleton]

/-- The launch valuation; after the transpose; before the negatives are re-laid; after their unflattening. -/
def V0 (d : Dev nD) : Valuation τ sig (Elt F) := fun b => m (d, b)
def V1 (d : Dev nD) : Valuation τ sig (Elt F) := (opT1 (F := F)).result (V0 m d)
def V3 (d : Dev nD) : Valuation τ sig (Elt F) := Function.update (V0 m d) n' (negOf m d)
def V4 (d : Dev nD) : Valuation τ sig (Elt F) := (opR2 (F := F)).result (V3 m d)

theorem V1_x (d : Dev nD) : (opT1 (F := F)).result (V0 m d) x' = m (xLoc d) :=
  (opT1 (F := F)).result_of_not_mem _ (show x' ∉ ({w0'} : Finset (DevRef τ sig)) by decide)
theorem V1_t (d : Dev nD) : V1 m d t' = m (tLoc d) :=
  (opT1 (F := F)).result_of_not_mem _ (show t' ∉ ({w0'} : Finset (DevRef τ sig)) by decide)
theorem V2_t (d : Dev nD) : (opR1 (F := F)).result (V1 m d) t' = tbl m d := by
  rw [StableHlo.reshape_result]; unfold V1; rw [StableHlo.unary_result]; rfl
theorem V3_n (d : Dev nD) : V3 m d n' = negOf m d := Function.update_self _ _ _
theorem V3_w3 (d : Dev nD) : V3 m d w3' = m (w3Loc d) := Function.update_of_ne (show w3' ≠ n' by decide) _ _
theorem V4_n (d : Dev nD) : (opR2 (F := F)).result (V3 m d) n' = negOf m d :=
  ((opR2 (F := F)).result_of_not_mem _ (show n' ∉ ({w3'} : Finset (DevRef τ sig)) by decide)).trans (V3_n m d)
theorem V4_w4 (d : Dev nD) : V4 m d w4' = m (w4Loc d) :=
  ((opR2 (F := F)).result_of_not_mem _ (show w4' ∉ ({w3'} : Finset (DevRef τ sig)) by decide)).trans
    (Function.update_of_ne (show w4' ≠ n' by decide) _ _)
theorem V5_w4 (d : Dev nD) : (opT2 (F := F)).result (V4 m d) w4' = negOut (negOf m d) := by
  rw [StableHlo.unary_result]; unfold V4; rw [StableHlo.reshape_result, V3_n]; rfl

theorem st0_eq (d : Dev nD) :
    (bigSep Finset.univ fun c : Fin ((K (F := F)).nCore 0) => (P m).st 0 d c) = bigSep Finset.univ fun c : Fin 2 => stRes m d c (m (pLoc d)) (m (nLoc d)) := by
  simp only [P_st]
  exact bigSep_cores (F := F) (fun c => stRes m d c (m (pLoc d)) (m (nLoc d)))
theorem dn0_eq (d : Dev nD) :
    (bigSep Finset.univ fun c : Fin ((K (F := F)).nCore 0) => (P m).dn 0 d c) = bigSep Finset.univ fun c : Fin 2 => stRes m d c (posOf m d) (negOf m d) := by
  simp only [P_dn]
  exact bigSep_cores (F := F) (fun c => stRes m d c (posOf m d) (negOf m d))

/-- What @main leaves the claim: the positives and the returned negatives at the looked-up rows, the three arguments
    at their launch contents. -/
abbrev FIN (d : Dev nD) : sProp 𝕄 :=
  iprop((pLoc d ↦{fullShare} posOf m d) ∗ (w4Loc d ↦{fullShare} negOut (negOf m d))
    ∗ (aLoc d ↦{fullShare} m (aLoc d)) ∗ (vLoc d ↦{fullShare} m (vLoc d)) ∗ (xLoc d ↦{fullShare} m (xLoc d)))

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hv, Hx, Hw0, Ht, Hp, Hn, Hw3, Hw4⟩, -, -⟩, -⟩
  -- the bank transposed
  iapply (wp_hlo_within 𝒱 (SparseCore.T d) none Set.univ (op := opT1) (S := {x', w0'}) (Finset.Subset.refl _) (V := V0 m d)) $$ [Hb Hx Hw0]
  · isplitl [Hb]; · iexact Hb
    rw [held_pair d main_arg2 main_v0 (by decide)]
    isplitl [Hx]; · iexact Hx
    iexact Hw0
  iintro ⟨Hb, Hheld⟩
  rw [wp_ret]; imodintro
  ihave Hh := (Entails.of_eq (held_pair (F := F) d main_arg2 main_v0 (by decide) _)) $$ Hheld
  icases Hh with ⟨Hx, Hw0⟩
  rw [V1_x]
  -- its rows flattened: the table
  iapply (wp_hlo_within 𝒱 (SparseCore.T d) none Set.univ (op := opR1) (S := {w0', t'}) (Finset.Subset.refl _) (V := V1 m d)) $$ [Hb Hw0 Ht]
  · isplitl [Hb]; · iexact Hb
    rw [held_pair d main_v0 main_v1 (by decide), V1_t]
    isplitl [Hw0]; · iexact Hw0
    iexact Ht
  iintro ⟨Hb, Hheld⟩
  rw [wp_ret]; imodintro
  ihave Hh := (Entails.of_eq (held_pair (F := F) d main_v0 main_v1 (by decide) _)) $$ Hheld
  icases Hh with ⟨Hw0, Ht⟩
  rw [V2_t]
  -- the call
  iapply ((K (F := F)).wp_run (D (F := F)) 𝒱 (EH := EH) (P := P m) κ d 0) $$ [Hst Ha Hv Ht Hp Hn Hb Hx Hw0 Hw3 Hw4]
  isplitr; · iexact Hctx
  isplitl [Hst]; · iexact Hst
  isplitl [Ha Hv Ht Hp Hn]
  · rw [st0_eq, ← arrays_split]
    isplitl [Ha]; · iexact Ha
    isplitl [Hv]; · iexact Hv
    isplitl [Ht]; · iexact Ht
    isplitl [Hp]; · iexact Hp
    iexact Hn
  iintro ⟨Hst, Hdn⟩
  ihave Hdn' := (Entails.of_eq ((dn0_eq m d).trans (arrays_split m d (posOf m d) (negOf m d)).symm)) $$ Hdn
  icases Hdn' with ⟨Ha, Hv, Ht, Hp, Hn⟩
  -- the negatives' planes unflattened
  iapply (wp_hlo_within 𝒱 (SparseCore.T d) none Set.univ (op := opR2) (S := {n', w3'}) (Finset.Subset.refl _) (V := V3 m d)) $$ [Hb Hn Hw3]
  · isplitl [Hb]; · iexact Hb
    rw [held_pair d main_v2_1 main_v3 (by decide), V3_n, V3_w3]
    isplitl [Hn]; · iexact Hn
    iexact Hw3
  iintro ⟨Hb, Hheld⟩
  rw [wp_ret]; imodintro
  ihave Hh := (Entails.of_eq (held_pair (F := F) d main_v2_1 main_v3 (by decide) _)) $$ Hheld
  icases Hh with ⟨Hn, Hw3⟩
  -- and moved to the middle axis
  iapply (wp_hlo_within 𝒱 (SparseCore.T d) none Set.univ (op := opT2) (S := {w3', w4'}) (Finset.Subset.refl _) (V := V4 m d)) $$ [Hb Hw3 Hw4]
  · isplitl [Hb]; · iexact Hb
    rw [held_pair d main_v3 main_v4 (by decide), V4_w4]
    isplitl [Hw3]; · iexact Hw3
    iexact Hw4
  iintro ⟨Hb, Hheld⟩
  ihave Hh := (Entails.of_eq (held_pair (F := F) d main_v3 main_v4 (by decide) _)) $$ Hheld
  icases Hh with ⟨Hw3, Hw4⟩
  rw [V5_w4]
  rw [wp_ret]; imodintro; imodintro
  isplitl [Hst]; · iexact Hst
  isplitl [Hp]; · iexact Hp
  isplitl [Hw4]; · iexact Hw4
  isplitl [Ha]; · iexact Ha
  isplitl [Hv]; · iexact Hv
  iexact Hx

def fq (d : Dev nD) (s' : Phys nD τ sig (Elt F)) : Prop :=
  s'.mem.mem (pLoc d) = posOf m d ∧ s'.mem.mem (w4Loc d) = negOut (negOf m d)
    ∧ s'.mem.mem (aLoc d) = m (aLoc d) ∧ s'.mem.mem (vLoc d) = m (vLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Hp, Hw4, Ha, Hv, Hx⟩, HSI⟩
  ihave H := (persistent_entails_right (SI_pointsTo_agree (st := s') (ℓ := pLoc d) (I := Finset.univ) (q := fullShare) (f := posOf m d))) $$ [HSI Hp]
  · isplitl [HSI] <;> iassumption
  icases H with ⟨%h1, HSI, -⟩
  ihave H := (persistent_entails_right (SI_pointsTo_agree (st := s') (ℓ := w4Loc d) (I := Finset.univ) (q := fullShare) (f := negOut (negOf m d)))) $$ [HSI Hw4]
  · isplitl [HSI] <;> iassumption
  icases H with ⟨%h2, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h3, HSI, -⟩
  ihave H := (persistent_entails_right (SI_pointsTo_agree (st := s') (ℓ := vLoc d) (I := Finset.univ) (q := fullShare) (f := m (vLoc d)))) $$ [HSI Hv]
  · isplitl [HSI] <;> iassumption
  icases H with ⟨%h4, HSI, -⟩
  ihave H := (SI_pointsTo_agree (st := s') (ℓ := xLoc d) (I := Finset.univ) (q := fullShare) (f := m (xLoc d))) $$ [HSI Hx]
  · isplitl [HSI] <;> iassumption
  icases H with %h5
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i)⟩

/-! ## The program's run -/

/-- The run of the whole program, its results named: the positives and the returned negatives are the table's rows
    the samples' index words name, the three arguments are unchanged. -/
theorem run_main [∀ e, Nonempty (Elt F e)] (hpre : PreOK m) (hbody : TileBody m) :
    θ_run (Cert.KernelIdeal.defs (F := F)) (Cert.KernelIdeal.threads (F := F)) ⟨m, fun _ => 0, ρ⟩ (fun r => ∀ c : Dev nD,
        r.2.mem ((SparseCore.T c).loc main_v2_0) = posOf m c
      ∧ r.2.mem ((SparseCore.T c).loc main_v4) = negOut (negOf m c)
      ∧ r.2.mem (aLoc c) = m (aLoc c) ∧ r.2.mem (vLoc c) = m (vLoc c) ∧ r.2.mem (xLoc c) = m (xLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts hbody)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.KI

end
-- ==== Proof.GatherVal.lean ====
import proofs.«210835_g78632261255710_cont_9to1_m_350_20_alg».proof.Proof.Spec
import Idealize.ShloMosaic.Lib.SparseCore.Stream

/-! The indexed copy's payload read at an index: element `(r, l)` of the 128 gathered rows is the table's row
    named by entry `r` of the index list, at lane `l`. -/

noncomputable section

namespace Cert.KI

open Cert.KernelIdeal Cert.KernelIdeal.Gen
open Idealize.ShloMosaic Idealize.ShloMosaic.ValueIdx

variable {F : FTy → Type}

/-- Entry `k` of a list of 128 words, in row-major order, is the word at index `k`. -/
theorem rowMajor_symm_S128 (k : Fin S128.numel) (p : Fin 128) (hp : p.val = k.val) : S128.rowMajor.symm k = ix1 p := by
  rw [Equiv.symm_apply_eq]
  exact Fin.ext (by rw [Shape.rowMajor_val_one]; exact hp.symm)

/-- The gathered rows at `(r, l)`: the table's row that entry `r` of the list names, at lane `l`. -/
theorem gather_row_val (hg : S100000x128.Gathers 0 S128x128) (T : S100000x128.Idx → Elt F .f32)
    (offs : S128.Idx → Elt F .i32) (hn : S128.numel = S128x128.size hg.axis')
    (hin : ∀ x, (offs x).toNat < S100000x128.size hg.axis) (x : S128x128.Idx) :
    SparseCore.gatherPayload hg T (SparseCore.rows offs hn hin) x
      = tblRow T (offs (ix1 (⟨(x 0).val, (x 0).isLt⟩ : Fin 128))) (⟨(x 1).val, (x 1).isLt⟩ : Fin 128) := by
  have hw : (offs (ix1 (⟨(x 0).val, (x 0).isLt⟩ : Fin 128))).toNat < 100000 := hin _
  unfold tblRow
  rw [dif_pos hw]
  unfold SparseCore.gatherPayload
  refine congrArg T (funext fun b => Fin.ext ?_)
  match b with
  | ⟨0, _⟩ =>
    show (hg.idx (SparseCore.rows offs hn hin) x hg.axis).val = _
    rw [Shape.Gathers.idx_axis]
    show (offs (S128.rowMajor.symm ((x hg.axis').cast hn.symm))).toNat = (offs (ix1 (⟨(x 0).val, (x 0).isLt⟩ : Fin 128))).toNat
    exact congrArg (fun p => (offs p).toNat) (rowMajor_symm_S128 _ (⟨(x 0).val, (x 0).isLt⟩ : Fin 128) rfl)
  | ⟨1, _⟩ => exact Shape.Gathers.idx_of_ne hg _ x ⟨1, by decide⟩ (by decide)

end Cert.KI

end
-- ==== Proof.PayVals.lean ====
/-
  The index words a subcore computes, lane by lane.  A plane's row is stored in eight 16-lane chunks; chunk `c` of plane
  `j` holds, at lane `l`, the word `j * 2000 + a + (2000 if v ≤ j)` of sample `16 c + l`, and the positive index row the
  word `v * 2000 + a`.
-/
import proofs.«210835_g78632261255710_cont_9to1_m_350_20_alg».proof.Proof.Spec
import Idealize.ShloMosaic.Lib.Writes
import Idealize.ShloMosaic.Lib.Pipeline.Value

noncomputable section

namespace Cert.KI

open Cert.KernelIdeal Cert.KernelIdeal.Gen
open Idealize.ShloMosaic

/-- The lane of a `[1, 16]` index. -/
abbrev lane16 (x : S1x16.Idx) : S16.Idx := ValueIdx.ix1 (⟨(x 1).val, (x 1).isLt⟩ : Fin 16)

theorem reshape_lane (h : S16.ShapeCasts S1x16) (x : S1x16.Idx) : Shape.reshapeEquiv h x = lane16 x := by
  apply Shape.reshapeEquiv_eq_of_rowMajor
  have h0 : (x 0).val = 0 := by have := (x 0).isLt; simp at this; omega
  rw [Shape.rowMajor_val_two, Shape.rowMajor_val_one, h0]
  simp

/-- A plane chunk as the kernel computes it is the plane's word at each lane. -/
theorem chunk_val (iv : BitVec 32) (a16 v16 : S16.Idx → BitVec 32) (h1 h2 : S16.ShapeCasts S16) (h3 : S16.ShapeCasts S1x16) (x : S1x16.Idx) :
    shapeCast S1x16 (addi (addi (broadcast S16 (Scalar.muli iv 2000#32)) (shapeCast S16 a16 h1))
      (select (cmpi .sle (shapeCast S16 v16 h2) (broadcast S16 iv)) (broadcast S16 2000#32) (broadcast S16 0#32))) h3 x
    = nidxW iv (a16 (lane16 x)) (v16 (lane16 x)) := by
  rw [shapeCast_self a16, shapeCast_self v16]
  show (addi _ _) (Shape.reshapeEquiv h3 x) = _
  rw [reshape_lane]
  rfl

/-- A chunk of the positive index row is `v * 2000 + a` at each lane. -/
theorem pchunk_val (a16 v16 : S16.Idx → BitVec 32) (h1 h2 h3 : S16.ShapeCasts S16) (y : S16.Idx) :
    shapeCast S16 (addi (muli (shapeCast S16 v16 h2) (broadcast S16 2000#32)) (shapeCast S16 a16 h1)) h3 y = pidxW (a16 y) (v16 y) := by
  rw [shapeCast_self a16, shapeCast_self v16, shapeCast_self]
  rfl

theorem iv0 (k : ℕ) : Scf.iv 0#32 1#32 k = BitVec.ofNat 32 k := by simp [Scf.iv]
theorem iv4 (k : ℕ) : Scf.iv 4#32 1#32 k = BitVec.ofNat 32 (k + 4) := by
  simp only [Scf.iv, BitVec.mul_one]
  rw [BitVec.add_comm, ← BitVec.ofNat_add_ofNat]

end Cert.KI

end
-- ==== Proof.PlaneVals.lean ====
import proofs.«210835_g78632261255710_cont_9to1_m_350_20_alg».proof.Proof.PayVals
import Idealize.ShloMosaic.Lib.Writes

/-! What a subcore's index buffers hold after its 16-lane stores. A 16-lane load of the attributes or the values at
    offset `o` reads the words `o, …, o + 15`; eight 16-lane stores fill one row of the plane buffer with that plane's
    row numbers and leave the other rows as they were; eight 16-lane stores fill the positive index row. -/

noncomputable section

namespace Cert.KI

open Cert.KernelIdeal Cert.KernelIdeal.Gen
open Idealize.ShloMosaic Idealize.ShloMosaic.ValueIdx

variable {F : FTy → Type}

/-- Index planes `lo ≤ j < hi` are filled: every word of row `j` of the plane buffer is the sample's row number for
    plane `j`. -/
def planesOK (fa fv : S128.Idx → Elt F .i32) (lo hi : ℕ) (f3 : S49x128.Idx → Elt F .i32) : Prop :=
  ∀ i : S49x128.Idx, lo ≤ (i 0).val → (i 0).val < hi →
    f3 i = nidxW (BitVec.ofNat 32 (i 0).val) (fa (ValueIdx.ix1 (i 1))) (fv (ValueIdx.ix1 (i 1)))

/-! ## A 16-lane load -/

/-- Where lane `y` of a 16-lane window at offset `o` of a 128-word buffer sits. -/
theorem unit16_idx (o : ℕ) (ho : o + 16 ≤ 128) (h : ∀ a, (![o] : Fin 1 → ℕ) a + S16.size a ≤ S128.size a) (y : S16.Idx) :
    (Rect.unit (s := S128) ![o] S16.size h).toLoadRect.idx y
      = ix1 (⟨o + (y 0).val, by have := (y 0).isLt; simp at this; omega⟩ : Fin 128) := by
  funext a
  match a with
  | ⟨0, _⟩ => exact Fin.ext (by show o + 1 * (y 0).val = o + (y 0).val; omega)

/-- A 16-lane load of the attributes at offset `o` reads the words `o + l`. -/
theorem load16_val0 (o : ℕ) (ho : o + 16 ≤ 128) (h : ∀ a, (![o] : Fin 1 → ℕ) a + S16.size a ≤ S128.size a)
    (f : S128.Idx → Elt F .i32) (y : S16.Idx) :
    View.readAt (Elt F) (Memref.whole cc0_scratch0).view (Rect.unit (s := S128) ![o] S16.size h).toLoadRect f y
      = f (ix1 (⟨o + (y 0).val, by have := (y 0).isLt; simp at this; omega⟩ : Fin 128)) := by
  show f ((Rect.unit (s := S128) ![o] S16.size h).toLoadRect.idx y) = _
  rw [unit16_idx o ho h y]

/-- A 16-lane load of the values at offset `o` reads the words `o + l`. -/
theorem load16_val1 (o : ℕ) (ho : o + 16 ≤ 128) (h : ∀ a, (![o] : Fin 1 → ℕ) a + S16.size a ≤ S128.size a)
    (f : S128.Idx → Elt F .i32) (y : S16.Idx) :
    View.readAt (Elt F) (Memref.whole cc0_scratch1).view (Rect.unit (s := S128) ![o] S16.size h).toLoadRect f y
      = f (ix1 (⟨o + (y 0).val, by have := (y 0).isLt; simp at this; omega⟩ : Fin 128)) := by
  show f ((Rect.unit (s := S128) ![o] S16.size h).toLoadRect.idx y) = _
  rw [unit16_idx o ho h y]

/-! ## One row of the plane buffer -/

/-- Plane `r`'s row numbers as a function on the plane buffer's indices. -/
def rowWord (fa fv : S128.Idx → Elt F .i32) (r : ℕ) (y : S49x128.Idx) : Elt F .i32 :=
  nidxW (BitVec.ofNat 32 r) (fa (ix1 (⟨(y 1).val, (y 1).isLt⟩ : Fin 128))) (fv (ix1 (⟨(y 1).val, (y 1).isLt⟩ : Fin 128)))

/-- Eight 16-lane stores of plane `r`'s row numbers into row `r` fill that row and touch no other: the planes
    filled before stay filled. -/
theorem planes_step (fa fv : S128.Idx → Elt F .i32) (lo r : ℕ) (hr : r < 49) (f3 : S49x128.Idx → Elt F .i32)
    (hok : planesOK fa fv lo r f3) (o : Fin 8 → Fin 2 → ℕ) (ho : ∀ c, o c = ![r, 16 * c.val])
    (hb : ∀ c a, o c a + S1x16.size a ≤ S49x128.size a) (P : Fin 8 → S1x16.Idx → Elt F .i32)
    (hP : ∀ c x, P c x = nidxW (BitVec.ofNat 32 r) (fa (ix1 (⟨16 * c.val + (x 1).val, by have := c.isLt; have h16 := (x 1).isLt; simp at h16; omega⟩ : Fin 128)))
      (fv (ix1 (⟨16 * c.val + (x 1).val, by have := c.isLt; have h16 := (x 1).isLt; simp at h16; omega⟩ : Fin 128)))) :
    planesOK fa fv lo (r + 1)
      ((Memref.whole cc0_scratch3 : Memref sig .scVector .vmem S49x128 .i32).view.writes (Elt F) f3
        [⟨Rect.unit (o 7) S1x16.size (hb 7), P 7⟩,
        ⟨Rect.unit (o 6) S1x16.size (hb 6), P 6⟩,
        ⟨Rect.unit (o 5) S1x16.size (hb 5), P 5⟩,
        ⟨Rect.unit (o 4) S1x16.size (hb 4), P 4⟩,
        ⟨Rect.unit (o 3) S1x16.size (hb 3), P 3⟩,
        ⟨Rect.unit (o 2) S1x16.size (hb 2), P 2⟩,
        ⟨Rect.unit (o 1) S1x16.size (hb 1), P 1⟩,
        ⟨Rect.unit (o 0) S1x16.size (hb 0), P 0⟩]) := by
  intro i hi0 hi1
  generalize hL : ([⟨Rect.unit (o 7) S1x16.size (hb 7), P 7⟩,
        ⟨Rect.unit (o 6) S1x16.size (hb 6), P 6⟩,
        ⟨Rect.unit (o 5) S1x16.size (hb 5), P 5⟩,
        ⟨Rect.unit (o 4) S1x16.size (hb 4), P 4⟩,
        ⟨Rect.unit (o 3) S1x16.size (hb 3), P 3⟩,
        ⟨Rect.unit (o 2) S1x16.size (hb 2), P 2⟩,
        ⟨Rect.unit (o 1) S1x16.size (hb 1), P 1⟩,
        ⟨Rect.unit (o 0) S1x16.size (hb 0), P 0⟩] : List (View.Piece (Elt F) S49x128 .i32)) = L
  have hmem : ∀ p ∈ L, ∃ c : Fin 8, p = ⟨Rect.unit (o c) S1x16.size (hb c), P c⟩ := by
    intro p hp
    rw [← hL] at hp
    simp only [List.mem_cons, List.mem_nil_iff, or_false] at hp
    rcases hp with rfl | rfl | rfl | rfl | rfl | rfl | rfl | rfl
    exacts [⟨7, rfl⟩, ⟨6, rfl⟩, ⟨5, rfl⟩, ⟨4, rfl⟩, ⟨3, rfl⟩, ⟨2, rfl⟩, ⟨1, rfl⟩, ⟨0, rfl⟩]
  have hmem' : ∀ c : Fin 8, (⟨Rect.unit (o c) S1x16.size (hb c), P c⟩ : View.Piece (Elt F) S49x128 .i32) ∈ L := by
    intro c
    rw [← hL]
    fin_cases c <;> (
      first
      | exact List.mem_cons_self
      | exact List.mem_cons_of_mem _ (List.mem_cons_self)
      | exact List.mem_cons_of_mem _ (List.mem_cons_of_mem _ (List.mem_cons_self))
      | exact List.mem_cons_of_mem _ (List.mem_cons_of_mem _ (List.mem_cons_of_mem _ (List.mem_cons_self)))
      | exact List.mem_cons_of_mem _ (List.mem_cons_of_mem _ (List.mem_cons_of_mem _ (List.mem_cons_of_mem _ (List.mem_cons_self))))
      | exact List.mem_cons_of_mem _ (List.mem_cons_of_mem _ (List.mem_cons_of_mem _ (List.mem_cons_of_mem _ (List.mem_cons_of_mem _ (List.mem_cons_self)))))
      | exact List.mem_cons_of_mem _ (List.mem_cons_of_mem _ (List.mem_cons_of_mem _ (List.mem_cons_of_mem _ (List.mem_cons_of_mem _ (List.mem_cons_of_mem _ (List.mem_cons_self))))))
      | exact List.mem_cons_of_mem _ (List.mem_cons_of_mem _ (List.mem_cons_of_mem _ (List.mem_cons_of_mem _ (List.mem_cons_of_mem _ (List.mem_cons_of_mem _ (List.mem_cons_of_mem _ (List.mem_cons_self))))))))
  have hset : ∀ (c : Fin 8) (y : S49x128.Idx), y ∈ (Rect.unit (s := S49x128) (o c) S1x16.size (hb c)).set
      ↔ ((y 0).val = r ∧ 16 * c.val ≤ (y 1).val ∧ (y 1).val < 16 * c.val + 16) := by
    intro c y
    rw [Rect.mem_set_unit, ho c]
    constructor
    · intro h
      have h0 := h 0
      have h1 := h 1
      change r ≤ (y 0).val ∧ (y 0).val < r + 1 at h0
      change 16 * c.val ≤ (y 1).val ∧ (y 1).val < 16 * c.val + 16 at h1
      omega
    · intro h a
      match a with
      | ⟨0, _⟩ => show r ≤ (y 0).val ∧ (y 0).val < r + 1; omega
      | ⟨1, _⟩ => show 16 * c.val ≤ (y 1).val ∧ (y 1).val < 16 * c.val + 16; omega
  show (Memref.whole cc0_scratch3 : Memref sig .scVector .vmem S49x128 .i32).view.read (Elt F)
    ((Memref.whole cc0_scratch3 : Memref sig .scVector .vmem S49x128 .i32).view.writes (Elt F) f3 L) i = _
  by_cases hri : (i 0).val < r
  · refine (View.read_writes_apply_of_forall_not_mem (Memref.whole cc0_scratch3 : Memref sig .scVector .vmem S49x128 .i32).view f3 i L (fun p hp => by
      obtain ⟨c, rfl⟩ := hmem p hp
      rw [hset]; omega)).trans ?_
    exact hok i hi0 hri
  · have hir : (i 0).val = r := by omega
    have h128 : (i 1).val < 128 := (i 1).isLt
    have hc : (i 1).val / 16 < 8 := by omega
    refine (View.read_writes_apply_of_pieces (Memref.whole cc0_scratch3 : Memref sig .scVector .vmem S49x128 .i32).view f3 (rowWord fa fv r) L ?_ i
      ⟨_, hmem' ⟨(i 1).val / 16, hc⟩, (hset _ _).2 ⟨hir, by show 16 * ((i 1).val / 16) ≤ _; omega, by show _ < 16 * ((i 1).val / 16) + 16; omega⟩⟩).trans ?_
    · intro p hp x
      obtain ⟨c, rfl⟩ := hmem p hp
      show P c x = rowWord fa fv r ((Rect.unit (s := S49x128) (o c) S1x16.size (hb c)).emb x)
      rw [hP c x]
      unfold rowWord
      have e : (⟨((Rect.unit (s := S49x128) (o c) S1x16.size (hb c)).emb x 1).val, ((Rect.unit (s := S49x128) (o c) S1x16.size (hb c)).emb x 1).isLt⟩ : Fin 128)
          = (⟨16 * c.val + (x 1).val, by have := c.isLt; have h16 := (x 1).isLt; simp at h16; omega⟩ : Fin 128) :=
        Fin.ext (by
          show o c 1 + 1 * (x 1).val = 16 * c.val + (x 1).val
          have h1 : o c 1 = 16 * c.val := congrFun (ho c) 1
          omega)
      rw [e]
    · unfold rowWord
      rw [hir]
      rfl

/-- The same, said beside any set of the buffer's elements a proof happens to hold: the contents function after the
    eight stores does not depend on which elements are held. -/
theorem planes_step_on (S : Finset S49x128.Idx) (fa fv : S128.Idx → Elt F .i32) (lo r : ℕ) (hr : r < 49)
    (f3 : S49x128.Idx → Elt F .i32) (hok : planesOK fa fv lo r f3) (o : Fin 8 → Fin 2 → ℕ) (ho : ∀ c, o c = ![r, 16 * c.val])
    (hb : ∀ c a, o c a + S1x16.size a ≤ S49x128.size a) (P : Fin 8 → S1x16.Idx → Elt F .i32)
    (hP : ∀ c x, P c x = nidxW (BitVec.ofNat 32 r) (fa (ix1 (⟨16 * c.val + (x 1).val, by have := c.isLt; have h16 := (x 1).isLt; simp at h16; omega⟩ : Fin 128)))
      (fv (ix1 (⟨16 * c.val + (x 1).val, by have := c.isLt; have h16 := (x 1).isLt; simp at h16; omega⟩ : Fin 128)))) :
    planesOK fa fv lo (r + 1)
      ((Memref.whole cc0_scratch3 : Memref sig .scVector .vmem S49x128 .i32).view.writes (Elt F) f3
        [⟨Rect.unit (o 7) S1x16.size (hb 7), P 7⟩,
        ⟨Rect.unit (o 6) S1x16.size (hb 6), P 6⟩,
        ⟨Rect.unit (o 5) S1x16.size (hb 5), P 5⟩,
        ⟨Rect.unit (o 4) S1x16.size (hb 4), P 4⟩,
        ⟨Rect.unit (o 3) S1x16.size (hb 3), P 3⟩,
        ⟨Rect.unit (o 2) S1x16.size (hb 2), P 2⟩,
        ⟨Rect.unit (o 1) S1x16.size (hb 1), P 1⟩,
        ⟨Rect.unit (o 0) S1x16.size (hb 0), P 0⟩]) :=
  planes_step fa fv lo r hr f3 hok o ho hb P hP

/-! ## The positive index row -/

/-- Eight 16-lane stores of the positive row numbers fill the positive index row, whatever it held. -/
theorem pidx_row (fa fv : S128.Idx → Elt F .i32) (o : Fin 8 → Fin 1 → ℕ) (ho : ∀ c, o c = ![16 * c.val])
    (hb : ∀ c a, o c a + S16.size a ≤ S128.size a) (Q : Fin 8 → S16.Idx → Elt F .i32)
    (hQ : ∀ c y, Q c y = pidxW (fa (ix1 (⟨16 * c.val + (y 0).val, by have := c.isLt; have h16 := (y 0).isLt; simp at h16; omega⟩ : Fin 128))) (fv (ix1 (⟨16 * c.val + (y 0).val, by have := c.isLt; have h16 := (y 0).isLt; simp at h16; omega⟩ : Fin 128))))
    (g : S128.Idx → Elt F .i32) (s : S128.Idx) :
    (Memref.whole cc0_scratch2 : Memref sig .scVector .vmem S128 .i32).view.writes (Elt F) g
        [⟨Rect.unit (o 7) S16.size (hb 7), Q 7⟩,
        ⟨Rect.unit (o 6) S16.size (hb 6), Q 6⟩,
        ⟨Rect.unit (o 5) S16.size (hb 5), Q 5⟩,
        ⟨Rect.unit (o 4) S16.size (hb 4), Q 4⟩,
        ⟨Rect.unit (o 3) S16.size (hb 3), Q 3⟩,
        ⟨Rect.unit (o 2) S16.size (hb 2), Q 2⟩,
        ⟨Rect.unit (o 1) S16.size (hb 1), Q 1⟩,
        ⟨Rect.unit (o 0) S16.size (hb 0), Q 0⟩] s
      = pidxW (fa s) (fv s) := by
  generalize hL : ([⟨Rect.unit (o 7) S16.size (hb 7), Q 7⟩,
        ⟨Rect.unit (o 6) S16.size (hb 6), Q 6⟩,
        ⟨Rect.unit (o 5) S16.size (hb 5), Q 5⟩,
        ⟨Rect.unit (o 4) S16.size (hb 4), Q 4⟩,
        ⟨Rect.unit (o 3) S16.size (hb 3), Q 3⟩,
        ⟨Rect.unit (o 2) S16.size (hb 2), Q 2⟩,
        ⟨Rect.unit (o 1) S16.size (hb 1), Q 1⟩,
        ⟨Rect.unit (o 0) S16.size (hb 0), Q 0⟩] : List (View.Piece (Elt F) S128 .i32)) = L
  have hmem : ∀ p ∈ L, ∃ c : Fin 8, p = ⟨Rect.unit (o c) S16.size (hb c), Q c⟩ := by
    intro p hp
    rw [← hL] at hp
    simp only [List.mem_cons, List.mem_nil_iff, or_false] at hp
    rcases hp with rfl | rfl | rfl | rfl | rfl | rfl | rfl | rfl
    exacts [⟨7, rfl⟩, ⟨6, rfl⟩, ⟨5, rfl⟩, ⟨4, rfl⟩, ⟨3, rfl⟩, ⟨2, rfl⟩, ⟨1, rfl⟩, ⟨0, rfl⟩]
  have hmem' : ∀ c : Fin 8, (⟨Rect.unit (o c) S16.size (hb c), Q c⟩ : View.Piece (Elt F) S128 .i32) ∈ L := by
    intro c
    rw [← hL]
    fin_cases c <;> (
      first
      | exact List.mem_cons_self
      | exact List.mem_cons_of_mem _ (List.mem_cons_self)
      | exact List.mem_cons_of_mem _ (List.mem_cons_of_mem _ (List.mem_cons_self))
      | exact List.mem_cons_of_mem _ (List.mem_cons_of_mem _ (List.mem_cons_of_mem _ (List.mem_cons_self)))
      | exact List.mem_cons_of_mem _ (List.mem_cons_of_mem _ (List.mem_cons_of_mem _ (List.mem_cons_of_mem _ (List.mem_cons_self))))
      | exact List.mem_cons_of_mem _ (List.mem_cons_of_mem _ (List.mem_cons_of_mem _ (List.mem_cons_of_mem _ (List.mem_cons_of_mem _ (List.mem_cons_self)))))
      | exact List.mem_cons_of_mem _ (List.mem_cons_of_mem _ (List.mem_cons_of_mem _ (List.mem_cons_of_mem _ (List.mem_cons_of_mem _ (List.mem_cons_of_mem _ (List.mem_cons_self))))))
      | exact List.mem_cons_of_mem _ (List.mem_cons_of_mem _ (List.mem_cons_of_mem _ (List.mem_cons_of_mem _ (List.mem_cons_of_mem _ (List.mem_cons_of_mem _ (List.mem_cons_of_mem _ (List.mem_cons_self))))))))
  have hset : ∀ (c : Fin 8) (y : S128.Idx), y ∈ (Rect.unit (s := S128) (o c) S16.size (hb c)).set
      ↔ (16 * c.val ≤ (y 0).val ∧ (y 0).val < 16 * c.val + 16) := by
    intro c y
    rw [Rect.mem_set_unit, ho c]
    constructor
    · intro h
      exact h 0
    · intro h a
      match a with
      | ⟨0, _⟩ => exact h
  have h128 : (s 0).val < 128 := (s 0).isLt
  have hc : (s 0).val / 16 < 8 := by omega
  show (Memref.whole cc0_scratch2 : Memref sig .scVector .vmem S128 .i32).view.read (Elt F)
    ((Memref.whole cc0_scratch2 : Memref sig .scVector .vmem S128 .i32).view.writes (Elt F) g L) s = _
  refine View.read_writes_apply_of_pieces (Memref.whole cc0_scratch2 : Memref sig .scVector .vmem S128 .i32).view g (fun s => pidxW (fa s) (fv s)) L ?_ s
    ⟨_, hmem' ⟨(s 0).val / 16, hc⟩, (hset _ _).2 ⟨by show 16 * ((s 0).val / 16) ≤ _; omega, by show _ < 16 * ((s 0).val / 16) + 16; omega⟩⟩
  intro p hp y
  obtain ⟨c, rfl⟩ := hmem p hp
  show Q c y = pidxW (fa ((Rect.unit (s := S128) (o c) S16.size (hb c)).emb y)) (fv ((Rect.unit (s := S128) (o c) S16.size (hb c)).emb y))
  have e : (Rect.unit (s := S128) (o c) S16.size (hb c)).emb y = ix1 (⟨16 * c.val + (y 0).val, by have := c.isLt; have h16 := (y 0).isLt; simp at h16; omega⟩ : Fin 128) := by
    funext a
    match a with
    | ⟨0, _⟩ =>
      exact Fin.ext (by
        show o c 0 + 1 * (y 0).val = 16 * c.val + (y 0).val
        have h1 : o c 0 = 16 * c.val := congrFun (ho c) 0
        omega)
  rw [hQ c y, e]

end Cert.KI

end
-- ==== Proof.SliceVals.lean ====
/-
  The gathered rows are the outputs' rows.  Subcore `L` holds samples `base L + [0, 128)`: its attribute and value
  words are the arrays' words at those samples.  Row `s` of its block of negative plane `j` is row
  `4096 j + base L + s` of the plane-major negatives, whose plane is `j` and whose sample is `base L + s` (the
  quotient and remainder by 4096, as `base L + s < 4096`); row `s` of its block of the positives is row `base L + s`.
  So the table's row named by the subcore's index word for (plane `j`, local sample `s`), or by its positive index word
  for local sample `s`, is the specified output at that row.
-/
import proofs.«210835_g78632261255710_cont_9to1_m_350_20_alg».proof.Proof.TileSpec
import proofs.«210835_g78632261255710_cont_9to1_m_350_20_alg».proof.Proof.GatherVal
import proofs.«210835_g78632261255710_cont_9to1_m_350_20_alg».proof.Proof.PlaneVals

noncomputable section

namespace Cert.KI

open Cert.KernelIdeal Cert.KernelIdeal.Gen
open Idealize.ShloMosaic Idealize.ShloMosaic.ValueIdx
open Idealize.ShloMosaic.SparseCore (S V T)

variable {F : FTy → Type}

variable (m : (ℓ : Loc nD τ sig) → Buf (Elt F) ℓ)

/-! ## Where a subcore's rows sit -/

theorem base_le (L : grid0.Coords) : base L + 128 ≤ 4096 := by
  have h0 : (L 0).val < 2 := (L 0).isLt
  have h1 : (L 1).val < 16 := (L 1).isLt
  show 256 * (L 1).val + 128 * (L 0).val + 128 ≤ 4096; omega

theorem base_add_lt (L : grid0.Coords) (s : Fin 128) : base L + s.val < 4096 := by
  have := base_le L; have := s.isLt; omega

/-- Word `s` of the subcore's slice of the attributes (or of the values) is word `base L + s` of the array. -/
theorem aRow_emb (L : grid0.Coords) (s : S128.Idx) :
    (aRowK L).view.emb s = ix1 (⟨base L + (s 0).val, base_add_lt L ⟨(s 0).val, (s 0).isLt⟩⟩ : Fin 4096) := by
  funext a
  match a with
  | ⟨0, _⟩ => exact Fin.ext (by show k0_off1 L 0 + 1 * (s 0).val = base L + (s 0).val; rw [congrFun (k0_off1_eq L) 0]; show base L + 1 * (s 0).val = _; omega)
theorem vRow_emb (L : grid0.Coords) (s : S128.Idx) :
    (vRowK L).view.emb s = ix1 (⟨base L + (s 0).val, base_add_lt L ⟨(s 0).val, (s 0).isLt⟩⟩ : Fin 4096) := by
  funext a
  match a with
  | ⟨0, _⟩ => exact Fin.ext (by show k0_off1 L 0 + 1 * (s 0).val = base L + (s 0).val; rw [congrFun (k0_off1_eq L) 0]; show base L + 1 * (s 0).val = _; omega)

/-- The slice of the attributes read at local sample `s`. -/
theorem aRow_read (d : Dev nD) (L : grid0.Coords) (s : Fin 128) :
    (aRowK L).view.read (Elt F) (m (aLoc d)) (ix1 s) = m (aLoc d) (ix1 (⟨base L + s.val, base_add_lt L s⟩ : Fin 4096)) := by
  rw [View.read_apply, aRow_emb]; rfl
theorem vRow_read (d : Dev nD) (L : grid0.Coords) (s : Fin 128) :
    (vRowK L).view.read (Elt F) (m (vLoc d)) (ix1 s) = m (vLoc d) (ix1 (⟨base L + s.val, base_add_lt L s⟩ : Fin 4096)) := by
  rw [View.read_apply, vRow_emb]; rfl

/-! ## The outputs at a subcore's rows -/

/-- Row `4096 j + b` of the plane-major negatives is the table's row for plane `j` of sample `b`. -/
theorem Gneg_row (A Vv : S4096.Idx → BitVec 32) (T : S100000x128.Idx → Elt F .f32) (i : S200704x128.Idx)
    (j : ℕ) (b : Fin 4096) (h0 : (i 0).val = 4096 * j + b.val) :
    Gneg A Vv T i = tblRow T (nidxW (BitVec.ofNat 32 j) (A (ix1 b)) (Vv (ix1 b))) (i 1) := by
  have e1 : (i 0).val / 4096 = j := by have := b.isLt; omega
  have e2 : (⟨(i 0).val % 4096, Nat.mod_lt _ (by decide)⟩ : Fin 4096) = b :=
    Fin.ext (by show (i 0).val % 4096 = b.val; have := b.isLt; omega)
  unfold Gneg
  rw [e1, e2]

/-- Where element `x` of the subcore's block of negative plane `j` sits in the plane-major negatives. -/
theorem nRow_emb0 (L : grid0.Coords) (j : Fin 49) (x : S128x128.Idx) :
    (((nRowK L j).view.emb x : S200704x128.Idx) 0).val = 4096 * j.val + (base L + (x 0).val) := by
  show 4096 * j.val + base L + 1 * (x 0).val = _; omega
theorem nRow_emb1 (L : grid0.Coords) (j : Fin 49) (x : S128x128.Idx) :
    ((nRowK L j).view.emb x : S200704x128.Idx) 1 = (⟨(x 1).val, (x 1).isLt⟩ : Fin 128) :=
  Fin.ext (by show 0 + 1 * (x 1).val = (x 1).val; omega)
/-- Where element `x` of the subcore's block of the positives sits in the positives. -/
theorem pRow_emb0 (L : grid0.Coords) (x : S128x128.Idx) :
    ((pRowK L).view.emb x : S4096x128.Idx) 0 = (⟨base L + (x 0).val, base_add_lt L ⟨(x 0).val, (x 0).isLt⟩⟩ : Fin 4096) :=
  Fin.ext (by show k0_off29 L 0 + 1 * (x 0).val = base L + (x 0).val; rw [congrFun (k0_off29_eq L) 0]; show base L + 1 * (x 0).val = _; omega)
theorem pRow_emb1 (L : grid0.Coords) (x : S128x128.Idx) :
    ((pRowK L).view.emb x : S4096x128.Idx) 1 = (⟨(x 1).val, (x 1).isLt⟩ : Fin 128) :=
  Fin.ext (by show k0_off29 L 1 + 1 * (x 1).val = (x 1).val; rw [congrFun (k0_off29_eq L) 1]; show 0 + 1 * (x 1).val = _; omega)

/-- The table's row named by the subcore's index word for plane `j`, local sample `x 0`, at lane `x 1`, is the
    plane-major negatives at the subcore's block of plane `j`. -/
theorem neg_slice_val (d : Dev nD) (L : grid0.Coords) (fa fv : S128.Idx → Elt F .i32) (f3 : S49x128.Idx → Elt F .i32)
    (hfa : ∀ s : Fin 128, fa (ix1 s) = m (aLoc d) (ix1 (⟨base L + s.val, base_add_lt L s⟩ : Fin 4096)))
    (hfv : ∀ s : Fin 128, fv (ix1 s) = m (vLoc d) (ix1 (⟨base L + s.val, base_add_lt L s⟩ : Fin 4096)))
    (h3 : planesOK fa fv 0 49 f3) (j : Fin 49) (x : S128x128.Idx) :
    tblRow (tbl m d) (f3 (ix2 j (⟨(x 0).val, (x 0).isLt⟩ : Fin 128))) (⟨(x 1).val, (x 1).isLt⟩ : Fin 128)
      = negOf m d ((nRowK L j).view.emb x) := by
  rw [h3 (ix2 j (⟨(x 0).val, (x 0).isLt⟩ : Fin 128)) (Nat.zero_le _) j.isLt]
  show tblRow (tbl m d) (nidxW (BitVec.ofNat 32 j.val) (fa (ix1 (⟨(x 0).val, (x 0).isLt⟩ : Fin 128))) (fv (ix1 (⟨(x 0).val, (x 0).isLt⟩ : Fin 128))))
      (⟨(x 1).val, (x 1).isLt⟩ : Fin 128) = Gneg (m (aLoc d)) (m (vLoc d)) (tbl m d) ((nRowK L j).view.emb x)
  rw [hfa, hfv, Gneg_row (m (aLoc d)) (m (vLoc d)) (tbl m d) ((nRowK L j).view.emb x) j.val
    (⟨base L + (x 0).val, base_add_lt L ⟨(x 0).val, (x 0).isLt⟩⟩ : Fin 4096) (nRow_emb0 L j x), nRow_emb1]

/-- The table's row named by the subcore's positive index word for local sample `x 0`, at lane `x 1`, is the
    positives at the subcore's block. -/
theorem pos_slice_val (d : Dev nD) (L : grid0.Coords) (fa fv p2 : S128.Idx → Elt F .i32)
    (hfa : ∀ s : Fin 128, fa (ix1 s) = m (aLoc d) (ix1 (⟨base L + s.val, base_add_lt L s⟩ : Fin 4096)))
    (hfv : ∀ s : Fin 128, fv (ix1 s) = m (vLoc d) (ix1 (⟨base L + s.val, base_add_lt L s⟩ : Fin 4096)))
    (hp2 : ∀ s : S128.Idx, p2 s = pidxW (fa s) (fv s)) (x : S128x128.Idx) :
    tblRow (tbl m d) (p2 (ix1 (⟨(x 0).val, (x 0).isLt⟩ : Fin 128))) (⟨(x 1).val, (x 1).isLt⟩ : Fin 128)
      = posOf m d ((pRowK L).view.emb x) := by
  rw [hp2, hfa, hfv]
  show _ = Gpos (m (aLoc d)) (m (vLoc d)) (tbl m d) ((pRowK L).view.emb x)
  unfold Gpos
  rw [pRow_emb0, pRow_emb1]

/-! ## Through the indexed copy -/

/-- The indexed copy of the positives' rows: its payload at `x` is the positives at the subcore's block. -/
theorem pos_gather_val (d : Dev nD) (L : grid0.Coords) (fa fv offs : S128.Idx → Elt F .i32)
    (hfa : ∀ s : Fin 128, fa (ix1 s) = m (aLoc d) (ix1 (⟨base L + s.val, base_add_lt L s⟩ : Fin 4096)))
    (hfv : ∀ s : Fin 128, fv (ix1 s) = m (vLoc d) (ix1 (⟨base L + s.val, base_add_lt L s⟩ : Fin 4096)))
    (hp2 : ∀ s : S128.Idx, offs s = pidxW (fa s) (fv s))
    (hg : S100000x128.Gathers 0 S128x128) (hn : S128.numel = S128x128.size hg.axis')
    (hin : ∀ s, (offs s).toNat < S100000x128.size hg.axis) (x : S128x128.Idx) :
    SparseCore.gatherPayload hg (tbl m d) (SparseCore.rows offs hn hin) x = posOf m d ((pRowK L).view.emb x) := by
  rw [gather_row_val]
  exact pos_slice_val m d L fa fv offs hfa hfv hp2 x

/-- The indexed copy of plane `j`'s rows, from any list that holds row `j` of the plane buffer. -/
theorem neg_gather_val' (d : Dev nD) (L : grid0.Coords) (fa fv : S128.Idx → Elt F .i32) (f3 : S49x128.Idx → Elt F .i32)
    (hfa : ∀ s : Fin 128, fa (ix1 s) = m (aLoc d) (ix1 (⟨base L + s.val, base_add_lt L s⟩ : Fin 4096)))
    (hfv : ∀ s : Fin 128, fv (ix1 s) = m (vLoc d) (ix1 (⟨base L + s.val, base_add_lt L s⟩ : Fin 4096)))
    (h3 : planesOK fa fv 0 49 f3) (j : Fin 49) (offs : S128.Idx → Elt F .i32)
    (hoffs : ∀ s : S128.Idx, offs s = f3 (ix2 j (⟨(s 0).val, (s 0).isLt⟩ : Fin 128)))
    (hg : S100000x128.Gathers 0 S128x128) (hn : S128.numel = S128x128.size hg.axis')
    (hin : ∀ s, (offs s).toNat < S100000x128.size hg.axis) (x : S128x128.Idx) :
    SparseCore.gatherPayload hg (tbl m d) (SparseCore.rows offs hn hin) x = negOf m d ((nRowK L j).view.emb x) := by
  rw [gather_row_val, hoffs]
  exact neg_slice_val m d L fa fv f3 hfa hfv h3 j x

/-- Row `o 0` of the plane buffer as the list of 128 words an indexed copy reads: the row sliced out and its unit axis
    dropped. -/
abbrev planeRow (o : Fin 2 → ℕ) (h : ∀ a, o a + S1x128.size a ≤ S49x128.size a) : Memref sig .scVector .vmem S128 .i32 :=
  ((Memref.whole cc0_scratch3).slice (Rect.unit (s := S49x128) o S1x128.size h) (fun _ => rfl)).squeeze S128 squeezes_S1x128_S128

/-- Dropping the unit axis: word `s` of the list is element `(0, s)` of the one-row block. -/
theorem squeeze_row (h : S128.numel = S1x128.numel) (s : S128.Idx) :
    Shape.reshapeEquiv h s = (ix2 (0 : Fin 1) (⟨(s 0).val, (s 0).isLt⟩ : Fin 128) : S1x128.Idx) := by
  apply Shape.reshapeEquiv_eq_of_rowMajor
  rw [Shape.rowMajor_val_two, Shape.rowMajor_val_one]
  show 0 * 128 + (s 0).val = (s 0).val
  omega

theorem planeRow_emb (o : Fin 2 → ℕ) (h : ∀ a, o a + S1x128.size a ≤ S49x128.size a) (j : Fin 49) (ho0 : o 0 = j.val) (ho1 : o 1 = 0)
    (s : S128.Idx) : ((planeRow o h).view.emb s : S49x128.Idx) = ix2 j (⟨(s 0).val, (s 0).isLt⟩ : Fin 128) := by
  show (Rect.unit (s := S49x128) o S1x128.size h).emb (Shape.reshapeEquiv squeezes_S1x128_S128.numel_eq s) = _
  rw [squeeze_row]
  funext a
  match a with
  | ⟨0, _⟩ => exact Fin.ext (by show o 0 + 1 * 0 = j.val; omega)
  | ⟨1, _⟩ => exact Fin.ext (by show o 1 + 1 * (s 0).val = (s 0).val; omega)

/-- The list read off the plane buffer at contents `f3`: word `s` is `f3` at `(j, s)`. -/
theorem planeRow_read (o : Fin 2 → ℕ) (h : ∀ a, o a + S1x128.size a ≤ S49x128.size a) (j : Fin 49) (ho0 : o 0 = j.val) (ho1 : o 1 = 0)
    (f3 : S49x128.Idx → Elt F .i32) (s : S128.Idx) :
    (planeRow o h).view.read (Elt F) f3 s = f3 (ix2 j (⟨(s 0).val, (s 0).isLt⟩ : Fin 128)) := by
  rw [View.read_apply, planeRow_emb o h j ho0 ho1]; rfl

/-- The indexed copy of plane `j`'s rows, its list read off row `j` of the plane buffer. -/
theorem neg_gather_val (d : Dev nD) (L : grid0.Coords) (fa fv : S128.Idx → Elt F .i32) (f3 : S49x128.Idx → Elt F .i32)
    (hfa : ∀ s : Fin 128, fa (ix1 s) = m (aLoc d) (ix1 (⟨base L + s.val, base_add_lt L s⟩ : Fin 4096)))
    (hfv : ∀ s : Fin 128, fv (ix1 s) = m (vLoc d) (ix1 (⟨base L + s.val, base_add_lt L s⟩ : Fin 4096)))
    (h3 : planesOK fa fv 0 49 f3) (j : Fin 49)
    (o : Fin 2 → ℕ) (h : ∀ a, o a + S1x128.size a ≤ S49x128.size a) (ho0 : o 0 = j.val) (ho1 : o 1 = 0)
    (hg : S100000x128.Gathers 0 S128x128) (hn : S128.numel = S128x128.size hg.axis')
    (hin : ∀ s, ((planeRow o h).view.read (Elt F) f3 s).toNat < S100000x128.size hg.axis) (x : S128x128.Idx) :
    SparseCore.gatherPayload hg (tbl m d) (SparseCore.rows ((planeRow o h).view.read (Elt F) f3) hn hin) x
      = negOf m d ((nRowK L j).view.emb x) :=
  neg_gather_val' m d L fa fv f3 hfa hfv h3 j _ (planeRow_read o h j ho0 ho1 f3) hg hn hin x

end Cert.KI

end
-- ==== Proof.RingDefs.lean ====
/-
  The ring of six row buffers of one vector subcore, as states.  Plane `j` of the negatives passes through slot `j mod 6`:
  its 128 table rows are gathered into the slot (the plane's index row on loan to the gather meanwhile), then copied out to
  the subcore's block of plane `j` of the output.  A slot is idle, or has a gather in flight, or has a copy-out in flight.
-/
import proofs.«210835_g78632261255710_cont_9to1_m_350_20_alg».proof.Proof.SliceVals

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aV" => (Memref.whole Cert.KernelIdeal.main_arg0_scv : Memref Cert.KernelIdeal.sig Kind.scVector Space.hbm Cert.KernelIdeal.S4096 EltTy.i32)
local notation "vV" => (Memref.whole Cert.KernelIdeal.main_arg1_scv : Memref Cert.KernelIdeal.sig Kind.scVector Space.hbm Cert.KernelIdeal.S4096 EltTy.i32)
local notation "tV" => (Memref.whole Cert.KernelIdeal.main_v1_scv : Memref Cert.KernelIdeal.sig Kind.scVector Space.hbm Cert.KernelIdeal.S100000x128 EltTy.f32)
local notation "pV" => (Memref.whole Cert.KernelIdeal.main_v2_0_scv : Memref Cert.KernelIdeal.sig Kind.scVector Space.hbm Cert.KernelIdeal.S4096x128 EltTy.f32)
local notation "nV" => (Memref.whole Cert.KernelIdeal.main_v2_1_scv : Memref Cert.KernelIdeal.sig Kind.scVector Space.hbm Cert.KernelIdeal.S200704x128 EltTy.f32)
local notation "b0" => (Memref.whole Cert.KernelIdeal.cc0_scratch0 : Memref Cert.KernelIdeal.sig Kind.scVector Space.vmem Cert.KernelIdeal.S128 EltTy.i32)
local notation "b1" => (Memref.whole Cert.KernelIdeal.cc0_scratch1 : Memref Cert.KernelIdeal.sig Kind.scVector Space.vmem Cert.KernelIdeal.S128 EltTy.i32)
local notation "b2" => (Memref.whole Cert.KernelIdeal.cc0_scratch2 : Memref Cert.KernelIdeal.sig Kind.scVector Space.vmem Cert.KernelIdeal.S128 EltTy.i32)
local notation "b3" => (Memref.whole Cert.KernelIdeal.cc0_scratch3 : Memref Cert.KernelIdeal.sig Kind.scVector Space.vmem Cert.KernelIdeal.S49x128 EltTy.i32)
local notation "b4" => (Memref.whole Cert.KernelIdeal.cc0_scratch4 : Memref Cert.KernelIdeal.sig Kind.scVector Space.vmem Cert.KernelIdeal.S128x128 EltTy.f32)
local notation "b5" => (Memref.whole Cert.KernelIdeal.cc0_scratch5 : Memref Cert.KernelIdeal.sig Kind.scVector Space.vmem Cert.KernelIdeal.S6x128x128 EltTy.f32)

variable (m : (ℓ : Loc nD τ sig) → Buf (Elt F) ℓ) (d : Dev nD) (L : grid0.Coords)

/-- The whole table as the kernel names it at each gather. -/
abbrev tS : Memref sig .scVector .hbm S100000x128 .f32 :=
  (tV).slice (Rect.unit (s := S100000x128) ![0, 0] S100000x128.size inb_S100000x128_S100000x128_0_0) (fun _ => rfl)

/-- A ring slot: one `[128, 128]` layer of the ring buffer. -/
abbrev slotM (o : Fin 3 → ℕ) (h : ∀ a, o a + S1x128x128.size a ≤ S6x128x128.size a) : Memref sig .scVector .vmem S128x128 .f32 :=
  ((b5).slice (Rect.unit (s := S6x128x128) o S1x128x128.size h) (fun _ => rfl)).squeeze S128x128 squeezes_S1x128x128_S128x128

/-- A block of 128 rows of the plane-major negatives. -/
abbrev nSl (o : Fin 2 → ℕ) (h : ∀ a, o a + S128x128.size a ≤ S200704x128.size a) : Memref sig .scVector .hbm S128x128 .f32 :=
  (nV).slice (Rect.unit (s := S200704x128) o S128x128.size h) (fun _ => rfl)

/-- A slot's fixed data: where it sits in the ring, its gather and copy-out semaphores, its share of the table. -/
structure SlotK where
  o : Fin 3 → ℕ
  h : ∀ a, o a + S1x128x128.size a ≤ S6x128x128.size a
  g : DmaSem sig
  dm : DmaSem sig
  s : PosShare TreeShare

variable (Tb : Buf (Elt F) (tLoc d)) (f3 : S49x128.Idx → Elt F .i32)

/-- The slot holds plane `j`'s rows: at each index, the output's value at the subcore's block of plane `j`. -/
def slotOK (K : SlotK) (j : Fin 49) (fd : Buf (Elt F) ((slotM K.o K.h).view.loc (V d (cV L) (jV L)))) : Prop :=
  ∀ x : S128x128.Idx, (slotM K.o K.h).view.read (Elt F) fd x = negOf m d ((nRowK L j).view.emb x)

/-- The slot at rest at contents `fd`: both semaphores at zero, the buffer and the table share in hand. -/
def Ready (K : SlotK) (fd : Buf (Elt F) ((slotM K.o K.h).view.loc (V d (cV L) (jV L)))) : sProp 𝕄 :=
  iprop(semVal (V d (cV L) (jV L), SemLoc.dma K.g) 0 ∗ semVal (V d (cV L) (jV L), SemLoc.dma K.dm) 0
    ∗ ((slotM K.o K.h).view.loc (V d (cV L) (jV L)) ↦[(slotM K.o K.h).view.set]{fullShare} fd)
    ∗ ((tS).view.loc (V d (cV L) (jV L)) ↦[(tS).view.set]{K.s} Tb))

def Idle (K : SlotK) : sProp 𝕄 := iprop(∃ fd, Ready d L Tb K fd)

/-- Plane `j`'s gather in flight into the slot: at its wait it delivers the slot at plane `j`'s rows, the table share, and
    the plane's index row. -/
def Gath (K : SlotK) (j : Fin 49) : sProp 𝕄 :=
  iprop(semVal (V d (cV L) (jV L), SemLoc.dma K.dm) 0
    ∗ ∃ (o : Fin 2 → ℕ) (h : ∀ a, o a + S1x128.size a ≤ S49x128.size a) (fd : Buf (Elt F) ((slotM K.o K.h).view.loc (V d (cV L) (jV L)))),
      ⌜o = ![j.val, 0]⌝ ∗ ⌜slotOK m d L K j fd⌝
      ∗ Transfers.Flight countersEmb (V d (cV L) (jV L)) (SemLoc.dma K.g) (default : HIx 1) 524288
          iprop(((slotM K.o K.h).view.loc (V d (cV L) (jV L)) ↦[(slotM K.o K.h).view.set]{fullShare} fd)
            ∗ ((tS).view.loc (V d (cV L) (jV L)) ↦[(tS).view.set]{K.s} Tb)
            ∗ ((planeRow o h).view.loc (V d (cV L) (jV L)) ↦[(planeRow o h).view.set]{fullShare} f3)))

/-- Plane `j`'s copy-out in flight from the slot: at its wait it delivers the subcore's block of plane `j` written with
    the slot's contents, and the slot. -/
def Drain (K : SlotK) (j : Fin 49) : sProp 𝕄 :=
  iprop(semVal (V d (cV L) (jV L), SemLoc.dma K.g) 0
    ∗ ((tS).view.loc (V d (cV L) (jV L)) ↦[(tS).view.set]{K.s} Tb)
    ∗ ∃ (o : Fin 2 → ℕ) (h : ∀ a, o a + S128x128.size a ≤ S200704x128.size a) (fd : Buf (Elt F) ((slotM K.o K.h).view.loc (V d (cV L) (jV L)))),
      ⌜o = nOff L j⌝ ∗ ⌜slotOK m d L K j fd⌝
      ∗ Transfers.Flight countersEmb (V d (cV L) (jV L)) (SemLoc.dma K.dm) (default : HIx 1) ((nSl o h).view.amount (SemLoc.dma K.dm))
          iprop(((nSl o h).view.loc (V d (cV L) (jV L)) ↦[(nSl o h).view.set]{fullShare}
                  ((nSl o h).view.write (Elt F) (m (nLoc d)) (ReadAs.same.apply ((slotM K.o K.h).view.read (Elt F) fd)) Finset.univ))
            ∗ ((slotM K.o K.h).view.loc (V d (cV L) (jV L)) ↦[(slotM K.o K.h).view.set]{fullShare} fd)))

/-- The subcore's block of plane `j` of the output, at contents `fn`. -/
def nBlock (j : Fin 49) (fn : Buf (Elt F) (nLoc d)) : sProp 𝕄 :=
  iprop((nRowK L j).view.loc (V d (cV L) (jV L)) ↦[(nRowK L j).view.set]{fullShare} fn)

/-- Row `j` of the plane buffer, whole share. -/
def pRow (j : Fin 49) : sProp 𝕄 :=
  iprop((planeRow ![j.val, 0] (by intro a; have := j.isLt; match a with | 0 => (show j.val + 1 ≤ 49; omega) | 1 => (show 0 + 128 ≤ 128; omega))).view.loc (V d (cV L) (jV L))
    ↦[(planeRow ![j.val, 0] (by intro a; have := j.isLt; match a with | 0 => (show j.val + 1 ≤ 49; omega) | 1 => (show 0 + 128 ≤ 128; omega))).view.set]{fullShare} f3)

/-- After `n` ring steps: planes `j < n - 2` are written out, planes `j ≥ n` still hold the launch contents; index rows
    `j < n` are back, rows `j ≥ n + 4` not yet lent. -/
def nDone (n : ℕ) : sProp 𝕄 := bigSep (Finset.univ.filter fun j : Fin 49 => j.val + 2 < n) fun j => nBlock d L j (negOf m d)
def nTodo (n : ℕ) : sProp 𝕄 := bigSep (Finset.univ.filter fun j : Fin 49 => n ≤ j.val) fun j => nBlock d L j (m (nLoc d))
def rDone (n : ℕ) : sProp 𝕄 := bigSep (Finset.univ.filter fun j : Fin 49 => j.val < n) fun j => pRow d L f3 j
def rTodo (n : ℕ) : sProp 𝕄 := bigSep (Finset.univ.filter fun j : Fin 49 => n + 4 ≤ j.val) fun j => pRow d L f3 j

/-- What the subcore owes and may wait for, carried through the ring. -/
def owesW (O : CellTallies nD τ sig (HIx 1)) (W : Waits sig (HIx 1)) : sProp 𝕄 :=
  iprop(∃ W', ⌜∀ p ∈ W', p ∈ W ∨ p.2 = none⌝ ∗ owes (V d (cV L) (jV L)) O W')

end Cert.KI

end
-- ==== Proof.BodyPre.lean ====
/-
  One vector subcore's task of the lookup kernel, at a symbolic subcore: it copies in its 128 attributes and values,
  fills the 49 index planes and the positive index row, streams the table's rows through a ring of six row buffers out to
  its block of each negative plane, and the positive rows out to its block of the positives.
-/
import proofs.«210835_g78632261255710_cont_9to1_m_350_20_alg».proof.Proof.RingDefs

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aV" => (Memref.whole Cert.KernelIdeal.main_arg0_scv : Memref Cert.KernelIdeal.sig Kind.scVector Space.hbm Cert.KernelIdeal.S4096 EltTy.i32)
local notation "vV" => (Memref.whole Cert.KernelIdeal.main_arg1_scv : Memref Cert.KernelIdeal.sig Kind.scVector Space.hbm Cert.KernelIdeal.S4096 EltTy.i32)
local notation "tV" => (Memref.whole Cert.KernelIdeal.main_v1_scv : Memref Cert.KernelIdeal.sig Kind.scVector Space.hbm Cert.KernelIdeal.S100000x128 EltTy.f32)
local notation "pV" => (Memref.whole Cert.KernelIdeal.main_v2_0_scv : Memref Cert.KernelIdeal.sig Kind.scVector Space.hbm Cert.KernelIdeal.S4096x128 EltTy.f32)
local notation "nV" => (Memref.whole Cert.KernelIdeal.main_v2_1_scv : Memref Cert.KernelIdeal.sig Kind.scVector Space.hbm Cert.KernelIdeal.S200704x128 EltTy.f32)
local notation "b0" => (Memref.whole Cert.KernelIdeal.cc0_scratch0 : Memref Cert.KernelIdeal.sig Kind.scVector Space.vmem Cert.KernelIdeal.S128 EltTy.i32)
local notation "b1" => (Memref.whole Cert.KernelIdeal.cc0_scratch1 : Memref Cert.KernelIdeal.sig Kind.scVector Space.vmem Cert.KernelIdeal.S128 EltTy.i32)
local notation "b2" => (Memref.whole Cert.KernelIdeal.cc0_scratch2 : Memref Cert.KernelIdeal.sig Kind.scVector Space.vmem Cert.KernelIdeal.S128 EltTy.i32)
local notation "b3" => (Memref.whole Cert.KernelIdeal.cc0_scratch3 : Memref Cert.KernelIdeal.sig Kind.scVector Space.vmem Cert.KernelIdeal.S49x128 EltTy.i32)
local notation "b4" => (Memref.whole Cert.KernelIdeal.cc0_scratch4 : Memref Cert.KernelIdeal.sig Kind.scVector Space.vmem Cert.KernelIdeal.S128x128 EltTy.f32)
local notation "b5" => (Memref.whole Cert.KernelIdeal.cc0_scratch5 : Memref Cert.KernelIdeal.sig Kind.scVector Space.vmem Cert.KernelIdeal.S6x128x128 EltTy.f32)

variable (m : (ℓ : Loc nD τ sig) → Buf (Elt F) ℓ)

/-! ## The subcore's own semaphores and buffers -/

theorem reg_not_scoped : ∀ r : Sem sig, (SemLoc.reg r : SemLoc sig).isScoped .scVector = false := by decide
theorem dma_scoped : ∀ s : DmaSem sig, (SemLoc.dma s : SemLoc sig).isScoped .scVector = true := by decide

theorem ownCells_V (d : Dev nD) (c : Fin τ.nSC) (i : Fin τ.nSub) :
    ownCells (V d c i) = (Finset.univ : Finset (DmaSem sig)).map
      ⟨fun s => ((V d c i, SemLoc.dma s) : GSem nD τ sig), fun a b h => by injection (Prod.mk.inj h).2⟩ := by
  ext ⟨thr, sl⟩
  rw [mem_ownCells, Finset.mem_map]
  constructor
  · rintro ⟨e, h⟩
    have e' : thr = V d c i := e
    subst e'
    cases sl with
    | reg r => exact absurd ((reg_not_scoped r).symm.trans (h : (SemLoc.reg r : SemLoc sig).isScoped .scVector = true)) (by decide)
    | dma s => exact ⟨s, Finset.mem_univ _, rfl⟩
  · rintro ⟨s, -, e⟩
    have e' : ((V d c i, SemLoc.dma s) : GSem nD τ sig) = (thr, sl) := e
    obtain ⟨rfl, rfl⟩ := Prod.mk.inj e'
    exact ⟨rfl, dma_scoped s⟩

theorem ownSems0_V (d : Dev nD) (c : Fin τ.nSC) (i : Fin τ.nSub) :
    (ownSems0 (V d c i) : sProp 𝕄) = bigSep (Finset.univ : Finset (DmaSem sig)) fun s => semVal ((V d c i, SemLoc.dma s) : GSem nD τ sig) 0 := by
  unfold SparseCore.Cfg.ownSems0; rw [ownCells_V, bigSep_map]; rfl

/-- The sixteen transfer semaphores of a subcore, one by one: the positive gather's, the six ring slots' gather and
    drain semaphores, and the three of the blocking copies. -/
theorem sems16 (Φ : DmaSem sig → sProp 𝕄) :
    (bigSep Finset.univ Φ : sProp 𝕄) = iprop(Φ cc0_scratch6.sem ∗ Φ cc0_scratch7.sem ∗ Φ cc0_scratch8.sem ∗ Φ cc0_scratch9.sem ∗ Φ cc0_scratch10.sem ∗ Φ cc0_scratch11.sem ∗ Φ cc0_scratch12.sem ∗ Φ cc0_scratch13.sem ∗ Φ cc0_scratch14.sem ∗ Φ cc0_scratch15.sem ∗ Φ cc0_scratch16.sem ∗ Φ cc0_scratch17.sem ∗ Φ cc0_scratch18.sem ∗ Φ cc0_scoped0.sem ∗ Φ cc0_scoped1.sem ∗ Φ cc0_scoped2.sem) := by
  rw [show (Finset.univ : Finset (DmaSem sig)) = {cc0_scratch6.sem, cc0_scratch7.sem, cc0_scratch8.sem, cc0_scratch9.sem, cc0_scratch10.sem, cc0_scratch11.sem, cc0_scratch12.sem, cc0_scratch13.sem, cc0_scratch14.sem, cc0_scratch15.sem, cc0_scratch16.sem, cc0_scratch17.sem, cc0_scratch18.sem, cc0_scoped0.sem, cc0_scoped1.sem, cc0_scoped2.sem} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- What is left of a subcore's own buffers beside the kernel's six scratch buffers. -/
def restBufs (d : Dev nD) (L : grid0.Coords) : sProp 𝕄 :=
  bigSep (((((((ownRefs (τ := τ) (sig := sig) (.scVector (cV L) (jV L))).erase ((Proc.scVector (cV L) (jV L)).devRef cc0_scratch0)).erase ((Proc.scVector (cV L) (jV L)).devRef cc0_scratch1)).erase ((Proc.scVector (cV L) (jV L)).devRef cc0_scratch2)).erase
      ((Proc.scVector (cV L) (jV L)).devRef cc0_scratch3)).erase ((Proc.scVector (cV L) (jV L)).devRef cc0_scratch4)).erase ((Proc.scVector (cV L) (jV L)).devRef cc0_scratch5))
    fun b => iprop(∃ f, ((d, b) : Loc nD τ sig) ↦{fullShare} f)

theorem ownBufs_V (d : Dev nD) (L : grid0.Coords) :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f)
          ∗ restBufs (F := F) d L) := by
  have hm0 : ((Proc.scVector (cV L) (jV L)).devRef cc0_scratch0) ∈ ownRefs (τ := τ) (sig := sig) (.scVector (cV L) (jV L)) :=
    SparseCore.Cfg.mem_ownRefs_of_owner (p := (Proc.scVector (cV L) (jV L))) (b := ((Proc.scVector (cV L) (jV L)).devRef cc0_scratch0)) rfl
  have hm1 : ((Proc.scVector (cV L) (jV L)).devRef cc0_scratch1) ∈ ownRefs (τ := τ) (sig := sig) (.scVector (cV L) (jV L)) :=
    SparseCore.Cfg.mem_ownRefs_of_owner (p := (Proc.scVector (cV L) (jV L))) (b := ((Proc.scVector (cV L) (jV L)).devRef cc0_scratch1)) rfl
  have hm2 : ((Proc.scVector (cV L) (jV L)).devRef cc0_scratch2) ∈ ownRefs (τ := τ) (sig := sig) (.scVector (cV L) (jV L)) :=
    SparseCore.Cfg.mem_ownRefs_of_owner (p := (Proc.scVector (cV L) (jV L))) (b := ((Proc.scVector (cV L) (jV L)).devRef cc0_scratch2)) rfl
  have hm3 : ((Proc.scVector (cV L) (jV L)).devRef cc0_scratch3) ∈ ownRefs (τ := τ) (sig := sig) (.scVector (cV L) (jV L)) :=
    SparseCore.Cfg.mem_ownRefs_of_owner (p := (Proc.scVector (cV L) (jV L))) (b := ((Proc.scVector (cV L) (jV L)).devRef cc0_scratch3)) rfl
  have hm4 : ((Proc.scVector (cV L) (jV L)).devRef cc0_scratch4) ∈ ownRefs (τ := τ) (sig := sig) (.scVector (cV L) (jV L)) :=
    SparseCore.Cfg.mem_ownRefs_of_owner (p := (Proc.scVector (cV L) (jV L))) (b := ((Proc.scVector (cV L) (jV L)).devRef cc0_scratch4)) rfl
  have hm5 : ((Proc.scVector (cV L) (jV L)).devRef cc0_scratch5) ∈ ownRefs (τ := τ) (sig := sig) (.scVector (cV L) (jV L)) :=
    SparseCore.Cfg.mem_ownRefs_of_owner (p := (Proc.scVector (cV L) (jV L))) (b := ((Proc.scVector (cV L) (jV L)).devRef cc0_scratch5)) rfl
  have ne : ∀ a b : Ref sig .scVector, a ≠ b → (Proc.scVector (cV L) (jV L)).devRef a ≠ (Proc.scVector (cV L) (jV L)).devRef b :=
    fun a b h e => h (Proc.devRef_injective _ e)
  unfold SparseCore.Cfg.ownBufs restBufs
  refine (SparseCore.bigSep_erase' hm0).trans ?_
  rw [SparseCore.bigSep_erase' (Finset.mem_erase.mpr ⟨ne cc0_scratch1 cc0_scratch0 (by decide), hm1⟩),
    SparseCore.bigSep_erase' (Finset.mem_erase.mpr ⟨ne cc0_scratch2 cc0_scratch1 (by decide), Finset.mem_erase.mpr ⟨ne cc0_scratch2 cc0_scratch0 (by decide), hm2⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide), hm3⟩⟩⟩),
    SparseCore.bigSep_erase' (Finset.mem_erase.mpr ⟨ne cc0_scratch4 cc0_scratch3 (by decide), Finset.mem_erase.mpr ⟨ne cc0_scratch4 cc0_scratch2 (by decide),
      Finset.mem_erase.mpr ⟨ne cc0_scratch4 cc0_scratch1 (by decide), Finset.mem_erase.mpr ⟨ne cc0_scratch4 cc0_scratch0 (by decide), hm4⟩⟩⟩⟩),
    SparseCore.bigSep_erase' (Finset.mem_erase.mpr ⟨ne cc0_scratch5 cc0_scratch4 (by decide), Finset.mem_erase.mpr ⟨ne cc0_scratch5 cc0_scratch3 (by decide),
      Finset.mem_erase.mpr ⟨ne cc0_scratch5 cc0_scratch2 (by decide), Finset.mem_erase.mpr ⟨ne cc0_scratch5 cc0_scratch1 (by decide),
        Finset.mem_erase.mpr ⟨ne cc0_scratch5 cc0_scratch0 (by decide), hm5⟩⟩⟩⟩⟩)]

/-- Through the whole view of a buffer, the elements under a set of indices are that set. -/
theorem setOn_whole' {κ : Kind} (b : Ref sig κ) (M : Finset b.ty.shape.Idx) : (View.whole b : View sig κ _ _ _).setOn M = M := by
  ext i
  constructor
  · intro hi
    obtain ⟨x, hx, rfl⟩ := Finset.mem_map.mp hi
    exact hx
  · intro hi
    exact Finset.mem_map.mpr ⟨i, hi, rfl⟩

/-- A 16-lane chunk of one row of the plane buffer and another whole row of it share no element. -/
theorem plane_row_disj (off : Fin 2 → ℕ) (h) (j : ℕ) (hj) (hoff : j + 1 ≤ off 0 ∨ off 0 + 1 ≤ j) :
    Disjoint ((b3).view.setOn (Rect.unit (s := S49x128) off S1x16.size h).set)
      ((((b3).slice (Rect.unit (s := S49x128) ![j, 0] S1x128.size hj) (fun _ => rfl)).squeeze S128 squeezes_S1x128_S128).view.set) := by
  have e2 : ((((b3).slice (Rect.unit (s := S49x128) ![j, 0] S1x128.size hj) (fun _ => rfl)).squeeze S128 squeezes_S1x128_S128).view.set)
      = (Rect.unit (s := S49x128) ![j, 0] S1x128.size hj).set := by
    show ((((b3).view.slice (Rect.unit (s := S49x128) ![j, 0] S1x128.size hj)).reshape S128 squeezes_S1x128_S128.numel_eq).set) = _
    rw [View.set_reshape]; exact View.set_slice_whole _ _
  have e1 : ((b3).view.setOn (Rect.unit (s := S49x128) off S1x16.size h).set) = (Rect.unit (s := S49x128) off S1x16.size h).set :=
    setOn_whole' cc0_scratch3 _
  rw [e1, e2]
  refine Rect.unit_disjoint 0 ?_
  rcases hoff with h' | h'
  · right; simpa using h'
  · left; simpa using h'

theorem plane_row_disj' (off : Fin 2 → ℕ) (h) (j : ℕ) (hj) (hoff : j + 1 ≤ off 0 ∨ off 0 + 1 ≤ j) :
    Disjoint ((b3).access (Rect.unit (s := S49x128) off S1x16.size h)).set
      ((((b3).slice (Rect.unit (s := S49x128) ![j, 0] S1x128.size hj) (fun _ => rfl)).squeeze S128 squeezes_S1x128_S128).view.set) := by
  have e := plane_row_disj off h j hj hoff
  have e1 : ((b3).view.setOn (Rect.unit (s := S49x128) off S1x16.size h).set) = ((b3).access (Rect.unit (s := S49x128) off S1x16.size h)).set := by
    rw [setOn_whole' cc0_scratch3]; exact (View.set_slice_whole _ _).symm
  rwa [e1] at e

/-- The first plane loop's invariant: the attribute and value vectors as copied in, the planes below `k` filled. -/
def inv1 (d : Dev nD) (L : grid0.Coords) (fa : Buf (Elt F) ((V d (cV L) (jV L)).loc cc0_scratch0)) (fv : Buf (Elt F) ((V d (cV L) (jV L)).loc cc0_scratch1))
    (k : ℕ) (_ : PUnit) : sProp 𝕄 :=
  iprop(((b0).view.loc (V d (cV L) (jV L)) ↦{fullShare} fa) ∗ ((b1).view.loc (V d (cV L) (jV L)) ↦{fullShare} fv)
    ∗ ∃ f3, ((b3).view.loc (V d (cV L) (jV L)) ↦{fullShare} f3) ∗ ⌜planesOK fa fv 0 k f3⌝)

/-- The second plane loop's invariant: planes `4 ≤ j < 4 + k` filled, the buffer held on all rows but the first four
    (those are out on loan to the first four gathers). -/
def inv2 (d : Dev nD) (L : grid0.Coords) (fa : Buf (Elt F) ((V d (cV L) (jV L)).loc cc0_scratch0)) (fv : Buf (Elt F) ((V d (cV L) (jV L)).loc cc0_scratch1))
    (k : ℕ) (_ : PUnit) : sProp 𝕄 :=
  iprop(((b0).view.loc (V d (cV L) (jV L)) ↦{fullShare} fa) ∗ ((b1).view.loc (V d (cV L) (jV L)) ↦{fullShare} fv)
    ∗ ∃ f3, ((b3).view.loc (V d (cV L) (jV L)) ↦[((((Finset.univ \ ((((b3).slice (Rect.unit (s := S49x128) ![0, 0] S1x128.size inb_S49x128_S1x128_0_0) (fun _ => rfl)).squeeze S128 squeezes_S1x128_S128)).view.set) \ ((((b3).slice (Rect.unit (s := S49x128) ![1, 0] S1x128.size inb_S49x128_S1x128_1_0) (fun _ => rfl)).squeeze S128 squeezes_S1x128_S128)).view.set) \ ((((b3).slice (Rect.unit (s := S49x128) ![2, 0] S1x128.size inb_S49x128_S1x128_2_0) (fun _ => rfl)).squeeze S128 squeezes_S1x128_S128)).view.set) \ ((((b3).slice (Rect.unit (s := S49x128) ![3, 0] S1x128.size inb_S49x128_S1x128_3_0) (fun _ => rfl)).squeeze S128 squeezes_S1x128_S128)).view.set)]{fullShare} f3) ∗ ⌜planesOK fa fv 4 (4 + k) f3⌝)

/-- One plane row written in its eight chunks, the chunks given one by one. -/
theorem planes_step8 (fa fv : S128.Idx → Elt F .i32) (lo r : ℕ) (hr : r < 49) (f3 : S49x128.Idx → Elt F .i32) (hok : planesOK fa fv lo r f3)
    (o0 o1 o2 o3 o4 o5 o6 o7 : Fin 2 → ℕ)
    (e0 : o0 = ![r, 16 * 0]) (e1 : o1 = ![r, 16 * 1]) (e2 : o2 = ![r, 16 * 2]) (e3 : o3 = ![r, 16 * 3])
    (e4 : o4 = ![r, 16 * 4]) (e5 : o5 = ![r, 16 * 5]) (e6 : o6 = ![r, 16 * 6]) (e7 : o7 = ![r, 16 * 7])
    (g0 : ∀ a, o0 a + S1x16.size a ≤ S49x128.size a) (g1 : ∀ a, o1 a + S1x16.size a ≤ S49x128.size a)
    (g2 : ∀ a, o2 a + S1x16.size a ≤ S49x128.size a) (g3 : ∀ a, o3 a + S1x16.size a ≤ S49x128.size a)
    (g4 : ∀ a, o4 a + S1x16.size a ≤ S49x128.size a) (g5 : ∀ a, o5 a + S1x16.size a ≤ S49x128.size a)
    (g6 : ∀ a, o6 a + S1x16.size a ≤ S49x128.size a) (g7 : ∀ a, o7 a + S1x16.size a ≤ S49x128.size a)
    (P : Fin 8 → S1x16.Idx → Elt F .i32)
    (hP : ∀ c x, P c x = nidxW (BitVec.ofNat 32 r) (fa (ValueIdx.ix1 (⟨16 * c.val + (x 1).val, by have := c.isLt; have := (x 1).isLt; simp at this; omega⟩ : Fin 128)))
        (fv (ValueIdx.ix1 (⟨16 * c.val + (x 1).val, by have := c.isLt; have := (x 1).isLt; simp at this; omega⟩ : Fin 128)))) :
    planesOK fa fv lo (r + 1) ((b3).view.writes (Elt F) f3
      [⟨Rect.unit (s := S49x128) o7 S1x16.size g7, P 7⟩, ⟨Rect.unit (s := S49x128) o6 S1x16.size g6, P 6⟩, ⟨Rect.unit (s := S49x128) o5 S1x16.size g5, P 5⟩,
       ⟨Rect.unit (s := S49x128) o4 S1x16.size g4, P 4⟩, ⟨Rect.unit (s := S49x128) o3 S1x16.size g3, P 3⟩, ⟨Rect.unit (s := S49x128) o2 S1x16.size g2, P 2⟩,
       ⟨Rect.unit (s := S49x128) o1 S1x16.size g1, P 1⟩, ⟨Rect.unit (s := S49x128) o0 S1x16.size g0, P 0⟩]) := by
  subst e0 e1 e2 e3 e4 e5 e6 e7
  exact planes_step fa fv lo r hr f3 hok ![![r, 16 * 0], ![r, 16 * 1], ![r, 16 * 2], ![r, 16 * 3], ![r, 16 * 4], ![r, 16 * 5], ![r, 16 * 6], ![r, 16 * 7]]
    (by intro c; fin_cases c <;> rfl) (by intro c; fin_cases c <;> assumption) P hP

/-- The last three blocks the kernel names after the ring loop are those of planes 46, 47, 48. -/
theorem off28_n (L : grid0.Coords) (c : Fin 3) (j : ℕ) (hj : j < 49) (e : 46 + c.val = j) :
    k0_off28 L (BitVec.ofNat 32 (188416 + 4096 * c.val)) = nOff L ⟨j, hj⟩ := by
  subst e
  refine (k0_off28_eq L c).trans ?_
  have e' : 4096 * c.val + 256 * (L 1).val + 128 * (L 0).val + 188416 = 4096 * (46 + c.val) + (256 * (L 1).val + 128 * (L 0).val) := by omega
  show (![_, 0] : Fin 2 → ℕ) = ![_, 0]
  rw [e']

/-- A slot at rest, spelt out. -/
theorem Ready_def (d : Dev nD) (L : grid0.Coords) (Tb : Buf (Elt F) (tLoc d)) (K : SlotK) (fd : Buf (Elt F) ((slotM K.o K.h).view.loc (V d (cV L) (jV L)))) :
    Ready d L Tb K fd = (iprop(semVal (V d (cV L) (jV L), SemLoc.dma K.g) 0 ∗ semVal (V d (cV L) (jV L), SemLoc.dma K.dm) 0
      ∗ ((slotM K.o K.h).view.loc (V d (cV L) (jV L)) ↦[(slotM K.o K.h).view.set]{fullShare} fd)
      ∗ ((tS).view.loc (V d (cV L) (jV L)) ↦[(tS).view.set]{K.s} Tb)) : sProp 𝕄) := rfl

theorem Idle_intro (d : Dev nD) (L : grid0.Coords) (Tb : Buf (Elt F) (tLoc d)) (K : SlotK) (fd : Buf (Elt F) ((slotM K.o K.h).view.loc (V d (cV L) (jV L)))) :
    Ready d L Tb K fd ⊢ Idle d L Tb K := by
  unfold Idle; iintro H; iexists fd; iexact H

end Cert.KI

end
-- ==== Proof.Ring3.lean ====
/-
  The ring loop's invariant.  After `6 r` ring steps (before trip `r`): planes `6 r .. 6 r + 3` have their gathers in
  flight in slots 0..3, planes `6 r - 2`, `6 r - 1` their copies-out in flight from slots 4, 5 (at `r = 0` those two slots
  are idle), every earlier plane is written out, every later one untouched.
-/
import proofs.«210835_g78632261255710_cont_9to1_m_350_20_alg».proof.Proof.RingDefs

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aV" => (Memref.whole Cert.KernelIdeal.main_arg0_scv : Memref Cert.KernelIdeal.sig Kind.scVector Space.hbm Cert.KernelIdeal.S4096 EltTy.i32)
local notation "vV" => (Memref.whole Cert.KernelIdeal.main_arg1_scv : Memref Cert.KernelIdeal.sig Kind.scVector Space.hbm Cert.KernelIdeal.S4096 EltTy.i32)
local notation "tV" => (Memref.whole Cert.KernelIdeal.main_v1_scv : Memref Cert.KernelIdeal.sig Kind.scVector Space.hbm Cert.KernelIdeal.S100000x128 EltTy.f32)
local notation "pV" => (Memref.whole Cert.KernelIdeal.main_v2_0_scv : Memref Cert.KernelIdeal.sig Kind.scVector Space.hbm Cert.KernelIdeal.S4096x128 EltTy.f32)
local notation "nV" => (Memref.whole Cert.KernelIdeal.main_v2_1_scv : Memref Cert.KernelIdeal.sig Kind.scVector Space.hbm Cert.KernelIdeal.S200704x128 EltTy.f32)
local notation "b0" => (Memref.whole Cert.KernelIdeal.cc0_scratch0 : Memref Cert.KernelIdeal.sig Kind.scVector Space.vmem Cert.KernelIdeal.S128 EltTy.i32)
local notation "b1" => (Memref.whole Cert.KernelIdeal.cc0_scratch1 : Memref Cert.KernelIdeal.sig Kind.scVector Space.vmem Cert.KernelIdeal.S128 EltTy.i32)
local notation "b2" => (Memref.whole Cert.KernelIdeal.cc0_scratch2 : Memref Cert.KernelIdeal.sig Kind.scVector Space.vmem Cert.KernelIdeal.S128 EltTy.i32)
local notation "b3" => (Memref.whole Cert.KernelIdeal.cc0_scratch3 : Memref Cert.KernelIdeal.sig Kind.scVector Space.vmem Cert.KernelIdeal.S49x128 EltTy.i32)
local notation "b4" => (Memref.whole Cert.KernelIdeal.cc0_scratch4 : Memref Cert.KernelIdeal.sig Kind.scVector Space.vmem Cert.KernelIdeal.S128x128 EltTy.f32)
local notation "b5" => (Memref.whole Cert.KernelIdeal.cc0_scratch5 : Memref Cert.KernelIdeal.sig Kind.scVector Space.vmem Cert.KernelIdeal.S6x128x128 EltTy.f32)

variable (m : (ℓ : Loc nD τ sig) → Buf (Elt F) ℓ) (d : Dev nD) (L : grid0.Coords)

/-- The seven shares the table's share `q` is cut into: one per ring slot, the last for the positive gather. -/
def tShare (q : PosShare TreeShare) : ℕ → PosShare TreeShare
  | 0 => q.left
  | 1 => q.right.left
  | 2 => q.right.right.left
  | 3 => q.right.right.right.left
  | 4 => q.right.right.right.right.left
  | 5 => q.right.right.right.right.right.left
  | _ => q.right.right.right.right.right.right

/-- The six ring slots. -/
def slotK (q : PosShare TreeShare) : Fin 6 → SlotK
  | 0 => ⟨![0, 0, 0], inb_S6x128x128_S1x128x128_0_0_0, cc0_scratch7.sem, cc0_scratch13.sem, tShare q 0⟩
  | 1 => ⟨![1, 0, 0], inb_S6x128x128_S1x128x128_1_0_0, cc0_scratch8.sem, cc0_scratch14.sem, tShare q 1⟩
  | 2 => ⟨![2, 0, 0], inb_S6x128x128_S1x128x128_2_0_0, cc0_scratch9.sem, cc0_scratch15.sem, tShare q 2⟩
  | 3 => ⟨![3, 0, 0], inb_S6x128x128_S1x128x128_3_0_0, cc0_scratch10.sem, cc0_scratch16.sem, tShare q 3⟩
  | 4 => ⟨![4, 0, 0], inb_S6x128x128_S1x128x128_4_0_0, cc0_scratch11.sem, cc0_scratch17.sem, tShare q 4⟩
  | 5 => ⟨![5, 0, 0], inb_S6x128x128_S1x128x128_5_0_0, cc0_scratch12.sem, cc0_scratch18.sem, tShare q 5⟩

variable (q : PosShare TreeShare) (f3 : S49x128.Idx → Elt F .i32)

/-- Slot `b ≤ 3` before trip `r`: plane `6 r + b`'s gather in flight, if there is such a plane. -/
def stG (b : Fin 6) (r : ℕ) : sProp 𝕄 :=
  if h : 6 * r + b.val < 49 then Gath m d L (tbl m d) f3 (slotK q b) ⟨6 * r + b.val, h⟩ else Idle d L (tbl m d) (slotK q b)

/-- Slot `b = 4, 5` before trip `r`: plane `6 r + b - 6`'s copy-out in flight, from trip 1 on. -/
def stD (b : Fin 6) (r : ℕ) : sProp 𝕄 :=
  if h : 1 ≤ r ∧ 6 * r + b.val - 6 < 49 then Drain m d L (tbl m d) (slotK q b) ⟨6 * r + b.val - 6, h.2⟩ else Idle d L (tbl m d) (slotK q b)

/-- The ring loop's invariant before trip `r`. -/
def inv3 (O : CellTallies nD τ sig (HIx 1)) (W : Waits sig (HIx 1)) (r : ℕ) (_ : PUnit) : sProp 𝕄 :=
  iprop(Transfers.MayWaits (V d (cV L) (jV L)) (default : HIx 1) O ∗ owesW d L O W
    ∗ nDone m d L (6 * r) ∗ nTodo m d L (6 * r) ∗ rDone d L f3 (6 * r) ∗ rTodo d L f3 (6 * r)
    ∗ stG m d L q f3 0 r ∗ stG m d L q f3 1 r ∗ stG m d L q f3 2 r ∗ stG m d L q f3 3 r ∗ stD m d L q 4 r ∗ stD m d L q 5 r)

/-! ## The printed offsets and conditions of the ring loop, in closed form -/

theorem trips3 : k0_t3_loop.trips = 8 := by decide

theorem cond1_iff : ∀ k : Fin k0_t3_loop.trips, k0_cond1 k = 1#1 ↔ 1 ≤ k.val := by decide
theorem cond2_iff : ∀ k : Fin k0_t3_loop.trips, k0_cond2 k = 1#1 ↔ 1 ≤ k.val := by decide
theorem cond3_true : ∀ k : Fin k0_t3_loop.trips, k0_cond3 k = 1#1 := by decide
theorem cond4_iff : ∀ k : Fin k0_t3_loop.trips, k0_cond4 k = 1#1 ↔ k.val ≤ 6 := by decide
theorem cond5_iff : ∀ k : Fin k0_t3_loop.trips, k0_cond5 k = 1#1 ↔ k.val ≤ 6 := by decide
theorem cond6_iff : ∀ k : Fin k0_t3_loop.trips, k0_cond6 k = 1#1 ↔ k.val ≤ 6 := by decide

theorem vec2_congr {a b : ℕ} (h : a = b) : (![a, 0] : Fin 2 → ℕ) = ![b, 0] := by rw [h]

/-- The block the step-`c` copy-out of trip `k` writes is the subcore's block of plane `6 k + c`. -/
theorem off19_n (k : Fin k0_t3_loop.trips) (c : Fin 6) (j : ℕ) (hj : j < 49) (e : 6 * k.val + c.val = j) :
    k0_off19 L k (BitVec.ofNat 32 c.val) = nOff L ⟨j, hj⟩ := by
  subst e
  exact (k0_off19_eq L k c).trans (vec2_congr (by show _ = 4096 * (6 * k.val + c.val) + (256 * (L 1).val + 128 * (L 0).val); omega))

theorem off20_raw : ∀ (L : grid0.Coords) (k : Fin k0_t3_loop.trips), k0_cond1 k = 1#1 →
    k0_off20 L k = ![24576 * k.val + 256 * (L 1).val + 128 * (L 0).val - 8192, 0] := by decide +kernel
theorem off22_raw : ∀ (L : grid0.Coords) (k : Fin k0_t3_loop.trips), k0_cond2 k = 1#1 →
    k0_off22 L k = ![24576 * k.val + 256 * (L 1).val + 128 * (L 0).val - 4096, 0] := by decide +kernel

/-- The copies-out waited for in steps 0 and 1 of trip `k ≥ 1` are those of planes `6 k - 2` and `6 k - 1`. -/
theorem off20_n (k : Fin k0_t3_loop.trips) (h1 : k0_cond1 k = 1#1) (j : ℕ) (hj : j < 49) (e : 6 * k.val + 4 - 6 = j) : k0_off20 L k = nOff L ⟨j, hj⟩ := by
  have hk := (cond1_iff k).mp h1
  subst e
  exact (off20_raw L k h1).trans (vec2_congr (by show _ = 4096 * (6 * k.val + 4 - 6) + (256 * (L 1).val + 128 * (L 0).val); omega))
theorem off22_n (k : Fin k0_t3_loop.trips) (h2 : k0_cond2 k = 1#1) (j : ℕ) (hj : j < 49) (e : 6 * k.val + 5 - 6 = j) : k0_off22 L k = nOff L ⟨j, hj⟩ := by
  have hk := (cond2_iff k).mp h2
  subst e
  exact (off22_raw L k h2).trans (vec2_congr (by show _ = 4096 * (6 * k.val + 5 - 6) + (256 * (L 1).val + 128 * (L 0).val); omega))
/-- The copies-out waited for in steps 2..5 of trip `k` are those of planes `6 k .. 6 k + 3`. -/
theorem off23_n (k : Fin k0_t3_loop.trips) (c : Fin 4) (j : ℕ) (hj : j < 49) (e : 6 * k.val + c.val = j) :
    k0_off23 L k (BitVec.ofNat 32 (2 + c.val)) = nOff L ⟨j, hj⟩ := by
  subst e
  exact (k0_off23_eq L k c).trans (vec2_congr (by show _ = 4096 * (6 * k.val + c.val) + (256 * (L 1).val + 128 * (L 0).val); omega))

/-- The index rows lent to the gathers issued in trip `k`: planes `6 k + 4 .. 6 k + 9`. -/
theorem off21_n (k : Fin k0_t3_loop.trips) (c : Fin 2) (j : ℕ) (e : 6 * k.val + c.val + 4 = j) : k0_off21 k (BitVec.ofNat 32 c.val) = ![j, 0] := e ▸ k0_off21_eq k c
theorem off24_n (k : Fin k0_t3_loop.trips) (j : ℕ) (e : 6 * k.val + 6 = j) : k0_off24 k = ![j, 0] := e ▸ k0_off24_eq k
theorem off25_n (k : Fin k0_t3_loop.trips) (j : ℕ) (e : 6 * k.val + 7 = j) : k0_off25 k = ![j, 0] := e ▸ k0_off25_eq k
theorem off26_n (k : Fin k0_t3_loop.trips) (j : ℕ) (e : 6 * k.val + 8 = j) : k0_off26 k = ![j, 0] := e ▸ k0_off26_eq k
theorem off27_n (k : Fin k0_t3_loop.trips) (j : ℕ) (e : 6 * k.val + 9 = j) : k0_off27 k = ![j, 0] := e ▸ k0_off27_eq k

variable {m d L q} in
theorem stD_zero' (b : Fin 6) (r : ℕ) (hr : r = 0) : stD m d L q b r = Idle d L (tbl m d) (slotK q b) := by
  subst hr; unfold stD; rw [dif_neg (by omega)]

variable {m d L} in
theorem Gath_cast (Tb) (f3 : S49x128.Idx → Elt F .i32) (K : SlotK) (j j' : Fin 49) (e : j.val = j'.val) : Gath m d L Tb f3 K j = Gath m d L Tb f3 K j' := by
  cases Fin.ext e; rfl
variable {m d L} in
theorem Drain_cast (Tb) (K : SlotK) (j j' : Fin 49) (e : j.val = j'.val) : Drain m d L Tb K j = Drain m d L Tb K j' := by
  cases Fin.ext e; rfl

variable {m d L q f3} in
theorem stG_pos (b : Fin 6) (r : ℕ) (j : ℕ) (hj : j < 49) (e : 6 * r + b.val = j) :
    stG m d L q f3 b r = Gath m d L (tbl m d) f3 (slotK q b) ⟨j, hj⟩ := by
  subst e; unfold stG; rw [dif_pos hj]
variable {m d L q} in
theorem stD_pos (b : Fin 6) (r : ℕ) (j : ℕ) (hj : j < 49) (hr : 1 ≤ r) (e : 6 * r + b.val - 6 = j) :
    stD m d L q b r = Drain m d L (tbl m d) (slotK q b) ⟨j, hj⟩ := by
  subst e; unfold stD; rw [dif_pos ⟨hr, hj⟩]
variable {m d L q f3} in
theorem stG_neg (b : Fin 6) (r : ℕ) (h : ¬ 6 * r + b.val < 49) : stG m d L q f3 b r = Idle d L (tbl m d) (slotK q b) := by
  unfold stG; rw [dif_neg h]
variable {m d L q} in
theorem stD_zero (b : Fin 6) : stD m d L q b 0 = Idle d L (tbl m d) (slotK q b) := by
  unfold stD; rw [dif_neg (by omega)]

/-- An index row in the spelling a gather of the program names it by. -/
theorem pRow_spell (j : Fin 49) (o : Fin 2 → ℕ) (h : ∀ a, o a + S1x128.size a ≤ S49x128.size a) (ho : o = ![j.val, 0]) :
    pRow d L f3 j = ((planeRow o h).view.loc (V d (cV L) (jV L)) ↦[(planeRow o h).view.set]{fullShare} f3 : sProp 𝕄) := by
  subst ho; rfl

end Cert.KI

end
-- ==== Proof.RingG.lean ====
import proofs.«210835_g78632261255710_cont_9to1_m_350_20_alg».proof.Proof.RingDefs
import proofs.«210835_g78632261255710_cont_9to1_m_350_20_alg».proof.Proof.Words
import proofs.«210835_g78632261255710_cont_9to1_m_350_20_alg».proof.Proof.PlaneVals
import proofs.«210835_g78632261255710_cont_9to1_m_350_20_alg».proof.Proof.SliceVals
import proofs.«210835_g78632261255710_cont_9to1_m_350_20_alg».proof.Proof.GatherVal

/-! A ring slot's indexed copy, issued and awaited. Issued from a slot at rest with plane `j`'s index row in hand, it
    leaves the slot with the copy in flight, to deliver the slot at plane `j`'s rows of the table; awaited, it hands
    back the slot at those rows, the table share and the index row. -/

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aV" => (Memref.whole Cert.KernelIdeal.main_arg0_scv : Memref Cert.KernelIdeal.sig Kind.scVector Space.hbm Cert.KernelIdeal.S4096 EltTy.i32)
local notation "vV" => (Memref.whole Cert.KernelIdeal.main_arg1_scv : Memref Cert.KernelIdeal.sig Kind.scVector Space.hbm Cert.KernelIdeal.S4096 EltTy.i32)
local notation "tV" => (Memref.whole Cert.KernelIdeal.main_v1_scv : Memref Cert.KernelIdeal.sig Kind.scVector Space.hbm Cert.KernelIdeal.S100000x128 EltTy.f32)
local notation "pV" => (Memref.whole Cert.KernelIdeal.main_v2_0_scv : Memref Cert.KernelIdeal.sig Kind.scVector Space.hbm Cert.KernelIdeal.S4096x128 EltTy.f32)
local notation "nV" => (Memref.whole Cert.KernelIdeal.main_v2_1_scv : Memref Cert.KernelIdeal.sig Kind.scVector Space.hbm Cert.KernelIdeal.S200704x128 EltTy.f32)
local notation "b0" => (Memref.whole Cert.KernelIdeal.cc0_scratch0 : Memref Cert.KernelIdeal.sig Kind.scVector Space.vmem Cert.KernelIdeal.S128 EltTy.i32)
local notation "b1" => (Memref.whole Cert.KernelIdeal.cc0_scratch1 : Memref Cert.KernelIdeal.sig Kind.scVector Space.vmem Cert.KernelIdeal.S128 EltTy.i32)
local notation "b2" => (Memref.whole Cert.KernelIdeal.cc0_scratch2 : Memref Cert.KernelIdeal.sig Kind.scVector Space.vmem Cert.KernelIdeal.S128 EltTy.i32)
local notation "b3" => (Memref.whole Cert.KernelIdeal.cc0_scratch3 : Memref Cert.KernelIdeal.sig Kind.scVector Space.vmem Cert.KernelIdeal.S49x128 EltTy.i32)
local notation "b4" => (Memref.whole Cert.KernelIdeal.cc0_scratch4 : Memref Cert.KernelIdeal.sig Kind.scVector Space.vmem Cert.KernelIdeal.S128x128 EltTy.f32)
local notation "b5" => (Memref.whole Cert.KernelIdeal.cc0_scratch5 : Memref Cert.KernelIdeal.sig Kind.scVector Space.vmem Cert.KernelIdeal.S6x128x128 EltTy.f32)

variable (m : (ℓ : Loc nD τ sig) → Buf (Elt F) ℓ) (d : Dev nD) (L : grid0.Coords)

open Idealize.ShloMosaic.ValueIdx

variable [FloatOps F]

local notation "thr" => (V d (cV L) (jV L))
local notation "WP" P:max Q:max => wp frame (wpE (defs₀ (F := F)) 𝒱₀ (V d (cV L) (jV L)) none) Set.univ P Q

/-- The wait of plane `j`'s indexed copy: the slot comes back at plane `j`'s rows with the table share, the index row
    comes back, and the wait is recorded among those the subcore may have made. -/
theorem gwait (K : SlotK) (j : Fin 49) (f3 : S49x128.Idx → Elt F .i32) (O : CellTallies nD τ sig (HIx 1)) (W : Waits sig (HIx 1))
    {α : Type} {k : PUnit → Prog (TpuEff nD τ sig (Elt F) Λ₀ (V d (cV L) (jV L)).2) α} {Q : α → sProp 𝕄}
    {sp' : Space} {s' : Shape} {e' : EltTy} (srcw : Memref sig (V d (cV L) (jV L)).2.kind sp' s' e')
    (hs : srcw.view.WordExact) (hd : (slotM K.o K.h).view.WordExact) :
    (iprop(Gath m d L (tbl m d) f3 K j ∗ owesW d L O W ∗ Transfers.MayWaits thr (default : HIx 1) O) : sProp 𝕄)
      ⊢ iprop((iprop((∃ fd, ⌜slotOK m d L K j fd⌝ ∗ Ready d L (tbl m d) K fd) ∗ pRow d L f3 j ∗ owesW d L O W) -∗ WP (k ⟨⟩) Q)
          -∗ WP (SparseCore.waitIndirectGather K.g srcw (slotM K.o K.h) hs hd >>= k) Q) := by
  unfold Gath owesW
  iintro ⟨⟨Hdm, %o, %h, %fd, %ho, %hok, Hfl⟩, ⟨%W', %hW', HO⟩, Hmw⟩ Hk
  subst ho
  rw [SparseCore.waitIndirectGather_bind]
  iapply (Transfers.wp_waitLocalO countersEmb 𝒱₀ (V d (cV L) (jV L)) none (default : HIx 1)
    (rfl : (slotM K.o K.h).view.dmaCredit = 524288)) $$ [Hfl HO Hmw]
  · isplitl [Hfl]; · iexact Hfl
    isplitl [HO]; · iexact HO
    iapply (Transfers.MayWaits.elim (SemLoc.dma K.g)) $$ Hmw
  iintro ⟨⟨Hslot, Ht, Hrow⟩, Hg, HO⟩
  iapply Hk
  isplitl [Hdm Hslot Ht Hg]
  · iexists fd
    isplitr
    · ipureintro; exact hok
    unfold Ready
    isplitl [Hg]; · iexact Hg
    isplitl [Hdm]; · iexact Hdm
    isplitl [Hslot]; · iexact Hslot
    iexact Ht
  isplitl [Hrow]
  · unfold pRow; iexact Hrow
  iexists (insert (SemLoc.dma K.g, (default : HIx 1)) W')
  isplitr
  · ipureintro
    intro p hp
    rcases Finset.mem_insert.mp hp with rfl | hp
    · exact Or.inr rfl
    · exact hW' p hp
  iexact HO

/-! ## Plane `j`'s rows through the indexed copy, for any filled range of planes holding `j` -/

/-- The table's row named by the subcore's index word for plane `j`, local sample `x 0`, at lane `x 1`, is the
    plane-major negatives at the subcore's block of plane `j`, when plane `j` is among the filled ones. -/
theorem neg_slice_val_range (fa fv : S128.Idx → Elt F .i32) (f3 : S49x128.Idx → Elt F .i32)
    (hfa : ∀ s : Fin 128, fa (ix1 s) = m (aLoc d) (ix1 (⟨base L + s.val, base_add_lt L s⟩ : Fin 4096)))
    (hfv : ∀ s : Fin 128, fv (ix1 s) = m (vLoc d) (ix1 (⟨base L + s.val, base_add_lt L s⟩ : Fin 4096)))
    (lo hi : ℕ) (j : Fin 49) (hlo : lo ≤ j.val) (hhi : j.val < hi) (h3 : planesOK fa fv lo hi f3) (x : S128x128.Idx) :
    tblRow (tbl m d) (f3 (ix2 j (⟨(x 0).val, (x 0).isLt⟩ : Fin 128))) (⟨(x 1).val, (x 1).isLt⟩ : Fin 128)
      = negOf m d ((nRowK L j).view.emb x) := by
  rw [h3 (ix2 j (⟨(x 0).val, (x 0).isLt⟩ : Fin 128)) hlo hhi]
  show tblRow (tbl m d) (nidxW (BitVec.ofNat 32 j.val) (fa (ix1 (⟨(x 0).val, (x 0).isLt⟩ : Fin 128))) (fv (ix1 (⟨(x 0).val, (x 0).isLt⟩ : Fin 128))))
      (⟨(x 1).val, (x 1).isLt⟩ : Fin 128) = Gneg (m (aLoc d)) (m (vLoc d)) (tbl m d) ((nRowK L j).view.emb x)
  rw [hfa, hfv, Gneg_row (m (aLoc d)) (m (vLoc d)) (tbl m d) ((nRowK L j).view.emb x) j.val
    (⟨base L + (x 0).val, base_add_lt L ⟨(x 0).val, (x 0).isLt⟩⟩ : Fin 4096) (nRow_emb0 L j x), nRow_emb1]

/-- The whole-table slice reads the table's contents. -/
theorem tS_read (Tb : Buf (Elt F) (tLoc d)) : (tS).view.read (Elt F) Tb = Tb := by
  funext x
  rw [View.read_apply]
  have e : (tS).view.emb x = x := by
    funext a
    match a with
    | ⟨0, _⟩ => exact Fin.ext (by show 0 + 1 * (x 0).val = (x 0).val; omega)
    | ⟨1, _⟩ => exact Fin.ext (by show 0 + 1 * (x 1).val = (x 1).val; omega)
  rw [e]; rfl

/-- Row `j` of a filled plane buffer names rows of the table. -/
theorem planeRow_inb (fa fv : S128.Idx → Elt F .i32) (f3 : S49x128.Idx → Elt F .i32)
    (hA : ∀ s, (fa s).toNat ≤ 1999) (hV : ∀ s, (fv s).toNat ≤ 49)
    (lo hi : ℕ) (j : Fin 49) (hlo : lo ≤ j.val) (hhi : j.val < hi) (h3 : planesOK fa fv lo hi f3)
    (o : Fin 2 → ℕ) (h : ∀ a, o a + S1x128.size a ≤ S49x128.size a) (ho : o = ![j.val, 0]) (s : S128.Idx) :
    ((planeRow o h).view.read (Elt F) f3 s).toNat < 100000 := by
  subst ho
  rw [planeRow_read _ h j rfl rfl f3 s, h3 (ix2 j (⟨(s 0).val, (s 0).isLt⟩ : Fin 128)) hlo hhi]
  exact nidxW_lt j.val _ _ j.isLt (hA _) (hV _)

/-- The issue of plane `j`'s indexed copy into a slot at rest, the plane's index row in hand: the slot now has the
    copy in flight, to deliver the slot at plane `j`'s rows. -/
theorem gissue_row (K : SlotK) (j : Fin 49) (o : Fin 2 → ℕ) (h : ∀ a, o a + S1x128.size a ≤ S49x128.size a) (ho : o = ![j.val, 0])
    (f3 : S49x128.Idx → Elt F .i32) (fa fv : S128.Idx → Elt F .i32)
    (hfa : ∀ s : Fin 128, fa (ix1 s) = m (aLoc d) (ix1 (⟨base L + s.val, base_add_lt L s⟩ : Fin 4096)))
    (hfv : ∀ s : Fin 128, fv (ix1 s) = m (vLoc d) (ix1 (⟨base L + s.val, base_add_lt L s⟩ : Fin 4096)))
    (hA : ∀ s, (fa s).toNat ≤ 1999) (hV : ∀ s, (fv s).toNat ≤ 49)
    (lo hi : ℕ) (hlo : lo ≤ j.val) (hhi : j.val < hi) (h3 : planesOK fa fv lo hi f3)
    (fd0 : Buf (Elt F) ((slotM K.o K.h).view.loc (V d (cV L) (jV L))))
    {α : Type} {k : PUnit → Prog (TpuEff nD τ sig (Elt F) Λ₀ (V d (cV L) (jV L)).2) α} {Q : α → sProp 𝕄}
    (hp : (V d (cV L) (jV L)).2.kind = .scVector) (hg : S100000x128.Gathers 0 S128x128)
    (hn : S128.numel = S128x128.size hg.axis') (hsrc : (tS).view.WordExact)
    (he : EltTy.f32.bits = 32) (hsp : Space.hbm = .hbm ∨ Space.hbm = .shared) (hr : S100000x128.StreamRows 0) :
    (iprop(Ready d L (tbl m d) K fd0 ∗ ((planeRow o h).view.loc thr ↦[(planeRow o h).view.set]{fullShare} f3)) : sProp 𝕄)
      ⊢ iprop((Gath m d L (tbl m d) f3 K j -∗ WP (k ⟨⟩) Q)
          -∗ WP (SparseCore.enqueueIndirectGather hp tS (slotM K.o K.h) hg (planeRow o h) hn K.g hsrc he hsp hr >>= k) Q) := by
  have hin : ∀ s, ((planeRow o h).view.read (Elt F) f3 s).toNat < S100000x128.size hg.axis :=
    planeRow_inb fa fv f3 hA hV lo hi j hlo hhi h3 o h ho
  unfold Ready
  iintro ⟨⟨Hg, Hdm, Hslot, Ht⟩, Hrow⟩ Hk
  iapply (SparseCore.wp_indirectGatherLocal countersEmb 𝒱₀ (V d (cV L) (jV L)) none (hg := hg) (default : HIx 1) 524288
      ((SparseCore.sum_rowCredit_eq_dmaCredit (slotM K.o K.h) hg.axis' (fun _ => rfl)).trans rfl) (by decide) hin) $$ [Ht Hslot Hrow Hg]
  · isplitl [Ht]; · iexact Ht
    isplitl [Hslot]; · iexact Hslot
    isplitl [Hrow]; · iexact Hrow
    iexact Hg
  iintro Hfl
  iapply Hk
  unfold Gath
  isplitl [Hdm]; · iexact Hdm
  iexists o, h, _
  isplitr
  · ipureintro; exact ho
  isplitr
  swap
  · iexact Hfl
  ipureintro
  intro x
  rw [View.read_write_univ, tS_read]
  subst ho
  rw [gather_row_val, planeRow_read _ h j rfl rfl f3]
  exact neg_slice_val_range m d L fa fv f3 hfa hfv lo hi j hlo hhi h3 x

/-- The same, the index row taken in its canonical spelling. -/
theorem gissue (K : SlotK) (j : Fin 49) (o : Fin 2 → ℕ) (h : ∀ a, o a + S1x128.size a ≤ S49x128.size a) (ho : o = ![j.val, 0])
    (f3 : S49x128.Idx → Elt F .i32) (fa fv : S128.Idx → Elt F .i32)
    (hfa : ∀ s : Fin 128, fa (ix1 s) = m (aLoc d) (ix1 (⟨base L + s.val, base_add_lt L s⟩ : Fin 4096)))
    (hfv : ∀ s : Fin 128, fv (ix1 s) = m (vLoc d) (ix1 (⟨base L + s.val, base_add_lt L s⟩ : Fin 4096)))
    (hA : ∀ s, (fa s).toNat ≤ 1999) (hV : ∀ s, (fv s).toNat ≤ 49)
    (lo hi : ℕ) (hlo : lo ≤ j.val) (hhi : j.val < hi) (h3 : planesOK fa fv lo hi f3)
    (fd0 : Buf (Elt F) ((slotM K.o K.h).view.loc (V d (cV L) (jV L))))
    {α : Type} {k : PUnit → Prog (TpuEff nD τ sig (Elt F) Λ₀ (V d (cV L) (jV L)).2) α} {Q : α → sProp 𝕄}
    (hp : (V d (cV L) (jV L)).2.kind = .scVector) (hg : S100000x128.Gathers 0 S128x128)
    (hn : S128.numel = S128x128.size hg.axis') (hsrc : (tS).view.WordExact)
    (he : EltTy.f32.bits = 32) (hsp : Space.hbm = .hbm ∨ Space.hbm = .shared) (hr : S100000x128.StreamRows 0) :
    (iprop(Ready d L (tbl m d) K fd0 ∗ pRow d L f3 j) : sProp 𝕄)
      ⊢ iprop((Gath m d L (tbl m d) f3 K j -∗ WP (k ⟨⟩) Q)
          -∗ WP (SparseCore.enqueueIndirectGather hp tS (slotM K.o K.h) hg (planeRow o h) hn K.g hsrc he hsp hr >>= k) Q) := by
  subst ho
  exact gissue_row m d L K j _ h rfl f3 fa fv hfa hfv hA hV lo hi hlo hhi h3 fd0 hp hg hn hsrc he hsp hr

end Cert.KI

end
-- ==== Proof.RingD.lean ====
/-
  A ring slot's copy-out.  Issued from a slot at rest that holds plane `j`'s rows, onto the subcore's block of plane `j`
  at the launch contents, it leaves the copy in flight; the wait for it hands back the slot at rest and the block at the
  specified negatives: the block is rewritten, at each of its elements, with the slot's word there, which is the
  specification's by what the slot held.
-/
import proofs.«210835_g78632261255710_cont_9to1_m_350_20_alg».proof.Proof.RingDefs

noncomputable section

namespace Cert.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "aV" => (Memref.whole Cert.KernelIdeal.main_arg0_scv : Memref Cert.KernelIdeal.sig Kind.scVector Space.hbm Cert.KernelIdeal.S4096 EltTy.i32)
local notation "vV" => (Memref.whole Cert.KernelIdeal.main_arg1_scv : Memref Cert.KernelIdeal.sig Kind.scVector Space.hbm Cert.KernelIdeal.S4096 EltTy.i32)
local notation "tV" => (Memref.whole Cert.KernelIdeal.main_v1_scv : Memref Cert.KernelIdeal.sig Kind.scVector Space.hbm Cert.KernelIdeal.S100000x128 EltTy.f32)
local notation "pV" => (Memref.whole Cert.KernelIdeal.main_v2_0_scv : Memref Cert.KernelIdeal.sig Kind.scVector Space.hbm Cert.KernelIdeal.S4096x128 EltTy.f32)
local notation "nV" => (Memref.whole Cert.KernelIdeal.main_v2_1_scv : Memref Cert.KernelIdeal.sig Kind.scVector Space.hbm Cert.KernelIdeal.S200704x128 EltTy.f32)
local notation "b0" => (Memref.whole Cert.KernelIdeal.cc0_scratch0 : Memref Cert.KernelIdeal.sig Kind.scVector Space.vmem Cert.KernelIdeal.S128 EltTy.i32)
local notation "b1" => (Memref.whole Cert.KernelIdeal.cc0_scratch1 : Memref Cert.KernelIdeal.sig Kind.scVector Space.vmem Cert.KernelIdeal.S128 EltTy.i32)
local notation "b2" => (Memref.whole Cert.KernelIdeal.cc0_scratch2 : Memref Cert.KernelIdeal.sig Kind.scVector Space.vmem Cert.KernelIdeal.S128 EltTy.i32)
local notation "b3" => (Memref.whole Cert.KernelIdeal.cc0_scratch3 : Memref Cert.KernelIdeal.sig Kind.scVector Space.vmem Cert.KernelIdeal.S49x128 EltTy.i32)
local notation "b4" => (Memref.whole Cert.KernelIdeal.cc0_scratch4 : Memref Cert.KernelIdeal.sig Kind.scVector Space.vmem Cert.KernelIdeal.S128x128 EltTy.f32)
local notation "b5" => (Memref.whole Cert.KernelIdeal.cc0_scratch5 : Memref Cert.KernelIdeal.sig Kind.scVector Space.vmem Cert.KernelIdeal.S6x128x128 EltTy.f32)

variable (m : (ℓ : Loc nD τ sig) → Buf (Elt F) ℓ) (d : Dev nD) (L : grid0.Coords)

variable [FloatOps F]

/-- The copy-out issued: from the slot at rest holding plane `j`'s rows and the block at the launch contents to the
    copy in flight. -/
theorem dissue (K : SlotK) (j : Fin 49) (o : Fin 2 → ℕ) (h : ∀ a, o a + S128x128.size a ≤ S200704x128.size a) (ho : o = nOff L j)
    (fd : Buf (Elt F) ((slotM K.o K.h).view.loc (V d (cV L) (jV L)))) (hok : slotOK m d L K j fd)
    {α : Type} {k : PUnit → Prog (TpuEff nD τ sig (Elt F) Λ₀ (V d (cV L) (jV L)).2) α} {Q : α → sProp 𝕄}
    (hs : (slotM K.o K.h).view.WordExact) (hd : (nSl o h).view.WordExact)
    (hsem : DmaTarget.Typed (nD := nD) (p := (V d (cV L) (jV L)).2) Space.vmem (SemLoc.dma K.dm) (.here (nSl o h))) :
    iprop(Ready d L (tbl m d) K fd ∗ nBlock d L j (m (nLoc d)))
      ⊢ iprop((Drain m d L (tbl m d) K j -∗ wp frame (wpE (defs₀ (F := F)) 𝒱₀ (V d (cV L) (jV L)) none) Set.univ (k ⟨⟩) Q)
          -∗ wp frame (wpE (defs₀ (F := F)) 𝒱₀ (V d (cV L) (jV L)) none) Set.univ
              (.op (.enqueueDma (slotM K.o K.h) (.here (nSl o h)) (.dma K.dm) hs hd hsem) k) Q) := by
  subst ho
  unfold Ready nBlock
  iintro ⟨⟨Hg, Hdm, Hslot, Ht⟩, Hn⟩ Hk
  ihave Hn := (Entails.of_eq (show ((nRowK L j).view.loc (V d (cV L) (jV L)) ↦[(nRowK L j).view.set]{fullShare} m (nLoc d) : sProp 𝕄)
      = ((nSl (nOff L j) h).view.loc (V d (cV L) (jV L)) ↦[(nSl (nOff L j) h).view.set]{fullShare} m (nLoc d)) from rfl)) $$ Hn
  iapply (Transfers.wp_dmaLocal countersEmb 𝒱₀ (V d (cV L) (jV L)) none (via := ReadAs.same) (src := slotM K.o K.h) (dst := nSl (nOff L j) h)
      (sm := SemLoc.dma K.dm) (q := fullShare) (Sd := (nSl (nOff L j) h).view.set) (default : HIx 1) ((nSl (nOff L j) h).view.amount (SemLoc.dma K.dm)) rfl
      (View.amount_pos _ _ (by decide)) (Finset.Subset.refl _)) $$ [Hslot Hn Hdm]
  · isplitl [Hslot]; · iexact Hslot
    isplitl [Hn]; · iexact Hn
    iexact Hdm
  iintro Hfl
  iapply Hk
  unfold Drain
  isplitl [Hg]; · iexact Hg
  isplitl [Ht]; · iexact Ht
  iexists nOff L j, h, fd
  isplitr; · ipureintro; rfl
  isplitr; · ipureintro; exact hok
  iexact Hfl

/-- What the copy-out leaves in the block: at every element of the block, the specified negatives. -/
theorem drained_val (K : SlotK) (j : Fin 49) (h : ∀ a, (nOff L j) a + S128x128.size a ≤ S200704x128.size a)
    (fd : Buf (Elt F) ((slotM K.o K.h).view.loc (V d (cV L) (jV L)))) (hok : slotOK m d L K j fd) :
    ∀ i ∈ (nSl (nOff L j) h).view.set,
      (nSl (nOff L j) h).view.write (Elt F) (m (nLoc d)) (ReadAs.same.apply ((slotM K.o K.h).view.read (Elt F) fd)) Finset.univ i = negOf m d i := by
  intro i hi
  obtain ⟨x, -, rfl⟩ := Finset.mem_map.mp hi
  rw [View.write_emb_of_mem _ _ (Finset.mem_univ x)]
  exact (cast_eq _ _).trans (hok x)

/-- The block as the copy-out leaves it is the subcore's block of plane `j` at the specified negatives. -/
theorem drained_block (K : SlotK) (j : Fin 49) (h : ∀ a, (nOff L j) a + S128x128.size a ≤ S200704x128.size a)
    (fd : Buf (Elt F) ((slotM K.o K.h).view.loc (V d (cV L) (jV L)))) (hok : slotOK m d L K j fd) :
    ((nSl (nOff L j) h).view.loc (V d (cV L) (jV L)) ↦[(nSl (nOff L j) h).view.set]{fullShare}
        ((nSl (nOff L j) h).view.write (Elt F) (m (nLoc d)) (ReadAs.same.apply ((slotM K.o K.h).view.read (Elt F) fd)) Finset.univ) : sProp 𝕄)
      ⊢ nBlock d L j (negOf m d) := by
  unfold nBlock
  rw [pointsTo_congr (drained_val m d L K j h fd hok)]

/-- The copy-out waited for: the slot at rest again, the subcore's block of plane `j` at the specified negatives. -/
theorem dwait (K : SlotK) (j : Fin 49) (O : CellTallies nD τ sig (HIx 1)) (W : Waits sig (HIx 1))
    (o' : Fin 2 → ℕ) (h' : ∀ a, o' a + S128x128.size a ≤ S200704x128.size a) (ho' : o' = nOff L j)
    {α : Type} {k : PUnit → Prog (TpuEff nD τ sig (Elt F) Λ₀ (V d (cV L) (jV L)).2) α} {Q : α → sProp 𝕄}
    (hs : (slotM K.o K.h).view.WordExact) (hd : (nSl o' h').view.WordExact) :
    iprop(Drain m d L (tbl m d) K j ∗ owesW d L O W ∗ Transfers.MayWaits (V d (cV L) (jV L)) (default : HIx 1) O)
      ⊢ iprop((iprop(Idle d L (tbl m d) K ∗ nBlock d L j (negOf m d) ∗ owesW d L O W)
              -∗ wp frame (wpE (defs₀ (F := F)) 𝒱₀ (V d (cV L) (jV L)) none) Set.univ (k ⟨⟩) Q)
          -∗ wp frame (wpE (defs₀ (F := F)) 𝒱₀ (V d (cV L) (jV L)) none) Set.univ
              (.op (.waitDma2 K.dm (slotM K.o K.h) (nSl o' h') hs hd) k) Q) := by
  unfold Drain owesW
  iintro ⟨⟨Hg, Ht, %o, %h, %fd, %ho, %hok, Hfl⟩, ⟨%W', %hW', HO⟩, Hmw⟩ Hk
  subst ho
  subst ho'
  iapply (Transfers.wp_waitLocalO countersEmb 𝒱₀ (V d (cV L) (jV L)) none (default : HIx 1)
      (rfl : (nSl (nOff L j) h').view.dmaCredit = (nSl (nOff L j) h).view.amount (SemLoc.dma K.dm))) $$ [Hfl HO Hmw]
  · isplitl [Hfl]; · iexact Hfl
    isplitl [HO]; · iexact HO
    iapply (Transfers.MayWaits.elim (SemLoc.dma K.dm)) $$ Hmw
  iintro ⟨⟨Hn, Hslot⟩, Hdm, HO⟩
  iapply Hk
  isplitl [Hg Ht Hslot Hdm]
  · unfold Idle Ready
    iexists fd
    isplitl [Hg]; · iexact Hg
    isplitl [Hdm]; · iexact Hdm
    isplitl [Hslot]; · iexact Hslot
    iexact Ht
  isplitl [Hn]
  · iapply (drained_block m d L K j h fd hok) $$ Hn
  · iexists (insert (SemLoc.dma K.dm, (default : HIx 1)) W')
    isplitr
    · ipureintro; intro p hp
      rcases Finset.mem_insert.mp hp with hp | hp
      · exact .inr (hp ▸ rfl)
      · exact hW' p hp
    · iexact HO

end Cert.KI

end
-- ==== Proof.RingSplit.lean ====
/-
  The subcore's own buffers cut into the pieces the ring's states hold.  The plane buffer is its 49 rows (row `j`: the
  elements whose first coordinate is `j`), the ring buffer its six layers; families of rows or blocks indexed by a
  threshold lose or gain one member when the threshold moves by one.
-/
import proofs.«210835_g78632261255710_cont_9to1_m_350_20_alg».proof.Proof.RingDefs

noncomputable section

namespace Cert.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "aV" => (Memref.whole Cert.KernelIdeal.main_arg0_scv : Memref Cert.KernelIdeal.sig Kind.scVector Space.hbm Cert.KernelIdeal.S4096 EltTy.i32)
local notation "vV" => (Memref.whole Cert.KernelIdeal.main_arg1_scv : Memref Cert.KernelIdeal.sig Kind.scVector Space.hbm Cert.KernelIdeal.S4096 EltTy.i32)
local notation "tV" => (Memref.whole Cert.KernelIdeal.main_v1_scv : Memref Cert.KernelIdeal.sig Kind.scVector Space.hbm Cert.KernelIdeal.S100000x128 EltTy.f32)
local notation "pV" => (Memref.whole Cert.KernelIdeal.main_v2_0_scv : Memref Cert.KernelIdeal.sig Kind.scVector Space.hbm Cert.KernelIdeal.S4096x128 EltTy.f32)
local notation "nV" => (Memref.whole Cert.KernelIdeal.main_v2_1_scv : Memref Cert.KernelIdeal.sig Kind.scVector Space.hbm Cert.KernelIdeal.S200704x128 EltTy.f32)
local notation "b0" => (Memref.whole Cert.KernelIdeal.cc0_scratch0 : Memref Cert.KernelIdeal.sig Kind.scVector Space.vmem Cert.KernelIdeal.S128 EltTy.i32)
local notation "b1" => (Memref.whole Cert.KernelIdeal.cc0_scratch1 : Memref Cert.KernelIdeal.sig Kind.scVector Space.vmem Cert.KernelIdeal.S128 EltTy.i32)
local notation "b2" => (Memref.whole Cert.KernelIdeal.cc0_scratch2 : Memref Cert.KernelIdeal.sig Kind.scVector Space.vmem Cert.KernelIdeal.S128 EltTy.i32)
local notation "b3" => (Memref.whole Cert.KernelIdeal.cc0_scratch3 : Memref Cert.KernelIdeal.sig Kind.scVector Space.vmem Cert.KernelIdeal.S49x128 EltTy.i32)
local notation "b4" => (Memref.whole Cert.KernelIdeal.cc0_scratch4 : Memref Cert.KernelIdeal.sig Kind.scVector Space.vmem Cert.KernelIdeal.S128x128 EltTy.f32)
local notation "b5" => (Memref.whole Cert.KernelIdeal.cc0_scratch5 : Memref Cert.KernelIdeal.sig Kind.scVector Space.vmem Cert.KernelIdeal.S6x128x128 EltTy.f32)

variable (m : (ℓ : Loc nD τ sig) → Buf (Elt F) ℓ) (d : Dev nD) (L : grid0.Coords)

/-! ## A family over the planes beyond a threshold, one plane at a time -/

theorem bigSep_filter_step (Φ : Fin 49 → sProp 𝕄) (p q : Fin 49 → Prop) [DecidablePred p] [DecidablePred q] (a : Fin 49)
    (hqa : ¬ q a) (hpq : ∀ j, p j ↔ j = a ∨ q j) :
    bigSep (Finset.univ.filter p) Φ = iprop(Φ a ∗ bigSep (Finset.univ.filter q) Φ) := by
  rw [show Finset.univ.filter p = insert a (Finset.univ.filter q) from by
      ext j; simp only [Finset.mem_filter, Finset.mem_univ, true_and, Finset.mem_insert]; exact hpq j,
    bigSep_insert (by simp only [Finset.mem_filter, Finset.mem_univ, true_and]; exact hqa)]
  rfl

theorem bigSep_filter_same (Φ : Fin 49 → sProp 𝕄) (p q : Fin 49 → Prop) [DecidablePred p] [DecidablePred q] (hpq : ∀ j, p j ↔ q j) :
    bigSep (Finset.univ.filter p) Φ = bigSep (Finset.univ.filter q) Φ := by
  rw [Finset.filter_congr fun j _ => hpq j]

section Steps

variable (f3 : S49x128.Idx → Elt F .i32)

theorem rTodo_take (n : ℕ) (h : n + 4 < 49) : rTodo d L f3 n = iprop(pRow d L f3 ⟨n + 4, h⟩ ∗ rTodo d L f3 (n + 1)) := by
  unfold rTodo
  exact bigSep_filter_step _ (fun j : Fin 49 => n + 4 ≤ j.val) (fun j : Fin 49 => n + 1 + 4 ≤ j.val) ⟨n + 4, h⟩
    (by show ¬ n + 1 + 4 ≤ n + 4; omega) (fun j => by rw [Fin.ext_iff]; show n + 4 ≤ j.val ↔ j.val = n + 4 ∨ n + 1 + 4 ≤ j.val; omega)
theorem rTodo_last (n : ℕ) (h : 49 ≤ n + 4) : rTodo d L f3 n = rTodo d L f3 (n + 1) := by
  unfold rTodo
  exact bigSep_filter_same _ (fun j : Fin 49 => n + 4 ≤ j.val) (fun j : Fin 49 => n + 1 + 4 ≤ j.val) (fun j => by have := j.isLt; omega)
theorem rDone_put (n : ℕ) (h : n < 49) : rDone d L f3 (n + 1) = iprop(pRow d L f3 ⟨n, h⟩ ∗ rDone d L f3 n) := by
  unfold rDone
  exact bigSep_filter_step _ (fun j : Fin 49 => j.val < n + 1) (fun j : Fin 49 => j.val < n) ⟨n, h⟩
    (by show ¬ n < n; omega) (fun j => by rw [Fin.ext_iff]; show j.val < n + 1 ↔ j.val = n ∨ j.val < n; omega)
theorem rDone_zero : rDone d L f3 0 = (iprop(emp) : sProp 𝕄) := by
  unfold rDone
  rw [show (Finset.univ.filter fun j : Fin 49 => j.val < 0) = ∅ from by ext j; simp, bigSep_empty]
  rfl

end Steps

theorem nTodo_take (n : ℕ) (h : n < 49) : nTodo m d L n = iprop(nBlock d L ⟨n, h⟩ (m (nLoc d)) ∗ nTodo m d L (n + 1)) := by
  unfold nTodo
  exact bigSep_filter_step _ (fun j : Fin 49 => n ≤ j.val) (fun j : Fin 49 => n + 1 ≤ j.val) ⟨n, h⟩
    (by show ¬ n + 1 ≤ n; omega) (fun j => by rw [Fin.ext_iff]; show n ≤ j.val ↔ j.val = n ∨ n + 1 ≤ j.val; omega)
theorem nTodo_end (n : ℕ) (h : 49 ≤ n) : nTodo m d L n = (iprop(emp) : sProp 𝕄) := by
  unfold nTodo
  rw [show (Finset.univ.filter fun j : Fin 49 => n ≤ j.val) = ∅ from by
    ext j; simp only [Finset.mem_filter, Finset.mem_univ, true_and, Finset.notMem_empty, iff_false]; have := j.isLt; omega, bigSep_empty]
  rfl
theorem nDone_put (n : ℕ) (h2 : 2 ≤ n) (h : n - 2 < 49) : nDone m d L (n + 1) = iprop(nBlock d L ⟨n - 2, h⟩ (negOf m d) ∗ nDone m d L n) := by
  unfold nDone
  exact bigSep_filter_step _ (fun j : Fin 49 => j.val + 2 < n + 1) (fun j : Fin 49 => j.val + 2 < n) ⟨n - 2, h⟩
    (by show ¬ n - 2 + 2 < n; omega) (fun j => by rw [Fin.ext_iff]; show j.val + 2 < n + 1 ↔ j.val = n - 2 ∨ j.val + 2 < n; omega)
theorem nDone_small (n : ℕ) (h : n < 2) : nDone m d L (n + 1) = nDone m d L n := by
  unfold nDone
  exact bigSep_filter_same _ (fun j : Fin 49 => j.val + 2 < n + 1) (fun j : Fin 49 => j.val + 2 < n) (fun j => by omega)
theorem nDone_zero : nDone m d L 0 = (iprop(emp) : sProp 𝕄) := by
  unfold nDone
  rw [show (Finset.univ.filter fun j : Fin 49 => j.val + 2 < 0) = ∅ from by ext j; simp, bigSep_empty]
  rfl

/-! ## The plane buffer is its rows -/

theorem set_planeRow (o : Fin 2 → ℕ) (h : ∀ a, o a + S1x128.size a ≤ S49x128.size a) :
    (planeRow o h).view.set = (Rect.unit (s := S49x128) o S1x128.size h).set := by
  show (((View.whole (cc0_scratch3 : Ref sig .scVector)).slice (Rect.unit (s := S49x128) o S1x128.size h)).reshape S128 squeezes_S1x128_S128.numel_eq).set = _
  rw [View.set_reshape, View.set_slice]; exact Finset.map_refl

/-- Row `j` of the plane buffer is the elements whose first coordinate is `j`. -/
theorem mem_planeRow (j : ℕ) (h : ∀ a, (![j, 0] : Fin 2 → ℕ) a + S1x128.size a ≤ S49x128.size a) (x : S49x128.Idx) :
    x ∈ (planeRow ![j, 0] h).view.set ↔ (x 0).val = j := by
  rw [set_planeRow, Rect.mem_set_unit, Fin.forall_fin_two]
  have h1 : (x 1).val < 128 := (x 1).isLt
  show (j ≤ (x 0).val ∧ (x 0).val < j + 1) ∧ (0 ≤ (x 1).val ∧ (x 1).val < 0 + 128) ↔ _
  omega

theorem row_inb (j : Fin 49) : ∀ a, (![j.val, 0] : Fin 2 → ℕ) a + S1x128.size a ≤ S49x128.size a := by
  intro a; have := j.isLt
  match a with
  | 0 => show j.val + 1 ≤ 49; omega
  | 1 => show 0 + 128 ≤ 128; omega

abbrev rK (j : Fin 49) : Finset S49x128.Idx := (planeRow ![j.val, 0] (row_inb j)).view.set

theorem rK_disjoint (s : Finset (Fin 49)) : ∀ t ∈ s, ∀ t' ∈ s, t ≠ t' → Disjoint (rK t) (rK t') := by
  intro t _ t' _ hne
  rw [Finset.disjoint_left]; intro x hx hx'
  rw [mem_planeRow] at hx hx'
  exact hne (Fin.ext (hx.symm.trans hx'))

theorem rK_cover : (Finset.univ : Finset (Fin 49)).biUnion rK = Finset.univ := by
  ext x; simp only [Finset.mem_biUnion, Finset.mem_univ, true_and, iff_true]
  exact ⟨⟨(x 0).val, (x 0).isLt⟩, (mem_planeRow _ _ x).mpr rfl⟩

section Rows

variable (f : S49x128.Idx → Elt F .i32)

/-- A family of rows of the plane buffer is the points-to on their union. -/
theorem rows_of (s : Finset (Fin 49)) :
    ((b3).view.loc (V d (cV L) (jV L)) ↦[s.biUnion rK]{fullShare} f : sProp 𝕄) = bigSep s fun j => pRow d L f j := by
  rw [pointsTo_biUnion s (ℓ := (b3).view.loc (V d (cV L) (jV L))) rK (rK_disjoint s)]
  exact bigSep_congr fun j _ => by unfold pRow; rfl

theorem rows_split : ((b3).view.loc (V d (cV L) (jV L)) ↦{fullShare} f : sProp 𝕄) = bigSep (Finset.univ : Finset (Fin 49)) fun j => pRow d L f j := by
  rw [← rows_of d L f Finset.univ, rK_cover]; try rfl

theorem rows_split4 : ((b3).view.loc (V d (cV L) (jV L)) ↦{fullShare} f : sProp 𝕄)
    = iprop((bigSep (Finset.univ.filter fun j : Fin 49 => j.val < 4) fun j => pRow d L f j)
        ∗ bigSep (Finset.univ.filter fun j : Fin 49 => 4 ≤ j.val) fun j => pRow d L f j) := by
  have hu : (Finset.univ : Finset (Fin 49)) = (Finset.univ.filter fun j : Fin 49 => j.val < 4) ∪ (Finset.univ.filter fun j : Fin 49 => 4 ≤ j.val) := by
    ext j; simp only [Finset.mem_univ, Finset.mem_union, Finset.mem_filter, true_and, true_iff]; omega
  rw [rows_split]
  conv_lhs => rw [hu]
  exact bigSep_union (Finset.disjoint_left.mpr fun j hj hj' => by
    have h1 := (Finset.mem_filter.mp hj).2; have h2 := (Finset.mem_filter.mp hj').2; omega)

/-- The plane buffer without its rows 0 to 3. -/
abbrev R4 : Finset S49x128.Idx :=
  (((Finset.univ \ (planeRow ![0, 0] inb_S49x128_S1x128_0_0).view.set) \ (planeRow ![1, 0] inb_S49x128_S1x128_1_0).view.set)
    \ (planeRow ![2, 0] inb_S49x128_S1x128_2_0).view.set) \ (planeRow ![3, 0] inb_S49x128_S1x128_3_0).view.set

theorem R4_eq : R4 = (Finset.univ.filter fun j : Fin 49 => 0 + 4 ≤ j.val).biUnion rK := by
  ext x
  have hx0 : (x 0).val < 49 := (x 0).isLt
  have hR : x ∈ R4 ↔ ((((x 0).val ≠ 0) ∧ (x 0).val ≠ 1) ∧ (x 0).val ≠ 2) ∧ (x 0).val ≠ 3 := by
    delta R4
    rw [Finset.mem_sdiff, Finset.mem_sdiff, Finset.mem_sdiff, Finset.mem_sdiff, mem_planeRow, mem_planeRow, mem_planeRow, mem_planeRow]
    simp only [Finset.mem_univ, true_and, ne_eq]
  rw [hR, Finset.mem_biUnion]
  constructor
  · rintro ⟨⟨⟨h0, h1⟩, h2⟩, h3⟩
    refine ⟨⟨(x 0).val, hx0⟩, Finset.mem_filter.mpr ⟨Finset.mem_univ _, ?_⟩, (mem_planeRow _ _ x).mpr rfl⟩
    show 0 + 4 ≤ (x 0).val; omega
  · rintro ⟨j, hj, hx⟩
    have hj' : 0 + 4 ≤ j.val := (Finset.mem_filter.mp hj).2
    have hx' : (x 0).val = j.val := (mem_planeRow _ _ x).mp hx
    refine ⟨⟨⟨?_, ?_⟩, ?_⟩, ?_⟩ <;> omega

theorem rows_rest4 : ((b3).view.loc (V d (cV L) (jV L)) ↦[R4]{fullShare} f : sProp 𝕄) = rTodo d L f 0 := by
  rw [R4_eq, rows_of]; rfl

theorem rows_top4 : ((b3).view.loc (V d (cV L) (jV L)) ↦{fullShare} f : sProp 𝕄)
    = iprop(pRow d L f 0 ∗ pRow d L f 1 ∗ pRow d L f 2 ∗ pRow d L f 3 ∗ ((b3).view.loc (V d (cV L) (jV L)) ↦[R4]{fullShare} f)) := by
  rw [rows_split, rows_rest4,
    show (Finset.univ : Finset (Fin 49)) = insert 0 (insert 1 (insert 2 (insert 3 (Finset.univ.filter fun j : Fin 49 => 0 + 4 ≤ j.val)))) from by decide,
    bigSep_insert (by decide), bigSep_insert (by decide), bigSep_insert (by decide), bigSep_insert (by decide)]
  rfl

end Rows

/-! ## The ring buffer is its six layers -/

theorem set_slotM (o : Fin 3 → ℕ) (h : ∀ a, o a + S1x128x128.size a ≤ S6x128x128.size a) :
    (slotM o h).view.set = (Rect.unit (s := S6x128x128) o S1x128x128.size h).set := by
  show (((View.whole (cc0_scratch5 : Ref sig .scVector)).slice (Rect.unit (s := S6x128x128) o S1x128x128.size h)).reshape S128x128
      squeezes_S1x128x128_S128x128.numel_eq).set = _
  rw [View.set_reshape, View.set_slice]; exact Finset.map_refl

/-- Layer `b` of the ring buffer is the elements whose first coordinate is `b`. -/
theorem mem_slotM (b : ℕ) (h : ∀ a, (![b, 0, 0] : Fin 3 → ℕ) a + S1x128x128.size a ≤ S6x128x128.size a) (x : S6x128x128.Idx) :
    x ∈ (slotM ![b, 0, 0] h).view.set ↔ (x 0).val = b := by
  rw [set_slotM, Rect.mem_set_unit]
  have h1 : (x 1).val < 128 := (x 1).isLt
  have h2 : (x 2).val < 128 := (x 2).isLt
  constructor
  · intro hh
    have h0 : b ≤ (x 0).val ∧ (x 0).val < b + 1 := hh 0
    omega
  · intro e a
    match a with
    | ⟨0, _⟩ => show b ≤ (x 0).val ∧ (x 0).val < b + 1; omega
    | ⟨1, _⟩ => show 0 ≤ (x 1).val ∧ (x 1).val < 0 + 128; omega
    | ⟨2, _⟩ => show 0 ≤ (x 2).val ∧ (x 2).val < 0 + 128; omega

theorem slot_inb (b : Fin 6) : ∀ a, (![b.val, 0, 0] : Fin 3 → ℕ) a + S1x128x128.size a ≤ S6x128x128.size a := by
  intro a; have := b.isLt
  match a with
  | ⟨0, _⟩ => show b.val + 1 ≤ 6; omega
  | ⟨1, _⟩ => show 0 + 128 ≤ 128; omega
  | ⟨2, _⟩ => show 0 + 128 ≤ 128; omega

abbrev sK (b : Fin 6) : Finset S6x128x128.Idx := (slotM ![b.val, 0, 0] (slot_inb b)).view.set

theorem sK_disjoint : ∀ t ∈ (Finset.univ : Finset (Fin 6)), ∀ t' ∈ (Finset.univ : Finset (Fin 6)), t ≠ t' → Disjoint (sK t) (sK t') := by
  intro t _ t' _ hne
  rw [Finset.disjoint_left]; intro x hx hx'
  rw [mem_slotM] at hx hx'
  exact hne (Fin.ext (hx.symm.trans hx'))

theorem sK_cover : (Finset.univ : Finset (Fin 6)).biUnion sK = Finset.univ := by
  ext x; simp only [Finset.mem_biUnion, Finset.mem_univ, true_and, iff_true]
  exact ⟨⟨(x 0).val, (x 0).isLt⟩, (mem_slotM _ _ x).mpr rfl⟩

theorem ring_split (f : Buf (Elt F) ((b5).view.loc (V d (cV L) (jV L)))) :
    ((b5).view.loc (V d (cV L) (jV L)) ↦{fullShare} f : sProp 𝕄)
      = iprop(((slotM ![0, 0, 0] inb_S6x128x128_S1x128x128_0_0_0).view.loc (V d (cV L) (jV L)) ↦[(slotM ![0, 0, 0] inb_S6x128x128_S1x128x128_0_0_0).view.set]{fullShare} f)
          ∗ ((slotM ![1, 0, 0] inb_S6x128x128_S1x128x128_1_0_0).view.loc (V d (cV L) (jV L)) ↦[(slotM ![1, 0, 0] inb_S6x128x128_S1x128x128_1_0_0).view.set]{fullShare} f)
          ∗ ((slotM ![2, 0, 0] inb_S6x128x128_S1x128x128_2_0_0).view.loc (V d (cV L) (jV L)) ↦[(slotM ![2, 0, 0] inb_S6x128x128_S1x128x128_2_0_0).view.set]{fullShare} f)
          ∗ ((slotM ![3, 0, 0] inb_S6x128x128_S1x128x128_3_0_0).view.loc (V d (cV L) (jV L)) ↦[(slotM ![3, 0, 0] inb_S6x128x128_S1x128x128_3_0_0).view.set]{fullShare} f)
          ∗ ((slotM ![4, 0, 0] inb_S6x128x128_S1x128x128_4_0_0).view.loc (V d (cV L) (jV L)) ↦[(slotM ![4, 0, 0] inb_S6x128x128_S1x128x128_4_0_0).view.set]{fullShare} f)
          ∗ ((slotM ![5, 0, 0] inb_S6x128x128_S1x128x128_5_0_0).view.loc (V d (cV L) (jV L)) ↦[(slotM ![5, 0, 0] inb_S6x128x128_S1x128x128_5_0_0).view.set]{fullShare} f)) := by
  have h : ((b5).view.loc (V d (cV L) (jV L)) ↦{fullShare} f : sProp 𝕄)
      = bigSep Finset.univ fun b : Fin 6 => ((b5).view.loc (V d (cV L) (jV L)) ↦[sK b]{fullShare} f : sProp 𝕄) := by
    rw [← pointsTo_biUnion Finset.univ (ℓ := (b5).view.loc (V d (cV L) (jV L))) sK sK_disjoint, sK_cover]; try rfl
  rw [h, show (Finset.univ : Finset (Fin 6)) = {0, 1, 2, 3, 4, 5} from by decide,
    bigSep_insert (by decide), bigSep_insert (by decide), bigSep_insert (by decide), bigSep_insert (by decide), bigSep_insert (by decide),
    bigSep_singleton]
  rfl

/-- The six layers, each at its own contents, are the ring buffer at some contents. -/
theorem ring_join (g0 g1 g2 g3 g4 g5 : Buf (Elt F) ((b5).view.loc (V d (cV L) (jV L)))) :
    iprop(((slotM ![0, 0, 0] inb_S6x128x128_S1x128x128_0_0_0).view.loc (V d (cV L) (jV L)) ↦[(slotM ![0, 0, 0] inb_S6x128x128_S1x128x128_0_0_0).view.set]{fullShare} g0)
          ∗ ((slotM ![1, 0, 0] inb_S6x128x128_S1x128x128_1_0_0).view.loc (V d (cV L) (jV L)) ↦[(slotM ![1, 0, 0] inb_S6x128x128_S1x128x128_1_0_0).view.set]{fullShare} g1)
          ∗ ((slotM ![2, 0, 0] inb_S6x128x128_S1x128x128_2_0_0).view.loc (V d (cV L) (jV L)) ↦[(slotM ![2, 0, 0] inb_S6x128x128_S1x128x128_2_0_0).view.set]{fullShare} g2)
          ∗ ((slotM ![3, 0, 0] inb_S6x128x128_S1x128x128_3_0_0).view.loc (V d (cV L) (jV L)) ↦[(slotM ![3, 0, 0] inb_S6x128x128_S1x128x128_3_0_0).view.set]{fullShare} g3)
          ∗ ((slotM ![4, 0, 0] inb_S6x128x128_S1x128x128_4_0_0).view.loc (V d (cV L) (jV L)) ↦[(slotM ![4, 0, 0] inb_S6x128x128_S1x128x128_4_0_0).view.set]{fullShare} g4)
          ∗ ((slotM ![5, 0, 0] inb_S6x128x128_S1x128x128_5_0_0).view.loc (V d (cV L) (jV L)) ↦[(slotM ![5, 0, 0] inb_S6x128x128_S1x128x128_5_0_0).view.set]{fullShare} g5))
      ⊢ (iprop(∃ g, (b5).view.loc (V d (cV L) (jV L)) ↦{fullShare} g) : sProp 𝕄) := by
  have e : bigSep (Finset.univ : Finset (Fin 6)) (fun b => ((b5).view.loc (V d (cV L) (jV L)) ↦[sK b]{fullShare}
        (![g0, g1, g2, g3, g4, g5] : Fin 6 → Buf (Elt F) ((b5).view.loc (V d (cV L) (jV L)))) b : sProp 𝕄))
      = iprop(((slotM ![0, 0, 0] inb_S6x128x128_S1x128x128_0_0_0).view.loc (V d (cV L) (jV L)) ↦[(slotM ![0, 0, 0] inb_S6x128x128_S1x128x128_0_0_0).view.set]{fullShare} g0)
          ∗ ((slotM ![1, 0, 0] inb_S6x128x128_S1x128x128_1_0_0).view.loc (V d (cV L) (jV L)) ↦[(slotM ![1, 0, 0] inb_S6x128x128_S1x128x128_1_0_0).view.set]{fullShare} g1)
          ∗ ((slotM ![2, 0, 0] inb_S6x128x128_S1x128x128_2_0_0).view.loc (V d (cV L) (jV L)) ↦[(slotM ![2, 0, 0] inb_S6x128x128_S1x128x128_2_0_0).view.set]{fullShare} g2)
          ∗ ((slotM ![3, 0, 0] inb_S6x128x128_S1x128x128_3_0_0).view.loc (V d (cV L) (jV L)) ↦[(slotM ![3, 0, 0] inb_S6x128x128_S1x128x128_3_0_0).view.set]{fullShare} g3)
          ∗ ((slotM ![4, 0, 0] inb_S6x128x128_S1x128x128_4_0_0).view.loc (V d (cV L) (jV L)) ↦[(slotM ![4, 0, 0] inb_S6x128x128_S1x128x128_4_0_0).view.set]{fullShare} g4)
          ∗ ((slotM ![5, 0, 0] inb_S6x128x128_S1x128x128_5_0_0).view.loc (V d (cV L) (jV L)) ↦[(slotM ![5, 0, 0] inb_S6x128x128_S1x128x128_5_0_0).view.set]{fullShare} g5)) := by
    rw [show (Finset.univ : Finset (Fin 6)) = {0, 1, 2, 3, 4, 5} from by decide,
      bigSep_insert (by decide), bigSep_insert (by decide), bigSep_insert (by decide), bigSep_insert (by decide), bigSep_insert (by decide),
      bigSep_singleton]
    rfl
  rw [← e]
  refine (pointsTo_biUnion_join (ℓ := (b5).view.loc (V d (cV L) (jV L))) (q := fullShare) (Val := Elt F) Finset.univ sK
    (![g0, g1, g2, g3, g4, g5] : Fin 6 → Buf (Elt F) ((b5).view.loc (V d (cV L) (jV L)))) g0 sK_disjoint).trans ?_
  iintro ⟨%g, -, Hg⟩
  rw [sK_cover]
  iexists g; iexact Hg

end Cert.KI

end
-- ==== Proof.Ring3R.lean ====
/-
  One trip of the ring loop keeps its invariant: six ring steps; in step `c` the gather of plane `6 k + c` is awaited and
  the plane sent out, the copy-out of plane `6 k + c - 2` is awaited and, if a plane `6 k + c + 4` exists, its gather
  started in the slot just freed.
-/
import proofs.«210835_g78632261255710_cont_9to1_m_350_20_alg».proof.Proof.Ring3
import proofs.«210835_g78632261255710_cont_9to1_m_350_20_alg».proof.Proof.RingG
import proofs.«210835_g78632261255710_cont_9to1_m_350_20_alg».proof.Proof.RingD
import proofs.«210835_g78632261255710_cont_9to1_m_350_20_alg».proof.Proof.RingSplit

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aV" => (Memref.whole Cert.KernelIdeal.main_arg0_scv : Memref Cert.KernelIdeal.sig Kind.scVector Space.hbm Cert.KernelIdeal.S4096 EltTy.i32)
local notation "vV" => (Memref.whole Cert.KernelIdeal.main_arg1_scv : Memref Cert.KernelIdeal.sig Kind.scVector Space.hbm Cert.KernelIdeal.S4096 EltTy.i32)
local notation "tV" => (Memref.whole Cert.KernelIdeal.main_v1_scv : Memref Cert.KernelIdeal.sig Kind.scVector Space.hbm Cert.KernelIdeal.S100000x128 EltTy.f32)
local notation "pV" => (Memref.whole Cert.KernelIdeal.main_v2_0_scv : Memref Cert.KernelIdeal.sig Kind.scVector Space.hbm Cert.KernelIdeal.S4096x128 EltTy.f32)
local notation "nV" => (Memref.whole Cert.KernelIdeal.main_v2_1_scv : Memref Cert.KernelIdeal.sig Kind.scVector Space.hbm Cert.KernelIdeal.S200704x128 EltTy.f32)
local notation "b0" => (Memref.whole Cert.KernelIdeal.cc0_scratch0 : Memref Cert.KernelIdeal.sig Kind.scVector Space.vmem Cert.KernelIdeal.S128 EltTy.i32)
local notation "b1" => (Memref.whole Cert.KernelIdeal.cc0_scratch1 : Memref Cert.KernelIdeal.sig Kind.scVector Space.vmem Cert.KernelIdeal.S128 EltTy.i32)
local notation "b2" => (Memref.whole Cert.KernelIdeal.cc0_scratch2 : Memref Cert.KernelIdeal.sig Kind.scVector Space.vmem Cert.KernelIdeal.S128 EltTy.i32)
local notation "b3" => (Memref.whole Cert.KernelIdeal.cc0_scratch3 : Memref Cert.KernelIdeal.sig Kind.scVector Space.vmem Cert.KernelIdeal.S49x128 EltTy.i32)
local notation "b4" => (Memref.whole Cert.KernelIdeal.cc0_scratch4 : Memref Cert.KernelIdeal.sig Kind.scVector Space.vmem Cert.KernelIdeal.S128x128 EltTy.f32)
local notation "b5" => (Memref.whole Cert.KernelIdeal.cc0_scratch5 : Memref Cert.KernelIdeal.sig Kind.scVector Space.vmem Cert.KernelIdeal.S6x128x128 EltTy.f32)

variable (m : (ℓ : Loc nD τ sig) → Buf (Elt F) ℓ) (d : Dev nD) (L : grid0.Coords)

variable [FloatOps F]

set_option maxHeartbeats 8000000 in
theorem region3 (q : PosShare TreeShare) (f3 : S49x128.Idx → Elt F .i32) (fa fv : S128.Idx → Elt F .i32)
    (hfa : ∀ s : Fin 128, fa (ValueIdx.ix1 s) = m (aLoc d) (ValueIdx.ix1 (⟨base L + s.val, base_add_lt L s⟩ : Fin 4096)))
    (hfv : ∀ s : Fin 128, fv (ValueIdx.ix1 s) = m (vLoc d) (ValueIdx.ix1 (⟨base L + s.val, base_add_lt L s⟩ : Fin 4096)))
    (hA : ∀ s, (fa s).toNat ≤ 1999) (hV : ∀ s, (fv s).toNat ≤ 49) (h3 : planesOK fa fv 0 49 f3)
    (O : CellTallies nD τ sig (HIx 1)) (W : Waits sig (HIx 1)) (v2 : BitVec 32) (v90 : IVec S16 32) (v91 : Vec F S16 .i32)
    (k : Fin k0_t3_loop.trips) :
    inv3 m d L q f3 O W k.val ⟨⟩
      ⊢ wp frame (wpE (defs₀ (F := F)) 𝒱₀ (V d (cV L) (jV L)) none) Set.univ
          (k0_t3_body L aV (Memref.isWhole_whole _) vV (Memref.isWhole_whole _) tV (Memref.isWhole_whole _) pV (Memref.isWhole_whole _) nV (Memref.isWhole_whole _) b0 (Memref.isWhole_whole _) b1 (Memref.isWhole_whole _) b2 (Memref.isWhole_whole _) b3 (Memref.isWhole_whole _) b4 (Memref.isWhole_whole _) b5 (Memref.isWhole_whole _)
            cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 cc0_scoped1 cc0_scoped2 v2 v90 v91 k ⟨⟩)
          fun _ => inv3 m d L q f3 O W (k.val + 1) ⟨⟩ := by
  have hk8 : k.val < 8 := trips3 ▸ k.isLt
  have c3 : k0_cond3 k = 1#1 := cond3_true k
  unfold inv3 k0_t3_body
  iintro ⟨#Hmw, HOW, HnD, HnT, HrD, HrT, HS0, HS1, HS2, HS3, HS4, HS5⟩
  ihave HS0 := (Entails.of_eq (stG_pos (m := m) (d := d) (L := L) (q := q) (f3 := f3) 0 k.val (6 * k.val + 0) (by omega) rfl)) $$ HS0
  ihave HS1 := (Entails.of_eq (stG_pos (m := m) (d := d) (L := L) (q := q) (f3 := f3) 1 k.val (6 * k.val + 1) (by omega) rfl)) $$ HS1
  ihave HS2 := (Entails.of_eq (stG_pos (m := m) (d := d) (L := L) (q := q) (f3 := f3) 2 k.val (6 * k.val + 2) (by omega) rfl)) $$ HS2
  ihave HS3 := (Entails.of_eq (stG_pos (m := m) (d := d) (L := L) (q := q) (f3 := f3) 3 k.val (6 * k.val + 3) (by omega) rfl)) $$ HS3
  rcases Nat.eq_zero_or_pos k.val with hr0 | hr1
  · -- the first trip: slots 4 and 5 are idle
    have c1 : ¬ k0_cond1 k = 1#1 := fun h => absurd ((cond1_iff k).mp h) (by omega)
    have c2 : ¬ k0_cond2 k = 1#1 := fun h => absurd ((cond2_iff k).mp h) (by omega)
    have c4 : k0_cond4 k = 1#1 := (cond4_iff k).mpr (by omega)
    have c5 : k0_cond5 k = 1#1 := (cond5_iff k).mpr (by omega)
    have c6 : k0_cond6 k = 1#1 := (cond6_iff k).mpr (by omega)
    ihave HI4 := (Entails.of_eq (stD_zero' (m := m) (d := d) (L := L) (q := q) 4 k.val hr0)) $$ HS4
    ihave HI5 := (Entails.of_eq (stD_zero' (m := m) (d := d) (L := L) (q := q) 5 k.val hr0)) $$ HS5
    -- ring step 0: plane 6 k + 0 arrives in slot 0 and leaves for the output; slot 4 is refilled
    sl_exec
    iapply (gwait m d L (slotK q 0) ⟨6 * k.val + 0, by omega⟩ f3 O W _ _ _) $$ [HS0 HOW]
    · isplitl [HS0]; · iexact HS0
      isplitl [HOW]; · iexact HOW
      iexact Hmw
    iintro ⟨⟨%fd0, %hfd0, HR0⟩, Hrow, HOW⟩
    ihave HrD := (Entails.of_eq (rDone_put d L f3 (6 * k.val + 0) (by omega)).symm) $$ [Hrow HrD]
    · isplitl [Hrow] <;> iassumption
    sl_exec
    ihave Hx := (Entails.of_eq (nTodo_take m d L (6 * k.val + 0) (by omega))) $$ HnT
    icases Hx with ⟨Hblk, HnT⟩
    iapply (dissue m d L (slotK q 0) ⟨6 * k.val + 0, by omega⟩ _ _ (off19_n L k 0 (6 * k.val + 0) (by omega) rfl) fd0 hfd0 _ _ _) $$ [HR0 Hblk]
    · isplitl [HR0] <;> iassumption
    iintro HS0
    sl_exec
    ihave HnD := (Entails.of_eq (nDone_small m d L (6 * k.val + 0) (by omega)).symm) $$ HnD
    ihave Hx := (Entails.of_eq (rTodo_take d L f3 (6 * k.val + 0) (by omega))) $$ HrT
    icases Hx with ⟨Hrow, HrT⟩
    ihave Hx := (Entails.of_eq (show Idle d L (tbl m d) (slotK q 4) = (iprop(∃ fd, Ready d L (tbl m d) (slotK q 4) fd) : sProp 𝕄) from rfl)) $$ HI4
    icases Hx with ⟨%fz4, HR4⟩
    iapply (gissue m d L (slotK q 4) ⟨6 * k.val + 0 + 4, by omega⟩ _ _ (off21_n k 0 (6 * k.val + 0 + 4) rfl) f3 fa fv hfa hfv hA hV 0 49 (Nat.zero_le _) (by show 6 * k.val + 0 + 4 < 49; omega) h3 fz4 _ _ _ _ _ _ _) $$ [HR4 Hrow]
    · isplitl [HR4] <;> iassumption
    iintro HS4
    -- ring step 1: plane 6 k + 1 arrives in slot 1 and leaves for the output; slot 5 is refilled
    sl_exec
    iapply (gwait m d L (slotK q 1) ⟨6 * k.val + 1, by omega⟩ f3 O W _ _ _) $$ [HS1 HOW]
    · isplitl [HS1]; · iexact HS1
      isplitl [HOW]; · iexact HOW
      iexact Hmw
    iintro ⟨⟨%fd1, %hfd1, HR1⟩, Hrow, HOW⟩
    ihave HrD := (Entails.of_eq (rDone_put d L f3 (6 * k.val + 1) (by omega)).symm) $$ [Hrow HrD]
    · isplitl [Hrow] <;> iassumption
    sl_exec
    ihave Hx := (Entails.of_eq (nTodo_take m d L (6 * k.val + 1) (by omega))) $$ HnT
    icases Hx with ⟨Hblk, HnT⟩
    iapply (dissue m d L (slotK q 1) ⟨6 * k.val + 1, by omega⟩ _ _ (off19_n L k 1 (6 * k.val + 1) (by omega) rfl) fd1 hfd1 _ _ _) $$ [HR1 Hblk]
    · isplitl [HR1] <;> iassumption
    iintro HS1
    sl_exec
    ihave HnD := (Entails.of_eq (nDone_small m d L (6 * k.val + 1) (by omega)).symm) $$ HnD
    ihave Hx := (Entails.of_eq (rTodo_take d L f3 (6 * k.val + 1) (by omega))) $$ HrT
    icases Hx with ⟨Hrow, HrT⟩
    ihave Hx := (Entails.of_eq (show Idle d L (tbl m d) (slotK q 5) = (iprop(∃ fd, Ready d L (tbl m d) (slotK q 5) fd) : sProp 𝕄) from rfl)) $$ HI5
    icases Hx with ⟨%fz5, HR5⟩
    iapply (gissue m d L (slotK q 5) ⟨6 * k.val + 1 + 4, by omega⟩ _ _ (off21_n k 1 (6 * k.val + 1 + 4) rfl) f3 fa fv hfa hfv hA hV 0 49 (Nat.zero_le _) (by show 6 * k.val + 1 + 4 < 49; omega) h3 fz5 _ _ _ _ _ _ _) $$ [HR5 Hrow]
    · isplitl [HR5] <;> iassumption
    iintro HS5
    -- ring step 2: plane 6 k + 2 arrives in slot 2 and leaves for the output; slot 0 is refilled
    sl_exec
    iapply (gwait m d L (slotK q 2) ⟨6 * k.val + 2, by omega⟩ f3 O W _ _ _) $$ [HS2 HOW]
    · isplitl [HS2]; · iexact HS2
      isplitl [HOW]; · iexact HOW
      iexact Hmw
    iintro ⟨⟨%fd2, %hfd2, HR2⟩, Hrow, HOW⟩
    ihave HrD := (Entails.of_eq (rDone_put d L f3 (6 * k.val + 2) (by omega)).symm) $$ [Hrow HrD]
    · isplitl [Hrow] <;> iassumption
    sl_exec
    ihave Hx := (Entails.of_eq (nTodo_take m d L (6 * k.val + 2) (by omega))) $$ HnT
    icases Hx with ⟨Hblk, HnT⟩
    iapply (dissue m d L (slotK q 2) ⟨6 * k.val + 2, by omega⟩ _ _ (off19_n L k 2 (6 * k.val + 2) (by omega) rfl) fd2 hfd2 _ _ _) $$ [HR2 Hblk]
    · isplitl [HR2] <;> iassumption
    iintro HS2
    sl_exec
    iapply (dwait m d L (slotK q 0) ⟨6 * k.val + 2 - 2, by omega⟩ O W _ _ (off23_n L k 0 (6 * k.val + 2 - 2) (by omega) (by show 6 * k.val + 0 = _; omega)) _ _) $$ [HS0 HOW]
    · isplitl [HS0]; · iexact HS0
      isplitl [HOW]; · iexact HOW
      iexact Hmw
    iintro ⟨HI0, Hdone, HOW⟩
    ihave HnD := (Entails.of_eq (nDone_put m d L (6 * k.val + 2) (by omega) (by omega)).symm) $$ [Hdone HnD]
    · isplitl [Hdone] <;> iassumption
    sl_exec
    ihave Hx := (Entails.of_eq (rTodo_take d L f3 (6 * k.val + 2) (by omega))) $$ HrT
    icases Hx with ⟨Hrow, HrT⟩
    ihave Hx := (Entails.of_eq (show Idle d L (tbl m d) (slotK q 0) = (iprop(∃ fd, Ready d L (tbl m d) (slotK q 0) fd) : sProp 𝕄) from rfl)) $$ HI0
    icases Hx with ⟨%fz0, HR0⟩
    iapply (gissue m d L (slotK q 0) ⟨6 * k.val + 2 + 4, by omega⟩ _ _ (off24_n k (6 * k.val + 2 + 4) (by omega)) f3 fa fv hfa hfv hA hV 0 49 (Nat.zero_le _) (by show 6 * k.val + 2 + 4 < 49; omega) h3 fz0 _ _ _ _ _ _ _) $$ [HR0 Hrow]
    · isplitl [HR0] <;> iassumption
    iintro HS0
    -- ring step 3: plane 6 k + 3 arrives in slot 3 and leaves for the output; slot 1 is refilled
    sl_exec
    iapply (gwait m d L (slotK q 3) ⟨6 * k.val + 3, by omega⟩ f3 O W _ _ _) $$ [HS3 HOW]
    · isplitl [HS3]; · iexact HS3
      isplitl [HOW]; · iexact HOW
      iexact Hmw
    iintro ⟨⟨%fd3, %hfd3, HR3⟩, Hrow, HOW⟩
    ihave HrD := (Entails.of_eq (rDone_put d L f3 (6 * k.val + 3) (by omega)).symm) $$ [Hrow HrD]
    · isplitl [Hrow] <;> iassumption
    sl_exec
    ihave Hx := (Entails.of_eq (nTodo_take m d L (6 * k.val + 3) (by omega))) $$ HnT
    icases Hx with ⟨Hblk, HnT⟩
    iapply (dissue m d L (slotK q 3) ⟨6 * k.val + 3, by omega⟩ _ _ (off19_n L k 3 (6 * k.val + 3) (by omega) rfl) fd3 hfd3 _ _ _) $$ [HR3 Hblk]
    · isplitl [HR3] <;> iassumption
    iintro HS3
    sl_exec
    iapply (dwait m d L (slotK q 1) ⟨6 * k.val + 3 - 2, by omega⟩ O W _ _ (off23_n L k 1 (6 * k.val + 3 - 2) (by omega) (by show 6 * k.val + 1 = _; omega)) _ _) $$ [HS1 HOW]
    · isplitl [HS1]; · iexact HS1
      isplitl [HOW]; · iexact HOW
      iexact Hmw
    iintro ⟨HI1, Hdone, HOW⟩
    ihave HnD := (Entails.of_eq (nDone_put m d L (6 * k.val + 3) (by omega) (by omega)).symm) $$ [Hdone HnD]
    · isplitl [Hdone] <;> iassumption
    sl_exec
    ihave Hx := (Entails.of_eq (rTodo_take d L f3 (6 * k.val + 3) (by omega))) $$ HrT
    icases Hx with ⟨Hrow, HrT⟩
    ihave Hx := (Entails.of_eq (show Idle d L (tbl m d) (slotK q 1) = (iprop(∃ fd, Ready d L (tbl m d) (slotK q 1) fd) : sProp 𝕄) from rfl)) $$ HI1
    icases Hx with ⟨%fz1, HR1⟩
    iapply (gissue m d L (slotK q 1) ⟨6 * k.val + 3 + 4, by omega⟩ _ _ (off25_n k (6 * k.val + 3 + 4) (by omega)) f3 fa fv hfa hfv hA hV 0 49 (Nat.zero_le _) (by show 6 * k.val + 3 + 4 < 49; omega) h3 fz1 _ _ _ _ _ _ _) $$ [HR1 Hrow]
    · isplitl [HR1] <;> iassumption
    iintro HS1
    -- ring step 4: plane 6 k + 4 arrives in slot 4 and leaves for the output; slot 2 is refilled
    sl_exec
    iapply (gwait m d L (slotK q 4) ⟨6 * k.val + 4, by omega⟩ f3 O W _ _ _) $$ [HS4 HOW]
    · isplitl [HS4]; · iexact HS4
      isplitl [HOW]; · iexact HOW
      iexact Hmw
    iintro ⟨⟨%fd4, %hfd4, HR4⟩, Hrow, HOW⟩
    ihave HrD := (Entails.of_eq (rDone_put d L f3 (6 * k.val + 4) (by omega)).symm) $$ [Hrow HrD]
    · isplitl [Hrow] <;> iassumption
    sl_exec
    ihave Hx := (Entails.of_eq (nTodo_take m d L (6 * k.val + 4) (by omega))) $$ HnT
    icases Hx with ⟨Hblk, HnT⟩
    iapply (dissue m d L (slotK q 4) ⟨6 * k.val + 4, by omega⟩ _ _ (off19_n L k 4 (6 * k.val + 4) (by omega) rfl) fd4 hfd4 _ _ _) $$ [HR4 Hblk]
    · isplitl [HR4] <;> iassumption
    iintro HS4
    sl_exec
    iapply (dwait m d L (slotK q 2) ⟨6 * k.val + 4 - 2, by omega⟩ O W _ _ (off23_n L k 2 (6 * k.val + 4 - 2) (by omega) (by show 6 * k.val + 2 = _; omega)) _ _) $$ [HS2 HOW]
    · isplitl [HS2]; · iexact HS2
      isplitl [HOW]; · iexact HOW
      iexact Hmw
    iintro ⟨HI2, Hdone, HOW⟩
    ihave HnD := (Entails.of_eq (nDone_put m d L (6 * k.val + 4) (by omega) (by omega)).symm) $$ [Hdone HnD]
    · isplitl [Hdone] <;> iassumption
    sl_exec
    ihave Hx := (Entails.of_eq (rTodo_take d L f3 (6 * k.val + 4) (by omega))) $$ HrT
    icases Hx with ⟨Hrow, HrT⟩
    ihave Hx := (Entails.of_eq (show Idle d L (tbl m d) (slotK q 2) = (iprop(∃ fd, Ready d L (tbl m d) (slotK q 2) fd) : sProp 𝕄) from rfl)) $$ HI2
    icases Hx with ⟨%fz2, HR2⟩
    iapply (gissue m d L (slotK q 2) ⟨6 * k.val + 4 + 4, by omega⟩ _ _ (off26_n k (6 * k.val + 4 + 4) (by omega)) f3 fa fv hfa hfv hA hV 0 49 (Nat.zero_le _) (by show 6 * k.val + 4 + 4 < 49; omega) h3 fz2 _ _ _ _ _ _ _) $$ [HR2 Hrow]
    · isplitl [HR2] <;> iassumption
    iintro HS2
    -- ring step 5: plane 6 k + 5 arrives in slot 5 and leaves for the output; slot 3 is refilled
    sl_exec
    iapply (gwait m d L (slotK q 5) ⟨6 * k.val + 5, by omega⟩ f3 O W _ _ _) $$ [HS5 HOW]
    · isplitl [HS5]; · iexact HS5
      isplitl [HOW]; · iexact HOW
      iexact Hmw
    iintro ⟨⟨%fd5, %hfd5, HR5⟩, Hrow, HOW⟩
    ihave HrD := (Entails.of_eq (rDone_put d L f3 (6 * k.val + 5) (by omega)).symm) $$ [Hrow HrD]
    · isplitl [Hrow] <;> iassumption
    sl_exec
    ihave Hx := (Entails.of_eq (nTodo_take m d L (6 * k.val + 5) (by omega))) $$ HnT
    icases Hx with ⟨Hblk, HnT⟩
    iapply (dissue m d L (slotK q 5) ⟨6 * k.val + 5, by omega⟩ _ _ (off19_n L k 5 (6 * k.val + 5) (by omega) rfl) fd5 hfd5 _ _ _) $$ [HR5 Hblk]
    · isplitl [HR5] <;> iassumption
    iintro HS5
    sl_exec
    iapply (dwait m d L (slotK q 3) ⟨6 * k.val + 5 - 2, by omega⟩ O W _ _ (off23_n L k 3 (6 * k.val + 5 - 2) (by omega) (by show 6 * k.val + 3 = _; omega)) _ _) $$ [HS3 HOW]
    · isplitl [HS3]; · iexact HS3
      isplitl [HOW]; · iexact HOW
      iexact Hmw
    iintro ⟨HI3, Hdone, HOW⟩
    ihave HnD := (Entails.of_eq (nDone_put m d L (6 * k.val + 5) (by omega) (by omega)).symm) $$ [Hdone HnD]
    · isplitl [Hdone] <;> iassumption
    sl_exec
    ihave Hx := (Entails.of_eq (rTodo_take d L f3 (6 * k.val + 5) (by omega))) $$ HrT
    icases Hx with ⟨Hrow, HrT⟩
    ihave Hx := (Entails.of_eq (show Idle d L (tbl m d) (slotK q 3) = (iprop(∃ fd, Ready d L (tbl m d) (slotK q 3) fd) : sProp 𝕄) from rfl)) $$ HI3
    icases Hx with ⟨%fz3, HR3⟩
    iapply (gissue m d L (slotK q 3) ⟨6 * k.val + 5 + 4, by omega⟩ _ _ (off27_n k (6 * k.val + 5 + 4) (by omega)) f3 fa fv hfa hfv hA hV 0 49 (Nat.zero_le _) (by show 6 * k.val + 5 + 4 < 49; omega) h3 fz3 _ _ _ _ _ _ _) $$ [HR3 Hrow]
    · isplitl [HR3] <;> iassumption
    iintro HS3
    sl_exec
    sl_step
    isplitr; · iexact Hmw
    isplitl [HOW]; · iexact HOW
    isplitl [HnD]; · iapply (Entails.of_eq (congrArg (nDone m d L) (show 6 * k.val + 5 + 1 = 6 * (k.val + 1) by omega))); iexact HnD
    isplitl [HnT]; · iapply (Entails.of_eq (congrArg (nTodo m d L) (show 6 * k.val + 5 + 1 = 6 * (k.val + 1) by omega))); iexact HnT
    isplitl [HrD]; · iapply (Entails.of_eq (congrArg (rDone d L f3) (show 6 * k.val + 5 + 1 = 6 * (k.val + 1) by omega))); iexact HrD
    isplitl [HrT]; · iapply (Entails.of_eq (congrArg (rTodo d L f3) (show 6 * k.val + 5 + 1 = 6 * (k.val + 1) by omega))); iexact HrT
    isplitl [HS0]; · iapply (Entails.of_eq (stG_pos (m := m) (d := d) (L := L) (q := q) (f3 := f3) 0 (k.val + 1) (6 * k.val + 2 + 4) (by omega) (by show 6 * (k.val + 1) + _ = _; omega)).symm); iexact HS0
    isplitl [HS1]; · iapply (Entails.of_eq (stG_pos (m := m) (d := d) (L := L) (q := q) (f3 := f3) 1 (k.val + 1) (6 * k.val + 3 + 4) (by omega) (by show 6 * (k.val + 1) + _ = _; omega)).symm); iexact HS1
    isplitl [HS2]; · iapply (Entails.of_eq (stG_pos (m := m) (d := d) (L := L) (q := q) (f3 := f3) 2 (k.val + 1) (6 * k.val + 4 + 4) (by omega) (by show 6 * (k.val + 1) + _ = _; omega)).symm); iexact HS2
    isplitl [HS3]; · iapply (Entails.of_eq (stG_pos (m := m) (d := d) (L := L) (q := q) (f3 := f3) 3 (k.val + 1) (6 * k.val + 5 + 4) (by omega) (by show 6 * (k.val + 1) + _ = _; omega)).symm); iexact HS3
    isplitl [HS4]; · iapply (Entails.of_eq (stD_pos (m := m) (d := d) (L := L) (q := q) 4 (k.val + 1) (6 * k.val + 4) (by omega) (by omega) (by show 6 * (k.val + 1) + 4 - 6 = _; omega)).symm); iexact HS4
    iapply (Entails.of_eq (stD_pos (m := m) (d := d) (L := L) (q := q) 5 (k.val + 1) (6 * k.val + 5) (by omega) (by omega) (by show 6 * (k.val + 1) + 5 - 6 = _; omega)).symm); iexact HS5

  · by_cases h6 : k.val ≤ 6
    · -- a middle trip
      have c1 : k0_cond1 k = 1#1 := (cond1_iff k).mpr (by omega)
      have c2 : k0_cond2 k = 1#1 := (cond2_iff k).mpr (by omega)
      have c4 : k0_cond4 k = 1#1 := (cond4_iff k).mpr (by omega)
      have c5 : k0_cond5 k = 1#1 := (cond5_iff k).mpr (by omega)
      have c6 : k0_cond6 k = 1#1 := (cond6_iff k).mpr (by omega)
      ihave HS4 := (Entails.of_eq (stD_pos (m := m) (d := d) (L := L) (q := q) 4 k.val (6 * k.val + 0 - 2) (by omega) (by omega) (by show 6 * k.val + 4 - 6 = _; omega))) $$ HS4
      ihave HS5 := (Entails.of_eq (stD_pos (m := m) (d := d) (L := L) (q := q) 5 k.val (6 * k.val + 1 - 2) (by omega) (by omega) (by show 6 * k.val + 5 - 6 = _; omega))) $$ HS5
      -- ring step 0: plane 6 k + 0 arrives in slot 0 and leaves for the output; slot 4 is refilled
      sl_exec
      iapply (gwait m d L (slotK q 0) ⟨6 * k.val + 0, by omega⟩ f3 O W _ _ _) $$ [HS0 HOW]
      · isplitl [HS0]; · iexact HS0
        isplitl [HOW]; · iexact HOW
        iexact Hmw
      iintro ⟨⟨%fd0, %hfd0, HR0⟩, Hrow, HOW⟩
      ihave HrD := (Entails.of_eq (rDone_put d L f3 (6 * k.val + 0) (by omega)).symm) $$ [Hrow HrD]
      · isplitl [Hrow] <;> iassumption
      sl_exec
      ihave Hx := (Entails.of_eq (nTodo_take m d L (6 * k.val + 0) (by omega))) $$ HnT
      icases Hx with ⟨Hblk, HnT⟩
      iapply (dissue m d L (slotK q 0) ⟨6 * k.val + 0, by omega⟩ _ _ (off19_n L k 0 (6 * k.val + 0) (by omega) rfl) fd0 hfd0 _ _ _) $$ [HR0 Hblk]
      · isplitl [HR0] <;> iassumption
      iintro HS0
      sl_exec
      iapply (dwait m d L (slotK q 4) ⟨6 * k.val + 0 - 2, by omega⟩ O W _ _ (off20_n L k c1 (6 * k.val + 0 - 2) (by omega) (by omega)) _ _) $$ [HS4 HOW]
      · isplitl [HS4]; · iexact HS4
        isplitl [HOW]; · iexact HOW
        iexact Hmw
      iintro ⟨HI4, Hdone, HOW⟩
      ihave HnD := (Entails.of_eq (nDone_put m d L (6 * k.val + 0) (by omega) (by omega)).symm) $$ [Hdone HnD]
      · isplitl [Hdone] <;> iassumption
      sl_exec
      ihave Hx := (Entails.of_eq (rTodo_take d L f3 (6 * k.val + 0) (by omega))) $$ HrT
      icases Hx with ⟨Hrow, HrT⟩
      ihave Hx := (Entails.of_eq (show Idle d L (tbl m d) (slotK q 4) = (iprop(∃ fd, Ready d L (tbl m d) (slotK q 4) fd) : sProp 𝕄) from rfl)) $$ HI4
      icases Hx with ⟨%fz4, HR4⟩
      iapply (gissue m d L (slotK q 4) ⟨6 * k.val + 0 + 4, by omega⟩ _ _ (off21_n k 0 (6 * k.val + 0 + 4) rfl) f3 fa fv hfa hfv hA hV 0 49 (Nat.zero_le _) (by show 6 * k.val + 0 + 4 < 49; omega) h3 fz4 _ _ _ _ _ _ _) $$ [HR4 Hrow]
      · isplitl [HR4] <;> iassumption
      iintro HS4
      -- ring step 1: plane 6 k + 1 arrives in slot 1 and leaves for the output; slot 5 is refilled
      sl_exec
      iapply (gwait m d L (slotK q 1) ⟨6 * k.val + 1, by omega⟩ f3 O W _ _ _) $$ [HS1 HOW]
      · isplitl [HS1]; · iexact HS1
        isplitl [HOW]; · iexact HOW
        iexact Hmw
      iintro ⟨⟨%fd1, %hfd1, HR1⟩, Hrow, HOW⟩
      ihave HrD := (Entails.of_eq (rDone_put d L f3 (6 * k.val + 1) (by omega)).symm) $$ [Hrow HrD]
      · isplitl [Hrow] <;> iassumption
      sl_exec
      ihave Hx := (Entails.of_eq (nTodo_take m d L (6 * k.val + 1) (by omega))) $$ HnT
      icases Hx with ⟨Hblk, HnT⟩
      iapply (dissue m d L (slotK q 1) ⟨6 * k.val + 1, by omega⟩ _ _ (off19_n L k 1 (6 * k.val + 1) (by omega) rfl) fd1 hfd1 _ _ _) $$ [HR1 Hblk]
      · isplitl [HR1] <;> iassumption
      iintro HS1
      sl_exec
      iapply (dwait m d L (slotK q 5) ⟨6 * k.val + 1 - 2, by omega⟩ O W _ _ (off22_n L k c2 (6 * k.val + 1 - 2) (by omega) (by omega)) _ _) $$ [HS5 HOW]
      · isplitl [HS5]; · iexact HS5
        isplitl [HOW]; · iexact HOW
        iexact Hmw
      iintro ⟨HI5, Hdone, HOW⟩
      ihave HnD := (Entails.of_eq (nDone_put m d L (6 * k.val + 1) (by omega) (by omega)).symm) $$ [Hdone HnD]
      · isplitl [Hdone] <;> iassumption
      sl_exec
      ihave Hx := (Entails.of_eq (rTodo_take d L f3 (6 * k.val + 1) (by omega))) $$ HrT
      icases Hx with ⟨Hrow, HrT⟩
      ihave Hx := (Entails.of_eq (show Idle d L (tbl m d) (slotK q 5) = (iprop(∃ fd, Ready d L (tbl m d) (slotK q 5) fd) : sProp 𝕄) from rfl)) $$ HI5
      icases Hx with ⟨%fz5, HR5⟩
      iapply (gissue m d L (slotK q 5) ⟨6 * k.val + 1 + 4, by omega⟩ _ _ (off21_n k 1 (6 * k.val + 1 + 4) rfl) f3 fa fv hfa hfv hA hV 0 49 (Nat.zero_le _) (by show 6 * k.val + 1 + 4 < 49; omega) h3 fz5 _ _ _ _ _ _ _) $$ [HR5 Hrow]
      · isplitl [HR5] <;> iassumption
      iintro HS5
      -- ring step 2: plane 6 k + 2 arrives in slot 2 and leaves for the output; slot 0 is refilled
      sl_exec
      iapply (gwait m d L (slotK q 2) ⟨6 * k.val + 2, by omega⟩ f3 O W _ _ _) $$ [HS2 HOW]
      · isplitl [HS2]; · iexact HS2
        isplitl [HOW]; · iexact HOW
        iexact Hmw
      iintro ⟨⟨%fd2, %hfd2, HR2⟩, Hrow, HOW⟩
      ihave HrD := (Entails.of_eq (rDone_put d L f3 (6 * k.val + 2) (by omega)).symm) $$ [Hrow HrD]
      · isplitl [Hrow] <;> iassumption
      sl_exec
      ihave Hx := (Entails.of_eq (nTodo_take m d L (6 * k.val + 2) (by omega))) $$ HnT
      icases Hx with ⟨Hblk, HnT⟩
      iapply (dissue m d L (slotK q 2) ⟨6 * k.val + 2, by omega⟩ _ _ (off19_n L k 2 (6 * k.val + 2) (by omega) rfl) fd2 hfd2 _ _ _) $$ [HR2 Hblk]
      · isplitl [HR2] <;> iassumption
      iintro HS2
      sl_exec
      iapply (dwait m d L (slotK q 0) ⟨6 * k.val + 2 - 2, by omega⟩ O W _ _ (off23_n L k 0 (6 * k.val + 2 - 2) (by omega) (by show 6 * k.val + 0 = _; omega)) _ _) $$ [HS0 HOW]
      · isplitl [HS0]; · iexact HS0
        isplitl [HOW]; · iexact HOW
        iexact Hmw
      iintro ⟨HI0, Hdone, HOW⟩
      ihave HnD := (Entails.of_eq (nDone_put m d L (6 * k.val + 2) (by omega) (by omega)).symm) $$ [Hdone HnD]
      · isplitl [Hdone] <;> iassumption
      sl_exec
      ihave Hx := (Entails.of_eq (rTodo_take d L f3 (6 * k.val + 2) (by omega))) $$ HrT
      icases Hx with ⟨Hrow, HrT⟩
      ihave Hx := (Entails.of_eq (show Idle d L (tbl m d) (slotK q 0) = (iprop(∃ fd, Ready d L (tbl m d) (slotK q 0) fd) : sProp 𝕄) from rfl)) $$ HI0
      icases Hx with ⟨%fz0, HR0⟩
      iapply (gissue m d L (slotK q 0) ⟨6 * k.val + 2 + 4, by omega⟩ _ _ (off24_n k (6 * k.val + 2 + 4) (by omega)) f3 fa fv hfa hfv hA hV 0 49 (Nat.zero_le _) (by show 6 * k.val + 2 + 4 < 49; omega) h3 fz0 _ _ _ _ _ _ _) $$ [HR0 Hrow]
      · isplitl [HR0] <;> iassumption
      iintro HS0
      -- ring step 3: plane 6 k + 3 arrives in slot 3 and leaves for the output; slot 1 is refilled
      sl_exec
      iapply (gwait m d L (slotK q 3) ⟨6 * k.val + 3, by omega⟩ f3 O W _ _ _) $$ [HS3 HOW]
      · isplitl [HS3]; · iexact HS3
        isplitl [HOW]; · iexact HOW
        iexact Hmw
      iintro ⟨⟨%fd3, %hfd3, HR3⟩, Hrow, HOW⟩
      ihave HrD := (Entails.of_eq (rDone_put d L f3 (6 * k.val + 3) (by omega)).symm) $$ [Hrow HrD]
      · isplitl [Hrow] <;> iassumption
      sl_exec
      ihave Hx := (Entails.of_eq (nTodo_take m d L (6 * k.val + 3) (by omega))) $$ HnT
      icases Hx with ⟨Hblk, HnT⟩
      iapply (dissue m d L (slotK q 3) ⟨6 * k.val + 3, by omega⟩ _ _ (off19_n L k 3 (6 * k.val + 3) (by omega) rfl) fd3 hfd3 _ _ _) $$ [HR3 Hblk]
      · isplitl [HR3] <;> iassumption
      iintro HS3
      sl_exec
      iapply (dwait m d L (slotK q 1) ⟨6 * k.val + 3 - 2, by omega⟩ O W _ _ (off23_n L k 1 (6 * k.val + 3 - 2) (by omega) (by show 6 * k.val + 1 = _; omega)) _ _) $$ [HS1 HOW]
      · isplitl [HS1]; · iexact HS1
        isplitl [HOW]; · iexact HOW
        iexact Hmw
      iintro ⟨HI1, Hdone, HOW⟩
      ihave HnD := (Entails.of_eq (nDone_put m d L (6 * k.val + 3) (by omega) (by omega)).symm) $$ [Hdone HnD]
      · isplitl [Hdone] <;> iassumption
      sl_exec
      ihave Hx := (Entails.of_eq (rTodo_take d L f3 (6 * k.val + 3) (by omega))) $$ HrT
      icases Hx with ⟨Hrow, HrT⟩
      ihave Hx := (Entails.of_eq (show Idle d L (tbl m d) (slotK q 1) = (iprop(∃ fd, Ready d L (tbl m d) (slotK q 1) fd) : sProp 𝕄) from rfl)) $$ HI1
      icases Hx with ⟨%fz1, HR1⟩
      iapply (gissue m d L (slotK q 1) ⟨6 * k.val + 3 + 4, by omega⟩ _ _ (off25_n k (6 * k.val + 3 + 4) (by omega)) f3 fa fv hfa hfv hA hV 0 49 (Nat.zero_le _) (by show 6 * k.val + 3 + 4 < 49; omega) h3 fz1 _ _ _ _ _ _ _) $$ [HR1 Hrow]
      · isplitl [HR1] <;> iassumption
      iintro HS1
      -- ring step 4: plane 6 k + 4 arrives in slot 4 and leaves for the output; slot 2 is refilled
      sl_exec
      iapply (gwait m d L (slotK q 4) ⟨6 * k.val + 4, by omega⟩ f3 O W _ _ _) $$ [HS4 HOW]
      · isplitl [HS4]; · iexact HS4
        isplitl [HOW]; · iexact HOW
        iexact Hmw
      iintro ⟨⟨%fd4, %hfd4, HR4⟩, Hrow, HOW⟩
      ihave HrD := (Entails.of_eq (rDone_put d L f3 (6 * k.val + 4) (by omega)).symm) $$ [Hrow HrD]
      · isplitl [Hrow] <;> iassumption
      sl_exec
      ihave Hx := (Entails.of_eq (nTodo_take m d L (6 * k.val + 4) (by omega))) $$ HnT
      icases Hx with ⟨Hblk, HnT⟩
      iapply (dissue m d L (slotK q 4) ⟨6 * k.val + 4, by omega⟩ _ _ (off19_n L k 4 (6 * k.val + 4) (by omega) rfl) fd4 hfd4 _ _ _) $$ [HR4 Hblk]
      · isplitl [HR4] <;> iassumption
      iintro HS4
      sl_exec
      iapply (dwait m d L (slotK q 2) ⟨6 * k.val + 4 - 2, by omega⟩ O W _ _ (off23_n L k 2 (6 * k.val + 4 - 2) (by omega) (by show 6 * k.val + 2 = _; omega)) _ _) $$ [HS2 HOW]
      · isplitl [HS2]; · iexact HS2
        isplitl [HOW]; · iexact HOW
        iexact Hmw
      iintro ⟨HI2, Hdone, HOW⟩
      ihave HnD := (Entails.of_eq (nDone_put m d L (6 * k.val + 4) (by omega) (by omega)).symm) $$ [Hdone HnD]
      · isplitl [Hdone] <;> iassumption
      sl_exec
      ihave Hx := (Entails.of_eq (rTodo_take d L f3 (6 * k.val + 4) (by omega))) $$ HrT
      icases Hx with ⟨Hrow, HrT⟩
      ihave Hx := (Entails.of_eq (show Idle d L (tbl m d) (slotK q 2) = (iprop(∃ fd, Ready d L (tbl m d) (slotK q 2) fd) : sProp 𝕄) from rfl)) $$ HI2
      icases Hx with ⟨%fz2, HR2⟩
      iapply (gissue m d L (slotK q 2) ⟨6 * k.val + 4 + 4, by omega⟩ _ _ (off26_n k (6 * k.val + 4 + 4) (by omega)) f3 fa fv hfa hfv hA hV 0 49 (Nat.zero_le _) (by show 6 * k.val + 4 + 4 < 49; omega) h3 fz2 _ _ _ _ _ _ _) $$ [HR2 Hrow]
      · isplitl [HR2] <;> iassumption
      iintro HS2
      -- ring step 5: plane 6 k + 5 arrives in slot 5 and leaves for the output; slot 3 is refilled
      sl_exec
      iapply (gwait m d L (slotK q 5) ⟨6 * k.val + 5, by omega⟩ f3 O W _ _ _) $$ [HS5 HOW]
      · isplitl [HS5]; · iexact HS5
        isplitl [HOW]; · iexact HOW
        iexact Hmw
      iintro ⟨⟨%fd5, %hfd5, HR5⟩, Hrow, HOW⟩
      ihave HrD := (Entails.of_eq (rDone_put d L f3 (6 * k.val + 5) (by omega)).symm) $$ [Hrow HrD]
      · isplitl [Hrow] <;> iassumption
      sl_exec
      ihave Hx := (Entails.of_eq (nTodo_take m d L (6 * k.val + 5) (by omega))) $$ HnT
      icases Hx with ⟨Hblk, HnT⟩
      iapply (dissue m d L (slotK q 5) ⟨6 * k.val + 5, by omega⟩ _ _ (off19_n L k 5 (6 * k.val + 5) (by omega) rfl) fd5 hfd5 _ _ _) $$ [HR5 Hblk]
      · isplitl [HR5] <;> iassumption
      iintro HS5
      sl_exec
      iapply (dwait m d L (slotK q 3) ⟨6 * k.val + 5 - 2, by omega⟩ O W _ _ (off23_n L k 3 (6 * k.val + 5 - 2) (by omega) (by show 6 * k.val + 3 = _; omega)) _ _) $$ [HS3 HOW]
      · isplitl [HS3]; · iexact HS3
        isplitl [HOW]; · iexact HOW
        iexact Hmw
      iintro ⟨HI3, Hdone, HOW⟩
      ihave HnD := (Entails.of_eq (nDone_put m d L (6 * k.val + 5) (by omega) (by omega)).symm) $$ [Hdone HnD]
      · isplitl [Hdone] <;> iassumption
      sl_exec
      ihave Hx := (Entails.of_eq (rTodo_take d L f3 (6 * k.val + 5) (by omega))) $$ HrT
      icases Hx with ⟨Hrow, HrT⟩
      ihave Hx := (Entails.of_eq (show Idle d L (tbl m d) (slotK q 3) = (iprop(∃ fd, Ready d L (tbl m d) (slotK q 3) fd) : sProp 𝕄) from rfl)) $$ HI3
      icases Hx with ⟨%fz3, HR3⟩
      iapply (gissue m d L (slotK q 3) ⟨6 * k.val + 5 + 4, by omega⟩ _ _ (off27_n k (6 * k.val + 5 + 4) (by omega)) f3 fa fv hfa hfv hA hV 0 49 (Nat.zero_le _) (by show 6 * k.val + 5 + 4 < 49; omega) h3 fz3 _ _ _ _ _ _ _) $$ [HR3 Hrow]
      · isplitl [HR3] <;> iassumption
      iintro HS3
      sl_exec
      sl_step
      isplitr; · iexact Hmw
      isplitl [HOW]; · iexact HOW
      isplitl [HnD]; · iapply (Entails.of_eq (congrArg (nDone m d L) (show 6 * k.val + 5 + 1 = 6 * (k.val + 1) by omega))); iexact HnD
      isplitl [HnT]; · iapply (Entails.of_eq (congrArg (nTodo m d L) (show 6 * k.val + 5 + 1 = 6 * (k.val + 1) by omega))); iexact HnT
      isplitl [HrD]; · iapply (Entails.of_eq (congrArg (rDone d L f3) (show 6 * k.val + 5 + 1 = 6 * (k.val + 1) by omega))); iexact HrD
      isplitl [HrT]; · iapply (Entails.of_eq (congrArg (rTodo d L f3) (show 6 * k.val + 5 + 1 = 6 * (k.val + 1) by omega))); iexact HrT
      isplitl [HS0]; · iapply (Entails.of_eq (stG_pos (m := m) (d := d) (L := L) (q := q) (f3 := f3) 0 (k.val + 1) (6 * k.val + 2 + 4) (by omega) (by show 6 * (k.val + 1) + _ = _; omega)).symm); iexact HS0
      isplitl [HS1]; · iapply (Entails.of_eq (stG_pos (m := m) (d := d) (L := L) (q := q) (f3 := f3) 1 (k.val + 1) (6 * k.val + 3 + 4) (by omega) (by show 6 * (k.val + 1) + _ = _; omega)).symm); iexact HS1
      isplitl [HS2]; · iapply (Entails.of_eq (stG_pos (m := m) (d := d) (L := L) (q := q) (f3 := f3) 2 (k.val + 1) (6 * k.val + 4 + 4) (by omega) (by show 6 * (k.val + 1) + _ = _; omega)).symm); iexact HS2
      isplitl [HS3]; · iapply (Entails.of_eq (stG_pos (m := m) (d := d) (L := L) (q := q) (f3 := f3) 3 (k.val + 1) (6 * k.val + 5 + 4) (by omega) (by show 6 * (k.val + 1) + _ = _; omega)).symm); iexact HS3
      isplitl [HS4]; · iapply (Entails.of_eq (stD_pos (m := m) (d := d) (L := L) (q := q) 4 (k.val + 1) (6 * k.val + 4) (by omega) (by omega) (by show 6 * (k.val + 1) + 4 - 6 = _; omega)).symm); iexact HS4
      iapply (Entails.of_eq (stD_pos (m := m) (d := d) (L := L) (q := q) 5 (k.val + 1) (6 * k.val + 5) (by omega) (by omega) (by show 6 * (k.val + 1) + 5 - 6 = _; omega)).symm); iexact HS5

    · -- the last trip: no planes 49, 50, 51 to gather
      have c1 : k0_cond1 k = 1#1 := (cond1_iff k).mpr (by omega)
      have c2 : k0_cond2 k = 1#1 := (cond2_iff k).mpr (by omega)
      have c4 : ¬ k0_cond4 k = 1#1 := fun h => absurd ((cond4_iff k).mp h) (by omega)
      have c5 : ¬ k0_cond5 k = 1#1 := fun h => absurd ((cond5_iff k).mp h) (by omega)
      have c6 : ¬ k0_cond6 k = 1#1 := fun h => absurd ((cond6_iff k).mp h) (by omega)
      ihave HS4 := (Entails.of_eq (stD_pos (m := m) (d := d) (L := L) (q := q) 4 k.val (6 * k.val + 0 - 2) (by omega) (by omega) (by show 6 * k.val + 4 - 6 = _; omega))) $$ HS4
      ihave HS5 := (Entails.of_eq (stD_pos (m := m) (d := d) (L := L) (q := q) 5 k.val (6 * k.val + 1 - 2) (by omega) (by omega) (by show 6 * k.val + 5 - 6 = _; omega))) $$ HS5
      -- ring step 0: plane 6 k + 0 arrives in slot 0 and leaves for the output; slot 4 is refilled
      sl_exec
      iapply (gwait m d L (slotK q 0) ⟨6 * k.val + 0, by omega⟩ f3 O W _ _ _) $$ [HS0 HOW]
      · isplitl [HS0]; · iexact HS0
        isplitl [HOW]; · iexact HOW
        iexact Hmw
      iintro ⟨⟨%fd0, %hfd0, HR0⟩, Hrow, HOW⟩
      ihave HrD := (Entails.of_eq (rDone_put d L f3 (6 * k.val + 0) (by omega)).symm) $$ [Hrow HrD]
      · isplitl [Hrow] <;> iassumption
      sl_exec
      ihave Hx := (Entails.of_eq (nTodo_take m d L (6 * k.val + 0) (by omega))) $$ HnT
      icases Hx with ⟨Hblk, HnT⟩
      iapply (dissue m d L (slotK q 0) ⟨6 * k.val + 0, by omega⟩ _ _ (off19_n L k 0 (6 * k.val + 0) (by omega) rfl) fd0 hfd0 _ _ _) $$ [HR0 Hblk]
      · isplitl [HR0] <;> iassumption
      iintro HS0
      sl_exec
      iapply (dwait m d L (slotK q 4) ⟨6 * k.val + 0 - 2, by omega⟩ O W _ _ (off20_n L k c1 (6 * k.val + 0 - 2) (by omega) (by omega)) _ _) $$ [HS4 HOW]
      · isplitl [HS4]; · iexact HS4
        isplitl [HOW]; · iexact HOW
        iexact Hmw
      iintro ⟨HI4, Hdone, HOW⟩
      ihave HnD := (Entails.of_eq (nDone_put m d L (6 * k.val + 0) (by omega) (by omega)).symm) $$ [Hdone HnD]
      · isplitl [Hdone] <;> iassumption
      sl_exec
      ihave Hx := (Entails.of_eq (rTodo_take d L f3 (6 * k.val + 0) (by omega))) $$ HrT
      icases Hx with ⟨Hrow, HrT⟩
      ihave Hx := (Entails.of_eq (show Idle d L (tbl m d) (slotK q 4) = (iprop(∃ fd, Ready d L (tbl m d) (slotK q 4) fd) : sProp 𝕄) from rfl)) $$ HI4
      icases Hx with ⟨%fz4, HR4⟩
      iapply (gissue m d L (slotK q 4) ⟨6 * k.val + 0 + 4, by omega⟩ _ _ (off21_n k 0 (6 * k.val + 0 + 4) rfl) f3 fa fv hfa hfv hA hV 0 49 (Nat.zero_le _) (by show 6 * k.val + 0 + 4 < 49; omega) h3 fz4 _ _ _ _ _ _ _) $$ [HR4 Hrow]
      · isplitl [HR4] <;> iassumption
      iintro HS4
      -- ring step 1: plane 6 k + 1 arrives in slot 1 and leaves for the output; slot 5 is refilled
      sl_exec
      iapply (gwait m d L (slotK q 1) ⟨6 * k.val + 1, by omega⟩ f3 O W _ _ _) $$ [HS1 HOW]
      · isplitl [HS1]; · iexact HS1
        isplitl [HOW]; · iexact HOW
        iexact Hmw
      iintro ⟨⟨%fd1, %hfd1, HR1⟩, Hrow, HOW⟩
      ihave HrD := (Entails.of_eq (rDone_put d L f3 (6 * k.val + 1) (by omega)).symm) $$ [Hrow HrD]
      · isplitl [Hrow] <;> iassumption
      sl_exec
      ihave Hx := (Entails.of_eq (nTodo_take m d L (6 * k.val + 1) (by omega))) $$ HnT
      icases Hx with ⟨Hblk, HnT⟩
      iapply (dissue m d L (slotK q 1) ⟨6 * k.val + 1, by omega⟩ _ _ (off19_n L k 1 (6 * k.val + 1) (by omega) rfl) fd1 hfd1 _ _ _) $$ [HR1 Hblk]
      · isplitl [HR1] <;> iassumption
      iintro HS1
      sl_exec
      iapply (dwait m d L (slotK q 5) ⟨6 * k.val + 1 - 2, by omega⟩ O W _ _ (off22_n L k c2 (6 * k.val + 1 - 2) (by omega) (by omega)) _ _) $$ [HS5 HOW]
      · isplitl [HS5]; · iexact HS5
        isplitl [HOW]; · iexact HOW
        iexact Hmw
      iintro ⟨HI5, Hdone, HOW⟩
      ihave HnD := (Entails.of_eq (nDone_put m d L (6 * k.val + 1) (by omega) (by omega)).symm) $$ [Hdone HnD]
      · isplitl [Hdone] <;> iassumption
      sl_exec
      ihave Hx := (Entails.of_eq (rTodo_take d L f3 (6 * k.val + 1) (by omega))) $$ HrT
      icases Hx with ⟨Hrow, HrT⟩
      ihave Hx := (Entails.of_eq (show Idle d L (tbl m d) (slotK q 5) = (iprop(∃ fd, Ready d L (tbl m d) (slotK q 5) fd) : sProp 𝕄) from rfl)) $$ HI5
      icases Hx with ⟨%fz5, HR5⟩
      iapply (gissue m d L (slotK q 5) ⟨6 * k.val + 1 + 4, by omega⟩ _ _ (off21_n k 1 (6 * k.val + 1 + 4) rfl) f3 fa fv hfa hfv hA hV 0 49 (Nat.zero_le _) (by show 6 * k.val + 1 + 4 < 49; omega) h3 fz5 _ _ _ _ _ _ _) $$ [HR5 Hrow]
      · isplitl [HR5] <;> iassumption
      iintro HS5
      -- ring step 2: plane 6 k + 2 arrives in slot 2 and leaves for the output; slot 0 is refilled
      sl_exec
      iapply (gwait m d L (slotK q 2) ⟨6 * k.val + 2, by omega⟩ f3 O W _ _ _) $$ [HS2 HOW]
      · isplitl [HS2]; · iexact HS2
        isplitl [HOW]; · iexact HOW
        iexact Hmw
      iintro ⟨⟨%fd2, %hfd2, HR2⟩, Hrow, HOW⟩
      ihave HrD := (Entails.of_eq (rDone_put d L f3 (6 * k.val + 2) (by omega)).symm) $$ [Hrow HrD]
      · isplitl [Hrow] <;> iassumption
      sl_exec
      ihave Hx := (Entails.of_eq (nTodo_take m d L (6 * k.val + 2) (by omega))) $$ HnT
      icases Hx with ⟨Hblk, HnT⟩
      iapply (dissue m d L (slotK q 2) ⟨6 * k.val + 2, by omega⟩ _ _ (off19_n L k 2 (6 * k.val + 2) (by omega) rfl) fd2 hfd2 _ _ _) $$ [HR2 Hblk]
      · isplitl [HR2] <;> iassumption
      iintro HS2
      sl_exec
      iapply (dwait m d L (slotK q 0) ⟨6 * k.val + 2 - 2, by omega⟩ O W _ _ (off23_n L k 0 (6 * k.val + 2 - 2) (by omega) (by show 6 * k.val + 0 = _; omega)) _ _) $$ [HS0 HOW]
      · isplitl [HS0]; · iexact HS0
        isplitl [HOW]; · iexact HOW
        iexact Hmw
      iintro ⟨HI0, Hdone, HOW⟩
      ihave HnD := (Entails.of_eq (nDone_put m d L (6 * k.val + 2) (by omega) (by omega)).symm) $$ [Hdone HnD]
      · isplitl [Hdone] <;> iassumption
      sl_exec
      ihave Hx := (Entails.of_eq (rTodo_take d L f3 (6 * k.val + 2) (by omega))) $$ HrT
      icases Hx with ⟨Hrow, HrT⟩
      ihave Hx := (Entails.of_eq (show Idle d L (tbl m d) (slotK q 0) = (iprop(∃ fd, Ready d L (tbl m d) (slotK q 0) fd) : sProp 𝕄) from rfl)) $$ HI0
      icases Hx with ⟨%fz0, HR0⟩
      iapply (gissue m d L (slotK q 0) ⟨6 * k.val + 2 + 4, by omega⟩ _ _ (off24_n k (6 * k.val + 2 + 4) (by omega)) f3 fa fv hfa hfv hA hV 0 49 (Nat.zero_le _) (by show 6 * k.val + 2 + 4 < 49; omega) h3 fz0 _ _ _ _ _ _ _) $$ [HR0 Hrow]
      · isplitl [HR0] <;> iassumption
      iintro HS0
      -- ring step 3: plane 6 k + 3 arrives in slot 3 and leaves for the output; slot 1 is refilled
      sl_exec
      iapply (gwait m d L (slotK q 3) ⟨6 * k.val + 3, by omega⟩ f3 O W _ _ _) $$ [HS3 HOW]
      · isplitl [HS3]; · iexact HS3
        isplitl [HOW]; · iexact HOW
        iexact Hmw
      iintro ⟨⟨%fd3, %hfd3, HR3⟩, Hrow, HOW⟩
      ihave HrD := (Entails.of_eq (rDone_put d L f3 (6 * k.val + 3) (by omega)).symm) $$ [Hrow HrD]
      · isplitl [Hrow] <;> iassumption
      sl_exec
      ihave Hx := (Entails.of_eq (nTodo_take m d L (6 * k.val + 3) (by omega))) $$ HnT
      icases Hx with ⟨Hblk, HnT⟩
      iapply (dissue m d L (slotK q 3) ⟨6 * k.val + 3, by omega⟩ _ _ (off19_n L k 3 (6 * k.val + 3) (by omega) rfl) fd3 hfd3 _ _ _) $$ [HR3 Hblk]
      · isplitl [HR3] <;> iassumption
      iintro HS3
      sl_exec
      iapply (dwait m d L (slotK q 1) ⟨6 * k.val + 3 - 2, by omega⟩ O W _ _ (off23_n L k 1 (6 * k.val + 3 - 2) (by omega) (by show 6 * k.val + 1 = _; omega)) _ _) $$ [HS1 HOW]
      · isplitl [HS1]; · iexact HS1
        isplitl [HOW]; · iexact HOW
        iexact Hmw
      iintro ⟨HI1, Hdone, HOW⟩
      ihave HnD := (Entails.of_eq (nDone_put m d L (6 * k.val + 3) (by omega) (by omega)).symm) $$ [Hdone HnD]
      · isplitl [Hdone] <;> iassumption
      ihave HrT := (Entails.of_eq (rTodo_last d L f3 (6 * k.val + 3) (by omega))) $$ HrT
      -- ring step 4: plane 6 k + 4 arrives in slot 4 and leaves for the output; slot 2 is refilled
      sl_exec
      iapply (gwait m d L (slotK q 4) ⟨6 * k.val + 4, by omega⟩ f3 O W _ _ _) $$ [HS4 HOW]
      · isplitl [HS4]; · iexact HS4
        isplitl [HOW]; · iexact HOW
        iexact Hmw
      iintro ⟨⟨%fd4, %hfd4, HR4⟩, Hrow, HOW⟩
      ihave HrD := (Entails.of_eq (rDone_put d L f3 (6 * k.val + 4) (by omega)).symm) $$ [Hrow HrD]
      · isplitl [Hrow] <;> iassumption
      sl_exec
      ihave Hx := (Entails.of_eq (nTodo_take m d L (6 * k.val + 4) (by omega))) $$ HnT
      icases Hx with ⟨Hblk, HnT⟩
      iapply (dissue m d L (slotK q 4) ⟨6 * k.val + 4, by omega⟩ _ _ (off19_n L k 4 (6 * k.val + 4) (by omega) rfl) fd4 hfd4 _ _ _) $$ [HR4 Hblk]
      · isplitl [HR4] <;> iassumption
      iintro HS4
      sl_exec
      iapply (dwait m d L (slotK q 2) ⟨6 * k.val + 4 - 2, by omega⟩ O W _ _ (off23_n L k 2 (6 * k.val + 4 - 2) (by omega) (by show 6 * k.val + 2 = _; omega)) _ _) $$ [HS2 HOW]
      · isplitl [HS2]; · iexact HS2
        isplitl [HOW]; · iexact HOW
        iexact Hmw
      iintro ⟨HI2, Hdone, HOW⟩
      ihave HnD := (Entails.of_eq (nDone_put m d L (6 * k.val + 4) (by omega) (by omega)).symm) $$ [Hdone HnD]
      · isplitl [Hdone] <;> iassumption
      ihave HrT := (Entails.of_eq (rTodo_last d L f3 (6 * k.val + 4) (by omega))) $$ HrT
      -- ring step 5: plane 6 k + 5 arrives in slot 5 and leaves for the output; slot 3 is refilled
      sl_exec
      iapply (gwait m d L (slotK q 5) ⟨6 * k.val + 5, by omega⟩ f3 O W _ _ _) $$ [HS5 HOW]
      · isplitl [HS5]; · iexact HS5
        isplitl [HOW]; · iexact HOW
        iexact Hmw
      iintro ⟨⟨%fd5, %hfd5, HR5⟩, Hrow, HOW⟩
      ihave HrD := (Entails.of_eq (rDone_put d L f3 (6 * k.val + 5) (by omega)).symm) $$ [Hrow HrD]
      · isplitl [Hrow] <;> iassumption
      sl_exec
      ihave Hx := (Entails.of_eq (nTodo_take m d L (6 * k.val + 5) (by omega))) $$ HnT
      icases Hx with ⟨Hblk, HnT⟩
      iapply (dissue m d L (slotK q 5) ⟨6 * k.val + 5, by omega⟩ _ _ (off19_n L k 5 (6 * k.val + 5) (by omega) rfl) fd5 hfd5 _ _ _) $$ [HR5 Hblk]
      · isplitl [HR5] <;> iassumption
      iintro HS5
      sl_exec
      iapply (dwait m d L (slotK q 3) ⟨6 * k.val + 5 - 2, by omega⟩ O W _ _ (off23_n L k 3 (6 * k.val + 5 - 2) (by omega) (by show 6 * k.val + 3 = _; omega)) _ _) $$ [HS3 HOW]
      · isplitl [HS3]; · iexact HS3
        isplitl [HOW]; · iexact HOW
        iexact Hmw
      iintro ⟨HI3, Hdone, HOW⟩
      ihave HnD := (Entails.of_eq (nDone_put m d L (6 * k.val + 5) (by omega) (by omega)).symm) $$ [Hdone HnD]
      · isplitl [Hdone] <;> iassumption
      ihave HrT := (Entails.of_eq (rTodo_last d L f3 (6 * k.val + 5) (by omega))) $$ HrT
      sl_exec
      sl_step
      isplitr; · iexact Hmw
      isplitl [HOW]; · iexact HOW
      isplitl [HnD]; · iapply (Entails.of_eq (congrArg (nDone m d L) (show 6 * k.val + 5 + 1 = 6 * (k.val + 1) by omega))); iexact HnD
      isplitl [HnT]; · iapply (Entails.of_eq (congrArg (nTodo m d L) (show 6 * k.val + 5 + 1 = 6 * (k.val + 1) by omega))); iexact HnT
      isplitl [HrD]; · iapply (Entails.of_eq (congrArg (rDone d L f3) (show 6 * k.val + 5 + 1 = 6 * (k.val + 1) by omega))); iexact HrD
      isplitl [HrT]; · iapply (Entails.of_eq (congrArg (rTodo d L f3) (show 6 * k.val + 5 + 1 = 6 * (k.val + 1) by omega))); iexact HrT
      isplitl [HS0]; · iapply (Entails.of_eq (stG_pos (m := m) (d := d) (L := L) (q := q) (f3 := f3) 0 (k.val + 1) (6 * k.val + 2 + 4) (by omega) (by show 6 * (k.val + 1) + _ = _; omega)).symm); iexact HS0
      isplitl [HI1]; · iapply (Entails.of_eq (stG_neg (m := m) (d := d) (L := L) (q := q) (f3 := f3) 1 (k.val + 1) (by show ¬ 6 * (k.val + 1) + _ < 49; omega)).symm); iexact HI1
      isplitl [HI2]; · iapply (Entails.of_eq (stG_neg (m := m) (d := d) (L := L) (q := q) (f3 := f3) 2 (k.val + 1) (by show ¬ 6 * (k.val + 1) + _ < 49; omega)).symm); iexact HI2
      isplitl [HI3]; · iapply (Entails.of_eq (stG_neg (m := m) (d := d) (L := L) (q := q) (f3 := f3) 3 (k.val + 1) (by show ¬ 6 * (k.val + 1) + _ < 49; omega)).symm); iexact HI3
      isplitl [HS4]; · iapply (Entails.of_eq (stD_pos (m := m) (d := d) (L := L) (q := q) 4 (k.val + 1) (6 * k.val + 4) (by omega) (by omega) (by show 6 * (k.val + 1) + 4 - 6 = _; omega)).symm); iexact HS4
      iapply (Entails.of_eq (stD_pos (m := m) (d := d) (L := L) (q := q) 5 (k.val + 1) (6 * k.val + 5) (by omega) (by omega) (by show 6 * (k.val + 1) + 5 - 6 = _; omega)).symm); iexact HS5

end Cert.KI

end
-- ==== Proof.RingEnds.lean ====
import proofs.«210835_g78632261255710_cont_9to1_m_350_20_alg».proof.Proof.RingDefs

/-! Small facts at the joints of a subcore's task: a gather in flight and an index row depend on the plane buffer's
    contents only on their own row; the vectors copied in are the subcore's samples' words, within the ranges; the
    families of output blocks and index rows at the two ends of the ring's walk. -/

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aV" => (Memref.whole Cert.KernelIdeal.main_arg0_scv : Memref Cert.KernelIdeal.sig Kind.scVector Space.hbm Cert.KernelIdeal.S4096 EltTy.i32)
local notation "vV" => (Memref.whole Cert.KernelIdeal.main_arg1_scv : Memref Cert.KernelIdeal.sig Kind.scVector Space.hbm Cert.KernelIdeal.S4096 EltTy.i32)
local notation "tV" => (Memref.whole Cert.KernelIdeal.main_v1_scv : Memref Cert.KernelIdeal.sig Kind.scVector Space.hbm Cert.KernelIdeal.S100000x128 EltTy.f32)
local notation "pV" => (Memref.whole Cert.KernelIdeal.main_v2_0_scv : Memref Cert.KernelIdeal.sig Kind.scVector Space.hbm Cert.KernelIdeal.S4096x128 EltTy.f32)
local notation "nV" => (Memref.whole Cert.KernelIdeal.main_v2_1_scv : Memref Cert.KernelIdeal.sig Kind.scVector Space.hbm Cert.KernelIdeal.S200704x128 EltTy.f32)
local notation "b0" => (Memref.whole Cert.KernelIdeal.cc0_scratch0 : Memref Cert.KernelIdeal.sig Kind.scVector Space.vmem Cert.KernelIdeal.S128 EltTy.i32)
local notation "b1" => (Memref.whole Cert.KernelIdeal.cc0_scratch1 : Memref Cert.KernelIdeal.sig Kind.scVector Space.vmem Cert.KernelIdeal.S128 EltTy.i32)
local notation "b2" => (Memref.whole Cert.KernelIdeal.cc0_scratch2 : Memref Cert.KernelIdeal.sig Kind.scVector Space.vmem Cert.KernelIdeal.S128 EltTy.i32)
local notation "b3" => (Memref.whole Cert.KernelIdeal.cc0_scratch3 : Memref Cert.KernelIdeal.sig Kind.scVector Space.vmem Cert.KernelIdeal.S49x128 EltTy.i32)
local notation "b4" => (Memref.whole Cert.KernelIdeal.cc0_scratch4 : Memref Cert.KernelIdeal.sig Kind.scVector Space.vmem Cert.KernelIdeal.S128x128 EltTy.f32)
local notation "b5" => (Memref.whole Cert.KernelIdeal.cc0_scratch5 : Memref Cert.KernelIdeal.sig Kind.scVector Space.vmem Cert.KernelIdeal.S6x128x128 EltTy.f32)

variable (m : (ℓ : Loc nD τ sig) → Buf (Elt F) ℓ) (d : Dev nD) (L : grid0.Coords)

open Idealize.ShloMosaic.ValueIdx

local notation "thr" => (V d (cV L) (jV L))

/-! ## A row of the plane buffer as a set of its elements -/

/-- The elements of the plane buffer that its row at offsets `o` names. -/
theorem planeRow_set (o : Fin 2 → ℕ) (h : ∀ a, o a + S1x128.size a ≤ S49x128.size a) :
    (planeRow o h).view.set = (Rect.unit (s := S49x128) o S1x128.size h).set := by
  show ((((b3).view.slice (Rect.unit (s := S49x128) o S1x128.size h)).reshape S128 squeezes_S1x128_S128.numel_eq).set) = _
  rw [View.set_reshape]; exact View.set_slice_whole _ _

/-- They are the elements of row `o 0`. -/
theorem mem_planeRow_set (o : Fin 2 → ℕ) (h : ∀ a, o a + S1x128.size a ≤ S49x128.size a) (ho1 : o 1 = 0) (i : S49x128.Idx) :
    i ∈ (planeRow o h).view.set ↔ (i 0).val = o 0 := by
  rw [planeRow_set, Rect.mem_set_unit]
  have h128 : (i 1).val < 128 := (i 1).isLt
  constructor
  · intro hm
    have h0 := hm 0
    change o 0 ≤ (i 0).val ∧ (i 0).val < o 0 + 1 at h0
    omega
  · intro hi a
    match a with
    | ⟨0, _⟩ => show o 0 ≤ (i 0).val ∧ (i 0).val < o 0 + 1; omega
    | ⟨1, _⟩ => show o 1 ≤ (i 1).val ∧ (i 1).val < o 1 + 128; omega

/-! ## Dependence on the plane buffer's contents -/

/-- Row `j` of the plane buffer at contents that agree on row `j`. -/
theorem pRow_congr (j : Fin 49) (f g : S49x128.Idx → Elt F .i32) (hfg : ∀ i : S49x128.Idx, (i 0).val = j.val → f i = g i) :
    (pRow d L f j : sProp 𝕄) = pRow d L g j := by
  unfold pRow
  exact pointsTo_congr fun i hi => hfg i ((mem_planeRow_set _ _ rfl i).1 hi)

/-- A gather in flight holds the plane buffer's contents only on its plane's row. -/
theorem Gath_f3 (Tb : Buf (Elt F) (tLoc d)) (K : SlotK) (j : Fin 49) (f g : S49x128.Idx → Elt F .i32)
    (hfg : ∀ i : S49x128.Idx, (i 0).val = j.val → f i = g i) :
    (Gath m d L Tb f K j : sProp 𝕄) ⊢ Gath m d L Tb g K j := by
  unfold Gath
  iintro ⟨Hdm, %o, %h, %fd, %ho, %hok, Hfl⟩
  isplitl [Hdm]; · iexact Hdm
  iexists o, h, fd
  isplitr
  · ipureintro; exact ho
  isplitr
  · ipureintro; exact hok
  have e : ((planeRow o h).view.loc (V d (cV L) (jV L)) ↦[(planeRow o h).view.set]{fullShare} f : sProp 𝕄)
      = ((planeRow o h).view.loc (V d (cV L) (jV L)) ↦[(planeRow o h).view.set]{fullShare} g) :=
    pointsTo_congr fun i hi => hfg i (by
      have := (mem_planeRow_set o h (by rw [ho]; rfl) i).1 hi
      rw [this, ho]; rfl)
  rw [← e]
  iexact Hfl

/-- The plane buffer less its first four rows, at contents that agree from row 4 on. -/
theorem rest4_congr (f g : S49x128.Idx → Elt F .i32) (hfg : ∀ i : S49x128.Idx, 4 ≤ (i 0).val → f i = g i) :
    ((b3).view.loc thr ↦[((((Finset.univ \ (planeRow ![0, 0] inb_S49x128_S1x128_0_0).view.set) \ (planeRow ![1, 0] inb_S49x128_S1x128_1_0).view.set)
        \ (planeRow ![2, 0] inb_S49x128_S1x128_2_0).view.set) \ (planeRow ![3, 0] inb_S49x128_S1x128_3_0).view.set)]{fullShare} f : sProp 𝕄)
      = ((b3).view.loc thr ↦[((((Finset.univ \ (planeRow ![0, 0] inb_S49x128_S1x128_0_0).view.set) \ (planeRow ![1, 0] inb_S49x128_S1x128_1_0).view.set)
        \ (planeRow ![2, 0] inb_S49x128_S1x128_2_0).view.set) \ (planeRow ![3, 0] inb_S49x128_S1x128_3_0).view.set)]{fullShare} g) := by
  refine pointsTo_congr fun i hi => hfg i ?_
  simp only [Finset.mem_sdiff, Finset.mem_univ, true_and] at hi
  obtain ⟨⟨⟨h0, h1⟩, h2⟩, h3⟩ := hi
  have k0 : (i 0).val ≠ 0 := fun e => h0 ((mem_planeRow_set _ _ rfl i).2 e)
  have k1 : (i 0).val ≠ 1 := fun e => h1 ((mem_planeRow_set _ _ rfl i).2 e)
  have k2 : (i 0).val ≠ 2 := fun e => h2 ((mem_planeRow_set _ _ rfl i).2 e)
  have k3 : (i 0).val ≠ 3 := fun e => h3 ((mem_planeRow_set _ _ rfl i).2 e)
  omega

/-! ## The vectors copied in -/

/-- The attributes as copied in: word `s` is the attribute of the subcore's sample `s`. -/
theorem fa_val (f0 : S128.Idx → Elt F .i32) (s : Fin 128) :
    View.write (Elt F) (b0).view f0 (ReadAs.same.apply ((aRowK L).view.read (Elt F) (m (aLoc d)))) Finset.univ (ix1 s)
      = m (aLoc d) (ix1 (⟨base L + s.val, base_add_lt L s⟩ : Fin 4096)) := by
  rw [View.write_whole_univ]
  exact aRow_read m d L s

/-- … within the attributes' range. -/
theorem fa_le (hpre : PreOK m) (f0 : S128.Idx → Elt F .i32) (s : S128.Idx) :
    (View.write (Elt F) (b0).view f0 (ReadAs.same.apply ((aRowK L).view.read (Elt F) (m (aLoc d)))) Finset.univ s).toNat ≤ 1999 := by
  rw [View.write_whole_univ]
  show ((aRowK L).view.read (Elt F) (m (aLoc d)) s).toNat ≤ 1999
  rw [View.read_apply]
  exact (hpre d).1 _

/-- The values as copied in: word `s` is the value of the subcore's sample `s`. -/
theorem fv_val (f1 : S128.Idx → Elt F .i32) (s : Fin 128) :
    View.write (Elt F) (b1).view f1 (ReadAs.same.apply ((vRowK L).view.read (Elt F) (m (vLoc d)))) Finset.univ (ix1 s)
      = m (vLoc d) (ix1 (⟨base L + s.val, base_add_lt L s⟩ : Fin 4096)) := by
  rw [View.write_whole_univ]
  exact vRow_read m d L s

/-- … within the values' range. -/
theorem fv_le (hpre : PreOK m) (f1 : S128.Idx → Elt F .i32) (s : S128.Idx) :
    (View.write (Elt F) (b1).view f1 (ReadAs.same.apply ((vRowK L).view.read (Elt F) (m (vLoc d)))) Finset.univ s).toNat ≤ 49 := by
  rw [View.write_whole_univ]
  show ((vRowK L).view.read (Elt F) (m (vLoc d)) s).toNat ≤ 49
  rw [View.read_apply]
  exact (hpre d).2 _

/-! ## The ends of the ring's walk -/

theorem nTodo_zero : (nTodo m d L 0 : sProp 𝕄) = bigSep Finset.univ fun j : Fin 49 => nBlock d L j (m (nLoc d)) := by
  unfold nTodo
  rw [Finset.filter_true_of_mem (fun j _ => Nat.zero_le _)]

theorem rTodo_end (f3 : S49x128.Idx → Elt F .i32) (n : ℕ) (h : 45 ≤ n) : (rTodo d L f3 n : sProp 𝕄) = (iprop(emp) : sProp 𝕄) := by
  unfold rTodo
  rw [Finset.filter_false_of_mem (fun j _ => by have := j.isLt; omega)]
  rfl

theorem nDone_all (n : ℕ) (h : 51 ≤ n) : (nDone m d L n : sProp 𝕄) = bigSep Finset.univ fun j : Fin 49 => nBlock d L j (negOf m d) := by
  unfold nDone
  rw [Finset.filter_true_of_mem (fun j _ => by have := j.isLt; omega)]

theorem rDone_all (f3 : S49x128.Idx → Elt F .i32) (n : ℕ) (h : 49 ≤ n) : (rDone d L f3 n : sProp 𝕄) = bigSep Finset.univ fun j : Fin 49 => pRow d L f3 j := by
  unfold rDone
  rw [Finset.filter_true_of_mem (fun j _ => by have := j.isLt; omega)]

end Cert.KI

end
-- ==== Proof.Body.lean ====
/-
  One vector subcore's task of the lookup kernel, at a symbolic subcore: it copies in its 128 attributes and values,
  fills the 49 index planes and the positive index row, streams the table's rows through a ring of six row buffers out to
  its block of each negative plane, and the positive rows out to its block of the positives.
-/
import proofs.«210835_g78632261255710_cont_9to1_m_350_20_alg».proof.Proof.BodyPre
import proofs.«210835_g78632261255710_cont_9to1_m_350_20_alg».proof.Proof.Ring3R
import proofs.«210835_g78632261255710_cont_9to1_m_350_20_alg».proof.Proof.RingEnds

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aV" => (Memref.whole Cert.KernelIdeal.main_arg0_scv : Memref Cert.KernelIdeal.sig Kind.scVector Space.hbm Cert.KernelIdeal.S4096 EltTy.i32)
local notation "vV" => (Memref.whole Cert.KernelIdeal.main_arg1_scv : Memref Cert.KernelIdeal.sig Kind.scVector Space.hbm Cert.KernelIdeal.S4096 EltTy.i32)
local notation "tV" => (Memref.whole Cert.KernelIdeal.main_v1_scv : Memref Cert.KernelIdeal.sig Kind.scVector Space.hbm Cert.KernelIdeal.S100000x128 EltTy.f32)
local notation "pV" => (Memref.whole Cert.KernelIdeal.main_v2_0_scv : Memref Cert.KernelIdeal.sig Kind.scVector Space.hbm Cert.KernelIdeal.S4096x128 EltTy.f32)
local notation "nV" => (Memref.whole Cert.KernelIdeal.main_v2_1_scv : Memref Cert.KernelIdeal.sig Kind.scVector Space.hbm Cert.KernelIdeal.S200704x128 EltTy.f32)
local notation "b0" => (Memref.whole Cert.KernelIdeal.cc0_scratch0 : Memref Cert.KernelIdeal.sig Kind.scVector Space.vmem Cert.KernelIdeal.S128 EltTy.i32)
local notation "b1" => (Memref.whole Cert.KernelIdeal.cc0_scratch1 : Memref Cert.KernelIdeal.sig Kind.scVector Space.vmem Cert.KernelIdeal.S128 EltTy.i32)
local notation "b2" => (Memref.whole Cert.KernelIdeal.cc0_scratch2 : Memref Cert.KernelIdeal.sig Kind.scVector Space.vmem Cert.KernelIdeal.S128 EltTy.i32)
local notation "b3" => (Memref.whole Cert.KernelIdeal.cc0_scratch3 : Memref Cert.KernelIdeal.sig Kind.scVector Space.vmem Cert.KernelIdeal.S49x128 EltTy.i32)
local notation "b4" => (Memref.whole Cert.KernelIdeal.cc0_scratch4 : Memref Cert.KernelIdeal.sig Kind.scVector Space.vmem Cert.KernelIdeal.S128x128 EltTy.f32)
local notation "b5" => (Memref.whole Cert.KernelIdeal.cc0_scratch5 : Memref Cert.KernelIdeal.sig Kind.scVector Space.vmem Cert.KernelIdeal.S6x128x128 EltTy.f32)

variable (m : (ℓ : Loc nD τ sig) → Buf (Elt F) ℓ)

variable [FloatOps F]

set_option maxHeartbeats 16000000 in
theorem tile_run (hpre : PreOK m) : TileBody m := by
  intro hF d L O W hO q
  simp only [cc0_sc_kernel_eq_skeleton]; unfold cc0_sc_kernel_skel
  rw [(K (F := F)).scopedBufs_V hF d (cV L) (jV L), SparseCore.Cfg.scopedSems0_V (Val := Elt F) d (cV L) (jV L), ownSems0_V, sems16, ownBufs_V]
  unfold tileRes
  iintro ⟨#Hlv, -, ⟨Ha, Hv, Ht, Hp, Hn⟩, ⟨⟨%f0, Hb0⟩, ⟨%f1, Hb1⟩, ⟨%f2, Hb2⟩, ⟨%f3, Hb3⟩, ⟨%f4, Hb4⟩, ⟨%f5, Hb5⟩, Hbufs⟩, ⟨Hps, Hg0, Hg1, Hg2, Hg3, Hg4, Hg5, Hd0, Hd1, Hd2, Hd3, Hd4, Hd5, Hr0, Hr1, Hr2⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hb0' := (Entails.of_eq (show (((V d (cV L) (jV L)).loc cc0_scratch0 ↦{fullShare} f0) : sProp 𝕄) = ((b0).view.loc (V d (cV L) (jV L)) ↦{fullShare} f0) from rfl)) $$ Hb0
  ihave Hb1' := (Entails.of_eq (show (((V d (cV L) (jV L)).loc cc0_scratch1 ↦{fullShare} f1) : sProp 𝕄) = ((b1).view.loc (V d (cV L) (jV L)) ↦{fullShare} f1) from rfl)) $$ Hb1
  ihave Hb2' := (Entails.of_eq (show (((V d (cV L) (jV L)).loc cc0_scratch2 ↦{fullShare} f2) : sProp 𝕄) = ((b2).view.loc (V d (cV L) (jV L)) ↦{fullShare} f2) from rfl)) $$ Hb2
  ihave Hb3' := (Entails.of_eq (show (((V d (cV L) (jV L)).loc cc0_scratch3 ↦{fullShare} f3) : sProp 𝕄) = ((b3).view.loc (V d (cV L) (jV L)) ↦{fullShare} f3) from rfl)) $$ Hb3
  ihave Hb4' := (Entails.of_eq (show (((V d (cV L) (jV L)).loc cc0_scratch4 ↦{fullShare} f4) : sProp 𝕄) = ((b4).view.loc (V d (cV L) (jV L)) ↦{fullShare} f4) from rfl)) $$ Hb4
  ihave Hb5' := (Entails.of_eq (show (((V d (cV L) (jV L)).loc cc0_scratch5 ↦{fullShare} f5) : sProp 𝕄) = ((b5).view.loc (V d (cV L) (jV L)) ↦{fullShare} f5) from rfl)) $$ Hb5
  ihave Ha' := (Entails.of_eq (show (_ : sProp 𝕄) = ((aRowK L).view.loc (V d (cV L) (jV L)) ↦[(aRowK L).view.set]{fullShare} m (aLoc d)) from rfl)) $$ Ha
  ihave Hv' := (Entails.of_eq (show (_ : sProp 𝕄) = ((vRowK L).view.loc (V d (cV L) (jV L)) ↦[(vRowK L).view.set]{fullShare} m (vLoc d)) from rfl)) $$ Hv
  ihave Hp' := (Entails.of_eq (show (_ : sProp 𝕄) = ((pRowK L).view.loc (V d (cV L) (jV L)) ↦[(pRowK L).view.set]{fullShare} m (pLoc d)) from rfl)) $$ Hp
  -- the two blocking copies, then the first four planes
  sl_exec
  sl_for (inv1 (F := F) d L (View.write (Elt F) (b0).view f0 (tile_run.sl.dma0 m d L) Finset.univ) (View.write (Elt F) (b1).view f1 (tile_run.sl.dma0_1 m d L) Finset.univ)) $$ [Hb0' Hb1' Hb3']
  case region =>
    intro k _
    unfold inv1
    iintro ⟨Hb0, Hb1, %f3', Hb3, %hok⟩
    sl_exec
    sl_step
    isplitl [Hb0]; · iexact Hb0
    isplitl [Hb1]; · iexact Hb1
    iexists _; isplitl [Hb3]; · iexact Hb3
    ipureintro
    have hk : k.val < 49 := by have := lt_of_lt_of_le k.isLt k0_t1_abs.2.1; omega
    refine planes_step8 (View.write (Elt F) (b0).view f0 (tile_run.sl.dma0 m d L) Finset.univ) (View.write (Elt F) (b1).view f1 (tile_run.sl.dma0_1 m d L) Finset.univ) 0 (k.val) hk f3' hok _ _ _ _ _ _ _ _
      (k0_off2_eq k) (k0_off3_eq k) (k0_off4_eq k) (k0_off5_eq k) (k0_off6_eq k) (k0_off7_eq k) (k0_off8_eq k) (k0_off9_eq k)
      _ _ _ _ _ _ _ _ ![tile_run.sl.v157 m d L f0 f1 k, tile_run.sl.v174 m d L f0 f1 k, tile_run.sl.v191 m d L f0 f1 k, tile_run.sl.v208 m d L f0 f1 k, tile_run.sl.v225 m d L f0 f1 k, tile_run.sl.v242 m d L f0 f1 k, tile_run.sl.v259 m d L f0 f1 k, tile_run.sl.v276 m d L f0 f1 k] ?_
    intro c x
    fin_cases c
    · show tile_run.sl.v157 m d L f0 f1 k x = _
      refine (chunk_val (Scf.iv 0#32 1#32 k.val) _ _ _ _ _ x).trans ?_
      rw [iv0, load16_val0 0 (by omega), load16_val1 0 (by omega)]
      rfl
    · show tile_run.sl.v174 m d L f0 f1 k x = _
      refine (chunk_val (Scf.iv 0#32 1#32 k.val) _ _ _ _ _ x).trans ?_
      rw [iv0, load16_val0 16 (by omega), load16_val1 16 (by omega)]
      rfl
    · show tile_run.sl.v191 m d L f0 f1 k x = _
      refine (chunk_val (Scf.iv 0#32 1#32 k.val) _ _ _ _ _ x).trans ?_
      rw [iv0, load16_val0 32 (by omega), load16_val1 32 (by omega)]
      rfl
    · show tile_run.sl.v208 m d L f0 f1 k x = _
      refine (chunk_val (Scf.iv 0#32 1#32 k.val) _ _ _ _ _ x).trans ?_
      rw [iv0, load16_val0 48 (by omega), load16_val1 48 (by omega)]
      rfl
    · show tile_run.sl.v225 m d L f0 f1 k x = _
      refine (chunk_val (Scf.iv 0#32 1#32 k.val) _ _ _ _ _ x).trans ?_
      rw [iv0, load16_val0 64 (by omega), load16_val1 64 (by omega)]
      rfl
    · show tile_run.sl.v242 m d L f0 f1 k x = _
      refine (chunk_val (Scf.iv 0#32 1#32 k.val) _ _ _ _ _ x).trans ?_
      rw [iv0, load16_val0 80 (by omega), load16_val1 80 (by omega)]
      rfl
    · show tile_run.sl.v259 m d L f0 f1 k x = _
      refine (chunk_val (Scf.iv 0#32 1#32 k.val) _ _ _ _ _ x).trans ?_
      rw [iv0, load16_val0 96 (by omega), load16_val1 96 (by omega)]
      rfl
    · show tile_run.sl.v276 m d L f0 f1 k x = _
      refine (chunk_val (Scf.iv 0#32 1#32 k.val) _ _ _ _ _ x).trans ?_
      rw [iv0, load16_val0 112 (by omega), load16_val1 112 (by omega)]
      rfl
  · unfold inv1
    isplitl [Hb0']; · iexact Hb0'
    isplitl [Hb1']; · iexact Hb1'
    iexists _; isplitl [Hb3']; · iexact Hb3'
    ipureintro; intro i _ h; exact absurd h (Nat.not_lt_zero _)
  iintro %_ HI
  unfold inv1
  icases HI with ⟨Hb0, Hb1, %f3a, Hb3, %hok4⟩
  -- what the subcore copied in: its slices of the attributes and values, within the ranges
  have hfa : ∀ s : Fin 128, (View.write (Elt F) (b0).view f0 (tile_run.sl.dma0 m d L) Finset.univ) (ValueIdx.ix1 s) = m (aLoc d) (ValueIdx.ix1 (⟨base L + s.val, base_add_lt L s⟩ : Fin 4096)) := fa_val m d L f0
  have hfv : ∀ s : Fin 128, (View.write (Elt F) (b1).view f1 (tile_run.sl.dma0_1 m d L) Finset.univ) (ValueIdx.ix1 s) = m (vLoc d) (ValueIdx.ix1 (⟨base L + s.val, base_add_lt L s⟩ : Fin 4096)) := fv_val m d L f1
  have hA : ∀ s, ((View.write (Elt F) (b0).view f0 (tile_run.sl.dma0 m d L) Finset.univ) s).toNat ≤ 1999 := fa_le m d L hpre f0
  have hV : ∀ s, ((View.write (Elt F) (b1).view f1 (tile_run.sl.dma0_1 m d L) Finset.univ) s).toNat ≤ 49 := fv_le m d L hpre f1
  have hok4' : planesOK (View.write (Elt F) (b0).view f0 (tile_run.sl.dma0 m d L) Finset.univ) (View.write (Elt F) (b1).view f1 (tile_run.sl.dma0_1 m d L) Finset.univ) 0 4 f3a := hok4
  -- the table's share in seven parts, the ring in its six slots, the first four index rows apart
  ihave Ht' := (Entails.of_eq (show (_ : sProp 𝕄) = ((tS).view.loc (V d (cV L) (jV L)) ↦{q} (tbl m d)) from rfl)) $$ Ht
  ihave Hts := (pointsTo_split_subset (ℓ := (tS).view.loc (V d (cV L) (jV L))) (q := q) (f := (tbl m d)) (S := Finset.univ) (Finset.subset_univ (tS).view.set)).1 $$ Ht'
  icases Hts with ⟨Hts, Htr⟩
  ihave Hx := (pointsTo_share (ℓ := (tS).view.loc (V d (cV L) (jV L))) (I := (tS).view.set) (f := (tbl m d)) (PosShare.mem_left_op_right (q))).1 $$ Hts
  icases Hx with ⟨Ht0, Hts⟩
  ihave Hx := (pointsTo_share (ℓ := (tS).view.loc (V d (cV L) (jV L))) (I := (tS).view.set) (f := (tbl m d)) (PosShare.mem_left_op_right (q.right))).1 $$ Hts
  icases Hx with ⟨Ht1, Hts⟩
  ihave Hx := (pointsTo_share (ℓ := (tS).view.loc (V d (cV L) (jV L))) (I := (tS).view.set) (f := (tbl m d)) (PosShare.mem_left_op_right (q.right.right))).1 $$ Hts
  icases Hx with ⟨Ht2, Hts⟩
  ihave Hx := (pointsTo_share (ℓ := (tS).view.loc (V d (cV L) (jV L))) (I := (tS).view.set) (f := (tbl m d)) (PosShare.mem_left_op_right (q.right.right.right))).1 $$ Hts
  icases Hx with ⟨Ht3, Hts⟩
  ihave Hx := (pointsTo_share (ℓ := (tS).view.loc (V d (cV L) (jV L))) (I := (tS).view.set) (f := (tbl m d)) (PosShare.mem_left_op_right (q.right.right.right.right))).1 $$ Hts
  icases Hx with ⟨Ht4, Hts⟩
  ihave Hx := (pointsTo_share (ℓ := (tS).view.loc (V d (cV L) (jV L))) (I := (tS).view.set) (f := (tbl m d)) (PosShare.mem_left_op_right (q.right.right.right.right.right))).1 $$ Hts
  icases Hx with ⟨Ht5, Ht6⟩
  ihave Hx := (Entails.of_eq (ring_split d L f5)) $$ Hb5'
  icases Hx with ⟨Hs0, Hs1, Hs2, Hs3, Hs4, Hs5⟩
  ihave Hx := (Entails.of_eq (rows_top4 d L f3a)) $$ Hb3
  icases Hx with ⟨Hw0, Hw1, Hw2, Hw3, Hb3⟩
  ihave HS4 := ((Entails.of_eq (Ready_def d L (tbl m d) (slotK q 4) f5).symm).trans (Idle_intro d L (tbl m d) (slotK q 4) f5)) $$ [Hg4 Hd4 Hs4 Ht4]
  · isplitl [Hg4]; · iexact Hg4
    isplitl [Hd4]; · iexact Hd4
    isplitl [Hs4]; · iexact Hs4
    iexact Ht4
  ihave HS5 := ((Entails.of_eq (Ready_def d L (tbl m d) (slotK q 5) f5).symm).trans (Idle_intro d L (tbl m d) (slotK q 5) f5)) $$ [Hg5 Hd5 Hs5 Ht5]
  · isplitl [Hg5]; · iexact Hg5
    isplitl [Hd5]; · iexact Hd5
    isplitl [Hs5]; · iexact Hs5
    iexact Ht5
  -- the first four gathers
  sl_exec
  iapply (gissue m d L (slotK q 0) ⟨0, by omega⟩ _ _ rfl f3a (View.write (Elt F) (b0).view f0 (tile_run.sl.dma0 m d L) Finset.univ) (View.write (Elt F) (b1).view f1 (tile_run.sl.dma0_1 m d L) Finset.univ) hfa hfv hA hV 0 4 (Nat.zero_le _) (by show 0 < 4; omega) hok4' f5 _ _ _ _ _ _ _) $$ [Hg0 Hd0 Hs0 Ht0 Hw0]
  · isplitr [Hw0]
    · rw [Ready_def]
      isplitl [Hg0]; · iexact Hg0
      isplitl [Hd0]; · iexact Hd0
      isplitl [Hs0]; · iexact Hs0
      iexact Ht0
    · iexact Hw0
  iintro HS0
  sl_exec
  iapply (gissue m d L (slotK q 1) ⟨1, by omega⟩ _ _ rfl f3a (View.write (Elt F) (b0).view f0 (tile_run.sl.dma0 m d L) Finset.univ) (View.write (Elt F) (b1).view f1 (tile_run.sl.dma0_1 m d L) Finset.univ) hfa hfv hA hV 0 4 (Nat.zero_le _) (by show 1 < 4; omega) hok4' f5 _ _ _ _ _ _ _) $$ [Hg1 Hd1 Hs1 Ht1 Hw1]
  · isplitr [Hw1]
    · rw [Ready_def]
      isplitl [Hg1]; · iexact Hg1
      isplitl [Hd1]; · iexact Hd1
      isplitl [Hs1]; · iexact Hs1
      iexact Ht1
    · iexact Hw1
  iintro HS1
  sl_exec
  iapply (gissue m d L (slotK q 2) ⟨2, by omega⟩ _ _ rfl f3a (View.write (Elt F) (b0).view f0 (tile_run.sl.dma0 m d L) Finset.univ) (View.write (Elt F) (b1).view f1 (tile_run.sl.dma0_1 m d L) Finset.univ) hfa hfv hA hV 0 4 (Nat.zero_le _) (by show 2 < 4; omega) hok4' f5 _ _ _ _ _ _ _) $$ [Hg2 Hd2 Hs2 Ht2 Hw2]
  · isplitr [Hw2]
    · rw [Ready_def]
      isplitl [Hg2]; · iexact Hg2
      isplitl [Hd2]; · iexact Hd2
      isplitl [Hs2]; · iexact Hs2
      iexact Ht2
    · iexact Hw2
  iintro HS2
  sl_exec
  iapply (gissue m d L (slotK q 3) ⟨3, by omega⟩ _ _ rfl f3a (View.write (Elt F) (b0).view f0 (tile_run.sl.dma0 m d L) Finset.univ) (View.write (Elt F) (b1).view f1 (tile_run.sl.dma0_1 m d L) Finset.univ) hfa hfv hA hV 0 4 (Nat.zero_le _) (by show 3 < 4; omega) hok4' f5 _ _ _ _ _ _ _) $$ [Hg3 Hd3 Hs3 Ht3 Hw3]
  · isplitr [Hw3]
    · rw [Ready_def]
      isplitl [Hg3]; · iexact Hg3
      isplitl [Hd3]; · iexact Hd3
      isplitl [Hs3]; · iexact Hs3
      iexact Ht3
    · iexact Hw3
  iintro HS3
  sl_exec
  -- the positive index row, then its gather
  have hp2 : ∀ s : S128.Idx, ((b2).view.writes (Elt F) (b2).view.junk (tile_run.sl.Hb2'_8 m d L f0 f1)) s = pidxW ((View.write (Elt F) (b0).view f0 (tile_run.sl.dma0 m d L) Finset.univ) s) ((View.write (Elt F) (b1).view f1 (tile_run.sl.dma0_1 m d L) Finset.univ) s) := by
    intro s
    refine pidx_row (View.write (Elt F) (b0).view f0 (tile_run.sl.dma0 m d L) Finset.univ) (View.write (Elt F) (b1).view f1 (tile_run.sl.dma0_1 m d L) Finset.univ) ![![0], ![16], ![32], ![48], ![64], ![80], ![96], ![112]] (by intro c; fin_cases c <;> rfl)
      (by intro c a; fin_cases c <;> fin_cases a <;> decide) ![tile_run.sl.v33 m d L f0 f1, tile_run.sl.v43 m d L f0 f1, tile_run.sl.v53 m d L f0 f1, tile_run.sl.v63 m d L f0 f1, tile_run.sl.v73 m d L f0 f1, tile_run.sl.v83 m d L f0 f1, tile_run.sl.v93 m d L f0 f1, tile_run.sl.v103 m d L f0 f1] ?_ _ s
    intro c y
    fin_cases c
    · show tile_run.sl.v33 m d L f0 f1 y = _
      refine (pchunk_val _ _ _ _ _ y).trans ?_
      rw [load16_val0 0 (by omega), load16_val1 0 (by omega)]
      rfl
    · show tile_run.sl.v43 m d L f0 f1 y = _
      refine (pchunk_val _ _ _ _ _ y).trans ?_
      rw [load16_val0 16 (by omega), load16_val1 16 (by omega)]
      rfl
    · show tile_run.sl.v53 m d L f0 f1 y = _
      refine (pchunk_val _ _ _ _ _ y).trans ?_
      rw [load16_val0 32 (by omega), load16_val1 32 (by omega)]
      rfl
    · show tile_run.sl.v63 m d L f0 f1 y = _
      refine (pchunk_val _ _ _ _ _ y).trans ?_
      rw [load16_val0 48 (by omega), load16_val1 48 (by omega)]
      rfl
    · show tile_run.sl.v73 m d L f0 f1 y = _
      refine (pchunk_val _ _ _ _ _ y).trans ?_
      rw [load16_val0 64 (by omega), load16_val1 64 (by omega)]
      rfl
    · show tile_run.sl.v83 m d L f0 f1 y = _
      refine (pchunk_val _ _ _ _ _ y).trans ?_
      rw [load16_val0 80 (by omega), load16_val1 80 (by omega)]
      rfl
    · show tile_run.sl.v93 m d L f0 f1 y = _
      refine (pchunk_val _ _ _ _ _ y).trans ?_
      rw [load16_val0 96 (by omega), load16_val1 96 (by omega)]
      rfl
    · show tile_run.sl.v103 m d L f0 f1 y = _
      refine (pchunk_val _ _ _ _ _ y).trans ?_
      rw [load16_val0 112 (by omega), load16_val1 112 (by omega)]
      rfl
  have hinp : ∀ x, ((b2).view.read (Elt F) ((b2).view.writes (Elt F) (b2).view.junk (tile_run.sl.Hb2'_8 m d L f0 f1)) x).toNat < S100000x128.size gathers_S100000x128_S128x128.axis := by
    intro x
    have h := pidxW_lt ((View.write (Elt F) (b0).view f0 (tile_run.sl.dma0 m d L) Finset.univ) x) ((View.write (Elt F) (b1).view f1 (tile_run.sl.dma0_1 m d L) Finset.univ) x) (hA x) (hV x)
    rw [← hp2 x] at h
    exact h
  sl_exec
  -- planes 4 .. 48, written around the four rows on loan
  sl_for (inv2 (F := F) d L (View.write (Elt F) (b0).view f0 (tile_run.sl.dma0 m d L) Finset.univ) (View.write (Elt F) (b1).view f1 (tile_run.sl.dma0_1 m d L) Finset.univ)) $$ [Hb0 Hb1 Hb3]
  case region =>
    intro k _
    unfold inv2
    iintro ⟨Hb0, Hb1, %f3', Hb3, %hok⟩
    have hdl_10_0 : Disjoint ((b3).view.setOn (Rect.unit (s := S49x128) (k0_off10 k) S1x16.size (k0_off10_inb k)).set) ((((b3).slice (Rect.unit (s := S49x128) ![0, 0] S1x128.size inb_S49x128_S1x128_0_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_10_0 : Disjoint ((b3).access (Rect.unit (s := S49x128) (k0_off10 k) S1x16.size (k0_off10_inb k))).set ((((b3).slice (Rect.unit (s := S49x128) ![0, 0] S1x128.size inb_S49x128_S1x128_0_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_10_1 : Disjoint ((b3).view.setOn (Rect.unit (s := S49x128) (k0_off10 k) S1x16.size (k0_off10_inb k)).set) ((((b3).slice (Rect.unit (s := S49x128) ![1, 0] S1x128.size inb_S49x128_S1x128_1_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_10_1 : Disjoint ((b3).access (Rect.unit (s := S49x128) (k0_off10 k) S1x16.size (k0_off10_inb k))).set ((((b3).slice (Rect.unit (s := S49x128) ![1, 0] S1x128.size inb_S49x128_S1x128_1_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_10_2 : Disjoint ((b3).view.setOn (Rect.unit (s := S49x128) (k0_off10 k) S1x16.size (k0_off10_inb k)).set) ((((b3).slice (Rect.unit (s := S49x128) ![2, 0] S1x128.size inb_S49x128_S1x128_2_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_10_2 : Disjoint ((b3).access (Rect.unit (s := S49x128) (k0_off10 k) S1x16.size (k0_off10_inb k))).set ((((b3).slice (Rect.unit (s := S49x128) ![2, 0] S1x128.size inb_S49x128_S1x128_2_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_10_3 : Disjoint ((b3).view.setOn (Rect.unit (s := S49x128) (k0_off10 k) S1x16.size (k0_off10_inb k)).set) ((((b3).slice (Rect.unit (s := S49x128) ![3, 0] S1x128.size inb_S49x128_S1x128_3_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_10_3 : Disjoint ((b3).access (Rect.unit (s := S49x128) (k0_off10 k) S1x16.size (k0_off10_inb k))).set ((((b3).slice (Rect.unit (s := S49x128) ![3, 0] S1x128.size inb_S49x128_S1x128_3_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_11_0 : Disjoint ((b3).view.setOn (Rect.unit (s := S49x128) (k0_off11 k) S1x16.size (k0_off11_inb k)).set) ((((b3).slice (Rect.unit (s := S49x128) ![0, 0] S1x128.size inb_S49x128_S1x128_0_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_11_0 : Disjoint ((b3).access (Rect.unit (s := S49x128) (k0_off11 k) S1x16.size (k0_off11_inb k))).set ((((b3).slice (Rect.unit (s := S49x128) ![0, 0] S1x128.size inb_S49x128_S1x128_0_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_11_1 : Disjoint ((b3).view.setOn (Rect.unit (s := S49x128) (k0_off11 k) S1x16.size (k0_off11_inb k)).set) ((((b3).slice (Rect.unit (s := S49x128) ![1, 0] S1x128.size inb_S49x128_S1x128_1_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_11_1 : Disjoint ((b3).access (Rect.unit (s := S49x128) (k0_off11 k) S1x16.size (k0_off11_inb k))).set ((((b3).slice (Rect.unit (s := S49x128) ![1, 0] S1x128.size inb_S49x128_S1x128_1_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_11_2 : Disjoint ((b3).view.setOn (Rect.unit (s := S49x128) (k0_off11 k) S1x16.size (k0_off11_inb k)).set) ((((b3).slice (Rect.unit (s := S49x128) ![2, 0] S1x128.size inb_S49x128_S1x128_2_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_11_2 : Disjoint ((b3).access (Rect.unit (s := S49x128) (k0_off11 k) S1x16.size (k0_off11_inb k))).set ((((b3).slice (Rect.unit (s := S49x128) ![2, 0] S1x128.size inb_S49x128_S1x128_2_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_11_3 : Disjoint ((b3).view.setOn (Rect.unit (s := S49x128) (k0_off11 k) S1x16.size (k0_off11_inb k)).set) ((((b3).slice (Rect.unit (s := S49x128) ![3, 0] S1x128.size inb_S49x128_S1x128_3_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_11_3 : Disjoint ((b3).access (Rect.unit (s := S49x128) (k0_off11 k) S1x16.size (k0_off11_inb k))).set ((((b3).slice (Rect.unit (s := S49x128) ![3, 0] S1x128.size inb_S49x128_S1x128_3_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_12_0 : Disjoint ((b3).view.setOn (Rect.unit (s := S49x128) (k0_off12 k) S1x16.size (k0_off12_inb k)).set) ((((b3).slice (Rect.unit (s := S49x128) ![0, 0] S1x128.size inb_S49x128_S1x128_0_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_12_0 : Disjoint ((b3).access (Rect.unit (s := S49x128) (k0_off12 k) S1x16.size (k0_off12_inb k))).set ((((b3).slice (Rect.unit (s := S49x128) ![0, 0] S1x128.size inb_S49x128_S1x128_0_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_12_1 : Disjoint ((b3).view.setOn (Rect.unit (s := S49x128) (k0_off12 k) S1x16.size (k0_off12_inb k)).set) ((((b3).slice (Rect.unit (s := S49x128) ![1, 0] S1x128.size inb_S49x128_S1x128_1_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_12_1 : Disjoint ((b3).access (Rect.unit (s := S49x128) (k0_off12 k) S1x16.size (k0_off12_inb k))).set ((((b3).slice (Rect.unit (s := S49x128) ![1, 0] S1x128.size inb_S49x128_S1x128_1_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_12_2 : Disjoint ((b3).view.setOn (Rect.unit (s := S49x128) (k0_off12 k) S1x16.size (k0_off12_inb k)).set) ((((b3).slice (Rect.unit (s := S49x128) ![2, 0] S1x128.size inb_S49x128_S1x128_2_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_12_2 : Disjoint ((b3).access (Rect.unit (s := S49x128) (k0_off12 k) S1x16.size (k0_off12_inb k))).set ((((b3).slice (Rect.unit (s := S49x128) ![2, 0] S1x128.size inb_S49x128_S1x128_2_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_12_3 : Disjoint ((b3).view.setOn (Rect.unit (s := S49x128) (k0_off12 k) S1x16.size (k0_off12_inb k)).set) ((((b3).slice (Rect.unit (s := S49x128) ![3, 0] S1x128.size inb_S49x128_S1x128_3_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_12_3 : Disjoint ((b3).access (Rect.unit (s := S49x128) (k0_off12 k) S1x16.size (k0_off12_inb k))).set ((((b3).slice (Rect.unit (s := S49x128) ![3, 0] S1x128.size inb_S49x128_S1x128_3_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_13_0 : Disjoint ((b3).view.setOn (Rect.unit (s := S49x128) (k0_off13 k) S1x16.size (k0_off13_inb k)).set) ((((b3).slice (Rect.unit (s := S49x128) ![0, 0] S1x128.size inb_S49x128_S1x128_0_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_13_0 : Disjoint ((b3).access (Rect.unit (s := S49x128) (k0_off13 k) S1x16.size (k0_off13_inb k))).set ((((b3).slice (Rect.unit (s := S49x128) ![0, 0] S1x128.size inb_S49x128_S1x128_0_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_13_1 : Disjoint ((b3).view.setOn (Rect.unit (s := S49x128) (k0_off13 k) S1x16.size (k0_off13_inb k)).set) ((((b3).slice (Rect.unit (s := S49x128) ![1, 0] S1x128.size inb_S49x128_S1x128_1_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_13_1 : Disjoint ((b3).access (Rect.unit (s := S49x128) (k0_off13 k) S1x16.size (k0_off13_inb k))).set ((((b3).slice (Rect.unit (s := S49x128) ![1, 0] S1x128.size inb_S49x128_S1x128_1_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_13_2 : Disjoint ((b3).view.setOn (Rect.unit (s := S49x128) (k0_off13 k) S1x16.size (k0_off13_inb k)).set) ((((b3).slice (Rect.unit (s := S49x128) ![2, 0] S1x128.size inb_S49x128_S1x128_2_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_13_2 : Disjoint ((b3).access (Rect.unit (s := S49x128) (k0_off13 k) S1x16.size (k0_off13_inb k))).set ((((b3).slice (Rect.unit (s := S49x128) ![2, 0] S1x128.size inb_S49x128_S1x128_2_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_13_3 : Disjoint ((b3).view.setOn (Rect.unit (s := S49x128) (k0_off13 k) S1x16.size (k0_off13_inb k)).set) ((((b3).slice (Rect.unit (s := S49x128) ![3, 0] S1x128.size inb_S49x128_S1x128_3_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_13_3 : Disjoint ((b3).access (Rect.unit (s := S49x128) (k0_off13 k) S1x16.size (k0_off13_inb k))).set ((((b3).slice (Rect.unit (s := S49x128) ![3, 0] S1x128.size inb_S49x128_S1x128_3_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_14_0 : Disjoint ((b3).view.setOn (Rect.unit (s := S49x128) (k0_off14 k) S1x16.size (k0_off14_inb k)).set) ((((b3).slice (Rect.unit (s := S49x128) ![0, 0] S1x128.size inb_S49x128_S1x128_0_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_14_0 : Disjoint ((b3).access (Rect.unit (s := S49x128) (k0_off14 k) S1x16.size (k0_off14_inb k))).set ((((b3).slice (Rect.unit (s := S49x128) ![0, 0] S1x128.size inb_S49x128_S1x128_0_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_14_1 : Disjoint ((b3).view.setOn (Rect.unit (s := S49x128) (k0_off14 k) S1x16.size (k0_off14_inb k)).set) ((((b3).slice (Rect.unit (s := S49x128) ![1, 0] S1x128.size inb_S49x128_S1x128_1_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_14_1 : Disjoint ((b3).access (Rect.unit (s := S49x128) (k0_off14 k) S1x16.size (k0_off14_inb k))).set ((((b3).slice (Rect.unit (s := S49x128) ![1, 0] S1x128.size inb_S49x128_S1x128_1_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_14_2 : Disjoint ((b3).view.setOn (Rect.unit (s := S49x128) (k0_off14 k) S1x16.size (k0_off14_inb k)).set) ((((b3).slice (Rect.unit (s := S49x128) ![2, 0] S1x128.size inb_S49x128_S1x128_2_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_14_2 : Disjoint ((b3).access (Rect.unit (s := S49x128) (k0_off14 k) S1x16.size (k0_off14_inb k))).set ((((b3).slice (Rect.unit (s := S49x128) ![2, 0] S1x128.size inb_S49x128_S1x128_2_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_14_3 : Disjoint ((b3).view.setOn (Rect.unit (s := S49x128) (k0_off14 k) S1x16.size (k0_off14_inb k)).set) ((((b3).slice (Rect.unit (s := S49x128) ![3, 0] S1x128.size inb_S49x128_S1x128_3_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_14_3 : Disjoint ((b3).access (Rect.unit (s := S49x128) (k0_off14 k) S1x16.size (k0_off14_inb k))).set ((((b3).slice (Rect.unit (s := S49x128) ![3, 0] S1x128.size inb_S49x128_S1x128_3_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_15_0 : Disjoint ((b3).view.setOn (Rect.unit (s := S49x128) (k0_off15 k) S1x16.size (k0_off15_inb k)).set) ((((b3).slice (Rect.unit (s := S49x128) ![0, 0] S1x128.size inb_S49x128_S1x128_0_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_15_0 : Disjoint ((b3).access (Rect.unit (s := S49x128) (k0_off15 k) S1x16.size (k0_off15_inb k))).set ((((b3).slice (Rect.unit (s := S49x128) ![0, 0] S1x128.size inb_S49x128_S1x128_0_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_15_1 : Disjoint ((b3).view.setOn (Rect.unit (s := S49x128) (k0_off15 k) S1x16.size (k0_off15_inb k)).set) ((((b3).slice (Rect.unit (s := S49x128) ![1, 0] S1x128.size inb_S49x128_S1x128_1_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_15_1 : Disjoint ((b3).access (Rect.unit (s := S49x128) (k0_off15 k) S1x16.size (k0_off15_inb k))).set ((((b3).slice (Rect.unit (s := S49x128) ![1, 0] S1x128.size inb_S49x128_S1x128_1_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_15_2 : Disjoint ((b3).view.setOn (Rect.unit (s := S49x128) (k0_off15 k) S1x16.size (k0_off15_inb k)).set) ((((b3).slice (Rect.unit (s := S49x128) ![2, 0] S1x128.size inb_S49x128_S1x128_2_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_15_2 : Disjoint ((b3).access (Rect.unit (s := S49x128) (k0_off15 k) S1x16.size (k0_off15_inb k))).set ((((b3).slice (Rect.unit (s := S49x128) ![2, 0] S1x128.size inb_S49x128_S1x128_2_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_15_3 : Disjoint ((b3).view.setOn (Rect.unit (s := S49x128) (k0_off15 k) S1x16.size (k0_off15_inb k)).set) ((((b3).slice (Rect.unit (s := S49x128) ![3, 0] S1x128.size inb_S49x128_S1x128_3_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_15_3 : Disjoint ((b3).access (Rect.unit (s := S49x128) (k0_off15 k) S1x16.size (k0_off15_inb k))).set ((((b3).slice (Rect.unit (s := S49x128) ![3, 0] S1x128.size inb_S49x128_S1x128_3_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_16_0 : Disjoint ((b3).view.setOn (Rect.unit (s := S49x128) (k0_off16 k) S1x16.size (k0_off16_inb k)).set) ((((b3).slice (Rect.unit (s := S49x128) ![0, 0] S1x128.size inb_S49x128_S1x128_0_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_16_0 : Disjoint ((b3).access (Rect.unit (s := S49x128) (k0_off16 k) S1x16.size (k0_off16_inb k))).set ((((b3).slice (Rect.unit (s := S49x128) ![0, 0] S1x128.size inb_S49x128_S1x128_0_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_16_1 : Disjoint ((b3).view.setOn (Rect.unit (s := S49x128) (k0_off16 k) S1x16.size (k0_off16_inb k)).set) ((((b3).slice (Rect.unit (s := S49x128) ![1, 0] S1x128.size inb_S49x128_S1x128_1_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_16_1 : Disjoint ((b3).access (Rect.unit (s := S49x128) (k0_off16 k) S1x16.size (k0_off16_inb k))).set ((((b3).slice (Rect.unit (s := S49x128) ![1, 0] S1x128.size inb_S49x128_S1x128_1_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_16_2 : Disjoint ((b3).view.setOn (Rect.unit (s := S49x128) (k0_off16 k) S1x16.size (k0_off16_inb k)).set) ((((b3).slice (Rect.unit (s := S49x128) ![2, 0] S1x128.size inb_S49x128_S1x128_2_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_16_2 : Disjoint ((b3).access (Rect.unit (s := S49x128) (k0_off16 k) S1x16.size (k0_off16_inb k))).set ((((b3).slice (Rect.unit (s := S49x128) ![2, 0] S1x128.size inb_S49x128_S1x128_2_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_16_3 : Disjoint ((b3).view.setOn (Rect.unit (s := S49x128) (k0_off16 k) S1x16.size (k0_off16_inb k)).set) ((((b3).slice (Rect.unit (s := S49x128) ![3, 0] S1x128.size inb_S49x128_S1x128_3_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_16_3 : Disjoint ((b3).access (Rect.unit (s := S49x128) (k0_off16 k) S1x16.size (k0_off16_inb k))).set ((((b3).slice (Rect.unit (s := S49x128) ![3, 0] S1x128.size inb_S49x128_S1x128_3_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_17_0 : Disjoint ((b3).view.setOn (Rect.unit (s := S49x128) (k0_off17 k) S1x16.size (k0_off17_inb k)).set) ((((b3).slice (Rect.unit (s := S49x128) ![0, 0] S1x128.size inb_S49x128_S1x128_0_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_17_0 : Disjoint ((b3).access (Rect.unit (s := S49x128) (k0_off17 k) S1x16.size (k0_off17_inb k))).set ((((b3).slice (Rect.unit (s := S49x128) ![0, 0] S1x128.size inb_S49x128_S1x128_0_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_17_1 : Disjoint ((b3).view.setOn (Rect.unit (s := S49x128) (k0_off17 k) S1x16.size (k0_off17_inb k)).set) ((((b3).slice (Rect.unit (s := S49x128) ![1, 0] S1x128.size inb_S49x128_S1x128_1_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_17_1 : Disjoint ((b3).access (Rect.unit (s := S49x128) (k0_off17 k) S1x16.size (k0_off17_inb k))).set ((((b3).slice (Rect.unit (s := S49x128) ![1, 0] S1x128.size inb_S49x128_S1x128_1_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_17_2 : Disjoint ((b3).view.setOn (Rect.unit (s := S49x128) (k0_off17 k) S1x16.size (k0_off17_inb k)).set) ((((b3).slice (Rect.unit (s := S49x128) ![2, 0] S1x128.size inb_S49x128_S1x128_2_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_17_2 : Disjoint ((b3).access (Rect.unit (s := S49x128) (k0_off17 k) S1x16.size (k0_off17_inb k))).set ((((b3).slice (Rect.unit (s := S49x128) ![2, 0] S1x128.size inb_S49x128_S1x128_2_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_17_3 : Disjoint ((b3).view.setOn (Rect.unit (s := S49x128) (k0_off17 k) S1x16.size (k0_off17_inb k)).set) ((((b3).slice (Rect.unit (s := S49x128) ![3, 0] S1x128.size inb_S49x128_S1x128_3_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_17_3 : Disjoint ((b3).access (Rect.unit (s := S49x128) (k0_off17 k) S1x16.size (k0_off17_inb k))).set ((((b3).slice (Rect.unit (s := S49x128) ![3, 0] S1x128.size inb_S49x128_S1x128_3_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    sl_exec
    sl_step
    isplitl [Hb0]; · iexact Hb0
    isplitl [Hb1]; · iexact Hb1
    iexists _; isplitl [Hb3]; · iexact Hb3
    ipureintro
    have hk : k.val + 4 < 49 := by have := lt_of_lt_of_le k.isLt k0_t2_abs.2.1; omega
    have hok' : planesOK (View.write (Elt F) (b0).view f0 (tile_run.sl.dma0 m d L) Finset.univ) (View.write (Elt F) (b1).view f1 (tile_run.sl.dma0_1 m d L) Finset.univ) 4 (k.val + 4) f3' := by rw [Nat.add_comm]; exact hok
    refine (show planesOK (View.write (Elt F) (b0).view f0 (tile_run.sl.dma0 m d L) Finset.univ) (View.write (Elt F) (b1).view f1 (tile_run.sl.dma0_1 m d L) Finset.univ) 4 (k.val + 4 + 1) _ → planesOK (View.write (Elt F) (b0).view f0 (tile_run.sl.dma0 m d L) Finset.univ) (View.write (Elt F) (b1).view f1 (tile_run.sl.dma0_1 m d L) Finset.univ) 4 (4 + (k.val + 1)) _ from fun h => by rw [show 4 + (k.val + 1) = k.val + 4 + 1 by omega]; exact h) ?_
    refine planes_step8 (View.write (Elt F) (b0).view f0 (tile_run.sl.dma0 m d L) Finset.univ) (View.write (Elt F) (b1).view f1 (tile_run.sl.dma0_1 m d L) Finset.univ) 4 (k.val + 4) hk f3' hok' _ _ _ _ _ _ _ _
      (k0_off10_eq k) (k0_off11_eq k) (k0_off12_eq k) (k0_off13_eq k) (k0_off14_eq k) (k0_off15_eq k) (k0_off16_eq k) (k0_off17_eq k)
      _ _ _ _ _ _ _ _ ![tile_run.sl.v157_1 m d L f0 f1 k, tile_run.sl.v174_1 m d L f0 f1 k, tile_run.sl.v191_1 m d L f0 f1 k, tile_run.sl.v208_1 m d L f0 f1 k, tile_run.sl.v225_1 m d L f0 f1 k, tile_run.sl.v242_1 m d L f0 f1 k, tile_run.sl.v259_1 m d L f0 f1 k, tile_run.sl.v276_1 m d L f0 f1 k] ?_
    intro c x
    fin_cases c
    · show tile_run.sl.v157_1 m d L f0 f1 k x = _
      refine (chunk_val (Scf.iv 4#32 1#32 k.val) _ _ _ _ _ x).trans ?_
      rw [iv4, load16_val0 0 (by omega), load16_val1 0 (by omega)]
      rfl
    · show tile_run.sl.v174_1 m d L f0 f1 k x = _
      refine (chunk_val (Scf.iv 4#32 1#32 k.val) _ _ _ _ _ x).trans ?_
      rw [iv4, load16_val0 16 (by omega), load16_val1 16 (by omega)]
      rfl
    · show tile_run.sl.v191_1 m d L f0 f1 k x = _
      refine (chunk_val (Scf.iv 4#32 1#32 k.val) _ _ _ _ _ x).trans ?_
      rw [iv4, load16_val0 32 (by omega), load16_val1 32 (by omega)]
      rfl
    · show tile_run.sl.v208_1 m d L f0 f1 k x = _
      refine (chunk_val (Scf.iv 4#32 1#32 k.val) _ _ _ _ _ x).trans ?_
      rw [iv4, load16_val0 48 (by omega), load16_val1 48 (by omega)]
      rfl
    · show tile_run.sl.v225_1 m d L f0 f1 k x = _
      refine (chunk_val (Scf.iv 4#32 1#32 k.val) _ _ _ _ _ x).trans ?_
      rw [iv4, load16_val0 64 (by omega), load16_val1 64 (by omega)]
      rfl
    · show tile_run.sl.v242_1 m d L f0 f1 k x = _
      refine (chunk_val (Scf.iv 4#32 1#32 k.val) _ _ _ _ _ x).trans ?_
      rw [iv4, load16_val0 80 (by omega), load16_val1 80 (by omega)]
      rfl
    · show tile_run.sl.v259_1 m d L f0 f1 k x = _
      refine (chunk_val (Scf.iv 4#32 1#32 k.val) _ _ _ _ _ x).trans ?_
      rw [iv4, load16_val0 96 (by omega), load16_val1 96 (by omega)]
      rfl
    · show tile_run.sl.v276_1 m d L f0 f1 k x = _
      refine (chunk_val (Scf.iv 4#32 1#32 k.val) _ _ _ _ _ x).trans ?_
      rw [iv4, load16_val0 112 (by omega), load16_val1 112 (by omega)]
      rfl
  · unfold inv2
    isplitl [Hb0]; · iexact Hb0
    isplitl [Hb1]; · iexact Hb1
    iexists _; isplitl [Hb3]; · iexact Hb3
    ipureintro; intro i h1 h2; omega
  iintro %_ HI
  unfold inv2
  icases HI with ⟨Hb0, Hb1, %f3b, Hb3, %hokb⟩
  -- one contents for the whole plane buffer: rows 0..3 as the first loop left them, the others as the second did
  have hokb' : planesOK (View.write (Elt F) (b0).view f0 (tile_run.sl.dma0 m d L) Finset.univ) (View.write (Elt F) (b1).view f1 (tile_run.sl.dma0_1 m d L) Finset.univ) 4 49 f3b := by
    have e : 4 + Scf.trips k0_t2_loop.lb k0_t2_loop.ub k0_t2_loop.st = 49 := by decide
    rw [← e]; exact hokb
  obtain ⟨f3c, hf3c⟩ : ∃ f : S49x128.Idx → Elt F .i32, ∀ i, f i = if (i 0).val < 4 then f3a i else f3b i := ⟨_, fun _ => rfl⟩
  have h3c : planesOK (View.write (Elt F) (b0).view f0 (tile_run.sl.dma0 m d L) Finset.univ) (View.write (Elt F) (b1).view f1 (tile_run.sl.dma0_1 m d L) Finset.univ) 0 49 f3c := by
    intro i _ hi
    rw [hf3c i]
    by_cases h : (i 0).val < 4
    · rw [if_pos h]; exact hok4' i (Nat.zero_le _) h
    · rw [if_neg h]; exact hokb' i (by omega) hi
  have hlt0 : (0 : ℕ) < 49 := by decide
  have hlt1 : (1 : ℕ) < 49 := by decide
  have hlt2 : (2 : ℕ) < 49 := by decide
  have hlt3 : (3 : ℕ) < 49 := by decide
  ihave HS0 := (Gath_f3 m d L (tbl m d) (slotK q 0) (⟨0, hlt0⟩ : Fin 49) f3a f3c (fun i hi => by rw [hf3c i, if_pos (by have : (i 0).val = 0 := hi; omega)])) $$ HS0
  ihave HS1 := (Gath_f3 m d L (tbl m d) (slotK q 1) (⟨1, hlt1⟩ : Fin 49) f3a f3c (fun i hi => by rw [hf3c i, if_pos (by have : (i 0).val = 1 := hi; omega)])) $$ HS1
  ihave HS2 := (Gath_f3 m d L (tbl m d) (slotK q 2) (⟨2, hlt2⟩ : Fin 49) f3a f3c (fun i hi => by rw [hf3c i, if_pos (by have : (i 0).val = 2 := hi; omega)])) $$ HS2
  ihave HS3 := (Gath_f3 m d L (tbl m d) (slotK q 3) (⟨3, hlt3⟩ : Fin 49) f3a f3c (fun i hi => by rw [hf3c i, if_pos (by have : (i 0).val = 3 := hi; omega)])) $$ HS3
  ihave Hb3 := (Entails.of_eq (rest4_congr d L f3b f3c (fun i hi => by rw [hf3c i, if_neg (by omega)]))) $$ Hb3
  ihave HrT := (Entails.of_eq (rows_rest4 d L f3c)) $$ Hb3
  ihave HnT := (Entails.of_eq ((show (bigSep Finset.univ fun j : Fin 49 => ((nRowK L j).view.loc (V d (cV L) (jV L)) ↦[(nRowK L j).view.set]{fullShare} m (nLoc d) : sProp 𝕄))
      = bigSep Finset.univ fun j : Fin 49 => nBlock d L j (m (nLoc d)) from rfl).trans (nTodo_zero m d L).symm)) $$ Hn
  -- the ring
  sl_exec
  sl_for (inv3 m d L q f3c O W) $$ [HO HnT HrT HS0 HS1 HS2 HS3 HS4 HS5]
  case region =>
    intro k _
    exact region3 m d L q f3c (View.write (Elt F) (b0).view f0 (tile_run.sl.dma0 m d L) Finset.univ) (View.write (Elt F) (b1).view f1 (tile_run.sl.dma0_1 m d L) Finset.univ) hfa hfv hA hV h3c O W _ (fun _ => 0#32) (fun _ => 0#32) k
  · unfold inv3
    isplitr; · iexact Hmw
    isplitl [HO]
    · unfold owesW; iexists _; isplitr
      swap; · iexact HO
      ipureintro; intro p hp
      rcases Finset.mem_insert.mp hp with hp | hp; · exact .inr (hp ▸ rfl)
      rcases Finset.mem_insert.mp hp with hp | hp; · exact .inr (hp ▸ rfl)
      exact .inl hp
    isplitr; · rw [show 6 * 0 = 0 from rfl, nDone_zero]; iempintro
    isplitl [HnT]; · iexact HnT
    isplitr; · rw [show 6 * 0 = 0 from rfl, rDone_zero]; iempintro
    isplitl [HrT]; · iexact HrT
    isplitl [HS0]; · iapply (Entails.of_eq (stG_pos (m := m) (d := d) (L := L) (q := q) (f3 := f3c) 0 0 0 (by omega) rfl).symm); iexact HS0
    isplitl [HS1]; · iapply (Entails.of_eq (stG_pos (m := m) (d := d) (L := L) (q := q) (f3 := f3c) 1 0 1 (by omega) rfl).symm); iexact HS1
    isplitl [HS2]; · iapply (Entails.of_eq (stG_pos (m := m) (d := d) (L := L) (q := q) (f3 := f3c) 2 0 2 (by omega) rfl).symm); iexact HS2
    isplitl [HS3]; · iapply (Entails.of_eq (stG_pos (m := m) (d := d) (L := L) (q := q) (f3 := f3c) 3 0 3 (by omega) rfl).symm); iexact HS3
    isplitl [HS4]; · iapply (Entails.of_eq (stD_zero (m := m) (d := d) (L := L) (q := q) 4).symm); iexact HS4
    iapply (Entails.of_eq (stD_zero (m := m) (d := d) (L := L) (q := q) 5).symm); iexact HS5
  iintro %_ HI
  unfold inv3
  icases HI with ⟨-, HOW, HnD, HnT, HrD, HrT, HS0, HS1, HS2, HS3, HS4, HS5⟩
  -- after the last trip: plane 48's gather in flight in slot 0, planes 46 and 47 on their way out of slots 4 and 5
  have e8 : Scf.trips k0_t3_loop.lb k0_t3_loop.ub k0_t3_loop.st = 8 := by decide
  ihave HS0 := (Entails.of_eq (stG_pos (m := m) (d := d) (L := L) (q := q) (f3 := f3c) 0 _ 48 (by omega) (by rw [e8]; try rfl))) $$ HS0
  ihave HI1 := (Entails.of_eq (stG_neg (m := m) (d := d) (L := L) (q := q) (f3 := f3c) 1 _ (by rw [e8]; try decide))) $$ HS1
  ihave HI2 := (Entails.of_eq (stG_neg (m := m) (d := d) (L := L) (q := q) (f3 := f3c) 2 _ (by rw [e8]; try decide))) $$ HS2
  ihave HI3 := (Entails.of_eq (stG_neg (m := m) (d := d) (L := L) (q := q) (f3 := f3c) 3 _ (by rw [e8]; try decide))) $$ HS3
  ihave HS4 := (Entails.of_eq (stD_pos (m := m) (d := d) (L := L) (q := q) 4 _ 46 (by omega) (by rw [e8]; try decide) (by rw [e8]; try rfl))) $$ HS4
  ihave HS5 := (Entails.of_eq (stD_pos (m := m) (d := d) (L := L) (q := q) 5 _ 47 (by omega) (by rw [e8]; try decide) (by rw [e8]; try rfl))) $$ HS5
  ihave HnD := (Entails.of_eq (congrArg (nDone m d L) (show 6 * Scf.trips k0_t3_loop.lb k0_t3_loop.ub k0_t3_loop.st = 48 by rw [e8]))) $$ HnD
  ihave HnT := (Entails.of_eq (congrArg (nTodo m d L) (show 6 * Scf.trips k0_t3_loop.lb k0_t3_loop.ub k0_t3_loop.st = 48 by rw [e8]))) $$ HnT
  ihave HrD := (Entails.of_eq (congrArg (rDone d L f3c) (show 6 * Scf.trips k0_t3_loop.lb k0_t3_loop.ub k0_t3_loop.st = 48 by rw [e8]))) $$ HrD
  sl_exec
  iapply (dwait m d L (slotK q 4) ⟨46, by omega⟩ O W _ _ (off28_n L 0 46 (by omega) rfl) _ _) $$ [HS4 HOW]
  · isplitl [HS4]; · iexact HS4
    isplitl [HOW]; · iexact HOW
    iexact Hmw
  iintro ⟨HI4, Hdone, HOW⟩
  ihave HnD := (Entails.of_eq (nDone_put m d L 48 (by omega) (by omega)).symm) $$ [Hdone HnD]
  · isplitl [Hdone] <;> iassumption
  sl_exec
  iapply (dwait m d L (slotK q 5) ⟨47, by omega⟩ O W _ _ (off28_n L 1 47 (by omega) rfl) _ _) $$ [HS5 HOW]
  · isplitl [HS5]; · iexact HS5
    isplitl [HOW]; · iexact HOW
    iexact Hmw
  iintro ⟨HI5, Hdone, HOW⟩
  ihave HnD := (Entails.of_eq (nDone_put m d L 49 (by omega) (by omega)).symm) $$ [Hdone HnD]
  · isplitl [Hdone] <;> iassumption
  sl_exec
  iapply (gwait m d L (slotK q 0) ⟨48, by omega⟩ f3c O W _ _ _) $$ [HS0 HOW]
  · isplitl [HS0]; · iexact HS0
    isplitl [HOW]; · iexact HOW
    iexact Hmw
  iintro ⟨⟨%fe0, %hfe0, HR0⟩, Hrow, HOW⟩
  ihave HrD := (Entails.of_eq (rDone_put d L f3c 48 (by omega)).symm) $$ [Hrow HrD]
  · isplitl [Hrow] <;> iassumption
  sl_exec
  ihave Hx := (Entails.of_eq (nTodo_take m d L 48 (by omega))) $$ HnT
  icases Hx with ⟨Hblk, HnT⟩
  iapply (dissue m d L (slotK q 0) ⟨48, by omega⟩ _ _ (off28_n L 2 48 (by omega) rfl) fe0 hfe0 _ _ _) $$ [HR0 Hblk]
  · isplitl [HR0] <;> iassumption
  iintro HS0
  -- the positives: their gather's wait, then the blocking copy out
  ihave Hx := (Entails.of_eq (show owesW d L O W = (iprop(∃ W', ⌜∀ p ∈ W', p ∈ W ∨ p.2 = none⌝ ∗ owes (V d (cV L) (jV L)) O W') : sProp 𝕄) from rfl)) $$ HOW
  icases Hx with ⟨%W1, %hW1, HO⟩
  sl_exec
  ihave HOW := (show owes (V d (cV L) (jV L)) O _ ⊢ owesW d L O W from by
      unfold owesW; iintro H; iexists _; isplitr
      swap; · iexact H
      ipureintro; intro p hp
      rcases Finset.mem_insert.mp hp with hp | hp; · exact .inr (hp ▸ rfl)
      rcases Finset.mem_insert.mp hp with hp | hp; · exact .inr (hp ▸ rfl)
      exact hW1 p hp) $$ HO
  iapply (dwait m d L (slotK q 0) ⟨48, by omega⟩ O W _ _ (off28_n L 2 48 (by omega) rfl) _ _) $$ [HS0 HOW]
  · isplitl [HS0]; · iexact HS0
    isplitl [HOW]; · iexact HOW
    iexact Hmw
  iintro ⟨HI0, Hdone, HOW⟩
  ihave HnD := (Entails.of_eq (nDone_put m d L 50 (by omega) (by omega)).symm) $$ [Hdone HnD]
  · isplitl [Hdone] <;> iassumption
  sl_exec
  sl_step
  -- the positives' rows hold the looked-up rows
  have hpos : ∀ i ∈ (pRowK L).view.set, ((pRowK L).view.writes (Elt F) (m (pLoc d)) [⟨Rect.whole S128x128, tile_run.sl.dma0_2 m d L f0 f1 f4 hinp⟩]) i = posOf m d i := by
    intro i hi
    obtain ⟨x, -, rfl⟩ := Finset.mem_map.mp hi
    have e1 := View.read_writes_cons_emb (v := (pRowK L).view) (Val := Elt F) (f := m (pLoc d)) (Rect.whole S128x128) (tile_run.sl.dma0_2 m d L f0 f1 f4 hinp) [] x
    rw [Rect.emb_whole_apply] at e1
    refine (((View.read_apply _ _).trans (cast_eq _ _)).symm.trans e1).trans ?_
    have e2 := View.read_writes_cons_emb (v := (b4).view) (Val := Elt F) (f := f4) (Rect.whole _) (tile_run.sl.gather0 m d L f0 f1 hinp) [] x
    rw [Rect.emb_whole_apply] at e2
    refine (show tile_run.sl.dma0_2 m d L f0 f1 f4 hinp x = tile_run.sl.gather0 m d L f0 f1 hinp x from e2).trans ?_
    show SparseCore.gatherPayload _ ((tS).view.read (Elt F) (tbl m d)) (SparseCore.rows ((b2).view.read (Elt F) ((b2).view.writes (Elt F) (b2).view.junk (tile_run.sl.Hb2'_8 m d L f0 f1))) _ hinp) x = _
    rw [tS_read]
    exact pos_gather_val m d L (View.write (Elt F) (b0).view f0 (tile_run.sl.dma0 m d L) Finset.univ) (View.write (Elt F) (b1).view f1 (tile_run.sl.dma0_1 m d L) Finset.univ) _ hfa hfv hp2 _ _ hinp x
  ihave Hp := (Entails.of_eq (pointsTo_congr hpos)) $$ Hp'
  ihave Hn := (Entails.of_eq (nDone_all m d L (50 + 1) (by omega))) $$ HnD
  ihave Hb3 := (Entails.of_eq ((rDone_all d L f3c (48 + 1) (by omega)).trans (rows_split d L f3c).symm)) $$ HrD
  -- the slots back to the ring, the table's shares back to one
  ihave Hx := (Entails.of_eq (show Idle d L (tbl m d) (slotK q 0) = (iprop(∃ fd, Ready d L (tbl m d) (slotK q 0) fd) : sProp 𝕄) from rfl)) $$ HI0
  icases Hx with ⟨%gz0, HR0⟩
  ihave Hx := (Entails.of_eq (Ready_def d L (tbl m d) (slotK q 0) gz0)) $$ HR0
  icases Hx with ⟨Hg0, Hd0, Hs0, Ht0⟩
  ihave Hx := (Entails.of_eq (show Idle d L (tbl m d) (slotK q 1) = (iprop(∃ fd, Ready d L (tbl m d) (slotK q 1) fd) : sProp 𝕄) from rfl)) $$ HI1
  icases Hx with ⟨%gz1, HR1⟩
  ihave Hx := (Entails.of_eq (Ready_def d L (tbl m d) (slotK q 1) gz1)) $$ HR1
  icases Hx with ⟨Hg1, Hd1, Hs1, Ht1⟩
  ihave Hx := (Entails.of_eq (show Idle d L (tbl m d) (slotK q 2) = (iprop(∃ fd, Ready d L (tbl m d) (slotK q 2) fd) : sProp 𝕄) from rfl)) $$ HI2
  icases Hx with ⟨%gz2, HR2⟩
  ihave Hx := (Entails.of_eq (Ready_def d L (tbl m d) (slotK q 2) gz2)) $$ HR2
  icases Hx with ⟨Hg2, Hd2, Hs2, Ht2⟩
  ihave Hx := (Entails.of_eq (show Idle d L (tbl m d) (slotK q 3) = (iprop(∃ fd, Ready d L (tbl m d) (slotK q 3) fd) : sProp 𝕄) from rfl)) $$ HI3
  icases Hx with ⟨%gz3, HR3⟩
  ihave Hx := (Entails.of_eq (Ready_def d L (tbl m d) (slotK q 3) gz3)) $$ HR3
  icases Hx with ⟨Hg3, Hd3, Hs3, Ht3⟩
  ihave Hx := (Entails.of_eq (show Idle d L (tbl m d) (slotK q 4) = (iprop(∃ fd, Ready d L (tbl m d) (slotK q 4) fd) : sProp 𝕄) from rfl)) $$ HI4
  icases Hx with ⟨%gz4, HR4⟩
  ihave Hx := (Entails.of_eq (Ready_def d L (tbl m d) (slotK q 4) gz4)) $$ HR4
  icases Hx with ⟨Hg4, Hd4, Hs4, Ht4⟩
  ihave Hx := (Entails.of_eq (show Idle d L (tbl m d) (slotK q 5) = (iprop(∃ fd, Ready d L (tbl m d) (slotK q 5) fd) : sProp 𝕄) from rfl)) $$ HI5
  icases Hx with ⟨%gz5, HR5⟩
  ihave Hx := (Entails.of_eq (Ready_def d L (tbl m d) (slotK q 5) gz5)) $$ HR5
  icases Hx with ⟨Hg5, Hd5, Hs5, Ht5⟩
  ihave Hb5 := (ring_join d L gz0 gz1 gz2 gz3 gz4 gz5) $$ [Hs0 Hs1 Hs2 Hs3 Hs4 Hs5]
  · isplitl [Hs0]; · iexact Hs0
    isplitl [Hs1]; · iexact Hs1
    isplitl [Hs2]; · iexact Hs2
    isplitl [Hs3]; · iexact Hs3
    isplitl [Hs4]; · iexact Hs4
    iexact Hs5
  ihave Hts := (pointsTo_share (ℓ := (tS).view.loc (V d (cV L) (jV L))) (I := (tS).view.set) (f := (tbl m d)) (PosShare.mem_left_op_right (q.right.right.right.right.right))).2 $$ [Ht5 Ht6]
  · isplitl [Ht5]; · iexact Ht5
    iexact Ht6
  ihave Hts := (pointsTo_share (ℓ := (tS).view.loc (V d (cV L) (jV L))) (I := (tS).view.set) (f := (tbl m d)) (PosShare.mem_left_op_right (q.right.right.right.right))).2 $$ [Ht4 Hts]
  · isplitl [Ht4]; · iexact Ht4
    iexact Hts
  ihave Hts := (pointsTo_share (ℓ := (tS).view.loc (V d (cV L) (jV L))) (I := (tS).view.set) (f := (tbl m d)) (PosShare.mem_left_op_right (q.right.right.right))).2 $$ [Ht3 Hts]
  · isplitl [Ht3]; · iexact Ht3
    iexact Hts
  ihave Hts := (pointsTo_share (ℓ := (tS).view.loc (V d (cV L) (jV L))) (I := (tS).view.set) (f := (tbl m d)) (PosShare.mem_left_op_right (q.right.right))).2 $$ [Ht2 Hts]
  · isplitl [Ht2]; · iexact Ht2
    iexact Hts
  ihave Hts := (pointsTo_share (ℓ := (tS).view.loc (V d (cV L) (jV L))) (I := (tS).view.set) (f := (tbl m d)) (PosShare.mem_left_op_right (q.right))).2 $$ [Ht1 Hts]
  · isplitl [Ht1]; · iexact Ht1
    iexact Hts
  ihave Hts := (pointsTo_share (ℓ := (tS).view.loc (V d (cV L) (jV L))) (I := (tS).view.set) (f := (tbl m d)) (PosShare.mem_left_op_right (q))).2 $$ [Ht0 Hts]
  · isplitl [Ht0]; · iexact Ht0
    iexact Hts
  ihave Ht := (pointsTo_split_subset (ℓ := (tS).view.loc (V d (cV L) (jV L))) (q := q) (f := (tbl m d)) (S := Finset.univ) (Finset.subset_univ (tS).view.set)).2 $$ [Hts Htr]
  · isplitl [Hts] <;> iassumption
  isplitl [Ha' Hv' Ht Hp Hn]
  · isplitl [Ha']; · iexact Ha'
    isplitl [Hv']; · iexact Hv'
    isplitl [Ht]; · iexact Ht
    isplitl [Hp]; · iexact Hp
    iexact Hn
  isplitl [Hb0 Hb1 Hb2' Hb3 Hb4' Hb5 Hbufs]
  · isplitl [Hb0]; · iexists _; iexact Hb0
    isplitl [Hb1]; · iexists _; iexact Hb1
    isplitl [Hb2']; · iexists _; iexact Hb2'
    isplitl [Hb3]; · iexists _; iexact Hb3
    isplitl [Hb4']; · iexists _; iexact Hb4'
    isplitl [Hb5]; · iexact Hb5
    iexact Hbufs
  isplitl [Hps Hg0 Hg1 Hg2 Hg3 Hg4 Hg5 Hd0 Hd1 Hd2 Hd3 Hd4 Hd5 Hr0 Hr1 Hr2]
  · isplitl [Hps]; · iexact Hps
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hr0]; · iexact Hr0
    isplitl [Hr1]; · iexact Hr1
    iexact Hr2
  iapply (Entails.of_eq (show owesW d L O W = (iprop(∃ W', ⌜∀ p ∈ W', p ∈ W ∨ p.2 = none⌝ ∗ owes (V d (cV L) (jV L)) O W') : sProp 𝕄) from rfl))
  iexact HOW

/-- The body obligation of one vector subcore. -/
theorem tile_body (hpre : PreOK m) : TileBody m := tile_run m hpre

end Cert.KI

end
-- ==== Proof.SpecK.lean ====
/-
  The lookup kernel read as mathematics, and the launch data shared by its body and its launch.

  The prototype bank `X : [2000, 50, 128]` is re-laid on the host as the table `T : [100000, 128]`, row `v * 2000 + a`
  holding `X[a, v, :]`.  Sample `b` (attribute `a_b`, value `v_b`) takes as its positive row the table's row
  `v_b * 2000 + a_b`, and as its `j`-th negative row (`j < 49`) the row `j * 2000 + a_b + (2000 if v_b ≤ j else 0)`,
  i.e. the prototype of value `j` below `v_b` and of value `j + 1` from `v_b` on.  The 32 vector subcores take 128
  consecutive samples each: subcore `(c, s)` the samples `128 * (2 s + c) + [0, 128)`; the negatives leave the kernel
  plane by plane, plane `j` at rows `4096 j + b`.
-/
import proofs.«210835_g78632261255710_cont_9to1_m_350_20_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«210835_g78632261255710_cont_9to1_m_350_20_alg».proof.Proof.Gen.Kernel
import proofs.«210835_g78632261255710_cont_9to1_m_350_20_alg».proof.Proof.Gen.Kernel.Skeleton

noncomputable section

namespace Cert.KK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

/-! ## The arrays -/

abbrev aLoc (d : Dev nD) : Loc nD τ sig := (SparseCore.T d).loc main_arg0
abbrev vLoc (d : Dev nD) : Loc nD τ sig := (SparseCore.T d).loc main_arg1
abbrev xLoc (d : Dev nD) : Loc nD τ sig := (SparseCore.T d).loc main_arg2
abbrev tLoc (d : Dev nD) : Loc nD τ sig := (SparseCore.T d).loc main_v1
abbrev pLoc (d : Dev nD) : Loc nD τ sig := (SparseCore.T d).loc main_v2_0
abbrev nLoc (d : Dev nD) : Loc nD τ sig := (SparseCore.T d).loc main_v2_1

/-- The table as the host lays it out from the bank: the transpose of the first two axes, then rows flattened. -/
def tblOf (X : S2000x50x128.Idx → Elt F .f32) : S100000x128.Idx → Elt F .f32 :=
  shapeCast S100000x128 (transpose S50x2000x128 [1, 0, 2] X transposes_S2000x50x128_S50x2000x128_1_0_2) shapeCasts_S50x2000x128_S100000x128

/-- The positive row's number for a sample: `v * 2000 + a`, in 32-bit words. -/
def pidxW (a v : BitVec 32) : BitVec 32 := IntOp.addi (IntOp.muli v 2000#32) a

/-- Negative plane `j`'s row number for a sample: `j * 2000 + a`, plus `2000` when `v ≤ j` (signed), in 32-bit words. -/
def nidxW (j : BitVec 32) (a v : BitVec 32) : BitVec 32 :=
  IntOp.addi (IntOp.addi (Scalar.muli j 2000#32) a) (Scalar.select (IntOp.cmpi .sle v j) 2000#32 0#32)

/-- Row `w` of the table at lane `l` (row 0 when the word names no row: never the case under the precondition). -/
def tblRow (T : S100000x128.Idx → Elt F .f32) (w : BitVec 32) (l : Fin 128) : Elt F .f32 :=
  if h : w.toNat < 100000 then T (ValueIdx.ix2 ⟨w.toNat, h⟩ l) else T (ValueIdx.ix2 ⟨0, by decide⟩ l)

/-- The positives, whole: row `b` is the table's row `v_b * 2000 + a_b`. -/
def Gpos (A Vv : S4096.Idx → BitVec 32) (T : S100000x128.Idx → Elt F .f32) : S4096x128.Idx → Elt F .f32 :=
  fun i => tblRow T (pidxW (A (ValueIdx.ix1 (i 0))) (Vv (ValueIdx.ix1 (i 0)))) (i 1)

/-- The negatives as the kernel leaves them, plane-major: row `4096 j + b` is the table's row for plane `j` of sample `b`. -/
def Gneg (A Vv : S4096.Idx → BitVec 32) (T : S100000x128.Idx → Elt F .f32) : S200704x128.Idx → Elt F .f32 :=
  fun i => tblRow T (nidxW (BitVec.ofNat 32 ((i 0).val / 4096)) (A (ValueIdx.ix1 ⟨(i 0).val % 4096, Nat.mod_lt _ (by decide)⟩))
    (Vv (ValueIdx.ix1 ⟨(i 0).val % 4096, Nat.mod_lt _ (by decide)⟩))) (i 1)

/-- The negatives as the program returns them: planes to the middle axis. -/
def negOut (N : S200704x128.Idx → Elt F .f32) : S4096x49x128.Idx → Elt F .f32 :=
  transpose S4096x49x128 [1, 0, 2] (shapeCast S49x4096x128 N shapeCasts_S200704x128_S49x4096x128) transposes_S49x4096x128_S4096x49x128_1_0_2

end Cert.KK

end
-- ==== Proof.TileSpecK.lean ====
/-
  What one vector subcore's task is handed and what it hands back: its 128 attributes and values, a share of the
  table, its 128 rows of the positives and its 128 rows of each of the 49 negative planes, the output rows going in at
  the launch contents and coming back at the rows of the table the sample's index words name.
-/
import proofs.«210835_g78632261255710_cont_9to1_m_350_20_alg».proof.Proof.SpecK

noncomputable section

namespace Cert.KK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aV" => (Memref.whole Cert.Kernel.main_arg0_scv : Memref Cert.Kernel.sig Kind.scVector Space.hbm Cert.Kernel.S4096 EltTy.i32)
local notation "vV" => (Memref.whole Cert.Kernel.main_arg1_scv : Memref Cert.Kernel.sig Kind.scVector Space.hbm Cert.Kernel.S4096 EltTy.i32)
local notation "tV" => (Memref.whole Cert.Kernel.main_v1_scv : Memref Cert.Kernel.sig Kind.scVector Space.hbm Cert.Kernel.S100000x128 EltTy.f32)
local notation "pV" => (Memref.whole Cert.Kernel.main_v2_0_scv : Memref Cert.Kernel.sig Kind.scVector Space.hbm Cert.Kernel.S4096x128 EltTy.f32)
local notation "nV" => (Memref.whole Cert.Kernel.main_v2_1_scv : Memref Cert.Kernel.sig Kind.scVector Space.hbm Cert.Kernel.S200704x128 EltTy.f32)
local notation "b0" => (Memref.whole Cert.Kernel.cc0_scratch0 : Memref Cert.Kernel.sig Kind.scVector Space.vmem Cert.Kernel.S128 EltTy.i32)
local notation "b1" => (Memref.whole Cert.Kernel.cc0_scratch1 : Memref Cert.Kernel.sig Kind.scVector Space.vmem Cert.Kernel.S128 EltTy.i32)
local notation "b2" => (Memref.whole Cert.Kernel.cc0_scratch2 : Memref Cert.Kernel.sig Kind.scVector Space.vmem Cert.Kernel.S128 EltTy.i32)
local notation "b3" => (Memref.whole Cert.Kernel.cc0_scratch3 : Memref Cert.Kernel.sig Kind.scVector Space.vmem Cert.Kernel.S49x128 EltTy.i32)
local notation "b4" => (Memref.whole Cert.Kernel.cc0_scratch4 : Memref Cert.Kernel.sig Kind.scVector Space.vmem Cert.Kernel.S128x128 EltTy.f32)
local notation "b5" => (Memref.whole Cert.Kernel.cc0_scratch5 : Memref Cert.Kernel.sig Kind.scVector Space.vmem Cert.Kernel.S6x128x128 EltTy.f32)

variable (m : (ℓ : Loc nD τ sig) → Buf (Elt F) ℓ)

abbrev cV (L : grid0.Coords) : Fin τ.nSC := (L 0).castLE hcore0
abbrev jV (L : grid0.Coords) : Fin τ.nSub := (L 1).castLE hsub0

/-- The first sample of subcore `L`'s block: `128 * (2 * s + c)`. -/
abbrev base (L : grid0.Coords) : ℕ := 256 * (L 1).val + 128 * (L 0).val

abbrev aRowK (L : grid0.Coords) : Memref sig .scVector .hbm S128 .i32 :=
  (aV).slice (Rect.unit (s := S4096) (k0_off1 L) S128.size (k0_off1_inb L)) (fun _ => rfl)
abbrev vRowK (L : grid0.Coords) : Memref sig .scVector .hbm S128 .i32 :=
  (vV).slice (Rect.unit (s := S4096) (k0_off1 L) S128.size (k0_off1_inb L)) (fun _ => rfl)
abbrev pRowK (L : grid0.Coords) : Memref sig .scVector .hbm S128x128 .f32 :=
  (pV).slice (Rect.unit (s := S4096x128) (k0_off29 L) S128x128.size (k0_off29_inb L)) (fun _ => rfl)

/-- Where subcore `L`'s block of negative plane `j` starts: row `4096 j + base`. -/
abbrev nOff (L : grid0.Coords) (j : Fin 49) : Fin 2 → ℕ := ![4096 * j.val + base L, 0]

theorem nOff_inb (L : grid0.Coords) (j : Fin 49) : ∀ a, (nOff L j) a + S128x128.size a ≤ S200704x128.size a := by
  have h0 : (L 0).val < 2 := (L 0).isLt
  have h1 : (L 1).val < 16 := (L 1).isLt
  have hj : j.val < 49 := j.isLt
  intro a
  match a with
  | 0 => show 4096 * j.val + (256 * (L 1).val + 128 * (L 0).val) + 128 ≤ 200704; omega
  | 1 => show 0 + 128 ≤ 128; omega

abbrev nRowK (L : grid0.Coords) (j : Fin 49) : Memref sig .scVector .hbm S128x128 .f32 :=
  (nV).slice (Rect.unit (s := S200704x128) (nOff L j) S128x128.size (nOff_inb L j)) (fun _ => rfl)

/-- What the proof asks of the launch memory: attributes below 2000, values below 50 (as unsigned words). -/
def PreOK : Prop := ∀ d : Dev nD, (∀ b, (m (aLoc d) b).toNat ≤ 1999) ∧ (∀ b, (m (vLoc d) b).toNat ≤ 49)

/-- The table the kernel gathers from, on device `d`: the host's re-laying of the bank at the launch contents. -/
abbrev tbl (d : Dev nD) : Buf (Elt F) (tLoc d) := tblOf (m (xLoc d))
/-- The positives the kernel leaves on device `d`. -/
abbrev posOf (d : Dev nD) : Buf (Elt F) (pLoc d) := Gpos (m (aLoc d)) (m (vLoc d)) (tbl m d)
/-- The negatives the kernel leaves on device `d`, plane-major. -/
abbrev negOf (d : Dev nD) : Buf (Elt F) (nLoc d) := Gneg (m (aLoc d)) (m (vLoc d)) (tbl m d)

/-- The task's operands on subcore `L` of device `d`, the table at share `q`, the output rows at contents `fp`, `fn`. -/
def tileRes (d : Dev nD) (L : grid0.Coords) (q : PosShare TreeShare) (fp : Buf (Elt F) (pLoc d)) (fn : Buf (Elt F) (nLoc d)) : sProp 𝕄 :=
  iprop(((aRowK L).view.loc (V d (cV L) (jV L)) ↦[(aRowK L).view.set]{fullShare} m (aLoc d))
    ∗ ((vRowK L).view.loc (V d (cV L) (jV L)) ↦[(vRowK L).view.set]{fullShare} m (vLoc d))
    ∗ ((tV).view.loc (V d (cV L) (jV L)) ↦{q} tbl m d)
    ∗ ((pRowK L).view.loc (V d (cV L) (jV L)) ↦[(pRowK L).view.set]{fullShare} fp)
    ∗ bigSep (Finset.univ : Finset (Fin 49)) fun j => (nRowK L j).view.loc (V d (cV L) (jV L)) ↦[(nRowK L j).view.set]{fullShare} fn)

/-- The body obligation of one vector subcore, at a symbolic subcore `L` of a symbolic device `d`, for any share `q` of
    the table: from the operands at the launch contents to the output rows at the looked-up rows. -/
def TileBody [FloatOps F] : Prop :=
  ∀ (hF : (K (F := F)).Facts) (d : Dev nD) (L : grid0.Coords) (O : CellTallies nD τ sig (HIx 1)) (W : Waits sig (HIx 1)) (hO : ∀ g, O g none = 0)
    (q : PosShare TreeShare),
    (iprop(levAts (K (F := F)).L (K (F := F)).lev ∗ emp ∗ tileRes m d L q (m (pLoc d)) (m (nLoc d))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_sc_kernel L aV (Memref.isWhole_whole _) vV (Memref.isWhole_whole _) tV (Memref.isWhole_whole _) pV (Memref.isWhole_whole _) nV (Memref.isWhole_whole _)
            b0 (Memref.isWhole_whole _) b1 (Memref.isWhole_whole _) b2 (Memref.isWhole_whole _) b3 (Memref.isWhole_whole _) b4 (Memref.isWhole_whole _) b5 (Memref.isWhole_whole _)
            cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 cc0_scoped1 cc0_scoped2)
          fun _ => iprop(tileRes m d L q (posOf m d) (negOf m d)
            ∗ scopedBufs (V d (cV L) (jV L)) ∗ scopedSems0 (V d (cV L) (jV L))
            ∗ ∃ W', ⌜∀ p ∈ W', p ∈ W ∨ p.2 = none⌝ ∗ owes (V d (cV L) (jV L)) O W')

end Cert.KK

end
-- ==== Proof.LaunchPayK.lean ====
/-
  The launch, first part: what the handshakes carry, and each vector subcore's obligation from its body's proof.
-/
import proofs.«210835_g78632261255710_cont_9to1_m_350_20_alg».proof.Proof.TileSpecK

noncomputable section

namespace Cert.KK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

local notation "aV" => (Memref.whole Cert.Kernel.main_arg0_scv : Memref Cert.Kernel.sig Kind.scVector Space.hbm Cert.Kernel.S4096 EltTy.i32)
local notation "vV" => (Memref.whole Cert.Kernel.main_arg1_scv : Memref Cert.Kernel.sig Kind.scVector Space.hbm Cert.Kernel.S4096 EltTy.i32)
local notation "tV" => (Memref.whole Cert.Kernel.main_v1_scv : Memref Cert.Kernel.sig Kind.scVector Space.hbm Cert.Kernel.S100000x128 EltTy.f32)
local notation "pV" => (Memref.whole Cert.Kernel.main_v2_0_scv : Memref Cert.Kernel.sig Kind.scVector Space.hbm Cert.Kernel.S4096x128 EltTy.f32)
local notation "nV" => (Memref.whole Cert.Kernel.main_v2_1_scv : Memref Cert.Kernel.sig Kind.scVector Space.hbm Cert.Kernel.S200704x128 EltTy.f32)
local notation "b0" => (Memref.whole Cert.Kernel.cc0_scratch0 : Memref Cert.Kernel.sig Kind.scVector Space.vmem Cert.Kernel.S128 EltTy.i32)
local notation "b1" => (Memref.whole Cert.Kernel.cc0_scratch1 : Memref Cert.Kernel.sig Kind.scVector Space.vmem Cert.Kernel.S128 EltTy.i32)
local notation "b2" => (Memref.whole Cert.Kernel.cc0_scratch2 : Memref Cert.Kernel.sig Kind.scVector Space.vmem Cert.Kernel.S128 EltTy.i32)
local notation "b3" => (Memref.whole Cert.Kernel.cc0_scratch3 : Memref Cert.Kernel.sig Kind.scVector Space.vmem Cert.Kernel.S49x128 EltTy.i32)
local notation "b4" => (Memref.whole Cert.Kernel.cc0_scratch4 : Memref Cert.Kernel.sig Kind.scVector Space.vmem Cert.Kernel.S128x128 EltTy.f32)
local notation "b5" => (Memref.whole Cert.Kernel.cc0_scratch5 : Memref Cert.Kernel.sig Kind.scVector Space.vmem Cert.Kernel.S6x128x128 EltTy.f32)

/-! ## Shares of the table: a share halved `n` times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- SparseCore `c`'s share of the table, and subcore `(c, i)`'s. -/
abbrev qC (c : Fin 2) : PosShare TreeShare := leaf 1 fullShare c
abbrev qT (c : Fin 2) (i : Fin 16) : PosShare TreeShare := leaf 4 (qC c) i

/-! ## The grid's points -/

def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

/-- Subcore `i` of SparseCore `c`, as a point of the kernel's grid. -/
abbrev co (c : Fin 2) (i : Fin 16) : grid0.Coords := coordsV (Fin.cast bound_zero.symm c) (Fin.cast bound_one.symm i)

variable (m : (ℓ : Loc nD τ sig) → Buf (Elt F) ℓ) (ρ : Dev nD → PrngReg)

/-! ## What the handshakes carry -/

/-- Subcore `(c, i)`'s operands, the output rows at contents `fp`, `fn`. -/
def goRes (d : Dev nD) (c : Fin 2) (i : Fin 16) (fp : Buf (Elt F) (pLoc d)) (fn : Buf (Elt F) (nLoc d)) : sProp 𝕄 :=
  tileRes m d (co c i) (qT c i) fp fn
/-- SparseCore `c`'s operands: its sixteen subcores'. -/
def stRes (d : Dev nD) (c : Fin 2) (fp : Buf (Elt F) (pLoc d)) (fn : Buf (Elt F) (nLoc d)) : sProp 𝕄 :=
  bigSep Finset.univ fun i : Fin 16 => goRes m d c i fp fn

instance tileRes_storable (d : Dev nD) (L : grid0.Coords) (q : PosShare TreeShare) (fp : Buf (Elt F) (pLoc d)) (fn : Buf (Elt F) (nLoc d)) :
    BI.Storable (upEmb : UEmb _ 𝕄) (tileRes m d L q fp fn) := by
  unfold tileRes; infer_instance

/-- The one call's grid, at every call index (there is one). -/
theorem nCore_all (q : Fin 1) : (K (F := F)).nCore q = 2 := match q with | 0 => rfl
theorem nSub_all (q : Fin 1) : (K (F := F)).nSub q = 16 := match q with | 0 => rfl

variable [FloatOps F]

/-- The one call takes the five arrays, each SparseCore its subcores' pieces, each subcore its rows and its share of
    the table, the output rows in at the launch contents and back at the looked-up rows. -/
def P : (K (F := F)).Pay (nD := nD) (Val := Elt F) (Name := ℕ) (U := UU) where
  st := fun q d c => stRes m d (Fin.cast (nCore_all q) c) (m (pLoc d)) (m (nLoc d))
  dn := fun q d c => stRes m d (Fin.cast (nCore_all q) c) (posOf m d) (negOf m d)
  go := fun q d c i => goRes m d (Fin.cast (nCore_all q) c) (Fin.cast (nSub_all q) i) (m (pLoc d)) (m (nLoc d))
  td := fun q d c i => goRes m d (Fin.cast (nCore_all q) c) (Fin.cast (nSub_all q) i) (posOf m d) (negOf m d)
  x := fun _ _ => iprop(emp)

theorem P_st (d : Dev nD) (c : Fin ((K (F := F)).nCore 0)) : (P m).st 0 d c = stRes m d (Fin.cast nCore_zero c) (m (pLoc d)) (m (nLoc d)) := by
  unfold P; show stRes m d (Fin.cast (nCore_all 0) c) (m (pLoc d)) (m (nLoc d)) = _; rfl
theorem P_dn (d : Dev nD) (c : Fin ((K (F := F)).nCore 0)) : (P m).dn 0 d c = stRes m d (Fin.cast nCore_zero c) (posOf m d) (negOf m d) := by
  unfold P; show stRes m d (Fin.cast (nCore_all 0) c) (posOf m d) (negOf m d) = _; rfl
theorem P_go (d : Dev nD) (c : Fin ((K (F := F)).nCore 0)) (i : Fin ((K (F := F)).nSub 0)) :
    (P m).go 0 d c i = goRes m d (Fin.cast nCore_zero c) (Fin.cast nSub_zero i) (m (pLoc d)) (m (nLoc d)) := by unfold P; rfl
theorem P_td (d : Dev nD) (c : Fin ((K (F := F)).nCore 0)) (i : Fin ((K (F := F)).nSub 0)) :
    (P m).td 0 d c i = goRes m d (Fin.cast nCore_zero c) (Fin.cast nSub_zero i) (posOf m d) (negOf m d) := by unfold P; rfl

omit [FloatOps F] in
theorem goRes_storable (d : Dev nD) (c : Fin 2) (i : Fin 16) (fp : Buf (Elt F) (pLoc d)) (fn : Buf (Elt F) (nLoc d)) :
    BI.Storable (upEmb : UEmb _ 𝕄) (goRes m d c i fp fn) := by unfold goRes; exact tileRes_storable m d _ _ fp fn
omit [FloatOps F] in
theorem stRes_storable (d : Dev nD) (c : Fin 2) (fp : Buf (Elt F) (pLoc d)) (fn : Buf (Elt F) (nLoc d)) :
    BI.Storable (upEmb : UEmb _ 𝕄) (stRes m d c fp fn) := by
  have : ∀ i : Fin 16, BI.Storable (upEmb : UEmb _ 𝕄) (goRes m d c i fp fn) := fun i => goRes_storable m d c i fp fn
  unfold stRes; exact BI.Storable.bigSep _ Finset.univ _

instance P_storable : (P (F := F) m).IsStorable where
  st _ d _ := stRes_storable m d _ _ _
  dn _ d _ := stRes_storable m d _ _ _
  go _ d _ _ := goRes_storable m d _ _ _ _
  td _ d _ _ := goRes_storable m d _ _ _ _

/-! ## The obligation -/

theorem defs₀_vector (c : Fin τ.nSC) (s : Fin τ.nSub) :
    defs₀ (F := F) (.scVector c s) 0 ()
      = SparseCore.onTile hcore0 hsub0 (fun c s => cc0_sc_kernel (coordsV c s)
          aV (Memref.isWhole_whole _) vV (Memref.isWhole_whole _) tV (Memref.isWhole_whole _) pV (Memref.isWhole_whole _) nV (Memref.isWhole_whole _)
          b0 (Memref.isWhole_whole _) b1 (Memref.isWhole_whole _) b2 (Memref.isWhole_whole _) b3 (Memref.isWhole_whole _) b4 (Memref.isWhole_whole _) b5 (Memref.isWhole_whole _)
          cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hbody : TileBody m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [P_go, P_td]; unfold goRes
  exact (hbody hF d (coordsV ⟨_, hci.1⟩ ⟨_, hci.2⟩) O W hO (qT (Fin.cast nCore_zero c) (Fin.cast nSub_zero i))).trans (wp_mono frame _ _ fun _ => obl_post)

end Cert.KK

end
-- ==== Proof.LaunchSplitK.lean ====
/-
  The launch, second part: the arrays dealt to the vector subcores and gathered back.

  Subcore (c, i)'s rows of the attributes, the values and the positives are rows 256 i + 128 c + [0, 128); its rows of
  negative plane j are rows 4096 j + 256 i + 128 c + [0, 128).  Over the 2 × 16 subcores (and the 49 planes) these
  sets are pairwise disjoint and cover the array: two that share a row have the same quotients of that row by 4096,
  256 and 128, and every row below 4096 (below 49 · 4096) has such quotients in range.  So a whole array is the
  separating conjunction of the subcores' pieces; the table, read by all, goes out in shares.
-/
import proofs.«210835_g78632261255710_cont_9to1_m_350_20_alg».proof.Proof.LaunchPayK

noncomputable section

namespace Cert.KK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

local notation "aV" => (Memref.whole Cert.Kernel.main_arg0_scv : Memref Cert.Kernel.sig Kind.scVector Space.hbm Cert.Kernel.S4096 EltTy.i32)
local notation "vV" => (Memref.whole Cert.Kernel.main_arg1_scv : Memref Cert.Kernel.sig Kind.scVector Space.hbm Cert.Kernel.S4096 EltTy.i32)
local notation "tV" => (Memref.whole Cert.Kernel.main_v1_scv : Memref Cert.Kernel.sig Kind.scVector Space.hbm Cert.Kernel.S100000x128 EltTy.f32)
local notation "pV" => (Memref.whole Cert.Kernel.main_v2_0_scv : Memref Cert.Kernel.sig Kind.scVector Space.hbm Cert.Kernel.S4096x128 EltTy.f32)
local notation "nV" => (Memref.whole Cert.Kernel.main_v2_1_scv : Memref Cert.Kernel.sig Kind.scVector Space.hbm Cert.Kernel.S200704x128 EltTy.f32)
local notation "b0" => (Memref.whole Cert.Kernel.cc0_scratch0 : Memref Cert.Kernel.sig Kind.scVector Space.vmem Cert.Kernel.S128 EltTy.i32)
local notation "b1" => (Memref.whole Cert.Kernel.cc0_scratch1 : Memref Cert.Kernel.sig Kind.scVector Space.vmem Cert.Kernel.S128 EltTy.i32)
local notation "b2" => (Memref.whole Cert.Kernel.cc0_scratch2 : Memref Cert.Kernel.sig Kind.scVector Space.vmem Cert.Kernel.S128 EltTy.i32)
local notation "b3" => (Memref.whole Cert.Kernel.cc0_scratch3 : Memref Cert.Kernel.sig Kind.scVector Space.vmem Cert.Kernel.S49x128 EltTy.i32)
local notation "b4" => (Memref.whole Cert.Kernel.cc0_scratch4 : Memref Cert.Kernel.sig Kind.scVector Space.vmem Cert.Kernel.S128x128 EltTy.f32)
local notation "b5" => (Memref.whole Cert.Kernel.cc0_scratch5 : Memref Cert.Kernel.sig Kind.scVector Space.vmem Cert.Kernel.S6x128x128 EltTy.f32)

variable (m : (ℓ : Loc nD τ sig) → Buf (Elt F) ℓ)

/-! ## The row sets, as intervals of rows -/

theorem set_aRowK (L : grid0.Coords) : (aRowK L).view.set = (Rect.unit (s := S4096) (k0_off1 L) S128.size (k0_off1_inb L)).set := by
  show ((View.whole (main_arg0_scv : Ref sig .scVector)).slice (Rect.unit (s := S4096) (k0_off1 L) S128.size (k0_off1_inb L))).set = _
  rw [View.set_slice]; exact Finset.map_refl
theorem set_vRowK (L : grid0.Coords) : (vRowK L).view.set = (Rect.unit (s := S4096) (k0_off1 L) S128.size (k0_off1_inb L)).set := by
  show ((View.whole (main_arg1_scv : Ref sig .scVector)).slice (Rect.unit (s := S4096) (k0_off1 L) S128.size (k0_off1_inb L))).set = _
  rw [View.set_slice]; exact Finset.map_refl
theorem set_pRowK (L : grid0.Coords) : (pRowK L).view.set = (Rect.unit (s := S4096x128) (k0_off29 L) S128x128.size (k0_off29_inb L)).set := by
  show ((View.whole (main_v2_0_scv : Ref sig .scVector)).slice (Rect.unit (s := S4096x128) (k0_off29 L) S128x128.size (k0_off29_inb L))).set = _
  rw [View.set_slice]; exact Finset.map_refl
theorem set_nRowK (L : grid0.Coords) (j : Fin 49) : (nRowK L j).view.set = (Rect.unit (s := S200704x128) (nOff L j) S128x128.size (nOff_inb L j)).set := by
  show ((View.whole (main_v2_1_scv : Ref sig .scVector)).slice (Rect.unit (s := S200704x128) (nOff L j) S128x128.size (nOff_inb L j))).set = _
  rw [View.set_slice]; exact Finset.map_refl

theorem mem_aRow (L : grid0.Coords) (x : S4096.Idx) : x ∈ (aRowK L).view.set ↔ base L ≤ (x 0).val ∧ (x 0).val < base L + 128 := by
  rw [set_aRowK, Rect.mem_set_unit, k0_off1_eq, Fin.forall_fin_one]; exact Iff.rfl
theorem mem_vRow (L : grid0.Coords) (x : S4096.Idx) : x ∈ (vRowK L).view.set ↔ base L ≤ (x 0).val ∧ (x 0).val < base L + 128 := by
  rw [set_vRowK, Rect.mem_set_unit, k0_off1_eq, Fin.forall_fin_one]; exact Iff.rfl
theorem mem_pRow (L : grid0.Coords) (x : S4096x128.Idx) : x ∈ (pRowK L).view.set ↔ base L ≤ (x 0).val ∧ (x 0).val < base L + 128 := by
  rw [set_pRowK, Rect.mem_set_unit, k0_off29_eq, Fin.forall_fin_two]
  have h1 : (x 1).val < 128 := (x 1).isLt
  constructor
  · rintro ⟨h0, -⟩; exact h0
  · intro h; exact ⟨h, Nat.zero_le _, show (x 1).val < 0 + 128 by omega⟩
theorem mem_nRow (L : grid0.Coords) (j : Fin 49) (x : S200704x128.Idx) :
    x ∈ (nRowK L j).view.set ↔ 4096 * j.val + base L ≤ (x 0).val ∧ (x 0).val < 4096 * j.val + base L + 128 := by
  rw [set_nRowK, Rect.mem_set_unit, Fin.forall_fin_two]
  have h1 : (x 1).val < 128 := (x 1).isLt
  constructor
  · rintro ⟨h0, -⟩; exact h0
  · intro h; exact ⟨h, Nat.zero_le _, show (x 1).val < 0 + 128 by omega⟩

/-! ## The subcores' sets partition each array -/

abbrev TI : Type := Fin 2 × Fin 16
abbrev TN : Type := (Fin 2 × Fin 16) × Fin 49

abbrev aK (t : TI) : Finset S4096.Idx := (aRowK (co t.1 t.2)).view.set
abbrev vK (t : TI) : Finset S4096.Idx := (vRowK (co t.1 t.2)).view.set
abbrev pK (t : TI) : Finset S4096x128.Idx := (pRowK (co t.1 t.2)).view.set
abbrev nK (t : TN) : Finset S200704x128.Idx := (nRowK (co t.1.1 t.1.2) t.2).view.set

theorem mem_aK (c : Fin 2) (i : Fin 16) (x : S4096.Idx) :
    x ∈ aK (c, i) ↔ 256 * i.val + 128 * c.val ≤ (x 0).val ∧ (x 0).val < 256 * i.val + 128 * c.val + 128 := mem_aRow (co c i) x
theorem mem_vK (c : Fin 2) (i : Fin 16) (x : S4096.Idx) :
    x ∈ vK (c, i) ↔ 256 * i.val + 128 * c.val ≤ (x 0).val ∧ (x 0).val < 256 * i.val + 128 * c.val + 128 := mem_vRow (co c i) x
theorem mem_pK (c : Fin 2) (i : Fin 16) (x : S4096x128.Idx) :
    x ∈ pK (c, i) ↔ 256 * i.val + 128 * c.val ≤ (x 0).val ∧ (x 0).val < 256 * i.val + 128 * c.val + 128 := mem_pRow (co c i) x
theorem mem_nK (c : Fin 2) (i : Fin 16) (j : Fin 49) (x : S200704x128.Idx) :
    x ∈ nK ((c, i), j) ↔ 4096 * j.val + (256 * i.val + 128 * c.val) ≤ (x 0).val ∧ (x 0).val < 4096 * j.val + (256 * i.val + 128 * c.val) + 128 :=
  mem_nRow (co c i) j x

theorem aK_disjoint : ∀ t ∈ (Finset.univ : Finset TI), ∀ t' ∈ (Finset.univ : Finset TI), t ≠ t' → Disjoint (aK t) (aK t') := by
  rintro ⟨c, i⟩ - ⟨c', i'⟩ - hne
  rw [Finset.disjoint_left]; intro x hx hx'
  rw [mem_aK] at hx hx'
  have hc := c.isLt; have hc' := c'.isLt
  have h : i.val = i'.val ∧ c.val = c'.val := by omega
  exact hne (Prod.ext (Fin.ext h.2) (Fin.ext h.1))
theorem vK_disjoint : ∀ t ∈ (Finset.univ : Finset TI), ∀ t' ∈ (Finset.univ : Finset TI), t ≠ t' → Disjoint (vK t) (vK t') := by
  rintro ⟨c, i⟩ - ⟨c', i'⟩ - hne
  rw [Finset.disjoint_left]; intro x hx hx'
  rw [mem_vK] at hx hx'
  have hc := c.isLt; have hc' := c'.isLt
  have h : i.val = i'.val ∧ c.val = c'.val := by omega
  exact hne (Prod.ext (Fin.ext h.2) (Fin.ext h.1))
theorem pK_disjoint : ∀ t ∈ (Finset.univ : Finset TI), ∀ t' ∈ (Finset.univ : Finset TI), t ≠ t' → Disjoint (pK t) (pK t') := by
  rintro ⟨c, i⟩ - ⟨c', i'⟩ - hne
  rw [Finset.disjoint_left]; intro x hx hx'
  rw [mem_pK] at hx hx'
  have hc := c.isLt; have hc' := c'.isLt
  have h : i.val = i'.val ∧ c.val = c'.val := by omega
  exact hne (Prod.ext (Fin.ext h.2) (Fin.ext h.1))
theorem nK_disjoint : ∀ t ∈ (Finset.univ : Finset TN), ∀ t' ∈ (Finset.univ : Finset TN), t ≠ t' → Disjoint (nK t) (nK t') := by
  rintro ⟨⟨c, i⟩, j⟩ - ⟨⟨c', i'⟩, j'⟩ - hne
  rw [Finset.disjoint_left]; intro x hx hx'
  rw [mem_nK] at hx hx'
  have hc := c.isLt; have hc' := c'.isLt; have hi := i.isLt; have hi' := i'.isLt
  have h : j.val = j'.val ∧ i.val = i'.val ∧ c.val = c'.val := by omega
  exact hne (Prod.ext (Prod.ext (Fin.ext h.2.2) (Fin.ext h.2.1)) (Fin.ext h.1))

theorem aK_cover : (Finset.univ : Finset TI).biUnion aK = Finset.univ := by
  ext x; simp only [Finset.mem_biUnion, Finset.mem_univ, true_and, iff_true]
  have hx : (x 0).val < 4096 := (x 0).isLt
  exact ⟨(⟨(x 0).val / 128 % 2, by omega⟩, ⟨(x 0).val / 256, by omega⟩), (mem_aK _ _ x).mpr (by constructor <;> (dsimp only; omega))⟩
theorem vK_cover : (Finset.univ : Finset TI).biUnion vK = Finset.univ := by
  ext x; simp only [Finset.mem_biUnion, Finset.mem_univ, true_and, iff_true]
  have hx : (x 0).val < 4096 := (x 0).isLt
  exact ⟨(⟨(x 0).val / 128 % 2, by omega⟩, ⟨(x 0).val / 256, by omega⟩), (mem_vK _ _ x).mpr (by constructor <;> (dsimp only; omega))⟩
theorem pK_cover : (Finset.univ : Finset TI).biUnion pK = Finset.univ := by
  ext x; simp only [Finset.mem_biUnion, Finset.mem_univ, true_and, iff_true]
  have hx : (x 0).val < 4096 := (x 0).isLt
  exact ⟨(⟨(x 0).val / 128 % 2, by omega⟩, ⟨(x 0).val / 256, by omega⟩), (mem_pK _ _ x).mpr (by constructor <;> (dsimp only; omega))⟩
theorem nK_cover : (Finset.univ : Finset TN).biUnion nK = Finset.univ := by
  ext x; simp only [Finset.mem_biUnion, Finset.mem_univ, true_and, iff_true]
  have hx : (x 0).val < 200704 := (x 0).isLt
  exact ⟨((⟨(x 0).val / 128 % 2, by omega⟩, ⟨(x 0).val % 4096 / 256, by omega⟩), ⟨(x 0).val / 4096, by omega⟩),
    (mem_nK _ _ _ x).mpr (by constructor <;> (dsimp only; omega))⟩

/-! ## A whole array is its subcores' pieces -/

theorem a_split (d : Dev nD) (f : Buf (Elt F) (aLoc d)) :
    (aLoc d ↦{fullShare} f : sProp 𝕄) = bigSep Finset.univ fun c : Fin 2 => bigSep Finset.univ fun i : Fin 16 =>
      ((aRowK (co c i)).view.loc (V d (cV (co c i)) (jV (co c i))) ↦[(aRowK (co c i)).view.set]{fullShare} f) := by
  have h : (aLoc d ↦{fullShare} f : sProp 𝕄) = bigSep Finset.univ fun t : TI => aLoc d ↦[aK t]{fullShare} f := by
    rw [← pointsTo_biUnion Finset.univ (ℓ := aLoc d) aK aK_disjoint, aK_cover]; try rfl
  exact h.trans (bigSep_univ_prod _)
theorem v_split (d : Dev nD) (f : Buf (Elt F) (vLoc d)) :
    (vLoc d ↦{fullShare} f : sProp 𝕄) = bigSep Finset.univ fun c : Fin 2 => bigSep Finset.univ fun i : Fin 16 =>
      ((vRowK (co c i)).view.loc (V d (cV (co c i)) (jV (co c i))) ↦[(vRowK (co c i)).view.set]{fullShare} f) := by
  have h : (vLoc d ↦{fullShare} f : sProp 𝕄) = bigSep Finset.univ fun t : TI => vLoc d ↦[vK t]{fullShare} f := by
    rw [← pointsTo_biUnion Finset.univ (ℓ := vLoc d) vK vK_disjoint, vK_cover]; try rfl
  exact h.trans (bigSep_univ_prod _)
theorem p_split (d : Dev nD) (f : Buf (Elt F) (pLoc d)) :
    (pLoc d ↦{fullShare} f : sProp 𝕄) = bigSep Finset.univ fun c : Fin 2 => bigSep Finset.univ fun i : Fin 16 =>
      ((pRowK (co c i)).view.loc (V d (cV (co c i)) (jV (co c i))) ↦[(pRowK (co c i)).view.set]{fullShare} f) := by
  have h : (pLoc d ↦{fullShare} f : sProp 𝕄) = bigSep Finset.univ fun t : TI => pLoc d ↦[pK t]{fullShare} f := by
    rw [← pointsTo_biUnion Finset.univ (ℓ := pLoc d) pK pK_disjoint, pK_cover]; try rfl
  exact h.trans (bigSep_univ_prod _)
theorem n_split (d : Dev nD) (f : Buf (Elt F) (nLoc d)) :
    (nLoc d ↦{fullShare} f : sProp 𝕄) = bigSep Finset.univ fun c : Fin 2 => bigSep Finset.univ fun i : Fin 16 =>
      bigSep (Finset.univ : Finset (Fin 49)) fun j =>
        ((nRowK (co c i) j).view.loc (V d (cV (co c i)) (jV (co c i))) ↦[(nRowK (co c i) j).view.set]{fullShare} f) := by
  have h : (nLoc d ↦{fullShare} f : sProp 𝕄) = bigSep Finset.univ fun t : TN => nLoc d ↦[nK t]{fullShare} f := by
    rw [← pointsTo_biUnion Finset.univ (ℓ := nLoc d) nK nK_disjoint, nK_cover]; try rfl
  refine h.trans ((bigSep_univ_prod _).trans ?_)
  exact (bigSep_univ_prod (fun t : TI => bigSep Finset.univ fun j : Fin 49 => (nLoc d ↦[nK (t, j)]{fullShare} f : sProp 𝕄)))
theorem t_split (d : Dev nD) (f : Buf (Elt F) (tLoc d)) :
    (tLoc d ↦{fullShare} f : sProp 𝕄) = bigSep Finset.univ fun c : Fin 2 => bigSep Finset.univ fun i : Fin 16 =>
      ((tV).view.loc (V d (cV (co c i)) (jV (co c i))) ↦{qT c i} f) := by
  have h : (tLoc d ↦{fullShare} f : sProp 𝕄) = bigSep Finset.univ fun c : Fin 2 => (tLoc d ↦{qC c} f : sProp 𝕄) :=
    pointsTo_leaves Finset.univ f 1 fullShare
  exact h.trans (bigSep_congr fun c _ => pointsTo_leaves Finset.univ f 4 (qC c))

/-- The five arrays of the call, whole, are the two SparseCores' operands. -/
theorem arrays_split (d : Dev nD) (fp : Buf (Elt F) (pLoc d)) (fn : Buf (Elt F) (nLoc d)) :
    (iprop((aLoc d ↦{fullShare} m (aLoc d)) ∗ (vLoc d ↦{fullShare} m (vLoc d)) ∗ (tLoc d ↦{fullShare} tbl m d)
        ∗ (pLoc d ↦{fullShare} fp) ∗ (nLoc d ↦{fullShare} fn)) : sProp 𝕄)
      = bigSep Finset.univ fun c : Fin 2 => stRes m d c fp fn := by
  rw [a_split, v_split, t_split, p_split, n_split]
  unfold stRes goRes tileRes
  simp only [bigSep_sep']

end Cert.KK

end
-- ==== Proof.LaunchK.lean ====
/-
  The launch, last part: the launch element, @main on the TensorCore, how the final memory reads the results, and
  the run of the whole program.

  @main lays the bank out as the table (a transpose of the first two axes, then the rows flattened: the table of the
  specification by definition), hands the call the five arrays whole, which are the two SparseCores' operands, gets
  them back with the positives and the plane-major negatives at the looked-up rows, and re-lays the negatives (the
  planes unflattened, then moved to the middle axis: the specification's returned negatives by definition).
-/
import proofs.«210835_g78632261255710_cont_9to1_m_350_20_alg».proof.Proof.LaunchSplitK

noncomputable section

namespace Cert.KK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

local notation "aV" => (Memref.whole Cert.Kernel.main_arg0_scv : Memref Cert.Kernel.sig Kind.scVector Space.hbm Cert.Kernel.S4096 EltTy.i32)
local notation "vV" => (Memref.whole Cert.Kernel.main_arg1_scv : Memref Cert.Kernel.sig Kind.scVector Space.hbm Cert.Kernel.S4096 EltTy.i32)
local notation "tV" => (Memref.whole Cert.Kernel.main_v1_scv : Memref Cert.Kernel.sig Kind.scVector Space.hbm Cert.Kernel.S100000x128 EltTy.f32)
local notation "pV" => (Memref.whole Cert.Kernel.main_v2_0_scv : Memref Cert.Kernel.sig Kind.scVector Space.hbm Cert.Kernel.S4096x128 EltTy.f32)
local notation "nV" => (Memref.whole Cert.Kernel.main_v2_1_scv : Memref Cert.Kernel.sig Kind.scVector Space.hbm Cert.Kernel.S200704x128 EltTy.f32)
local notation "b0" => (Memref.whole Cert.Kernel.cc0_scratch0 : Memref Cert.Kernel.sig Kind.scVector Space.vmem Cert.Kernel.S128 EltTy.i32)
local notation "b1" => (Memref.whole Cert.Kernel.cc0_scratch1 : Memref Cert.Kernel.sig Kind.scVector Space.vmem Cert.Kernel.S128 EltTy.i32)
local notation "b2" => (Memref.whole Cert.Kernel.cc0_scratch2 : Memref Cert.Kernel.sig Kind.scVector Space.vmem Cert.Kernel.S128 EltTy.i32)
local notation "b3" => (Memref.whole Cert.Kernel.cc0_scratch3 : Memref Cert.Kernel.sig Kind.scVector Space.vmem Cert.Kernel.S49x128 EltTy.i32)
local notation "b4" => (Memref.whole Cert.Kernel.cc0_scratch4 : Memref Cert.Kernel.sig Kind.scVector Space.vmem Cert.Kernel.S128x128 EltTy.f32)
local notation "b5" => (Memref.whole Cert.Kernel.cc0_scratch5 : Memref Cert.Kernel.sig Kind.scVector Space.vmem Cert.Kernel.S6x128x128 EltTy.f32)

variable (m : (ℓ : Loc nD τ sig) → Buf (Elt F) ℓ) (ρ : Dev nD → PrngReg)

variable [FloatOps F]

/-! ## A SparseCore's operands go to its subcores and come back -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  rw [P_st, P_dn]
  simp only [P_go, P_td]
  unfold stRes
  rw [bigSep_tasks (F := F) (fun i => goRes m d (Fin.cast nCore_zero c) i (m (pLoc d)) (m (nLoc d))),
    bigSep_tasks (F := F) (fun i => goRes m d (Fin.cast nCore_zero c) i (posOf m d) (negOf m d))]
  iintro H; imodintro
  isplitl [H]; · iexact H
  iintro H; iexact H

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev x' : DevRef τ sig := Proc.devRef .tc (main_arg2 : Ref sig .tc)
abbrev w0' : DevRef τ sig := Proc.devRef .tc (main_v0 : Ref sig .tc)
abbrev t' : DevRef τ sig := Proc.devRef .tc (main_v1 : Ref sig .tc)
abbrev n' : DevRef τ sig := Proc.devRef .tc (main_v2_1 : Ref sig .tc)
abbrev w3' : DevRef τ sig := Proc.devRef .tc (main_v3 : Ref sig .tc)
abbrev w4' : DevRef τ sig := Proc.devRef .tc (main_v4 : Ref sig .tc)
abbrev w0Loc (d : Dev nD) : Loc nD τ sig := (SparseCore.T d).loc main_v0
abbrev w3Loc (d : Dev nD) : Loc nD τ sig := (SparseCore.T d).loc main_v3
abbrev w4Loc (d : Dev nD) : Loc nD τ sig := (SparseCore.T d).loc main_v4

/-- The four host operations: the bank's transpose and flattening before the call, the negatives' unflattening and
    transpose after it. -/
abbrev opT1 : HloOp τ sig (Elt F) := StableHlo.unary main_arg2 main_v0 ((transpose S50x2000x128 [1, 0, 2] · transposes_S2000x50x128_S50x2000x128_1_0_2) : (⟨S2000x50x128, .f32⟩ : BufTy).Contents (Elt F) → (⟨S50x2000x128, .f32⟩ : BufTy).Contents (Elt F))
abbrev opR1 : HloOp τ sig (Elt F) := StableHlo.reshape main_v0 main_v1 rfl shapeCasts_S50x2000x128_S100000x128
abbrev opR2 : HloOp τ sig (Elt F) := StableHlo.reshape main_v2_1 main_v3 rfl shapeCasts_S200704x128_S49x4096x128
abbrev opT2 : HloOp τ sig (Elt F) := StableHlo.unary main_v3 main_v4 ((transpose S4096x49x128 [1, 0, 2] · transposes_S49x4096x128_S4096x49x128_1_0_2) : (⟨S49x4096x128, .f32⟩ : BufTy).Contents (Elt F) → (⟨S4096x49x128, .f32⟩ : BufTy).Contents (Elt F))

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (vLoc d ↦{fullShare} W main_arg1) ∗ (xLoc d ↦{fullShare} W main_arg2)
          ∗ (w0Loc d ↦{fullShare} W main_v0) ∗ (tLoc d ↦{fullShare} W main_v1) ∗ (pLoc d ↦{fullShare} W main_v2_0)
          ∗ (nLoc d ↦{fullShare} W main_v2_1) ∗ (w3Loc d ↦{fullShare} W main_v3) ∗ (w4Loc d ↦{fullShare} W main_v4)) := by
  unfold unscopedBufs
  rw [show (Finset.univ.filter fun b : Ref sig .tc => ¬ b.isScoped)
      = {main_arg0, main_arg1, main_arg2, main_v0, main_v1, main_v2_0, main_v2_1, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
/-- Two whole buffers held: the pair an operation reads and writes. -/
theorem held_pair (d : Dev nD) (r s : Ref sig .tc) (h : r ≠ s) (W : Valuation τ sig (Elt F)) :
    (held (T d) ({Proc.devRef .tc r, Proc.devRef .tc s} : Finset (DevRef τ sig)) W : sProp 𝕄)
      = iprop(((SparseCore.T d).loc r ↦{fullShare} W (Proc.devRef .tc r)) ∗ ((SparseCore.T d).loc s ↦{fullShare} W (Proc.devRef .tc s))) := by
  unfold held
  rw [SparseCore.bigSep_insert' (by rw [Finset.mem_singleton]; exact StableHlo.devRef_ne_of_ne h), bigSep_singleton]

/-- The launch valuation; after the transpose; before the negatives are re-laid; after their unflattening. -/
def V0 (d : Dev nD) : Valuation τ sig (Elt F) := fun b => m (d, b)
def V1 (d : Dev nD) : Valuation τ sig (Elt F) := (opT1 (F := F)).result (V0 m d)
def V3 (d : Dev nD) : Valuation τ sig (Elt F) := Function.update (V0 m d) n' (negOf m d)
def V4 (d : Dev nD) : Valuation τ sig (Elt F) := (opR2 (F := F)).result (V3 m d)

theorem V1_x (d : Dev nD) : (opT1 (F := F)).result (V0 m d) x' = m (xLoc d) :=
  (opT1 (F := F)).result_of_not_mem _ (show x' ∉ ({w0'} : Finset (DevRef τ sig)) by decide)
theorem V1_t (d : Dev nD) : V1 m d t' = m (tLoc d) :=
  (opT1 (F := F)).result_of_not_mem _ (show t' ∉ ({w0'} : Finset (DevRef τ sig)) by decide)
theorem V2_t (d : Dev nD) : (opR1 (F := F)).result (V1 m d) t' = tbl m d := by
  rw [StableHlo.reshape_result]; unfold V1; rw [StableHlo.unary_result]; rfl
theorem V3_n (d : Dev nD) : V3 m d n' = negOf m d := Function.update_self _ _ _
theorem V3_w3 (d : Dev nD) : V3 m d w3' = m (w3Loc d) := Function.update_of_ne (show w3' ≠ n' by decide) _ _
theorem V4_n (d : Dev nD) : (opR2 (F := F)).result (V3 m d) n' = negOf m d :=
  ((opR2 (F := F)).result_of_not_mem _ (show n' ∉ ({w3'} : Finset (DevRef τ sig)) by decide)).trans (V3_n m d)
theorem V4_w4 (d : Dev nD) : V4 m d w4' = m (w4Loc d) :=
  ((opR2 (F := F)).result_of_not_mem _ (show w4' ∉ ({w3'} : Finset (DevRef τ sig)) by decide)).trans
    (Function.update_of_ne (show w4' ≠ n' by decide) _ _)
theorem V5_w4 (d : Dev nD) : (opT2 (F := F)).result (V4 m d) w4' = negOut (negOf m d) := by
  rw [StableHlo.unary_result]; unfold V4; rw [StableHlo.reshape_result, V3_n]; rfl

theorem st0_eq (d : Dev nD) :
    (bigSep Finset.univ fun c : Fin ((K (F := F)).nCore 0) => (P m).st 0 d c) = bigSep Finset.univ fun c : Fin 2 => stRes m d c (m (pLoc d)) (m (nLoc d)) := by
  simp only [P_st]
  exact bigSep_cores (F := F) (fun c => stRes m d c (m (pLoc d)) (m (nLoc d)))
theorem dn0_eq (d : Dev nD) :
    (bigSep Finset.univ fun c : Fin ((K (F := F)).nCore 0) => (P m).dn 0 d c) = bigSep Finset.univ fun c : Fin 2 => stRes m d c (posOf m d) (negOf m d) := by
  simp only [P_dn]
  exact bigSep_cores (F := F) (fun c => stRes m d c (posOf m d) (negOf m d))

/-- What @main leaves the claim: the positives and the returned negatives at the looked-up rows, the three arguments
    at their launch contents. -/
abbrev FIN (d : Dev nD) : sProp 𝕄 :=
  iprop((pLoc d ↦{fullShare} posOf m d) ∗ (w4Loc d ↦{fullShare} negOut (negOf m d))
    ∗ (aLoc d ↦{fullShare} m (aLoc d)) ∗ (vLoc d ↦{fullShare} m (vLoc d)) ∗ (xLoc d ↦{fullShare} m (xLoc d)))

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hv, Hx, Hw0, Ht, Hp, Hn, Hw3, Hw4⟩, -, -⟩, -⟩
  -- the bank transposed
  iapply (wp_hlo_within 𝒱 (SparseCore.T d) none Set.univ (op := opT1) (S := {x', w0'}) (Finset.Subset.refl _) (V := V0 m d)) $$ [Hb Hx Hw0]
  · isplitl [Hb]; · iexact Hb
    rw [held_pair d main_arg2 main_v0 (by decide)]
    isplitl [Hx]; · iexact Hx
    iexact Hw0
  iintro ⟨Hb, Hheld⟩
  rw [wp_ret]; imodintro
  ihave Hh := (Entails.of_eq (held_pair (F := F) d main_arg2 main_v0 (by decide) _)) $$ Hheld
  icases Hh with ⟨Hx, Hw0⟩
  rw [V1_x]
  -- its rows flattened: the table
  iapply (wp_hlo_within 𝒱 (SparseCore.T d) none Set.univ (op := opR1) (S := {w0', t'}) (Finset.Subset.refl _) (V := V1 m d)) $$ [Hb Hw0 Ht]
  · isplitl [Hb]; · iexact Hb
    rw [held_pair d main_v0 main_v1 (by decide), V1_t]
    isplitl [Hw0]; · iexact Hw0
    iexact Ht
  iintro ⟨Hb, Hheld⟩
  rw [wp_ret]; imodintro
  ihave Hh := (Entails.of_eq (held_pair (F := F) d main_v0 main_v1 (by decide) _)) $$ Hheld
  icases Hh with ⟨Hw0, Ht⟩
  rw [V2_t]
  -- the call
  iapply ((K (F := F)).wp_run (D (F := F)) 𝒱 (EH := EH) (P := P m) κ d 0) $$ [Hst Ha Hv Ht Hp Hn Hb Hx Hw0 Hw3 Hw4]
  isplitr; · iexact Hctx
  isplitl [Hst]; · iexact Hst
  isplitl [Ha Hv Ht Hp Hn]
  · rw [st0_eq, ← arrays_split]
    isplitl [Ha]; · iexact Ha
    isplitl [Hv]; · iexact Hv
    isplitl [Ht]; · iexact Ht
    isplitl [Hp]; · iexact Hp
    iexact Hn
  iintro ⟨Hst, Hdn⟩
  ihave Hdn' := (Entails.of_eq ((dn0_eq m d).trans (arrays_split m d (posOf m d) (negOf m d)).symm)) $$ Hdn
  icases Hdn' with ⟨Ha, Hv, Ht, Hp, Hn⟩
  -- the negatives' planes unflattened
  iapply (wp_hlo_within 𝒱 (SparseCore.T d) none Set.univ (op := opR2) (S := {n', w3'}) (Finset.Subset.refl _) (V := V3 m d)) $$ [Hb Hn Hw3]
  · isplitl [Hb]; · iexact Hb
    rw [held_pair d main_v2_1 main_v3 (by decide), V3_n, V3_w3]
    isplitl [Hn]; · iexact Hn
    iexact Hw3
  iintro ⟨Hb, Hheld⟩
  rw [wp_ret]; imodintro
  ihave Hh := (Entails.of_eq (held_pair (F := F) d main_v2_1 main_v3 (by decide) _)) $$ Hheld
  icases Hh with ⟨Hn, Hw3⟩
  -- and moved to the middle axis
  iapply (wp_hlo_within 𝒱 (SparseCore.T d) none Set.univ (op := opT2) (S := {w3', w4'}) (Finset.Subset.refl _) (V := V4 m d)) $$ [Hb Hw3 Hw4]
  · isplitl [Hb]; · iexact Hb
    rw [held_pair d main_v3 main_v4 (by decide), V4_w4]
    isplitl [Hw3]; · iexact Hw3
    iexact Hw4
  iintro ⟨Hb, Hheld⟩
  ihave Hh := (Entails.of_eq (held_pair (F := F) d main_v3 main_v4 (by decide) _)) $$ Hheld
  icases Hh with ⟨Hw3, Hw4⟩
  rw [V5_w4]
  rw [wp_ret]; imodintro; imodintro
  isplitl [Hst]; · iexact Hst
  isplitl [Hp]; · iexact Hp
  isplitl [Hw4]; · iexact Hw4
  isplitl [Ha]; · iexact Ha
  isplitl [Hv]; · iexact Hv
  iexact Hx

def fq (d : Dev nD) (s' : Phys nD τ sig (Elt F)) : Prop :=
  s'.mem.mem (pLoc d) = posOf m d ∧ s'.mem.mem (w4Loc d) = negOut (negOf m d)
    ∧ s'.mem.mem (aLoc d) = m (aLoc d) ∧ s'.mem.mem (vLoc d) = m (vLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Hp, Hw4, Ha, Hv, Hx⟩, HSI⟩
  ihave H := (persistent_entails_right (SI_pointsTo_agree (st := s') (ℓ := pLoc d) (I := Finset.univ) (q := fullShare) (f := posOf m d))) $$ [HSI Hp]
  · isplitl [HSI] <;> iassumption
  icases H with ⟨%h1, HSI, -⟩
  ihave H := (persistent_entails_right (SI_pointsTo_agree (st := s') (ℓ := w4Loc d) (I := Finset.univ) (q := fullShare) (f := negOut (negOf m d)))) $$ [HSI Hw4]
  · isplitl [HSI] <;> iassumption
  icases H with ⟨%h2, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h3, HSI, -⟩
  ihave H := (persistent_entails_right (SI_pointsTo_agree (st := s') (ℓ := vLoc d) (I := Finset.univ) (q := fullShare) (f := m (vLoc d)))) $$ [HSI Hv]
  · isplitl [HSI] <;> iassumption
  icases H with ⟨%h4, HSI, -⟩
  ihave H := (SI_pointsTo_agree (st := s') (ℓ := xLoc d) (I := Finset.univ) (q := fullShare) (f := m (xLoc d))) $$ [HSI Hx]
  · isplitl [HSI] <;> iassumption
  icases H with %h5
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i)⟩

/-! ## The program's run -/

/-- The run of the whole program, its results named: the positives and the returned negatives are the table's rows
    the samples' index words name, the three arguments are unchanged. -/
theorem run_main [∀ e, Nonempty (Elt F e)] (hpre : PreOK m) (hbody : TileBody m) :
    θ_run (Cert.Kernel.defs (F := F)) (Cert.Kernel.threads (F := F)) ⟨m, fun _ => 0, ρ⟩ (fun r => ∀ c : Dev nD,
        r.2.mem ((SparseCore.T c).loc main_v2_0) = posOf m c
      ∧ r.2.mem ((SparseCore.T c).loc main_v4) = negOut (negOf m c)
      ∧ r.2.mem (aLoc c) = m (aLoc c) ∧ r.2.mem (vLoc c) = m (vLoc c) ∧ r.2.mem (xLoc c) = m (xLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts hbody)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.KK

end
-- ==== Proof.GatherValK.lean ====
import proofs.«210835_g78632261255710_cont_9to1_m_350_20_alg».proof.Proof.SpecK
import Idealize.ShloMosaic.Lib.SparseCore.Stream

/-! The indexed copy's payload read at an index: element `(r, l)` of the 128 gathered rows is the table's row
    named by entry `r` of the index list, at lane `l`. -/

noncomputable section

namespace Cert.KK

open Cert.Kernel Cert.Kernel.Gen
open Idealize.ShloMosaic Idealize.ShloMosaic.ValueIdx

variable {F : FTy → Type}

/-- Entry `k` of a list of 128 words, in row-major order, is the word at index `k`. -/
theorem rowMajor_symm_S128 (k : Fin S128.numel) (p : Fin 128) (hp : p.val = k.val) : S128.rowMajor.symm k = ix1 p := by
  rw [Equiv.symm_apply_eq]
  exact Fin.ext (by rw [Shape.rowMajor_val_one]; exact hp.symm)

/-- The gathered rows at `(r, l)`: the table's row that entry `r` of the list names, at lane `l`. -/
theorem gather_row_val (hg : S100000x128.Gathers 0 S128x128) (T : S100000x128.Idx → Elt F .f32)
    (offs : S128.Idx → Elt F .i32) (hn : S128.numel = S128x128.size hg.axis')
    (hin : ∀ x, (offs x).toNat < S100000x128.size hg.axis) (x : S128x128.Idx) :
    SparseCore.gatherPayload hg T (SparseCore.rows offs hn hin) x
      = tblRow T (offs (ix1 (⟨(x 0).val, (x 0).isLt⟩ : Fin 128))) (⟨(x 1).val, (x 1).isLt⟩ : Fin 128) := by
  have hw : (offs (ix1 (⟨(x 0).val, (x 0).isLt⟩ : Fin 128))).toNat < 100000 := hin _
  unfold tblRow
  rw [dif_pos hw]
  unfold SparseCore.gatherPayload
  refine congrArg T (funext fun b => Fin.ext ?_)
  match b with
  | ⟨0, _⟩ =>
    show (hg.idx (SparseCore.rows offs hn hin) x hg.axis).val = _
    rw [Shape.Gathers.idx_axis]
    show (offs (S128.rowMajor.symm ((x hg.axis').cast hn.symm))).toNat = (offs (ix1 (⟨(x 0).val, (x 0).isLt⟩ : Fin 128))).toNat
    exact congrArg (fun p => (offs p).toNat) (rowMajor_symm_S128 _ (⟨(x 0).val, (x 0).isLt⟩ : Fin 128) rfl)
  | ⟨1, _⟩ => exact Shape.Gathers.idx_of_ne hg _ x ⟨1, by decide⟩ (by decide)

end Cert.KK

end
-- ==== Proof.PayValsK.lean ====
/-
  The index words a subcore computes, lane by lane.  A plane's row is stored in eight 16-lane chunks; chunk `c` of plane
  `j` holds, at lane `l`, the word `j * 2000 + a + (2000 if v ≤ j)` of sample `16 c + l`, and the positive index row the
  word `v * 2000 + a`.
-/
import proofs.«210835_g78632261255710_cont_9to1_m_350_20_alg».proof.Proof.SpecK
import Idealize.ShloMosaic.Lib.Writes
import Idealize.ShloMosaic.Lib.Pipeline.Value

noncomputable section

namespace Cert.KK

open Cert.Kernel Cert.Kernel.Gen
open Idealize.ShloMosaic

/-- The lane of a `[1, 16]` index. -/
abbrev lane16 (x : S1x16.Idx) : S16.Idx := ValueIdx.ix1 (⟨(x 1).val, (x 1).isLt⟩ : Fin 16)

theorem reshape_lane (h : S16.ShapeCasts S1x16) (x : S1x16.Idx) : Shape.reshapeEquiv h x = lane16 x := by
  apply Shape.reshapeEquiv_eq_of_rowMajor
  have h0 : (x 0).val = 0 := by have := (x 0).isLt; simp at this; omega
  rw [Shape.rowMajor_val_two, Shape.rowMajor_val_one, h0]
  simp

/-- A plane chunk as the kernel computes it is the plane's word at each lane. -/
theorem chunk_val (iv : BitVec 32) (a16 v16 : S16.Idx → BitVec 32) (h1 h2 : S16.ShapeCasts S16) (h3 : S16.ShapeCasts S1x16) (x : S1x16.Idx) :
    shapeCast S1x16 (addi (addi (broadcast S16 (Scalar.muli iv 2000#32)) (shapeCast S16 a16 h1))
      (select (cmpi .sle (shapeCast S16 v16 h2) (broadcast S16 iv)) (broadcast S16 2000#32) (broadcast S16 0#32))) h3 x
    = nidxW iv (a16 (lane16 x)) (v16 (lane16 x)) := by
  rw [shapeCast_self a16, shapeCast_self v16]
  show (addi _ _) (Shape.reshapeEquiv h3 x) = _
  rw [reshape_lane]
  rfl

/-- A chunk of the positive index row is `v * 2000 + a` at each lane. -/
theorem pchunk_val (a16 v16 : S16.Idx → BitVec 32) (h1 h2 h3 : S16.ShapeCasts S16) (y : S16.Idx) :
    shapeCast S16 (addi (muli (shapeCast S16 v16 h2) (broadcast S16 2000#32)) (shapeCast S16 a16 h1)) h3 y = pidxW (a16 y) (v16 y) := by
  rw [shapeCast_self a16, shapeCast_self v16, shapeCast_self]
  rfl

theorem iv0 (k : ℕ) : Scf.iv 0#32 1#32 k = BitVec.ofNat 32 k := by simp [Scf.iv]
theorem iv4 (k : ℕ) : Scf.iv 4#32 1#32 k = BitVec.ofNat 32 (k + 4) := by
  simp only [Scf.iv, BitVec.mul_one]
  rw [BitVec.add_comm, ← BitVec.ofNat_add_ofNat]

end Cert.KK

end
-- ==== Proof.PlaneValsK.lean ====
import proofs.«210835_g78632261255710_cont_9to1_m_350_20_alg».proof.Proof.PayValsK
import Idealize.ShloMosaic.Lib.Writes

/-! What a subcore's index buffers hold after its 16-lane stores. A 16-lane load of the attributes or the values at
    offset `o` reads the words `o, …, o + 15`; eight 16-lane stores fill one row of the plane buffer with that plane's
    row numbers and leave the other rows as they were; eight 16-lane stores fill the positive index row. -/

noncomputable section

namespace Cert.KK

open Cert.Kernel Cert.Kernel.Gen
open Idealize.ShloMosaic Idealize.ShloMosaic.ValueIdx

variable {F : FTy → Type}

/-- Index planes `lo ≤ j < hi` are filled: every word of row `j` of the plane buffer is the sample's row number for
    plane `j`. -/
def planesOK (fa fv : S128.Idx → Elt F .i32) (lo hi : ℕ) (f3 : S49x128.Idx → Elt F .i32) : Prop :=
  ∀ i : S49x128.Idx, lo ≤ (i 0).val → (i 0).val < hi →
    f3 i = nidxW (BitVec.ofNat 32 (i 0).val) (fa (ValueIdx.ix1 (i 1))) (fv (ValueIdx.ix1 (i 1)))

/-! ## A 16-lane load -/

/-- Where lane `y` of a 16-lane window at offset `o` of a 128-word buffer sits. -/
theorem unit16_idx (o : ℕ) (ho : o + 16 ≤ 128) (h : ∀ a, (![o] : Fin 1 → ℕ) a + S16.size a ≤ S128.size a) (y : S16.Idx) :
    (Rect.unit (s := S128) ![o] S16.size h).toLoadRect.idx y
      = ix1 (⟨o + (y 0).val, by have := (y 0).isLt; simp at this; omega⟩ : Fin 128) := by
  funext a
  match a with
  | ⟨0, _⟩ => exact Fin.ext (by show o + 1 * (y 0).val = o + (y 0).val; omega)

/-- A 16-lane load of the attributes at offset `o` reads the words `o + l`. -/
theorem load16_val0 (o : ℕ) (ho : o + 16 ≤ 128) (h : ∀ a, (![o] : Fin 1 → ℕ) a + S16.size a ≤ S128.size a)
    (f : S128.Idx → Elt F .i32) (y : S16.Idx) :
    View.readAt (Elt F) (Memref.whole cc0_scratch0).view (Rect.unit (s := S128) ![o] S16.size h).toLoadRect f y
      = f (ix1 (⟨o + (y 0).val, by have := (y 0).isLt; simp at this; omega⟩ : Fin 128)) := by
  show f ((Rect.unit (s := S128) ![o] S16.size h).toLoadRect.idx y) = _
  rw [unit16_idx o ho h y]

/-- A 16-lane load of the values at offset `o` reads the words `o + l`. -/
theorem load16_val1 (o : ℕ) (ho : o + 16 ≤ 128) (h : ∀ a, (![o] : Fin 1 → ℕ) a + S16.size a ≤ S128.size a)
    (f : S128.Idx → Elt F .i32) (y : S16.Idx) :
    View.readAt (Elt F) (Memref.whole cc0_scratch1).view (Rect.unit (s := S128) ![o] S16.size h).toLoadRect f y
      = f (ix1 (⟨o + (y 0).val, by have := (y 0).isLt; simp at this; omega⟩ : Fin 128)) := by
  show f ((Rect.unit (s := S128) ![o] S16.size h).toLoadRect.idx y) = _
  rw [unit16_idx o ho h y]

/-! ## One row of the plane buffer -/

/-- Plane `r`'s row numbers as a function on the plane buffer's indices. -/
def rowWord (fa fv : S128.Idx → Elt F .i32) (r : ℕ) (y : S49x128.Idx) : Elt F .i32 :=
  nidxW (BitVec.ofNat 32 r) (fa (ix1 (⟨(y 1).val, (y 1).isLt⟩ : Fin 128))) (fv (ix1 (⟨(y 1).val, (y 1).isLt⟩ : Fin 128)))

/-- Eight 16-lane stores of plane `r`'s row numbers into row `r` fill that row and touch no other: the planes
    filled before stay filled. -/
theorem planes_step (fa fv : S128.Idx → Elt F .i32) (lo r : ℕ) (hr : r < 49) (f3 : S49x128.Idx → Elt F .i32)
    (hok : planesOK fa fv lo r f3) (o : Fin 8 → Fin 2 → ℕ) (ho : ∀ c, o c = ![r, 16 * c.val])
    (hb : ∀ c a, o c a + S1x16.size a ≤ S49x128.size a) (P : Fin 8 → S1x16.Idx → Elt F .i32)
    (hP : ∀ c x, P c x = nidxW (BitVec.ofNat 32 r) (fa (ix1 (⟨16 * c.val + (x 1).val, by have := c.isLt; have h16 := (x 1).isLt; simp at h16; omega⟩ : Fin 128)))
      (fv (ix1 (⟨16 * c.val + (x 1).val, by have := c.isLt; have h16 := (x 1).isLt; simp at h16; omega⟩ : Fin 128)))) :
    planesOK fa fv lo (r + 1)
      ((Memref.whole cc0_scratch3 : Memref sig .scVector .vmem S49x128 .i32).view.writes (Elt F) f3
        [⟨Rect.unit (o 7) S1x16.size (hb 7), P 7⟩,
        ⟨Rect.unit (o 6) S1x16.size (hb 6), P 6⟩,
        ⟨Rect.unit (o 5) S1x16.size (hb 5), P 5⟩,
        ⟨Rect.unit (o 4) S1x16.size (hb 4), P 4⟩,
        ⟨Rect.unit (o 3) S1x16.size (hb 3), P 3⟩,
        ⟨Rect.unit (o 2) S1x16.size (hb 2), P 2⟩,
        ⟨Rect.unit (o 1) S1x16.size (hb 1), P 1⟩,
        ⟨Rect.unit (o 0) S1x16.size (hb 0), P 0⟩]) := by
  intro i hi0 hi1
  generalize hL : ([⟨Rect.unit (o 7) S1x16.size (hb 7), P 7⟩,
        ⟨Rect.unit (o 6) S1x16.size (hb 6), P 6⟩,
        ⟨Rect.unit (o 5) S1x16.size (hb 5), P 5⟩,
        ⟨Rect.unit (o 4) S1x16.size (hb 4), P 4⟩,
        ⟨Rect.unit (o 3) S1x16.size (hb 3), P 3⟩,
        ⟨Rect.unit (o 2) S1x16.size (hb 2), P 2⟩,
        ⟨Rect.unit (o 1) S1x16.size (hb 1), P 1⟩,
        ⟨Rect.unit (o 0) S1x16.size (hb 0), P 0⟩] : List (View.Piece (Elt F) S49x128 .i32)) = L
  have hmem : ∀ p ∈ L, ∃ c : Fin 8, p = ⟨Rect.unit (o c) S1x16.size (hb c), P c⟩ := by
    intro p hp
    rw [← hL] at hp
    simp only [List.mem_cons, List.mem_nil_iff, or_false] at hp
    rcases hp with rfl | rfl | rfl | rfl | rfl | rfl | rfl | rfl
    exacts [⟨7, rfl⟩, ⟨6, rfl⟩, ⟨5, rfl⟩, ⟨4, rfl⟩, ⟨3, rfl⟩, ⟨2, rfl⟩, ⟨1, rfl⟩, ⟨0, rfl⟩]
  have hmem' : ∀ c : Fin 8, (⟨Rect.unit (o c) S1x16.size (hb c), P c⟩ : View.Piece (Elt F) S49x128 .i32) ∈ L := by
    intro c
    rw [← hL]
    fin_cases c <;> (
      first
      | exact List.mem_cons_self
      | exact List.mem_cons_of_mem _ (List.mem_cons_self)
      | exact List.mem_cons_of_mem _ (List.mem_cons_of_mem _ (List.mem_cons_self))
      | exact List.mem_cons_of_mem _ (List.mem_cons_of_mem _ (List.mem_cons_of_mem _ (List.mem_cons_self)))
      | exact List.mem_cons_of_mem _ (List.mem_cons_of_mem _ (List.mem_cons_of_mem _ (List.mem_cons_of_mem _ (List.mem_cons_self))))
      | exact List.mem_cons_of_mem _ (List.mem_cons_of_mem _ (List.mem_cons_of_mem _ (List.mem_cons_of_mem _ (List.mem_cons_of_mem _ (List.mem_cons_self)))))
      | exact List.mem_cons_of_mem _ (List.mem_cons_of_mem _ (List.mem_cons_of_mem _ (List.mem_cons_of_mem _ (List.mem_cons_of_mem _ (List.mem_cons_of_mem _ (List.mem_cons_self))))))
      | exact List.mem_cons_of_mem _ (List.mem_cons_of_mem _ (List.mem_cons_of_mem _ (List.mem_cons_of_mem _ (List.mem_cons_of_mem _ (List.mem_cons_of_mem _ (List.mem_cons_of_mem _ (List.mem_cons_self))))))))
  have hset : ∀ (c : Fin 8) (y : S49x128.Idx), y ∈ (Rect.unit (s := S49x128) (o c) S1x16.size (hb c)).set
      ↔ ((y 0).val = r ∧ 16 * c.val ≤ (y 1).val ∧ (y 1).val < 16 * c.val + 16) := by
    intro c y
    rw [Rect.mem_set_unit, ho c]
    constructor
    · intro h
      have h0 := h 0
      have h1 := h 1
      change r ≤ (y 0).val ∧ (y 0).val < r + 1 at h0
      change 16 * c.val ≤ (y 1).val ∧ (y 1).val < 16 * c.val + 16 at h1
      omega
    · intro h a
      match a with
      | ⟨0, _⟩ => show r ≤ (y 0).val ∧ (y 0).val < r + 1; omega
      | ⟨1, _⟩ => show 16 * c.val ≤ (y 1).val ∧ (y 1).val < 16 * c.val + 16; omega
  show (Memref.whole cc0_scratch3 : Memref sig .scVector .vmem S49x128 .i32).view.read (Elt F)
    ((Memref.whole cc0_scratch3 : Memref sig .scVector .vmem S49x128 .i32).view.writes (Elt F) f3 L) i = _
  by_cases hri : (i 0).val < r
  · refine (View.read_writes_apply_of_forall_not_mem (Memref.whole cc0_scratch3 : Memref sig .scVector .vmem S49x128 .i32).view f3 i L (fun p hp => by
      obtain ⟨c, rfl⟩ := hmem p hp
      rw [hset]; omega)).trans ?_
    exact hok i hi0 hri
  · have hir : (i 0).val = r := by omega
    have h128 : (i 1).val < 128 := (i 1).isLt
    have hc : (i 1).val / 16 < 8 := by omega
    refine (View.read_writes_apply_of_pieces (Memref.whole cc0_scratch3 : Memref sig .scVector .vmem S49x128 .i32).view f3 (rowWord fa fv r) L ?_ i
      ⟨_, hmem' ⟨(i 1).val / 16, hc⟩, (hset _ _).2 ⟨hir, by show 16 * ((i 1).val / 16) ≤ _; omega, by show _ < 16 * ((i 1).val / 16) + 16; omega⟩⟩).trans ?_
    · intro p hp x
      obtain ⟨c, rfl⟩ := hmem p hp
      show P c x = rowWord fa fv r ((Rect.unit (s := S49x128) (o c) S1x16.size (hb c)).emb x)
      rw [hP c x]
      unfold rowWord
      have e : (⟨((Rect.unit (s := S49x128) (o c) S1x16.size (hb c)).emb x 1).val, ((Rect.unit (s := S49x128) (o c) S1x16.size (hb c)).emb x 1).isLt⟩ : Fin 128)
          = (⟨16 * c.val + (x 1).val, by have := c.isLt; have h16 := (x 1).isLt; simp at h16; omega⟩ : Fin 128) :=
        Fin.ext (by
          show o c 1 + 1 * (x 1).val = 16 * c.val + (x 1).val
          have h1 : o c 1 = 16 * c.val := congrFun (ho c) 1
          omega)
      rw [e]
    · unfold rowWord
      rw [hir]
      rfl

/-- The same, said beside any set of the buffer's elements a proof happens to hold: the contents function after the
    eight stores does not depend on which elements are held. -/
theorem planes_step_on (S : Finset S49x128.Idx) (fa fv : S128.Idx → Elt F .i32) (lo r : ℕ) (hr : r < 49)
    (f3 : S49x128.Idx → Elt F .i32) (hok : planesOK fa fv lo r f3) (o : Fin 8 → Fin 2 → ℕ) (ho : ∀ c, o c = ![r, 16 * c.val])
    (hb : ∀ c a, o c a + S1x16.size a ≤ S49x128.size a) (P : Fin 8 → S1x16.Idx → Elt F .i32)
    (hP : ∀ c x, P c x = nidxW (BitVec.ofNat 32 r) (fa (ix1 (⟨16 * c.val + (x 1).val, by have := c.isLt; have h16 := (x 1).isLt; simp at h16; omega⟩ : Fin 128)))
      (fv (ix1 (⟨16 * c.val + (x 1).val, by have := c.isLt; have h16 := (x 1).isLt; simp at h16; omega⟩ : Fin 128)))) :
    planesOK fa fv lo (r + 1)
      ((Memref.whole cc0_scratch3 : Memref sig .scVector .vmem S49x128 .i32).view.writes (Elt F) f3
        [⟨Rect.unit (o 7) S1x16.size (hb 7), P 7⟩,
        ⟨Rect.unit (o 6) S1x16.size (hb 6), P 6⟩,
        ⟨Rect.unit (o 5) S1x16.size (hb 5), P 5⟩,
        ⟨Rect.unit (o 4) S1x16.size (hb 4), P 4⟩,
        ⟨Rect.unit (o 3) S1x16.size (hb 3), P 3⟩,
        ⟨Rect.unit (o 2) S1x16.size (hb 2), P 2⟩,
        ⟨Rect.unit (o 1) S1x16.size (hb 1), P 1⟩,
        ⟨Rect.unit (o 0) S1x16.size (hb 0), P 0⟩]) :=
  planes_step fa fv lo r hr f3 hok o ho hb P hP

/-! ## The positive index row -/

/-- Eight 16-lane stores of the positive row numbers fill the positive index row, whatever it held. -/
theorem pidx_row (fa fv : S128.Idx → Elt F .i32) (o : Fin 8 → Fin 1 → ℕ) (ho : ∀ c, o c = ![16 * c.val])
    (hb : ∀ c a, o c a + S16.size a ≤ S128.size a) (Q : Fin 8 → S16.Idx → Elt F .i32)
    (hQ : ∀ c y, Q c y = pidxW (fa (ix1 (⟨16 * c.val + (y 0).val, by have := c.isLt; have h16 := (y 0).isLt; simp at h16; omega⟩ : Fin 128))) (fv (ix1 (⟨16 * c.val + (y 0).val, by have := c.isLt; have h16 := (y 0).isLt; simp at h16; omega⟩ : Fin 128))))
    (g : S128.Idx → Elt F .i32) (s : S128.Idx) :
    (Memref.whole cc0_scratch2 : Memref sig .scVector .vmem S128 .i32).view.writes (Elt F) g
        [⟨Rect.unit (o 7) S16.size (hb 7), Q 7⟩,
        ⟨Rect.unit (o 6) S16.size (hb 6), Q 6⟩,
        ⟨Rect.unit (o 5) S16.size (hb 5), Q 5⟩,
        ⟨Rect.unit (o 4) S16.size (hb 4), Q 4⟩,
        ⟨Rect.unit (o 3) S16.size (hb 3), Q 3⟩,
        ⟨Rect.unit (o 2) S16.size (hb 2), Q 2⟩,
        ⟨Rect.unit (o 1) S16.size (hb 1), Q 1⟩,
        ⟨Rect.unit (o 0) S16.size (hb 0), Q 0⟩] s
      = pidxW (fa s) (fv s) := by
  generalize hL : ([⟨Rect.unit (o 7) S16.size (hb 7), Q 7⟩,
        ⟨Rect.unit (o 6) S16.size (hb 6), Q 6⟩,
        ⟨Rect.unit (o 5) S16.size (hb 5), Q 5⟩,
        ⟨Rect.unit (o 4) S16.size (hb 4), Q 4⟩,
        ⟨Rect.unit (o 3) S16.size (hb 3), Q 3⟩,
        ⟨Rect.unit (o 2) S16.size (hb 2), Q 2⟩,
        ⟨Rect.unit (o 1) S16.size (hb 1), Q 1⟩,
        ⟨Rect.unit (o 0) S16.size (hb 0), Q 0⟩] : List (View.Piece (Elt F) S128 .i32)) = L
  have hmem : ∀ p ∈ L, ∃ c : Fin 8, p = ⟨Rect.unit (o c) S16.size (hb c), Q c⟩ := by
    intro p hp
    rw [← hL] at hp
    simp only [List.mem_cons, List.mem_nil_iff, or_false] at hp
    rcases hp with rfl | rfl | rfl | rfl | rfl | rfl | rfl | rfl
    exacts [⟨7, rfl⟩, ⟨6, rfl⟩, ⟨5, rfl⟩, ⟨4, rfl⟩, ⟨3, rfl⟩, ⟨2, rfl⟩, ⟨1, rfl⟩, ⟨0, rfl⟩]
  have hmem' : ∀ c : Fin 8, (⟨Rect.unit (o c) S16.size (hb c), Q c⟩ : View.Piece (Elt F) S128 .i32) ∈ L := by
    intro c
    rw [← hL]
    fin_cases c <;> (
      first
      | exact List.mem_cons_self
      | exact List.mem_cons_of_mem _ (List.mem_cons_self)
      | exact List.mem_cons_of_mem _ (List.mem_cons_of_mem _ (List.mem_cons_self))
      | exact List.mem_cons_of_mem _ (List.mem_cons_of_mem _ (List.mem_cons_of_mem _ (List.mem_cons_self)))
      | exact List.mem_cons_of_mem _ (List.mem_cons_of_mem _ (List.mem_cons_of_mem _ (List.mem_cons_of_mem _ (List.mem_cons_self))))
      | exact List.mem_cons_of_mem _ (List.mem_cons_of_mem _ (List.mem_cons_of_mem _ (List.mem_cons_of_mem _ (List.mem_cons_of_mem _ (List.mem_cons_self)))))
      | exact List.mem_cons_of_mem _ (List.mem_cons_of_mem _ (List.mem_cons_of_mem _ (List.mem_cons_of_mem _ (List.mem_cons_of_mem _ (List.mem_cons_of_mem _ (List.mem_cons_self))))))
      | exact List.mem_cons_of_mem _ (List.mem_cons_of_mem _ (List.mem_cons_of_mem _ (List.mem_cons_of_mem _ (List.mem_cons_of_mem _ (List.mem_cons_of_mem _ (List.mem_cons_of_mem _ (List.mem_cons_self))))))))
  have hset : ∀ (c : Fin 8) (y : S128.Idx), y ∈ (Rect.unit (s := S128) (o c) S16.size (hb c)).set
      ↔ (16 * c.val ≤ (y 0).val ∧ (y 0).val < 16 * c.val + 16) := by
    intro c y
    rw [Rect.mem_set_unit, ho c]
    constructor
    · intro h
      exact h 0
    · intro h a
      match a with
      | ⟨0, _⟩ => exact h
  have h128 : (s 0).val < 128 := (s 0).isLt
  have hc : (s 0).val / 16 < 8 := by omega
  show (Memref.whole cc0_scratch2 : Memref sig .scVector .vmem S128 .i32).view.read (Elt F)
    ((Memref.whole cc0_scratch2 : Memref sig .scVector .vmem S128 .i32).view.writes (Elt F) g L) s = _
  refine View.read_writes_apply_of_pieces (Memref.whole cc0_scratch2 : Memref sig .scVector .vmem S128 .i32).view g (fun s => pidxW (fa s) (fv s)) L ?_ s
    ⟨_, hmem' ⟨(s 0).val / 16, hc⟩, (hset _ _).2 ⟨by show 16 * ((s 0).val / 16) ≤ _; omega, by show _ < 16 * ((s 0).val / 16) + 16; omega⟩⟩
  intro p hp y
  obtain ⟨c, rfl⟩ := hmem p hp
  show Q c y = pidxW (fa ((Rect.unit (s := S128) (o c) S16.size (hb c)).emb y)) (fv ((Rect.unit (s := S128) (o c) S16.size (hb c)).emb y))
  have e : (Rect.unit (s := S128) (o c) S16.size (hb c)).emb y = ix1 (⟨16 * c.val + (y 0).val, by have := c.isLt; have h16 := (y 0).isLt; simp at h16; omega⟩ : Fin 128) := by
    funext a
    match a with
    | ⟨0, _⟩ =>
      exact Fin.ext (by
        show o c 0 + 1 * (y 0).val = 16 * c.val + (y 0).val
        have h1 : o c 0 = 16 * c.val := congrFun (ho c) 0
        omega)
  rw [hQ c y, e]

end Cert.KK

end
-- ==== Proof.SliceValsK.lean ====
/-
  The gathered rows are the outputs' rows.  Subcore `L` holds samples `base L + [0, 128)`: its attribute and value
  words are the arrays' words at those samples.  Row `s` of its block of negative plane `j` is row
  `4096 j + base L + s` of the plane-major negatives, whose plane is `j` and whose sample is `base L + s` (the
  quotient and remainder by 4096, as `base L + s < 4096`); row `s` of its block of the positives is row `base L + s`.
  So the table's row named by the subcore's index word for (plane `j`, local sample `s`), or by its positive index word
  for local sample `s`, is the specified output at that row.
-/
import proofs.«210835_g78632261255710_cont_9to1_m_350_20_alg».proof.Proof.TileSpecK
import proofs.«210835_g78632261255710_cont_9to1_m_350_20_alg».proof.Proof.GatherValK
import proofs.«210835_g78632261255710_cont_9to1_m_350_20_alg».proof.Proof.PlaneValsK

noncomputable section

namespace Cert.KK

open Cert.Kernel Cert.Kernel.Gen
open Idealize.ShloMosaic Idealize.ShloMosaic.ValueIdx
open Idealize.ShloMosaic.SparseCore (S V T)

variable {F : FTy → Type}

variable (m : (ℓ : Loc nD τ sig) → Buf (Elt F) ℓ)

/-! ## Where a subcore's rows sit -/

theorem base_le (L : grid0.Coords) : base L + 128 ≤ 4096 := by
  have h0 : (L 0).val < 2 := (L 0).isLt
  have h1 : (L 1).val < 16 := (L 1).isLt
  show 256 * (L 1).val + 128 * (L 0).val + 128 ≤ 4096; omega

theorem base_add_lt (L : grid0.Coords) (s : Fin 128) : base L + s.val < 4096 := by
  have := base_le L; have := s.isLt; omega

/-- Word `s` of the subcore's slice of the attributes (or of the values) is word `base L + s` of the array. -/
theorem aRow_emb (L : grid0.Coords) (s : S128.Idx) :
    (aRowK L).view.emb s = ix1 (⟨base L + (s 0).val, base_add_lt L ⟨(s 0).val, (s 0).isLt⟩⟩ : Fin 4096) := by
  funext a
  match a with
  | ⟨0, _⟩ => exact Fin.ext (by show k0_off1 L 0 + 1 * (s 0).val = base L + (s 0).val; rw [congrFun (k0_off1_eq L) 0]; show base L + 1 * (s 0).val = _; omega)
theorem vRow_emb (L : grid0.Coords) (s : S128.Idx) :
    (vRowK L).view.emb s = ix1 (⟨base L + (s 0).val, base_add_lt L ⟨(s 0).val, (s 0).isLt⟩⟩ : Fin 4096) := by
  funext a
  match a with
  | ⟨0, _⟩ => exact Fin.ext (by show k0_off1 L 0 + 1 * (s 0).val = base L + (s 0).val; rw [congrFun (k0_off1_eq L) 0]; show base L + 1 * (s 0).val = _; omega)

/-- The slice of the attributes read at local sample `s`. -/
theorem aRow_read (d : Dev nD) (L : grid0.Coords) (s : Fin 128) :
    (aRowK L).view.read (Elt F) (m (aLoc d)) (ix1 s) = m (aLoc d) (ix1 (⟨base L + s.val, base_add_lt L s⟩ : Fin 4096)) := by
  rw [View.read_apply, aRow_emb]; rfl
theorem vRow_read (d : Dev nD) (L : grid0.Coords) (s : Fin 128) :
    (vRowK L).view.read (Elt F) (m (vLoc d)) (ix1 s) = m (vLoc d) (ix1 (⟨base L + s.val, base_add_lt L s⟩ : Fin 4096)) := by
  rw [View.read_apply, vRow_emb]; rfl

/-! ## The outputs at a subcore's rows -/

/-- Row `4096 j + b` of the plane-major negatives is the table's row for plane `j` of sample `b`. -/
theorem Gneg_row (A Vv : S4096.Idx → BitVec 32) (T : S100000x128.Idx → Elt F .f32) (i : S200704x128.Idx)
    (j : ℕ) (b : Fin 4096) (h0 : (i 0).val = 4096 * j + b.val) :
    Gneg A Vv T i = tblRow T (nidxW (BitVec.ofNat 32 j) (A (ix1 b)) (Vv (ix1 b))) (i 1) := by
  have e1 : (i 0).val / 4096 = j := by have := b.isLt; omega
  have e2 : (⟨(i 0).val % 4096, Nat.mod_lt _ (by decide)⟩ : Fin 4096) = b :=
    Fin.ext (by show (i 0).val % 4096 = b.val; have := b.isLt; omega)
  unfold Gneg
  rw [e1, e2]

/-- Where element `x` of the subcore's block of negative plane `j` sits in the plane-major negatives. -/
theorem nRow_emb0 (L : grid0.Coords) (j : Fin 49) (x : S128x128.Idx) :
    (((nRowK L j).view.emb x : S200704x128.Idx) 0).val = 4096 * j.val + (base L + (x 0).val) := by
  show 4096 * j.val + base L + 1 * (x 0).val = _; omega
theorem nRow_emb1 (L : grid0.Coords) (j : Fin 49) (x : S128x128.Idx) :
    ((nRowK L j).view.emb x : S200704x128.Idx) 1 = (⟨(x 1).val, (x 1).isLt⟩ : Fin 128) :=
  Fin.ext (by show 0 + 1 * (x 1).val = (x 1).val; omega)
/-- Where element `x` of the subcore's block of the positives sits in the positives. -/
theorem pRow_emb0 (L : grid0.Coords) (x : S128x128.Idx) :
    ((pRowK L).view.emb x : S4096x128.Idx) 0 = (⟨base L + (x 0).val, base_add_lt L ⟨(x 0).val, (x 0).isLt⟩⟩ : Fin 4096) :=
  Fin.ext (by show k0_off29 L 0 + 1 * (x 0).val = base L + (x 0).val; rw [congrFun (k0_off29_eq L) 0]; show base L + 1 * (x 0).val = _; omega)
theorem pRow_emb1 (L : grid0.Coords) (x : S128x128.Idx) :
    ((pRowK L).view.emb x : S4096x128.Idx) 1 = (⟨(x 1).val, (x 1).isLt⟩ : Fin 128) :=
  Fin.ext (by show k0_off29 L 1 + 1 * (x 1).val = (x 1).val; rw [congrFun (k0_off29_eq L) 1]; show 0 + 1 * (x 1).val = _; omega)

/-- The table's row named by the subcore's index word for plane `j`, local sample `x 0`, at lane `x 1`, is the
    plane-major negatives at the subcore's block of plane `j`. -/
theorem neg_slice_val (d : Dev nD) (L : grid0.Coords) (fa fv : S128.Idx → Elt F .i32) (f3 : S49x128.Idx → Elt F .i32)
    (hfa : ∀ s : Fin 128, fa (ix1 s) = m (aLoc d) (ix1 (⟨base L + s.val, base_add_lt L s⟩ : Fin 4096)))
    (hfv : ∀ s : Fin 128, fv (ix1 s) = m (vLoc d) (ix1 (⟨base L + s.val, base_add_lt L s⟩ : Fin 4096)))
    (h3 : planesOK fa fv 0 49 f3) (j : Fin 49) (x : S128x128.Idx) :
    tblRow (tbl m d) (f3 (ix2 j (⟨(x 0).val, (x 0).isLt⟩ : Fin 128))) (⟨(x 1).val, (x 1).isLt⟩ : Fin 128)
      = negOf m d ((nRowK L j).view.emb x) := by
  rw [h3 (ix2 j (⟨(x 0).val, (x 0).isLt⟩ : Fin 128)) (Nat.zero_le _) j.isLt]
  show tblRow (tbl m d) (nidxW (BitVec.ofNat 32 j.val) (fa (ix1 (⟨(x 0).val, (x 0).isLt⟩ : Fin 128))) (fv (ix1 (⟨(x 0).val, (x 0).isLt⟩ : Fin 128))))
      (⟨(x 1).val, (x 1).isLt⟩ : Fin 128) = Gneg (m (aLoc d)) (m (vLoc d)) (tbl m d) ((nRowK L j).view.emb x)
  rw [hfa, hfv, Gneg_row (m (aLoc d)) (m (vLoc d)) (tbl m d) ((nRowK L j).view.emb x) j.val
    (⟨base L + (x 0).val, base_add_lt L ⟨(x 0).val, (x 0).isLt⟩⟩ : Fin 4096) (nRow_emb0 L j x), nRow_emb1]

/-- The table's row named by the subcore's positive index word for local sample `x 0`, at lane `x 1`, is the
    positives at the subcore's block. -/
theorem pos_slice_val (d : Dev nD) (L : grid0.Coords) (fa fv p2 : S128.Idx → Elt F .i32)
    (hfa : ∀ s : Fin 128, fa (ix1 s) = m (aLoc d) (ix1 (⟨base L + s.val, base_add_lt L s⟩ : Fin 4096)))
    (hfv : ∀ s : Fin 128, fv (ix1 s) = m (vLoc d) (ix1 (⟨base L + s.val, base_add_lt L s⟩ : Fin 4096)))
    (hp2 : ∀ s : S128.Idx, p2 s = pidxW (fa s) (fv s)) (x : S128x128.Idx) :
    tblRow (tbl m d) (p2 (ix1 (⟨(x 0).val, (x 0).isLt⟩ : Fin 128))) (⟨(x 1).val, (x 1).isLt⟩ : Fin 128)
      = posOf m d ((pRowK L).view.emb x) := by
  rw [hp2, hfa, hfv]
  show _ = Gpos (m (aLoc d)) (m (vLoc d)) (tbl m d) ((pRowK L).view.emb x)
  unfold Gpos
  rw [pRow_emb0, pRow_emb1]

/-! ## Through the indexed copy -/

/-- The indexed copy of the positives' rows: its payload at `x` is the positives at the subcore's block. -/
theorem pos_gather_val (d : Dev nD) (L : grid0.Coords) (fa fv offs : S128.Idx → Elt F .i32)
    (hfa : ∀ s : Fin 128, fa (ix1 s) = m (aLoc d) (ix1 (⟨base L + s.val, base_add_lt L s⟩ : Fin 4096)))
    (hfv : ∀ s : Fin 128, fv (ix1 s) = m (vLoc d) (ix1 (⟨base L + s.val, base_add_lt L s⟩ : Fin 4096)))
    (hp2 : ∀ s : S128.Idx, offs s = pidxW (fa s) (fv s))
    (hg : S100000x128.Gathers 0 S128x128) (hn : S128.numel = S128x128.size hg.axis')
    (hin : ∀ s, (offs s).toNat < S100000x128.size hg.axis) (x : S128x128.Idx) :
    SparseCore.gatherPayload hg (tbl m d) (SparseCore.rows offs hn hin) x = posOf m d ((pRowK L).view.emb x) := by
  rw [gather_row_val]
  exact pos_slice_val m d L fa fv offs hfa hfv hp2 x

/-- The indexed copy of plane `j`'s rows, from any list that holds row `j` of the plane buffer. -/
theorem neg_gather_val' (d : Dev nD) (L : grid0.Coords) (fa fv : S128.Idx → Elt F .i32) (f3 : S49x128.Idx → Elt F .i32)
    (hfa : ∀ s : Fin 128, fa (ix1 s) = m (aLoc d) (ix1 (⟨base L + s.val, base_add_lt L s⟩ : Fin 4096)))
    (hfv : ∀ s : Fin 128, fv (ix1 s) = m (vLoc d) (ix1 (⟨base L + s.val, base_add_lt L s⟩ : Fin 4096)))
    (h3 : planesOK fa fv 0 49 f3) (j : Fin 49) (offs : S128.Idx → Elt F .i32)
    (hoffs : ∀ s : S128.Idx, offs s = f3 (ix2 j (⟨(s 0).val, (s 0).isLt⟩ : Fin 128)))
    (hg : S100000x128.Gathers 0 S128x128) (hn : S128.numel = S128x128.size hg.axis')
    (hin : ∀ s, (offs s).toNat < S100000x128.size hg.axis) (x : S128x128.Idx) :
    SparseCore.gatherPayload hg (tbl m d) (SparseCore.rows offs hn hin) x = negOf m d ((nRowK L j).view.emb x) := by
  rw [gather_row_val, hoffs]
  exact neg_slice_val m d L fa fv f3 hfa hfv h3 j x

/-- Row `o 0` of the plane buffer as the list of 128 words an indexed copy reads: the row sliced out and its unit axis
    dropped. -/
abbrev planeRow (o : Fin 2 → ℕ) (h : ∀ a, o a + S1x128.size a ≤ S49x128.size a) : Memref sig .scVector .vmem S128 .i32 :=
  ((Memref.whole cc0_scratch3).slice (Rect.unit (s := S49x128) o S1x128.size h) (fun _ => rfl)).squeeze S128 squeezes_S1x128_S128

/-- Dropping the unit axis: word `s` of the list is element `(0, s)` of the one-row block. -/
theorem squeeze_row (h : S128.numel = S1x128.numel) (s : S128.Idx) :
    Shape.reshapeEquiv h s = (ix2 (0 : Fin 1) (⟨(s 0).val, (s 0).isLt⟩ : Fin 128) : S1x128.Idx) := by
  apply Shape.reshapeEquiv_eq_of_rowMajor
  rw [Shape.rowMajor_val_two, Shape.rowMajor_val_one]
  show 0 * 128 + (s 0).val = (s 0).val
  omega

theorem planeRow_emb (o : Fin 2 → ℕ) (h : ∀ a, o a + S1x128.size a ≤ S49x128.size a) (j : Fin 49) (ho0 : o 0 = j.val) (ho1 : o 1 = 0)
    (s : S128.Idx) : ((planeRow o h).view.emb s : S49x128.Idx) = ix2 j (⟨(s 0).val, (s 0).isLt⟩ : Fin 128) := by
  show (Rect.unit (s := S49x128) o S1x128.size h).emb (Shape.reshapeEquiv squeezes_S1x128_S128.numel_eq s) = _
  rw [squeeze_row]
  funext a
  match a with
  | ⟨0, _⟩ => exact Fin.ext (by show o 0 + 1 * 0 = j.val; omega)
  | ⟨1, _⟩ => exact Fin.ext (by show o 1 + 1 * (s 0).val = (s 0).val; omega)

/-- The list read off the plane buffer at contents `f3`: word `s` is `f3` at `(j, s)`. -/
theorem planeRow_read (o : Fin 2 → ℕ) (h : ∀ a, o a + S1x128.size a ≤ S49x128.size a) (j : Fin 49) (ho0 : o 0 = j.val) (ho1 : o 1 = 0)
    (f3 : S49x128.Idx → Elt F .i32) (s : S128.Idx) :
    (planeRow o h).view.read (Elt F) f3 s = f3 (ix2 j (⟨(s 0).val, (s 0).isLt⟩ : Fin 128)) := by
  rw [View.read_apply, planeRow_emb o h j ho0 ho1]; rfl

/-- The indexed copy of plane `j`'s rows, its list read off row `j` of the plane buffer. -/
theorem neg_gather_val (d : Dev nD) (L : grid0.Coords) (fa fv : S128.Idx → Elt F .i32) (f3 : S49x128.Idx → Elt F .i32)
    (hfa : ∀ s : Fin 128, fa (ix1 s) = m (aLoc d) (ix1 (⟨base L + s.val, base_add_lt L s⟩ : Fin 4096)))
    (hfv : ∀ s : Fin 128, fv (ix1 s) = m (vLoc d) (ix1 (⟨base L + s.val, base_add_lt L s⟩ : Fin 4096)))
    (h3 : planesOK fa fv 0 49 f3) (j : Fin 49)
    (o : Fin 2 → ℕ) (h : ∀ a, o a + S1x128.size a ≤ S49x128.size a) (ho0 : o 0 = j.val) (ho1 : o 1 = 0)
    (hg : S100000x128.Gathers 0 S128x128) (hn : S128.numel = S128x128.size hg.axis')
    (hin : ∀ s, ((planeRow o h).view.read (Elt F) f3 s).toNat < S100000x128.size hg.axis) (x : S128x128.Idx) :
    SparseCore.gatherPayload hg (tbl m d) (SparseCore.rows ((planeRow o h).view.read (Elt F) f3) hn hin) x
      = negOf m d ((nRowK L j).view.emb x) :=
  neg_gather_val' m d L fa fv f3 hfa hfv h3 j _ (planeRow_read o h j ho0 ho1 f3) hg hn hin x

end Cert.KK

end
-- ==== Proof.RingDefsK.lean ====
/-
  The ring of six row buffers of one vector subcore, as states.  Plane `j` of the negatives passes through slot `j mod 6`:
  its 128 table rows are gathered into the slot (the plane's index row on loan to the gather meanwhile), then copied out to
  the subcore's block of plane `j` of the output.  A slot is idle, or has a gather in flight, or has a copy-out in flight.
-/
import proofs.«210835_g78632261255710_cont_9to1_m_350_20_alg».proof.Proof.SliceValsK

noncomputable section

namespace Cert.KK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aV" => (Memref.whole Cert.Kernel.main_arg0_scv : Memref Cert.Kernel.sig Kind.scVector Space.hbm Cert.Kernel.S4096 EltTy.i32)
local notation "vV" => (Memref.whole Cert.Kernel.main_arg1_scv : Memref Cert.Kernel.sig Kind.scVector Space.hbm Cert.Kernel.S4096 EltTy.i32)
local notation "tV" => (Memref.whole Cert.Kernel.main_v1_scv : Memref Cert.Kernel.sig Kind.scVector Space.hbm Cert.Kernel.S100000x128 EltTy.f32)
local notation "pV" => (Memref.whole Cert.Kernel.main_v2_0_scv : Memref Cert.Kernel.sig Kind.scVector Space.hbm Cert.Kernel.S4096x128 EltTy.f32)
local notation "nV" => (Memref.whole Cert.Kernel.main_v2_1_scv : Memref Cert.Kernel.sig Kind.scVector Space.hbm Cert.Kernel.S200704x128 EltTy.f32)
local notation "b0" => (Memref.whole Cert.Kernel.cc0_scratch0 : Memref Cert.Kernel.sig Kind.scVector Space.vmem Cert.Kernel.S128 EltTy.i32)
local notation "b1" => (Memref.whole Cert.Kernel.cc0_scratch1 : Memref Cert.Kernel.sig Kind.scVector Space.vmem Cert.Kernel.S128 EltTy.i32)
local notation "b2" => (Memref.whole Cert.Kernel.cc0_scratch2 : Memref Cert.Kernel.sig Kind.scVector Space.vmem Cert.Kernel.S128 EltTy.i32)
local notation "b3" => (Memref.whole Cert.Kernel.cc0_scratch3 : Memref Cert.Kernel.sig Kind.scVector Space.vmem Cert.Kernel.S49x128 EltTy.i32)
local notation "b4" => (Memref.whole Cert.Kernel.cc0_scratch4 : Memref Cert.Kernel.sig Kind.scVector Space.vmem Cert.Kernel.S128x128 EltTy.f32)
local notation "b5" => (Memref.whole Cert.Kernel.cc0_scratch5 : Memref Cert.Kernel.sig Kind.scVector Space.vmem Cert.Kernel.S6x128x128 EltTy.f32)

variable (m : (ℓ : Loc nD τ sig) → Buf (Elt F) ℓ) (d : Dev nD) (L : grid0.Coords)

/-- The whole table as the kernel names it at each gather. -/
abbrev tS : Memref sig .scVector .hbm S100000x128 .f32 :=
  (tV).slice (Rect.unit (s := S100000x128) ![0, 0] S100000x128.size inb_S100000x128_S100000x128_0_0) (fun _ => rfl)

/-- A ring slot: one `[128, 128]` layer of the ring buffer. -/
abbrev slotM (o : Fin 3 → ℕ) (h : ∀ a, o a + S1x128x128.size a ≤ S6x128x128.size a) : Memref sig .scVector .vmem S128x128 .f32 :=
  ((b5).slice (Rect.unit (s := S6x128x128) o S1x128x128.size h) (fun _ => rfl)).squeeze S128x128 squeezes_S1x128x128_S128x128

/-- A block of 128 rows of the plane-major negatives. -/
abbrev nSl (o : Fin 2 → ℕ) (h : ∀ a, o a + S128x128.size a ≤ S200704x128.size a) : Memref sig .scVector .hbm S128x128 .f32 :=
  (nV).slice (Rect.unit (s := S200704x128) o S128x128.size h) (fun _ => rfl)

/-- A slot's fixed data: where it sits in the ring, its gather and copy-out semaphores, its share of the table. -/
structure SlotK where
  o : Fin 3 → ℕ
  h : ∀ a, o a + S1x128x128.size a ≤ S6x128x128.size a
  g : DmaSem sig
  dm : DmaSem sig
  s : PosShare TreeShare

variable (Tb : Buf (Elt F) (tLoc d)) (f3 : S49x128.Idx → Elt F .i32)

/-- The slot holds plane `j`'s rows: at each index, the output's value at the subcore's block of plane `j`. -/
def slotOK (K : SlotK) (j : Fin 49) (fd : Buf (Elt F) ((slotM K.o K.h).view.loc (V d (cV L) (jV L)))) : Prop :=
  ∀ x : S128x128.Idx, (slotM K.o K.h).view.read (Elt F) fd x = negOf m d ((nRowK L j).view.emb x)

/-- The slot at rest at contents `fd`: both semaphores at zero, the buffer and the table share in hand. -/
def Ready (K : SlotK) (fd : Buf (Elt F) ((slotM K.o K.h).view.loc (V d (cV L) (jV L)))) : sProp 𝕄 :=
  iprop(semVal (V d (cV L) (jV L), SemLoc.dma K.g) 0 ∗ semVal (V d (cV L) (jV L), SemLoc.dma K.dm) 0
    ∗ ((slotM K.o K.h).view.loc (V d (cV L) (jV L)) ↦[(slotM K.o K.h).view.set]{fullShare} fd)
    ∗ ((tS).view.loc (V d (cV L) (jV L)) ↦[(tS).view.set]{K.s} Tb))

def Idle (K : SlotK) : sProp 𝕄 := iprop(∃ fd, Ready d L Tb K fd)

/-- Plane `j`'s gather in flight into the slot: at its wait it delivers the slot at plane `j`'s rows, the table share, and
    the plane's index row. -/
def Gath (K : SlotK) (j : Fin 49) : sProp 𝕄 :=
  iprop(semVal (V d (cV L) (jV L), SemLoc.dma K.dm) 0
    ∗ ∃ (o : Fin 2 → ℕ) (h : ∀ a, o a + S1x128.size a ≤ S49x128.size a) (fd : Buf (Elt F) ((slotM K.o K.h).view.loc (V d (cV L) (jV L)))),
      ⌜o = ![j.val, 0]⌝ ∗ ⌜slotOK m d L K j fd⌝
      ∗ Transfers.Flight countersEmb (V d (cV L) (jV L)) (SemLoc.dma K.g) (default : HIx 1) 524288
          iprop(((slotM K.o K.h).view.loc (V d (cV L) (jV L)) ↦[(slotM K.o K.h).view.set]{fullShare} fd)
            ∗ ((tS).view.loc (V d (cV L) (jV L)) ↦[(tS).view.set]{K.s} Tb)
            ∗ ((planeRow o h).view.loc (V d (cV L) (jV L)) ↦[(planeRow o h).view.set]{fullShare} f3)))

/-- Plane `j`'s copy-out in flight from the slot: at its wait it delivers the subcore's block of plane `j` written with
    the slot's contents, and the slot. -/
def Drain (K : SlotK) (j : Fin 49) : sProp 𝕄 :=
  iprop(semVal (V d (cV L) (jV L), SemLoc.dma K.g) 0
    ∗ ((tS).view.loc (V d (cV L) (jV L)) ↦[(tS).view.set]{K.s} Tb)
    ∗ ∃ (o : Fin 2 → ℕ) (h : ∀ a, o a + S128x128.size a ≤ S200704x128.size a) (fd : Buf (Elt F) ((slotM K.o K.h).view.loc (V d (cV L) (jV L)))),
      ⌜o = nOff L j⌝ ∗ ⌜slotOK m d L K j fd⌝
      ∗ Transfers.Flight countersEmb (V d (cV L) (jV L)) (SemLoc.dma K.dm) (default : HIx 1) ((nSl o h).view.amount (SemLoc.dma K.dm))
          iprop(((nSl o h).view.loc (V d (cV L) (jV L)) ↦[(nSl o h).view.set]{fullShare}
                  ((nSl o h).view.write (Elt F) (m (nLoc d)) (ReadAs.same.apply ((slotM K.o K.h).view.read (Elt F) fd)) Finset.univ))
            ∗ ((slotM K.o K.h).view.loc (V d (cV L) (jV L)) ↦[(slotM K.o K.h).view.set]{fullShare} fd)))

/-- The subcore's block of plane `j` of the output, at contents `fn`. -/
def nBlock (j : Fin 49) (fn : Buf (Elt F) (nLoc d)) : sProp 𝕄 :=
  iprop((nRowK L j).view.loc (V d (cV L) (jV L)) ↦[(nRowK L j).view.set]{fullShare} fn)

/-- Row `j` of the plane buffer, whole share. -/
def pRow (j : Fin 49) : sProp 𝕄 :=
  iprop((planeRow ![j.val, 0] (by intro a; have := j.isLt; match a with | 0 => (show j.val + 1 ≤ 49; omega) | 1 => (show 0 + 128 ≤ 128; omega))).view.loc (V d (cV L) (jV L))
    ↦[(planeRow ![j.val, 0] (by intro a; have := j.isLt; match a with | 0 => (show j.val + 1 ≤ 49; omega) | 1 => (show 0 + 128 ≤ 128; omega))).view.set]{fullShare} f3)

/-- After `n` ring steps: planes `j < n - 2` are written out, planes `j ≥ n` still hold the launch contents; index rows
    `j < n` are back, rows `j ≥ n + 4` not yet lent. -/
def nDone (n : ℕ) : sProp 𝕄 := bigSep (Finset.univ.filter fun j : Fin 49 => j.val + 2 < n) fun j => nBlock d L j (negOf m d)
def nTodo (n : ℕ) : sProp 𝕄 := bigSep (Finset.univ.filter fun j : Fin 49 => n ≤ j.val) fun j => nBlock d L j (m (nLoc d))
def rDone (n : ℕ) : sProp 𝕄 := bigSep (Finset.univ.filter fun j : Fin 49 => j.val < n) fun j => pRow d L f3 j
def rTodo (n : ℕ) : sProp 𝕄 := bigSep (Finset.univ.filter fun j : Fin 49 => n + 4 ≤ j.val) fun j => pRow d L f3 j

/-- What the subcore owes and may wait for, carried through the ring. -/
def owesW (O : CellTallies nD τ sig (HIx 1)) (W : Waits sig (HIx 1)) : sProp 𝕄 :=
  iprop(∃ W', ⌜∀ p ∈ W', p ∈ W ∨ p.2 = none⌝ ∗ owes (V d (cV L) (jV L)) O W')

end Cert.KK

end
-- ==== Proof.BodyPreK.lean ====
/-
  One vector subcore's task of the lookup kernel, at a symbolic subcore: it copies in its 128 attributes and values,
  fills the 49 index planes and the positive index row, streams the table's rows through a ring of six row buffers out to
  its block of each negative plane, and the positive rows out to its block of the positives.
-/
import proofs.«210835_g78632261255710_cont_9to1_m_350_20_alg».proof.Proof.RingDefsK

noncomputable section

namespace Cert.KK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aV" => (Memref.whole Cert.Kernel.main_arg0_scv : Memref Cert.Kernel.sig Kind.scVector Space.hbm Cert.Kernel.S4096 EltTy.i32)
local notation "vV" => (Memref.whole Cert.Kernel.main_arg1_scv : Memref Cert.Kernel.sig Kind.scVector Space.hbm Cert.Kernel.S4096 EltTy.i32)
local notation "tV" => (Memref.whole Cert.Kernel.main_v1_scv : Memref Cert.Kernel.sig Kind.scVector Space.hbm Cert.Kernel.S100000x128 EltTy.f32)
local notation "pV" => (Memref.whole Cert.Kernel.main_v2_0_scv : Memref Cert.Kernel.sig Kind.scVector Space.hbm Cert.Kernel.S4096x128 EltTy.f32)
local notation "nV" => (Memref.whole Cert.Kernel.main_v2_1_scv : Memref Cert.Kernel.sig Kind.scVector Space.hbm Cert.Kernel.S200704x128 EltTy.f32)
local notation "b0" => (Memref.whole Cert.Kernel.cc0_scratch0 : Memref Cert.Kernel.sig Kind.scVector Space.vmem Cert.Kernel.S128 EltTy.i32)
local notation "b1" => (Memref.whole Cert.Kernel.cc0_scratch1 : Memref Cert.Kernel.sig Kind.scVector Space.vmem Cert.Kernel.S128 EltTy.i32)
local notation "b2" => (Memref.whole Cert.Kernel.cc0_scratch2 : Memref Cert.Kernel.sig Kind.scVector Space.vmem Cert.Kernel.S128 EltTy.i32)
local notation "b3" => (Memref.whole Cert.Kernel.cc0_scratch3 : Memref Cert.Kernel.sig Kind.scVector Space.vmem Cert.Kernel.S49x128 EltTy.i32)
local notation "b4" => (Memref.whole Cert.Kernel.cc0_scratch4 : Memref Cert.Kernel.sig Kind.scVector Space.vmem Cert.Kernel.S128x128 EltTy.f32)
local notation "b5" => (Memref.whole Cert.Kernel.cc0_scratch5 : Memref Cert.Kernel.sig Kind.scVector Space.vmem Cert.Kernel.S6x128x128 EltTy.f32)

variable (m : (ℓ : Loc nD τ sig) → Buf (Elt F) ℓ)

/-! ## The subcore's own semaphores and buffers -/

theorem reg_not_scoped : ∀ r : Sem sig, (SemLoc.reg r : SemLoc sig).isScoped .scVector = false := by decide
theorem dma_scoped : ∀ s : DmaSem sig, (SemLoc.dma s : SemLoc sig).isScoped .scVector = true := by decide

theorem ownCells_V (d : Dev nD) (c : Fin τ.nSC) (i : Fin τ.nSub) :
    ownCells (V d c i) = (Finset.univ : Finset (DmaSem sig)).map
      ⟨fun s => ((V d c i, SemLoc.dma s) : GSem nD τ sig), fun a b h => by injection (Prod.mk.inj h).2⟩ := by
  ext ⟨thr, sl⟩
  rw [mem_ownCells, Finset.mem_map]
  constructor
  · rintro ⟨e, h⟩
    have e' : thr = V d c i := e
    subst e'
    cases sl with
    | reg r => exact absurd ((reg_not_scoped r).symm.trans (h : (SemLoc.reg r : SemLoc sig).isScoped .scVector = true)) (by decide)
    | dma s => exact ⟨s, Finset.mem_univ _, rfl⟩
  · rintro ⟨s, -, e⟩
    have e' : ((V d c i, SemLoc.dma s) : GSem nD τ sig) = (thr, sl) := e
    obtain ⟨rfl, rfl⟩ := Prod.mk.inj e'
    exact ⟨rfl, dma_scoped s⟩

theorem ownSems0_V (d : Dev nD) (c : Fin τ.nSC) (i : Fin τ.nSub) :
    (ownSems0 (V d c i) : sProp 𝕄) = bigSep (Finset.univ : Finset (DmaSem sig)) fun s => semVal ((V d c i, SemLoc.dma s) : GSem nD τ sig) 0 := by
  unfold SparseCore.Cfg.ownSems0; rw [ownCells_V, bigSep_map]; rfl

/-- The sixteen transfer semaphores of a subcore, one by one: the positive gather's, the six ring slots' gather and
    drain semaphores, and the three of the blocking copies. -/
theorem sems16 (Φ : DmaSem sig → sProp 𝕄) :
    (bigSep Finset.univ Φ : sProp 𝕄) = iprop(Φ cc0_scratch6.sem ∗ Φ cc0_scratch7.sem ∗ Φ cc0_scratch8.sem ∗ Φ cc0_scratch9.sem ∗ Φ cc0_scratch10.sem ∗ Φ cc0_scratch11.sem ∗ Φ cc0_scratch12.sem ∗ Φ cc0_scratch13.sem ∗ Φ cc0_scratch14.sem ∗ Φ cc0_scratch15.sem ∗ Φ cc0_scratch16.sem ∗ Φ cc0_scratch17.sem ∗ Φ cc0_scratch18.sem ∗ Φ cc0_scoped0.sem ∗ Φ cc0_scoped1.sem ∗ Φ cc0_scoped2.sem) := by
  rw [show (Finset.univ : Finset (DmaSem sig)) = {cc0_scratch6.sem, cc0_scratch7.sem, cc0_scratch8.sem, cc0_scratch9.sem, cc0_scratch10.sem, cc0_scratch11.sem, cc0_scratch12.sem, cc0_scratch13.sem, cc0_scratch14.sem, cc0_scratch15.sem, cc0_scratch16.sem, cc0_scratch17.sem, cc0_scratch18.sem, cc0_scoped0.sem, cc0_scoped1.sem, cc0_scoped2.sem} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- What is left of a subcore's own buffers beside the kernel's six scratch buffers. -/
def restBufs (d : Dev nD) (L : grid0.Coords) : sProp 𝕄 :=
  bigSep (((((((ownRefs (τ := τ) (sig := sig) (.scVector (cV L) (jV L))).erase ((Proc.scVector (cV L) (jV L)).devRef cc0_scratch0)).erase ((Proc.scVector (cV L) (jV L)).devRef cc0_scratch1)).erase ((Proc.scVector (cV L) (jV L)).devRef cc0_scratch2)).erase
      ((Proc.scVector (cV L) (jV L)).devRef cc0_scratch3)).erase ((Proc.scVector (cV L) (jV L)).devRef cc0_scratch4)).erase ((Proc.scVector (cV L) (jV L)).devRef cc0_scratch5))
    fun b => iprop(∃ f, ((d, b) : Loc nD τ sig) ↦{fullShare} f)

theorem ownBufs_V (d : Dev nD) (L : grid0.Coords) :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f)
          ∗ restBufs (F := F) d L) := by
  have hm0 : ((Proc.scVector (cV L) (jV L)).devRef cc0_scratch0) ∈ ownRefs (τ := τ) (sig := sig) (.scVector (cV L) (jV L)) :=
    SparseCore.Cfg.mem_ownRefs_of_owner (p := (Proc.scVector (cV L) (jV L))) (b := ((Proc.scVector (cV L) (jV L)).devRef cc0_scratch0)) rfl
  have hm1 : ((Proc.scVector (cV L) (jV L)).devRef cc0_scratch1) ∈ ownRefs (τ := τ) (sig := sig) (.scVector (cV L) (jV L)) :=
    SparseCore.Cfg.mem_ownRefs_of_owner (p := (Proc.scVector (cV L) (jV L))) (b := ((Proc.scVector (cV L) (jV L)).devRef cc0_scratch1)) rfl
  have hm2 : ((Proc.scVector (cV L) (jV L)).devRef cc0_scratch2) ∈ ownRefs (τ := τ) (sig := sig) (.scVector (cV L) (jV L)) :=
    SparseCore.Cfg.mem_ownRefs_of_owner (p := (Proc.scVector (cV L) (jV L))) (b := ((Proc.scVector (cV L) (jV L)).devRef cc0_scratch2)) rfl
  have hm3 : ((Proc.scVector (cV L) (jV L)).devRef cc0_scratch3) ∈ ownRefs (τ := τ) (sig := sig) (.scVector (cV L) (jV L)) :=
    SparseCore.Cfg.mem_ownRefs_of_owner (p := (Proc.scVector (cV L) (jV L))) (b := ((Proc.scVector (cV L) (jV L)).devRef cc0_scratch3)) rfl
  have hm4 : ((Proc.scVector (cV L) (jV L)).devRef cc0_scratch4) ∈ ownRefs (τ := τ) (sig := sig) (.scVector (cV L) (jV L)) :=
    SparseCore.Cfg.mem_ownRefs_of_owner (p := (Proc.scVector (cV L) (jV L))) (b := ((Proc.scVector (cV L) (jV L)).devRef cc0_scratch4)) rfl
  have hm5 : ((Proc.scVector (cV L) (jV L)).devRef cc0_scratch5) ∈ ownRefs (τ := τ) (sig := sig) (.scVector (cV L) (jV L)) :=
    SparseCore.Cfg.mem_ownRefs_of_owner (p := (Proc.scVector (cV L) (jV L))) (b := ((Proc.scVector (cV L) (jV L)).devRef cc0_scratch5)) rfl
  have ne : ∀ a b : Ref sig .scVector, a ≠ b → (Proc.scVector (cV L) (jV L)).devRef a ≠ (Proc.scVector (cV L) (jV L)).devRef b :=
    fun a b h e => h (Proc.devRef_injective _ e)
  unfold SparseCore.Cfg.ownBufs restBufs
  refine (SparseCore.bigSep_erase' hm0).trans ?_
  rw [SparseCore.bigSep_erase' (Finset.mem_erase.mpr ⟨ne cc0_scratch1 cc0_scratch0 (by decide), hm1⟩),
    SparseCore.bigSep_erase' (Finset.mem_erase.mpr ⟨ne cc0_scratch2 cc0_scratch1 (by decide), Finset.mem_erase.mpr ⟨ne cc0_scratch2 cc0_scratch0 (by decide), hm2⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide), hm3⟩⟩⟩),
    SparseCore.bigSep_erase' (Finset.mem_erase.mpr ⟨ne cc0_scratch4 cc0_scratch3 (by decide), Finset.mem_erase.mpr ⟨ne cc0_scratch4 cc0_scratch2 (by decide),
      Finset.mem_erase.mpr ⟨ne cc0_scratch4 cc0_scratch1 (by decide), Finset.mem_erase.mpr ⟨ne cc0_scratch4 cc0_scratch0 (by decide), hm4⟩⟩⟩⟩),
    SparseCore.bigSep_erase' (Finset.mem_erase.mpr ⟨ne cc0_scratch5 cc0_scratch4 (by decide), Finset.mem_erase.mpr ⟨ne cc0_scratch5 cc0_scratch3 (by decide),
      Finset.mem_erase.mpr ⟨ne cc0_scratch5 cc0_scratch2 (by decide), Finset.mem_erase.mpr ⟨ne cc0_scratch5 cc0_scratch1 (by decide),
        Finset.mem_erase.mpr ⟨ne cc0_scratch5 cc0_scratch0 (by decide), hm5⟩⟩⟩⟩⟩)]

/-- Through the whole view of a buffer, the elements under a set of indices are that set. -/
theorem setOn_whole' {κ : Kind} (b : Ref sig κ) (M : Finset b.ty.shape.Idx) : (View.whole b : View sig κ _ _ _).setOn M = M := by
  ext i
  constructor
  · intro hi
    obtain ⟨x, hx, rfl⟩ := Finset.mem_map.mp hi
    exact hx
  · intro hi
    exact Finset.mem_map.mpr ⟨i, hi, rfl⟩

/-- A 16-lane chunk of one row of the plane buffer and another whole row of it share no element. -/
theorem plane_row_disj (off : Fin 2 → ℕ) (h) (j : ℕ) (hj) (hoff : j + 1 ≤ off 0 ∨ off 0 + 1 ≤ j) :
    Disjoint ((b3).view.setOn (Rect.unit (s := S49x128) off S1x16.size h).set)
      ((((b3).slice (Rect.unit (s := S49x128) ![j, 0] S1x128.size hj) (fun _ => rfl)).squeeze S128 squeezes_S1x128_S128).view.set) := by
  have e2 : ((((b3).slice (Rect.unit (s := S49x128) ![j, 0] S1x128.size hj) (fun _ => rfl)).squeeze S128 squeezes_S1x128_S128).view.set)
      = (Rect.unit (s := S49x128) ![j, 0] S1x128.size hj).set := by
    show ((((b3).view.slice (Rect.unit (s := S49x128) ![j, 0] S1x128.size hj)).reshape S128 squeezes_S1x128_S128.numel_eq).set) = _
    rw [View.set_reshape]; exact View.set_slice_whole _ _
  have e1 : ((b3).view.setOn (Rect.unit (s := S49x128) off S1x16.size h).set) = (Rect.unit (s := S49x128) off S1x16.size h).set :=
    setOn_whole' cc0_scratch3 _
  rw [e1, e2]
  refine Rect.unit_disjoint 0 ?_
  rcases hoff with h' | h'
  · right; simpa using h'
  · left; simpa using h'

theorem plane_row_disj' (off : Fin 2 → ℕ) (h) (j : ℕ) (hj) (hoff : j + 1 ≤ off 0 ∨ off 0 + 1 ≤ j) :
    Disjoint ((b3).access (Rect.unit (s := S49x128) off S1x16.size h)).set
      ((((b3).slice (Rect.unit (s := S49x128) ![j, 0] S1x128.size hj) (fun _ => rfl)).squeeze S128 squeezes_S1x128_S128).view.set) := by
  have e := plane_row_disj off h j hj hoff
  have e1 : ((b3).view.setOn (Rect.unit (s := S49x128) off S1x16.size h).set) = ((b3).access (Rect.unit (s := S49x128) off S1x16.size h)).set := by
    rw [setOn_whole' cc0_scratch3]; exact (View.set_slice_whole _ _).symm
  rwa [e1] at e

/-- The first plane loop's invariant: the attribute and value vectors as copied in, the planes below `k` filled. -/
def inv1 (d : Dev nD) (L : grid0.Coords) (fa : Buf (Elt F) ((V d (cV L) (jV L)).loc cc0_scratch0)) (fv : Buf (Elt F) ((V d (cV L) (jV L)).loc cc0_scratch1))
    (k : ℕ) (_ : PUnit) : sProp 𝕄 :=
  iprop(((b0).view.loc (V d (cV L) (jV L)) ↦{fullShare} fa) ∗ ((b1).view.loc (V d (cV L) (jV L)) ↦{fullShare} fv)
    ∗ ∃ f3, ((b3).view.loc (V d (cV L) (jV L)) ↦{fullShare} f3) ∗ ⌜planesOK fa fv 0 k f3⌝)

/-- The second plane loop's invariant: planes `4 ≤ j < 4 + k` filled, the buffer held on all rows but the first four
    (those are out on loan to the first four gathers). -/
def inv2 (d : Dev nD) (L : grid0.Coords) (fa : Buf (Elt F) ((V d (cV L) (jV L)).loc cc0_scratch0)) (fv : Buf (Elt F) ((V d (cV L) (jV L)).loc cc0_scratch1))
    (k : ℕ) (_ : PUnit) : sProp 𝕄 :=
  iprop(((b0).view.loc (V d (cV L) (jV L)) ↦{fullShare} fa) ∗ ((b1).view.loc (V d (cV L) (jV L)) ↦{fullShare} fv)
    ∗ ∃ f3, ((b3).view.loc (V d (cV L) (jV L)) ↦[((((Finset.univ \ ((((b3).slice (Rect.unit (s := S49x128) ![0, 0] S1x128.size inb_S49x128_S1x128_0_0) (fun _ => rfl)).squeeze S128 squeezes_S1x128_S128)).view.set) \ ((((b3).slice (Rect.unit (s := S49x128) ![1, 0] S1x128.size inb_S49x128_S1x128_1_0) (fun _ => rfl)).squeeze S128 squeezes_S1x128_S128)).view.set) \ ((((b3).slice (Rect.unit (s := S49x128) ![2, 0] S1x128.size inb_S49x128_S1x128_2_0) (fun _ => rfl)).squeeze S128 squeezes_S1x128_S128)).view.set) \ ((((b3).slice (Rect.unit (s := S49x128) ![3, 0] S1x128.size inb_S49x128_S1x128_3_0) (fun _ => rfl)).squeeze S128 squeezes_S1x128_S128)).view.set)]{fullShare} f3) ∗ ⌜planesOK fa fv 4 (4 + k) f3⌝)

/-- One plane row written in its eight chunks, the chunks given one by one. -/
theorem planes_step8 (fa fv : S128.Idx → Elt F .i32) (lo r : ℕ) (hr : r < 49) (f3 : S49x128.Idx → Elt F .i32) (hok : planesOK fa fv lo r f3)
    (o0 o1 o2 o3 o4 o5 o6 o7 : Fin 2 → ℕ)
    (e0 : o0 = ![r, 16 * 0]) (e1 : o1 = ![r, 16 * 1]) (e2 : o2 = ![r, 16 * 2]) (e3 : o3 = ![r, 16 * 3])
    (e4 : o4 = ![r, 16 * 4]) (e5 : o5 = ![r, 16 * 5]) (e6 : o6 = ![r, 16 * 6]) (e7 : o7 = ![r, 16 * 7])
    (g0 : ∀ a, o0 a + S1x16.size a ≤ S49x128.size a) (g1 : ∀ a, o1 a + S1x16.size a ≤ S49x128.size a)
    (g2 : ∀ a, o2 a + S1x16.size a ≤ S49x128.size a) (g3 : ∀ a, o3 a + S1x16.size a ≤ S49x128.size a)
    (g4 : ∀ a, o4 a + S1x16.size a ≤ S49x128.size a) (g5 : ∀ a, o5 a + S1x16.size a ≤ S49x128.size a)
    (g6 : ∀ a, o6 a + S1x16.size a ≤ S49x128.size a) (g7 : ∀ a, o7 a + S1x16.size a ≤ S49x128.size a)
    (P : Fin 8 → S1x16.Idx → Elt F .i32)
    (hP : ∀ c x, P c x = nidxW (BitVec.ofNat 32 r) (fa (ValueIdx.ix1 (⟨16 * c.val + (x 1).val, by have := c.isLt; have := (x 1).isLt; simp at this; omega⟩ : Fin 128)))
        (fv (ValueIdx.ix1 (⟨16 * c.val + (x 1).val, by have := c.isLt; have := (x 1).isLt; simp at this; omega⟩ : Fin 128)))) :
    planesOK fa fv lo (r + 1) ((b3).view.writes (Elt F) f3
      [⟨Rect.unit (s := S49x128) o7 S1x16.size g7, P 7⟩, ⟨Rect.unit (s := S49x128) o6 S1x16.size g6, P 6⟩, ⟨Rect.unit (s := S49x128) o5 S1x16.size g5, P 5⟩,
       ⟨Rect.unit (s := S49x128) o4 S1x16.size g4, P 4⟩, ⟨Rect.unit (s := S49x128) o3 S1x16.size g3, P 3⟩, ⟨Rect.unit (s := S49x128) o2 S1x16.size g2, P 2⟩,
       ⟨Rect.unit (s := S49x128) o1 S1x16.size g1, P 1⟩, ⟨Rect.unit (s := S49x128) o0 S1x16.size g0, P 0⟩]) := by
  subst e0 e1 e2 e3 e4 e5 e6 e7
  exact planes_step fa fv lo r hr f3 hok ![![r, 16 * 0], ![r, 16 * 1], ![r, 16 * 2], ![r, 16 * 3], ![r, 16 * 4], ![r, 16 * 5], ![r, 16 * 6], ![r, 16 * 7]]
    (by intro c; fin_cases c <;> rfl) (by intro c; fin_cases c <;> assumption) P hP

/-- The last three blocks the kernel names after the ring loop are those of planes 46, 47, 48. -/
theorem off28_n (L : grid0.Coords) (c : Fin 3) (j : ℕ) (hj : j < 49) (e : 46 + c.val = j) :
    k0_off28 L (BitVec.ofNat 32 (188416 + 4096 * c.val)) = nOff L ⟨j, hj⟩ := by
  subst e
  refine (k0_off28_eq L c).trans ?_
  have e' : 4096 * c.val + 256 * (L 1).val + 128 * (L 0).val + 188416 = 4096 * (46 + c.val) + (256 * (L 1).val + 128 * (L 0).val) := by omega
  show (![_, 0] : Fin 2 → ℕ) = ![_, 0]
  rw [e']

/-- A slot at rest, spelt out. -/
theorem Ready_def (d : Dev nD) (L : grid0.Coords) (Tb : Buf (Elt F) (tLoc d)) (K : SlotK) (fd : Buf (Elt F) ((slotM K.o K.h).view.loc (V d (cV L) (jV L)))) :
    Ready d L Tb K fd = (iprop(semVal (V d (cV L) (jV L), SemLoc.dma K.g) 0 ∗ semVal (V d (cV L) (jV L), SemLoc.dma K.dm) 0
      ∗ ((slotM K.o K.h).view.loc (V d (cV L) (jV L)) ↦[(slotM K.o K.h).view.set]{fullShare} fd)
      ∗ ((tS).view.loc (V d (cV L) (jV L)) ↦[(tS).view.set]{K.s} Tb)) : sProp 𝕄) := rfl

theorem Idle_intro (d : Dev nD) (L : grid0.Coords) (Tb : Buf (Elt F) (tLoc d)) (K : SlotK) (fd : Buf (Elt F) ((slotM K.o K.h).view.loc (V d (cV L) (jV L)))) :
    Ready d L Tb K fd ⊢ Idle d L Tb K := by
  unfold Idle; iintro H; iexists fd; iexact H

end Cert.KK

end
-- ==== Proof.Ring3K.lean ====
/-
  The ring loop's invariant.  After `6 r` ring steps (before trip `r`): planes `6 r .. 6 r + 3` have their gathers in
  flight in slots 0..3, planes `6 r - 2`, `6 r - 1` their copies-out in flight from slots 4, 5 (at `r = 0` those two slots
  are idle), every earlier plane is written out, every later one untouched.
-/
import proofs.«210835_g78632261255710_cont_9to1_m_350_20_alg».proof.Proof.RingDefsK

noncomputable section

namespace Cert.KK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aV" => (Memref.whole Cert.Kernel.main_arg0_scv : Memref Cert.Kernel.sig Kind.scVector Space.hbm Cert.Kernel.S4096 EltTy.i32)
local notation "vV" => (Memref.whole Cert.Kernel.main_arg1_scv : Memref Cert.Kernel.sig Kind.scVector Space.hbm Cert.Kernel.S4096 EltTy.i32)
local notation "tV" => (Memref.whole Cert.Kernel.main_v1_scv : Memref Cert.Kernel.sig Kind.scVector Space.hbm Cert.Kernel.S100000x128 EltTy.f32)
local notation "pV" => (Memref.whole Cert.Kernel.main_v2_0_scv : Memref Cert.Kernel.sig Kind.scVector Space.hbm Cert.Kernel.S4096x128 EltTy.f32)
local notation "nV" => (Memref.whole Cert.Kernel.main_v2_1_scv : Memref Cert.Kernel.sig Kind.scVector Space.hbm Cert.Kernel.S200704x128 EltTy.f32)
local notation "b0" => (Memref.whole Cert.Kernel.cc0_scratch0 : Memref Cert.Kernel.sig Kind.scVector Space.vmem Cert.Kernel.S128 EltTy.i32)
local notation "b1" => (Memref.whole Cert.Kernel.cc0_scratch1 : Memref Cert.Kernel.sig Kind.scVector Space.vmem Cert.Kernel.S128 EltTy.i32)
local notation "b2" => (Memref.whole Cert.Kernel.cc0_scratch2 : Memref Cert.Kernel.sig Kind.scVector Space.vmem Cert.Kernel.S128 EltTy.i32)
local notation "b3" => (Memref.whole Cert.Kernel.cc0_scratch3 : Memref Cert.Kernel.sig Kind.scVector Space.vmem Cert.Kernel.S49x128 EltTy.i32)
local notation "b4" => (Memref.whole Cert.Kernel.cc0_scratch4 : Memref Cert.Kernel.sig Kind.scVector Space.vmem Cert.Kernel.S128x128 EltTy.f32)
local notation "b5" => (Memref.whole Cert.Kernel.cc0_scratch5 : Memref Cert.Kernel.sig Kind.scVector Space.vmem Cert.Kernel.S6x128x128 EltTy.f32)

variable (m : (ℓ : Loc nD τ sig) → Buf (Elt F) ℓ) (d : Dev nD) (L : grid0.Coords)

/-- The seven shares the table's share `q` is cut into: one per ring slot, the last for the positive gather. -/
def tShare (q : PosShare TreeShare) : ℕ → PosShare TreeShare
  | 0 => q.left
  | 1 => q.right.left
  | 2 => q.right.right.left
  | 3 => q.right.right.right.left
  | 4 => q.right.right.right.right.left
  | 5 => q.right.right.right.right.right.left
  | _ => q.right.right.right.right.right.right

/-- The six ring slots. -/
def slotK (q : PosShare TreeShare) : Fin 6 → SlotK
  | 0 => ⟨![0, 0, 0], inb_S6x128x128_S1x128x128_0_0_0, cc0_scratch7.sem, cc0_scratch13.sem, tShare q 0⟩
  | 1 => ⟨![1, 0, 0], inb_S6x128x128_S1x128x128_1_0_0, cc0_scratch8.sem, cc0_scratch14.sem, tShare q 1⟩
  | 2 => ⟨![2, 0, 0], inb_S6x128x128_S1x128x128_2_0_0, cc0_scratch9.sem, cc0_scratch15.sem, tShare q 2⟩
  | 3 => ⟨![3, 0, 0], inb_S6x128x128_S1x128x128_3_0_0, cc0_scratch10.sem, cc0_scratch16.sem, tShare q 3⟩
  | 4 => ⟨![4, 0, 0], inb_S6x128x128_S1x128x128_4_0_0, cc0_scratch11.sem, cc0_scratch17.sem, tShare q 4⟩
  | 5 => ⟨![5, 0, 0], inb_S6x128x128_S1x128x128_5_0_0, cc0_scratch12.sem, cc0_scratch18.sem, tShare q 5⟩

variable (q : PosShare TreeShare) (f3 : S49x128.Idx → Elt F .i32)

/-- Slot `b ≤ 3` before trip `r`: plane `6 r + b`'s gather in flight, if there is such a plane. -/
def stG (b : Fin 6) (r : ℕ) : sProp 𝕄 :=
  if h : 6 * r + b.val < 49 then Gath m d L (tbl m d) f3 (slotK q b) ⟨6 * r + b.val, h⟩ else Idle d L (tbl m d) (slotK q b)

/-- Slot `b = 4, 5` before trip `r`: plane `6 r + b - 6`'s copy-out in flight, from trip 1 on. -/
def stD (b : Fin 6) (r : ℕ) : sProp 𝕄 :=
  if h : 1 ≤ r ∧ 6 * r + b.val - 6 < 49 then Drain m d L (tbl m d) (slotK q b) ⟨6 * r + b.val - 6, h.2⟩ else Idle d L (tbl m d) (slotK q b)

/-- The ring loop's invariant before trip `r`. -/
def inv3 (O : CellTallies nD τ sig (HIx 1)) (W : Waits sig (HIx 1)) (r : ℕ) (_ : PUnit) : sProp 𝕄 :=
  iprop(Transfers.MayWaits (V d (cV L) (jV L)) (default : HIx 1) O ∗ owesW d L O W
    ∗ nDone m d L (6 * r) ∗ nTodo m d L (6 * r) ∗ rDone d L f3 (6 * r) ∗ rTodo d L f3 (6 * r)
    ∗ stG m d L q f3 0 r ∗ stG m d L q f3 1 r ∗ stG m d L q f3 2 r ∗ stG m d L q f3 3 r ∗ stD m d L q 4 r ∗ stD m d L q 5 r)

/-! ## The printed offsets and conditions of the ring loop, in closed form -/

theorem trips3 : k0_t3_loop.trips = 8 := by decide

theorem cond1_iff : ∀ k : Fin k0_t3_loop.trips, k0_cond1 k = 1#1 ↔ 1 ≤ k.val := by decide
theorem cond2_iff : ∀ k : Fin k0_t3_loop.trips, k0_cond2 k = 1#1 ↔ 1 ≤ k.val := by decide
theorem cond3_true : ∀ k : Fin k0_t3_loop.trips, k0_cond3 k = 1#1 := by decide
theorem cond4_iff : ∀ k : Fin k0_t3_loop.trips, k0_cond4 k = 1#1 ↔ k.val ≤ 6 := by decide
theorem cond5_iff : ∀ k : Fin k0_t3_loop.trips, k0_cond5 k = 1#1 ↔ k.val ≤ 6 := by decide
theorem cond6_iff : ∀ k : Fin k0_t3_loop.trips, k0_cond6 k = 1#1 ↔ k.val ≤ 6 := by decide

theorem vec2_congr {a b : ℕ} (h : a = b) : (![a, 0] : Fin 2 → ℕ) = ![b, 0] := by rw [h]

/-- The block the step-`c` copy-out of trip `k` writes is the subcore's block of plane `6 k + c`. -/
theorem off19_n (k : Fin k0_t3_loop.trips) (c : Fin 6) (j : ℕ) (hj : j < 49) (e : 6 * k.val + c.val = j) :
    k0_off19 L k (BitVec.ofNat 32 c.val) = nOff L ⟨j, hj⟩ := by
  subst e
  exact (k0_off19_eq L k c).trans (vec2_congr (by show _ = 4096 * (6 * k.val + c.val) + (256 * (L 1).val + 128 * (L 0).val); omega))

theorem off20_raw : ∀ (L : grid0.Coords) (k : Fin k0_t3_loop.trips), k0_cond1 k = 1#1 →
    k0_off20 L k = ![24576 * k.val + 256 * (L 1).val + 128 * (L 0).val - 8192, 0] := by decide +kernel
theorem off22_raw : ∀ (L : grid0.Coords) (k : Fin k0_t3_loop.trips), k0_cond2 k = 1#1 →
    k0_off22 L k = ![24576 * k.val + 256 * (L 1).val + 128 * (L 0).val - 4096, 0] := by decide +kernel

/-- The copies-out waited for in steps 0 and 1 of trip `k ≥ 1` are those of planes `6 k - 2` and `6 k - 1`. -/
theorem off20_n (k : Fin k0_t3_loop.trips) (h1 : k0_cond1 k = 1#1) (j : ℕ) (hj : j < 49) (e : 6 * k.val + 4 - 6 = j) : k0_off20 L k = nOff L ⟨j, hj⟩ := by
  have hk := (cond1_iff k).mp h1
  subst e
  exact (off20_raw L k h1).trans (vec2_congr (by show _ = 4096 * (6 * k.val + 4 - 6) + (256 * (L 1).val + 128 * (L 0).val); omega))
theorem off22_n (k : Fin k0_t3_loop.trips) (h2 : k0_cond2 k = 1#1) (j : ℕ) (hj : j < 49) (e : 6 * k.val + 5 - 6 = j) : k0_off22 L k = nOff L ⟨j, hj⟩ := by
  have hk := (cond2_iff k).mp h2
  subst e
  exact (off22_raw L k h2).trans (vec2_congr (by show _ = 4096 * (6 * k.val + 5 - 6) + (256 * (L 1).val + 128 * (L 0).val); omega))
/-- The copies-out waited for in steps 2..5 of trip `k` are those of planes `6 k .. 6 k + 3`. -/
theorem off23_n (k : Fin k0_t3_loop.trips) (c : Fin 4) (j : ℕ) (hj : j < 49) (e : 6 * k.val + c.val = j) :
    k0_off23 L k (BitVec.ofNat 32 (2 + c.val)) = nOff L ⟨j, hj⟩ := by
  subst e
  exact (k0_off23_eq L k c).trans (vec2_congr (by show _ = 4096 * (6 * k.val + c.val) + (256 * (L 1).val + 128 * (L 0).val); omega))

/-- The index rows lent to the gathers issued in trip `k`: planes `6 k + 4 .. 6 k + 9`. -/
theorem off21_n (k : Fin k0_t3_loop.trips) (c : Fin 2) (j : ℕ) (e : 6 * k.val + c.val + 4 = j) : k0_off21 k (BitVec.ofNat 32 c.val) = ![j, 0] := e ▸ k0_off21_eq k c
theorem off24_n (k : Fin k0_t3_loop.trips) (j : ℕ) (e : 6 * k.val + 6 = j) : k0_off24 k = ![j, 0] := e ▸ k0_off24_eq k
theorem off25_n (k : Fin k0_t3_loop.trips) (j : ℕ) (e : 6 * k.val + 7 = j) : k0_off25 k = ![j, 0] := e ▸ k0_off25_eq k
theorem off26_n (k : Fin k0_t3_loop.trips) (j : ℕ) (e : 6 * k.val + 8 = j) : k0_off26 k = ![j, 0] := e ▸ k0_off26_eq k
theorem off27_n (k : Fin k0_t3_loop.trips) (j : ℕ) (e : 6 * k.val + 9 = j) : k0_off27 k = ![j, 0] := e ▸ k0_off27_eq k

variable {m d L q} in
theorem stD_zero' (b : Fin 6) (r : ℕ) (hr : r = 0) : stD m d L q b r = Idle d L (tbl m d) (slotK q b) := by
  subst hr; unfold stD; rw [dif_neg (by omega)]

variable {m d L} in
theorem Gath_cast (Tb) (f3 : S49x128.Idx → Elt F .i32) (K : SlotK) (j j' : Fin 49) (e : j.val = j'.val) : Gath m d L Tb f3 K j = Gath m d L Tb f3 K j' := by
  cases Fin.ext e; rfl
variable {m d L} in
theorem Drain_cast (Tb) (K : SlotK) (j j' : Fin 49) (e : j.val = j'.val) : Drain m d L Tb K j = Drain m d L Tb K j' := by
  cases Fin.ext e; rfl

variable {m d L q f3} in
theorem stG_pos (b : Fin 6) (r : ℕ) (j : ℕ) (hj : j < 49) (e : 6 * r + b.val = j) :
    stG m d L q f3 b r = Gath m d L (tbl m d) f3 (slotK q b) ⟨j, hj⟩ := by
  subst e; unfold stG; rw [dif_pos hj]
variable {m d L q} in
theorem stD_pos (b : Fin 6) (r : ℕ) (j : ℕ) (hj : j < 49) (hr : 1 ≤ r) (e : 6 * r + b.val - 6 = j) :
    stD m d L q b r = Drain m d L (tbl m d) (slotK q b) ⟨j, hj⟩ := by
  subst e; unfold stD; rw [dif_pos ⟨hr, hj⟩]
variable {m d L q f3} in
theorem stG_neg (b : Fin 6) (r : ℕ) (h : ¬ 6 * r + b.val < 49) : stG m d L q f3 b r = Idle d L (tbl m d) (slotK q b) := by
  unfold stG; rw [dif_neg h]
variable {m d L q} in
theorem stD_zero (b : Fin 6) : stD m d L q b 0 = Idle d L (tbl m d) (slotK q b) := by
  unfold stD; rw [dif_neg (by omega)]

/-- An index row in the spelling a gather of the program names it by. -/
theorem pRow_spell (j : Fin 49) (o : Fin 2 → ℕ) (h : ∀ a, o a + S1x128.size a ≤ S49x128.size a) (ho : o = ![j.val, 0]) :
    pRow d L f3 j = ((planeRow o h).view.loc (V d (cV L) (jV L)) ↦[(planeRow o h).view.set]{fullShare} f3 : sProp 𝕄) := by
  subst ho; rfl

end Cert.KK

end
-- ==== Proof.WordsK.lean ====
import proofs.«210835_g78632261255710_cont_9to1_m_350_20_alg».proof.Proof.SpecK

/-! The kernel's row numbers as natural numbers. Under the ranges of the precondition nothing wraps, and the signed
    compare of two small non-negative words is the compare of their unsigned readings. -/

noncomputable section

namespace Cert.KK

open Cert.Kernel Cert.Kernel.Gen
open Idealize.ShloMosaic Idealize.ShloMosaic.ValueIdx

/-- A word below `2 ^ 31` reads the same signed and unsigned. -/
theorem toInt_eq_toNat_of_lt (v : BitVec 32) (hv : v.toNat < 2147483648) : v.toInt = (v.toNat : Int) := by
  rw [BitVec.toInt_eq_toNat_cond, if_pos (by simp only [Nat.reducePow]; omega)]
/-! ## The row numbers as natural numbers -/

/-- The positive row's number is `v * 2000 + a`: nothing wraps. -/
theorem pidxW_toNat (a v : BitVec 32) (ha : a.toNat ≤ 1999) (hv : v.toNat ≤ 49) :
    (pidxW a v).toNat = v.toNat * 2000 + a.toNat := by
  unfold pidxW IntOp.addi IntOp.muli
  rw [BitVec.toNat_add, BitVec.toNat_mul, BitVec.toNat_ofNat]
  simp only [Nat.reducePow, Nat.reduceMod]
  omega

/-- … so it names a row of the table. -/
theorem pidxW_lt (a v : BitVec 32) (ha : a.toNat ≤ 1999) (hv : v.toNat ≤ 49) : (pidxW a v).toNat < 100000 := by
  rw [pidxW_toNat a v ha hv]; omega

/-- Plane `j`'s row number is `(j + [v ≤ j]) * 2000 + a`: nothing wraps, and the signed compare of the two small
    non-negative words is the compare of their unsigned readings. -/
theorem nidxW_toNat (j : Nat) (a v : BitVec 32) (hj : j < 49) (ha : a.toNat ≤ 1999) (hv : v.toNat ≤ 49) :
    (nidxW (BitVec.ofNat 32 j) a v).toNat = (j + (if v.toNat ≤ j then 1 else 0)) * 2000 + a.toNat := by
  have hj' : (BitVec.ofNat 32 j).toNat = j := by
    rw [BitVec.toNat_ofNat]; simp only [Nat.reducePow]; exact Nat.mod_eq_of_lt (by omega)
  have hcmp : IntOp.cmpi .sle v (BitVec.ofNat 32 j) = 1#1 ↔ v.toNat ≤ j := by
    rw [IntOp.cmpi_sle, toInt_eq_toNat_of_lt v (by omega), toInt_eq_toNat_of_lt _ (by rw [hj']; omega), hj']
    exact Int.ofNat_le
  unfold nidxW
  by_cases h : v.toNat ≤ j
  · rw [hcmp.2 h, select_one, if_pos h]
    unfold Scalar.muli IntOp.addi IntOp.muli
    rw [BitVec.toNat_add, BitVec.toNat_add, BitVec.toNat_mul, hj', BitVec.toNat_ofNat]
    simp only [Nat.reducePow, Nat.reduceMod]
    omega
  · rw [eq_zero_of_ne_one (fun e => h (hcmp.1 e)), select_zero, if_neg h]
    unfold Scalar.muli IntOp.addi IntOp.muli
    rw [BitVec.toNat_add, BitVec.toNat_add, BitVec.toNat_mul, hj', BitVec.toNat_ofNat, BitVec.toNat_ofNat]
    simp only [Nat.reducePow, Nat.reduceMod, Nat.zero_mod]
    omega

/-- … so it names a row of the table. -/
theorem nidxW_lt (j : Nat) (a v : BitVec 32) (hj : j < 49) (ha : a.toNat ≤ 1999) (hv : v.toNat ≤ 49) :
    (nidxW (BitVec.ofNat 32 j) a v).toNat < 100000 := by
  rw [nidxW_toNat j a v hj ha hv]; split <;> omega

end Cert.KK

end
-- ==== Proof.RingGK.lean ====
import proofs.«210835_g78632261255710_cont_9to1_m_350_20_alg».proof.Proof.RingDefsK
import proofs.«210835_g78632261255710_cont_9to1_m_350_20_alg».proof.Proof.WordsK
import proofs.«210835_g78632261255710_cont_9to1_m_350_20_alg».proof.Proof.PlaneValsK
import proofs.«210835_g78632261255710_cont_9to1_m_350_20_alg».proof.Proof.SliceValsK
import proofs.«210835_g78632261255710_cont_9to1_m_350_20_alg».proof.Proof.GatherValK

/-! A ring slot's indexed copy, issued and awaited. Issued from a slot at rest with plane `j`'s index row in hand, it
    leaves the slot with the copy in flight, to deliver the slot at plane `j`'s rows of the table; awaited, it hands
    back the slot at those rows, the table share and the index row. -/

noncomputable section

namespace Cert.KK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aV" => (Memref.whole Cert.Kernel.main_arg0_scv : Memref Cert.Kernel.sig Kind.scVector Space.hbm Cert.Kernel.S4096 EltTy.i32)
local notation "vV" => (Memref.whole Cert.Kernel.main_arg1_scv : Memref Cert.Kernel.sig Kind.scVector Space.hbm Cert.Kernel.S4096 EltTy.i32)
local notation "tV" => (Memref.whole Cert.Kernel.main_v1_scv : Memref Cert.Kernel.sig Kind.scVector Space.hbm Cert.Kernel.S100000x128 EltTy.f32)
local notation "pV" => (Memref.whole Cert.Kernel.main_v2_0_scv : Memref Cert.Kernel.sig Kind.scVector Space.hbm Cert.Kernel.S4096x128 EltTy.f32)
local notation "nV" => (Memref.whole Cert.Kernel.main_v2_1_scv : Memref Cert.Kernel.sig Kind.scVector Space.hbm Cert.Kernel.S200704x128 EltTy.f32)
local notation "b0" => (Memref.whole Cert.Kernel.cc0_scratch0 : Memref Cert.Kernel.sig Kind.scVector Space.vmem Cert.Kernel.S128 EltTy.i32)
local notation "b1" => (Memref.whole Cert.Kernel.cc0_scratch1 : Memref Cert.Kernel.sig Kind.scVector Space.vmem Cert.Kernel.S128 EltTy.i32)
local notation "b2" => (Memref.whole Cert.Kernel.cc0_scratch2 : Memref Cert.Kernel.sig Kind.scVector Space.vmem Cert.Kernel.S128 EltTy.i32)
local notation "b3" => (Memref.whole Cert.Kernel.cc0_scratch3 : Memref Cert.Kernel.sig Kind.scVector Space.vmem Cert.Kernel.S49x128 EltTy.i32)
local notation "b4" => (Memref.whole Cert.Kernel.cc0_scratch4 : Memref Cert.Kernel.sig Kind.scVector Space.vmem Cert.Kernel.S128x128 EltTy.f32)
local notation "b5" => (Memref.whole Cert.Kernel.cc0_scratch5 : Memref Cert.Kernel.sig Kind.scVector Space.vmem Cert.Kernel.S6x128x128 EltTy.f32)

variable (m : (ℓ : Loc nD τ sig) → Buf (Elt F) ℓ) (d : Dev nD) (L : grid0.Coords)

open Idealize.ShloMosaic.ValueIdx

variable [FloatOps F]

local notation "thr" => (V d (cV L) (jV L))
local notation "WP" P:max Q:max => wp frame (wpE (defs₀ (F := F)) 𝒱₀ (V d (cV L) (jV L)) none) Set.univ P Q

/-- The wait of plane `j`'s indexed copy: the slot comes back at plane `j`'s rows with the table share, the index row
    comes back, and the wait is recorded among those the subcore may have made. -/
theorem gwait (K : SlotK) (j : Fin 49) (f3 : S49x128.Idx → Elt F .i32) (O : CellTallies nD τ sig (HIx 1)) (W : Waits sig (HIx 1))
    {α : Type} {k : PUnit → Prog (TpuEff nD τ sig (Elt F) Λ₀ (V d (cV L) (jV L)).2) α} {Q : α → sProp 𝕄}
    {sp' : Space} {s' : Shape} {e' : EltTy} (srcw : Memref sig (V d (cV L) (jV L)).2.kind sp' s' e')
    (hs : srcw.view.WordExact) (hd : (slotM K.o K.h).view.WordExact) :
    (iprop(Gath m d L (tbl m d) f3 K j ∗ owesW d L O W ∗ Transfers.MayWaits thr (default : HIx 1) O) : sProp 𝕄)
      ⊢ iprop((iprop((∃ fd, ⌜slotOK m d L K j fd⌝ ∗ Ready d L (tbl m d) K fd) ∗ pRow d L f3 j ∗ owesW d L O W) -∗ WP (k ⟨⟩) Q)
          -∗ WP (SparseCore.waitIndirectGather K.g srcw (slotM K.o K.h) hs hd >>= k) Q) := by
  unfold Gath owesW
  iintro ⟨⟨Hdm, %o, %h, %fd, %ho, %hok, Hfl⟩, ⟨%W', %hW', HO⟩, Hmw⟩ Hk
  subst ho
  rw [SparseCore.waitIndirectGather_bind]
  iapply (Transfers.wp_waitLocalO countersEmb 𝒱₀ (V d (cV L) (jV L)) none (default : HIx 1)
    (rfl : (slotM K.o K.h).view.dmaCredit = 524288)) $$ [Hfl HO Hmw]
  · isplitl [Hfl]; · iexact Hfl
    isplitl [HO]; · iexact HO
    iapply (Transfers.MayWaits.elim (SemLoc.dma K.g)) $$ Hmw
  iintro ⟨⟨Hslot, Ht, Hrow⟩, Hg, HO⟩
  iapply Hk
  isplitl [Hdm Hslot Ht Hg]
  · iexists fd
    isplitr
    · ipureintro; exact hok
    unfold Ready
    isplitl [Hg]; · iexact Hg
    isplitl [Hdm]; · iexact Hdm
    isplitl [Hslot]; · iexact Hslot
    iexact Ht
  isplitl [Hrow]
  · unfold pRow; iexact Hrow
  iexists (insert (SemLoc.dma K.g, (default : HIx 1)) W')
  isplitr
  · ipureintro
    intro p hp
    rcases Finset.mem_insert.mp hp with rfl | hp
    · exact Or.inr rfl
    · exact hW' p hp
  iexact HO

/-! ## Plane `j`'s rows through the indexed copy, for any filled range of planes holding `j` -/

/-- The table's row named by the subcore's index word for plane `j`, local sample `x 0`, at lane `x 1`, is the
    plane-major negatives at the subcore's block of plane `j`, when plane `j` is among the filled ones. -/
theorem neg_slice_val_range (fa fv : S128.Idx → Elt F .i32) (f3 : S49x128.Idx → Elt F .i32)
    (hfa : ∀ s : Fin 128, fa (ix1 s) = m (aLoc d) (ix1 (⟨base L + s.val, base_add_lt L s⟩ : Fin 4096)))
    (hfv : ∀ s : Fin 128, fv (ix1 s) = m (vLoc d) (ix1 (⟨base L + s.val, base_add_lt L s⟩ : Fin 4096)))
    (lo hi : ℕ) (j : Fin 49) (hlo : lo ≤ j.val) (hhi : j.val < hi) (h3 : planesOK fa fv lo hi f3) (x : S128x128.Idx) :
    tblRow (tbl m d) (f3 (ix2 j (⟨(x 0).val, (x 0).isLt⟩ : Fin 128))) (⟨(x 1).val, (x 1).isLt⟩ : Fin 128)
      = negOf m d ((nRowK L j).view.emb x) := by
  rw [h3 (ix2 j (⟨(x 0).val, (x 0).isLt⟩ : Fin 128)) hlo hhi]
  show tblRow (tbl m d) (nidxW (BitVec.ofNat 32 j.val) (fa (ix1 (⟨(x 0).val, (x 0).isLt⟩ : Fin 128))) (fv (ix1 (⟨(x 0).val, (x 0).isLt⟩ : Fin 128))))
      (⟨(x 1).val, (x 1).isLt⟩ : Fin 128) = Gneg (m (aLoc d)) (m (vLoc d)) (tbl m d) ((nRowK L j).view.emb x)
  rw [hfa, hfv, Gneg_row (m (aLoc d)) (m (vLoc d)) (tbl m d) ((nRowK L j).view.emb x) j.val
    (⟨base L + (x 0).val, base_add_lt L ⟨(x 0).val, (x 0).isLt⟩⟩ : Fin 4096) (nRow_emb0 L j x), nRow_emb1]

/-- The whole-table slice reads the table's contents. -/
theorem tS_read (Tb : Buf (Elt F) (tLoc d)) : (tS).view.read (Elt F) Tb = Tb := by
  funext x
  rw [View.read_apply]
  have e : (tS).view.emb x = x := by
    funext a
    match a with
    | ⟨0, _⟩ => exact Fin.ext (by show 0 + 1 * (x 0).val = (x 0).val; omega)
    | ⟨1, _⟩ => exact Fin.ext (by show 0 + 1 * (x 1).val = (x 1).val; omega)
  rw [e]; rfl

/-- Row `j` of a filled plane buffer names rows of the table. -/
theorem planeRow_inb (fa fv : S128.Idx → Elt F .i32) (f3 : S49x128.Idx → Elt F .i32)
    (hA : ∀ s, (fa s).toNat ≤ 1999) (hV : ∀ s, (fv s).toNat ≤ 49)
    (lo hi : ℕ) (j : Fin 49) (hlo : lo ≤ j.val) (hhi : j.val < hi) (h3 : planesOK fa fv lo hi f3)
    (o : Fin 2 → ℕ) (h : ∀ a, o a + S1x128.size a ≤ S49x128.size a) (ho : o = ![j.val, 0]) (s : S128.Idx) :
    ((planeRow o h).view.read (Elt F) f3 s).toNat < 100000 := by
  subst ho
  rw [planeRow_read _ h j rfl rfl f3 s, h3 (ix2 j (⟨(s 0).val, (s 0).isLt⟩ : Fin 128)) hlo hhi]
  exact nidxW_lt j.val _ _ j.isLt (hA _) (hV _)

/-- The issue of plane `j`'s indexed copy into a slot at rest, the plane's index row in hand: the slot now has the
    copy in flight, to deliver the slot at plane `j`'s rows. -/
theorem gissue_row (K : SlotK) (j : Fin 49) (o : Fin 2 → ℕ) (h : ∀ a, o a + S1x128.size a ≤ S49x128.size a) (ho : o = ![j.val, 0])
    (f3 : S49x128.Idx → Elt F .i32) (fa fv : S128.Idx → Elt F .i32)
    (hfa : ∀ s : Fin 128, fa (ix1 s) = m (aLoc d) (ix1 (⟨base L + s.val, base_add_lt L s⟩ : Fin 4096)))
    (hfv : ∀ s : Fin 128, fv (ix1 s) = m (vLoc d) (ix1 (⟨base L + s.val, base_add_lt L s⟩ : Fin 4096)))
    (hA : ∀ s, (fa s).toNat ≤ 1999) (hV : ∀ s, (fv s).toNat ≤ 49)
    (lo hi : ℕ) (hlo : lo ≤ j.val) (hhi : j.val < hi) (h3 : planesOK fa fv lo hi f3)
    (fd0 : Buf (Elt F) ((slotM K.o K.h).view.loc (V d (cV L) (jV L))))
    {α : Type} {k : PUnit → Prog (TpuEff nD τ sig (Elt F) Λ₀ (V d (cV L) (jV L)).2) α} {Q : α → sProp 𝕄}
    (hp : (V d (cV L) (jV L)).2.kind = .scVector) (hg : S100000x128.Gathers 0 S128x128)
    (hn : S128.numel = S128x128.size hg.axis') (hsrc : (tS).view.WordExact)
    (he : EltTy.f32.bits = 32) (hsp : Space.hbm = .hbm ∨ Space.hbm = .shared) (hr : S100000x128.StreamRows 0) :
    (iprop(Ready d L (tbl m d) K fd0 ∗ ((planeRow o h).view.loc thr ↦[(planeRow o h).view.set]{fullShare} f3)) : sProp 𝕄)
      ⊢ iprop((Gath m d L (tbl m d) f3 K j -∗ WP (k ⟨⟩) Q)
          -∗ WP (SparseCore.enqueueIndirectGather hp tS (slotM K.o K.h) hg (planeRow o h) hn K.g hsrc he hsp hr >>= k) Q) := by
  have hin : ∀ s, ((planeRow o h).view.read (Elt F) f3 s).toNat < S100000x128.size hg.axis :=
    planeRow_inb fa fv f3 hA hV lo hi j hlo hhi h3 o h ho
  unfold Ready
  iintro ⟨⟨Hg, Hdm, Hslot, Ht⟩, Hrow⟩ Hk
  iapply (SparseCore.wp_indirectGatherLocal countersEmb 𝒱₀ (V d (cV L) (jV L)) none (hg := hg) (default : HIx 1) 524288
      ((SparseCore.sum_rowCredit_eq_dmaCredit (slotM K.o K.h) hg.axis' (fun _ => rfl)).trans rfl) (by decide) hin) $$ [Ht Hslot Hrow Hg]
  · isplitl [Ht]; · iexact Ht
    isplitl [Hslot]; · iexact Hslot
    isplitl [Hrow]; · iexact Hrow
    iexact Hg
  iintro Hfl
  iapply Hk
  unfold Gath
  isplitl [Hdm]; · iexact Hdm
  iexists o, h, _
  isplitr
  · ipureintro; exact ho
  isplitr
  swap
  · iexact Hfl
  ipureintro
  intro x
  rw [View.read_write_univ, tS_read]
  subst ho
  rw [gather_row_val, planeRow_read _ h j rfl rfl f3]
  exact neg_slice_val_range m d L fa fv f3 hfa hfv lo hi j hlo hhi h3 x

/-- The same, the index row taken in its canonical spelling. -/
theorem gissue (K : SlotK) (j : Fin 49) (o : Fin 2 → ℕ) (h : ∀ a, o a + S1x128.size a ≤ S49x128.size a) (ho : o = ![j.val, 0])
    (f3 : S49x128.Idx → Elt F .i32) (fa fv : S128.Idx → Elt F .i32)
    (hfa : ∀ s : Fin 128, fa (ix1 s) = m (aLoc d) (ix1 (⟨base L + s.val, base_add_lt L s⟩ : Fin 4096)))
    (hfv : ∀ s : Fin 128, fv (ix1 s) = m (vLoc d) (ix1 (⟨base L + s.val, base_add_lt L s⟩ : Fin 4096)))
    (hA : ∀ s, (fa s).toNat ≤ 1999) (hV : ∀ s, (fv s).toNat ≤ 49)
    (lo hi : ℕ) (hlo : lo ≤ j.val) (hhi : j.val < hi) (h3 : planesOK fa fv lo hi f3)
    (fd0 : Buf (Elt F) ((slotM K.o K.h).view.loc (V d (cV L) (jV L))))
    {α : Type} {k : PUnit → Prog (TpuEff nD τ sig (Elt F) Λ₀ (V d (cV L) (jV L)).2) α} {Q : α → sProp 𝕄}
    (hp : (V d (cV L) (jV L)).2.kind = .scVector) (hg : S100000x128.Gathers 0 S128x128)
    (hn : S128.numel = S128x128.size hg.axis') (hsrc : (tS).view.WordExact)
    (he : EltTy.f32.bits = 32) (hsp : Space.hbm = .hbm ∨ Space.hbm = .shared) (hr : S100000x128.StreamRows 0) :
    (iprop(Ready d L (tbl m d) K fd0 ∗ pRow d L f3 j) : sProp 𝕄)
      ⊢ iprop((Gath m d L (tbl m d) f3 K j -∗ WP (k ⟨⟩) Q)
          -∗ WP (SparseCore.enqueueIndirectGather hp tS (slotM K.o K.h) hg (planeRow o h) hn K.g hsrc he hsp hr >>= k) Q) := by
  subst ho
  exact gissue_row m d L K j _ h rfl f3 fa fv hfa hfv hA hV lo hi hlo hhi h3 fd0 hp hg hn hsrc he hsp hr

end Cert.KK

end
-- ==== Proof.RingDK.lean ====
/-
  A ring slot's copy-out.  Issued from a slot at rest that holds plane `j`'s rows, onto the subcore's block of plane `j`
  at the launch contents, it leaves the copy in flight; the wait for it hands back the slot at rest and the block at the
  specified negatives: the block is rewritten, at each of its elements, with the slot's word there, which is the
  specification's by what the slot held.
-/
import proofs.«210835_g78632261255710_cont_9to1_m_350_20_alg».proof.Proof.RingDefsK

noncomputable section

namespace Cert.KK

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "aV" => (Memref.whole Cert.Kernel.main_arg0_scv : Memref Cert.Kernel.sig Kind.scVector Space.hbm Cert.Kernel.S4096 EltTy.i32)
local notation "vV" => (Memref.whole Cert.Kernel.main_arg1_scv : Memref Cert.Kernel.sig Kind.scVector Space.hbm Cert.Kernel.S4096 EltTy.i32)
local notation "tV" => (Memref.whole Cert.Kernel.main_v1_scv : Memref Cert.Kernel.sig Kind.scVector Space.hbm Cert.Kernel.S100000x128 EltTy.f32)
local notation "pV" => (Memref.whole Cert.Kernel.main_v2_0_scv : Memref Cert.Kernel.sig Kind.scVector Space.hbm Cert.Kernel.S4096x128 EltTy.f32)
local notation "nV" => (Memref.whole Cert.Kernel.main_v2_1_scv : Memref Cert.Kernel.sig Kind.scVector Space.hbm Cert.Kernel.S200704x128 EltTy.f32)
local notation "b0" => (Memref.whole Cert.Kernel.cc0_scratch0 : Memref Cert.Kernel.sig Kind.scVector Space.vmem Cert.Kernel.S128 EltTy.i32)
local notation "b1" => (Memref.whole Cert.Kernel.cc0_scratch1 : Memref Cert.Kernel.sig Kind.scVector Space.vmem Cert.Kernel.S128 EltTy.i32)
local notation "b2" => (Memref.whole Cert.Kernel.cc0_scratch2 : Memref Cert.Kernel.sig Kind.scVector Space.vmem Cert.Kernel.S128 EltTy.i32)
local notation "b3" => (Memref.whole Cert.Kernel.cc0_scratch3 : Memref Cert.Kernel.sig Kind.scVector Space.vmem Cert.Kernel.S49x128 EltTy.i32)
local notation "b4" => (Memref.whole Cert.Kernel.cc0_scratch4 : Memref Cert.Kernel.sig Kind.scVector Space.vmem Cert.Kernel.S128x128 EltTy.f32)
local notation "b5" => (Memref.whole Cert.Kernel.cc0_scratch5 : Memref Cert.Kernel.sig Kind.scVector Space.vmem Cert.Kernel.S6x128x128 EltTy.f32)

variable (m : (ℓ : Loc nD τ sig) → Buf (Elt F) ℓ) (d : Dev nD) (L : grid0.Coords)

variable [FloatOps F]

/-- The copy-out issued: from the slot at rest holding plane `j`'s rows and the block at the launch contents to the
    copy in flight. -/
theorem dissue (K : SlotK) (j : Fin 49) (o : Fin 2 → ℕ) (h : ∀ a, o a + S128x128.size a ≤ S200704x128.size a) (ho : o = nOff L j)
    (fd : Buf (Elt F) ((slotM K.o K.h).view.loc (V d (cV L) (jV L)))) (hok : slotOK m d L K j fd)
    {α : Type} {k : PUnit → Prog (TpuEff nD τ sig (Elt F) Λ₀ (V d (cV L) (jV L)).2) α} {Q : α → sProp 𝕄}
    (hs : (slotM K.o K.h).view.WordExact) (hd : (nSl o h).view.WordExact)
    (hsem : DmaTarget.Typed (nD := nD) (p := (V d (cV L) (jV L)).2) Space.vmem (SemLoc.dma K.dm) (.here (nSl o h))) :
    iprop(Ready d L (tbl m d) K fd ∗ nBlock d L j (m (nLoc d)))
      ⊢ iprop((Drain m d L (tbl m d) K j -∗ wp frame (wpE (defs₀ (F := F)) 𝒱₀ (V d (cV L) (jV L)) none) Set.univ (k ⟨⟩) Q)
          -∗ wp frame (wpE (defs₀ (F := F)) 𝒱₀ (V d (cV L) (jV L)) none) Set.univ
              (.op (.enqueueDma (slotM K.o K.h) (.here (nSl o h)) (.dma K.dm) hs hd hsem) k) Q) := by
  subst ho
  unfold Ready nBlock
  iintro ⟨⟨Hg, Hdm, Hslot, Ht⟩, Hn⟩ Hk
  ihave Hn := (Entails.of_eq (show ((nRowK L j).view.loc (V d (cV L) (jV L)) ↦[(nRowK L j).view.set]{fullShare} m (nLoc d) : sProp 𝕄)
      = ((nSl (nOff L j) h).view.loc (V d (cV L) (jV L)) ↦[(nSl (nOff L j) h).view.set]{fullShare} m (nLoc d)) from rfl)) $$ Hn
  iapply (Transfers.wp_dmaLocal countersEmb 𝒱₀ (V d (cV L) (jV L)) none (via := ReadAs.same) (src := slotM K.o K.h) (dst := nSl (nOff L j) h)
      (sm := SemLoc.dma K.dm) (q := fullShare) (Sd := (nSl (nOff L j) h).view.set) (default : HIx 1) ((nSl (nOff L j) h).view.amount (SemLoc.dma K.dm)) rfl
      (View.amount_pos _ _ (by decide)) (Finset.Subset.refl _)) $$ [Hslot Hn Hdm]
  · isplitl [Hslot]; · iexact Hslot
    isplitl [Hn]; · iexact Hn
    iexact Hdm
  iintro Hfl
  iapply Hk
  unfold Drain
  isplitl [Hg]; · iexact Hg
  isplitl [Ht]; · iexact Ht
  iexists nOff L j, h, fd
  isplitr; · ipureintro; rfl
  isplitr; · ipureintro; exact hok
  iexact Hfl

/-- What the copy-out leaves in the block: at every element of the block, the specified negatives. -/
theorem drained_val (K : SlotK) (j : Fin 49) (h : ∀ a, (nOff L j) a + S128x128.size a ≤ S200704x128.size a)
    (fd : Buf (Elt F) ((slotM K.o K.h).view.loc (V d (cV L) (jV L)))) (hok : slotOK m d L K j fd) :
    ∀ i ∈ (nSl (nOff L j) h).view.set,
      (nSl (nOff L j) h).view.write (Elt F) (m (nLoc d)) (ReadAs.same.apply ((slotM K.o K.h).view.read (Elt F) fd)) Finset.univ i = negOf m d i := by
  intro i hi
  obtain ⟨x, -, rfl⟩ := Finset.mem_map.mp hi
  rw [View.write_emb_of_mem _ _ (Finset.mem_univ x)]
  exact (cast_eq _ _).trans (hok x)

/-- The block as the copy-out leaves it is the subcore's block of plane `j` at the specified negatives. -/
theorem drained_block (K : SlotK) (j : Fin 49) (h : ∀ a, (nOff L j) a + S128x128.size a ≤ S200704x128.size a)
    (fd : Buf (Elt F) ((slotM K.o K.h).view.loc (V d (cV L) (jV L)))) (hok : slotOK m d L K j fd) :
    ((nSl (nOff L j) h).view.loc (V d (cV L) (jV L)) ↦[(nSl (nOff L j) h).view.set]{fullShare}
        ((nSl (nOff L j) h).view.write (Elt F) (m (nLoc d)) (ReadAs.same.apply ((slotM K.o K.h).view.read (Elt F) fd)) Finset.univ) : sProp 𝕄)
      ⊢ nBlock d L j (negOf m d) := by
  unfold nBlock
  rw [pointsTo_congr (drained_val m d L K j h fd hok)]

/-- The copy-out waited for: the slot at rest again, the subcore's block of plane `j` at the specified negatives. -/
theorem dwait (K : SlotK) (j : Fin 49) (O : CellTallies nD τ sig (HIx 1)) (W : Waits sig (HIx 1))
    (o' : Fin 2 → ℕ) (h' : ∀ a, o' a + S128x128.size a ≤ S200704x128.size a) (ho' : o' = nOff L j)
    {α : Type} {k : PUnit → Prog (TpuEff nD τ sig (Elt F) Λ₀ (V d (cV L) (jV L)).2) α} {Q : α → sProp 𝕄}
    (hs : (slotM K.o K.h).view.WordExact) (hd : (nSl o' h').view.WordExact) :
    iprop(Drain m d L (tbl m d) K j ∗ owesW d L O W ∗ Transfers.MayWaits (V d (cV L) (jV L)) (default : HIx 1) O)
      ⊢ iprop((iprop(Idle d L (tbl m d) K ∗ nBlock d L j (negOf m d) ∗ owesW d L O W)
              -∗ wp frame (wpE (defs₀ (F := F)) 𝒱₀ (V d (cV L) (jV L)) none) Set.univ (k ⟨⟩) Q)
          -∗ wp frame (wpE (defs₀ (F := F)) 𝒱₀ (V d (cV L) (jV L)) none) Set.univ
              (.op (.waitDma2 K.dm (slotM K.o K.h) (nSl o' h') hs hd) k) Q) := by
  unfold Drain owesW
  iintro ⟨⟨Hg, Ht, %o, %h, %fd, %ho, %hok, Hfl⟩, ⟨%W', %hW', HO⟩, Hmw⟩ Hk
  subst ho
  subst ho'
  iapply (Transfers.wp_waitLocalO countersEmb 𝒱₀ (V d (cV L) (jV L)) none (default : HIx 1)
      (rfl : (nSl (nOff L j) h').view.dmaCredit = (nSl (nOff L j) h).view.amount (SemLoc.dma K.dm))) $$ [Hfl HO Hmw]
  · isplitl [Hfl]; · iexact Hfl
    isplitl [HO]; · iexact HO
    iapply (Transfers.MayWaits.elim (SemLoc.dma K.dm)) $$ Hmw
  iintro ⟨⟨Hn, Hslot⟩, Hdm, HO⟩
  iapply Hk
  isplitl [Hg Ht Hslot Hdm]
  · unfold Idle Ready
    iexists fd
    isplitl [Hg]; · iexact Hg
    isplitl [Hdm]; · iexact Hdm
    isplitl [Hslot]; · iexact Hslot
    iexact Ht
  isplitl [Hn]
  · iapply (drained_block m d L K j h fd hok) $$ Hn
  · iexists (insert (SemLoc.dma K.dm, (default : HIx 1)) W')
    isplitr
    · ipureintro; intro p hp
      rcases Finset.mem_insert.mp hp with hp | hp
      · exact .inr (hp ▸ rfl)
      · exact hW' p hp
    · iexact HO

end Cert.KK

end
-- ==== Proof.RingSplitK.lean ====
/-
  The subcore's own buffers cut into the pieces the ring's states hold.  The plane buffer is its 49 rows (row `j`: the
  elements whose first coordinate is `j`), the ring buffer its six layers; families of rows or blocks indexed by a
  threshold lose or gain one member when the threshold moves by one.
-/
import proofs.«210835_g78632261255710_cont_9to1_m_350_20_alg».proof.Proof.RingDefsK

noncomputable section

namespace Cert.KK

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "aV" => (Memref.whole Cert.Kernel.main_arg0_scv : Memref Cert.Kernel.sig Kind.scVector Space.hbm Cert.Kernel.S4096 EltTy.i32)
local notation "vV" => (Memref.whole Cert.Kernel.main_arg1_scv : Memref Cert.Kernel.sig Kind.scVector Space.hbm Cert.Kernel.S4096 EltTy.i32)
local notation "tV" => (Memref.whole Cert.Kernel.main_v1_scv : Memref Cert.Kernel.sig Kind.scVector Space.hbm Cert.Kernel.S100000x128 EltTy.f32)
local notation "pV" => (Memref.whole Cert.Kernel.main_v2_0_scv : Memref Cert.Kernel.sig Kind.scVector Space.hbm Cert.Kernel.S4096x128 EltTy.f32)
local notation "nV" => (Memref.whole Cert.Kernel.main_v2_1_scv : Memref Cert.Kernel.sig Kind.scVector Space.hbm Cert.Kernel.S200704x128 EltTy.f32)
local notation "b0" => (Memref.whole Cert.Kernel.cc0_scratch0 : Memref Cert.Kernel.sig Kind.scVector Space.vmem Cert.Kernel.S128 EltTy.i32)
local notation "b1" => (Memref.whole Cert.Kernel.cc0_scratch1 : Memref Cert.Kernel.sig Kind.scVector Space.vmem Cert.Kernel.S128 EltTy.i32)
local notation "b2" => (Memref.whole Cert.Kernel.cc0_scratch2 : Memref Cert.Kernel.sig Kind.scVector Space.vmem Cert.Kernel.S128 EltTy.i32)
local notation "b3" => (Memref.whole Cert.Kernel.cc0_scratch3 : Memref Cert.Kernel.sig Kind.scVector Space.vmem Cert.Kernel.S49x128 EltTy.i32)
local notation "b4" => (Memref.whole Cert.Kernel.cc0_scratch4 : Memref Cert.Kernel.sig Kind.scVector Space.vmem Cert.Kernel.S128x128 EltTy.f32)
local notation "b5" => (Memref.whole Cert.Kernel.cc0_scratch5 : Memref Cert.Kernel.sig Kind.scVector Space.vmem Cert.Kernel.S6x128x128 EltTy.f32)

variable (m : (ℓ : Loc nD τ sig) → Buf (Elt F) ℓ) (d : Dev nD) (L : grid0.Coords)

/-! ## A family over the planes beyond a threshold, one plane at a time -/

theorem bigSep_filter_step (Φ : Fin 49 → sProp 𝕄) (p q : Fin 49 → Prop) [DecidablePred p] [DecidablePred q] (a : Fin 49)
    (hqa : ¬ q a) (hpq : ∀ j, p j ↔ j = a ∨ q j) :
    bigSep (Finset.univ.filter p) Φ = iprop(Φ a ∗ bigSep (Finset.univ.filter q) Φ) := by
  rw [show Finset.univ.filter p = insert a (Finset.univ.filter q) from by
      ext j; simp only [Finset.mem_filter, Finset.mem_univ, true_and, Finset.mem_insert]; exact hpq j,
    bigSep_insert (by simp only [Finset.mem_filter, Finset.mem_univ, true_and]; exact hqa)]
  rfl

theorem bigSep_filter_same (Φ : Fin 49 → sProp 𝕄) (p q : Fin 49 → Prop) [DecidablePred p] [DecidablePred q] (hpq : ∀ j, p j ↔ q j) :
    bigSep (Finset.univ.filter p) Φ = bigSep (Finset.univ.filter q) Φ := by
  rw [Finset.filter_congr fun j _ => hpq j]

section Steps

variable (f3 : S49x128.Idx → Elt F .i32)

theorem rTodo_take (n : ℕ) (h : n + 4 < 49) : rTodo d L f3 n = iprop(pRow d L f3 ⟨n + 4, h⟩ ∗ rTodo d L f3 (n + 1)) := by
  unfold rTodo
  exact bigSep_filter_step _ (fun j : Fin 49 => n + 4 ≤ j.val) (fun j : Fin 49 => n + 1 + 4 ≤ j.val) ⟨n + 4, h⟩
    (by show ¬ n + 1 + 4 ≤ n + 4; omega) (fun j => by rw [Fin.ext_iff]; show n + 4 ≤ j.val ↔ j.val = n + 4 ∨ n + 1 + 4 ≤ j.val; omega)
theorem rTodo_last (n : ℕ) (h : 49 ≤ n + 4) : rTodo d L f3 n = rTodo d L f3 (n + 1) := by
  unfold rTodo
  exact bigSep_filter_same _ (fun j : Fin 49 => n + 4 ≤ j.val) (fun j : Fin 49 => n + 1 + 4 ≤ j.val) (fun j => by have := j.isLt; omega)
theorem rDone_put (n : ℕ) (h : n < 49) : rDone d L f3 (n + 1) = iprop(pRow d L f3 ⟨n, h⟩ ∗ rDone d L f3 n) := by
  unfold rDone
  exact bigSep_filter_step _ (fun j : Fin 49 => j.val < n + 1) (fun j : Fin 49 => j.val < n) ⟨n, h⟩
    (by show ¬ n < n; omega) (fun j => by rw [Fin.ext_iff]; show j.val < n + 1 ↔ j.val = n ∨ j.val < n; omega)
theorem rDone_zero : rDone d L f3 0 = (iprop(emp) : sProp 𝕄) := by
  unfold rDone
  rw [show (Finset.univ.filter fun j : Fin 49 => j.val < 0) = ∅ from by ext j; simp, bigSep_empty]
  rfl

end Steps

theorem nTodo_take (n : ℕ) (h : n < 49) : nTodo m d L n = iprop(nBlock d L ⟨n, h⟩ (m (nLoc d)) ∗ nTodo m d L (n + 1)) := by
  unfold nTodo
  exact bigSep_filter_step _ (fun j : Fin 49 => n ≤ j.val) (fun j : Fin 49 => n + 1 ≤ j.val) ⟨n, h⟩
    (by show ¬ n + 1 ≤ n; omega) (fun j => by rw [Fin.ext_iff]; show n ≤ j.val ↔ j.val = n ∨ n + 1 ≤ j.val; omega)
theorem nTodo_end (n : ℕ) (h : 49 ≤ n) : nTodo m d L n = (iprop(emp) : sProp 𝕄) := by
  unfold nTodo
  rw [show (Finset.univ.filter fun j : Fin 49 => n ≤ j.val) = ∅ from by
    ext j; simp only [Finset.mem_filter, Finset.mem_univ, true_and, Finset.notMem_empty, iff_false]; have := j.isLt; omega, bigSep_empty]
  rfl
theorem nDone_put (n : ℕ) (h2 : 2 ≤ n) (h : n - 2 < 49) : nDone m d L (n + 1) = iprop(nBlock d L ⟨n - 2, h⟩ (negOf m d) ∗ nDone m d L n) := by
  unfold nDone
  exact bigSep_filter_step _ (fun j : Fin 49 => j.val + 2 < n + 1) (fun j : Fin 49 => j.val + 2 < n) ⟨n - 2, h⟩
    (by show ¬ n - 2 + 2 < n; omega) (fun j => by rw [Fin.ext_iff]; show j.val + 2 < n + 1 ↔ j.val = n - 2 ∨ j.val + 2 < n; omega)
theorem nDone_small (n : ℕ) (h : n < 2) : nDone m d L (n + 1) = nDone m d L n := by
  unfold nDone
  exact bigSep_filter_same _ (fun j : Fin 49 => j.val + 2 < n + 1) (fun j : Fin 49 => j.val + 2 < n) (fun j => by omega)
theorem nDone_zero : nDone m d L 0 = (iprop(emp) : sProp 𝕄) := by
  unfold nDone
  rw [show (Finset.univ.filter fun j : Fin 49 => j.val + 2 < 0) = ∅ from by ext j; simp, bigSep_empty]
  rfl

/-! ## The plane buffer is its rows -/

theorem set_planeRow (o : Fin 2 → ℕ) (h : ∀ a, o a + S1x128.size a ≤ S49x128.size a) :
    (planeRow o h).view.set = (Rect.unit (s := S49x128) o S1x128.size h).set := by
  show (((View.whole (cc0_scratch3 : Ref sig .scVector)).slice (Rect.unit (s := S49x128) o S1x128.size h)).reshape S128 squeezes_S1x128_S128.numel_eq).set = _
  rw [View.set_reshape, View.set_slice]; exact Finset.map_refl

/-- Row `j` of the plane buffer is the elements whose first coordinate is `j`. -/
theorem mem_planeRow (j : ℕ) (h : ∀ a, (![j, 0] : Fin 2 → ℕ) a + S1x128.size a ≤ S49x128.size a) (x : S49x128.Idx) :
    x ∈ (planeRow ![j, 0] h).view.set ↔ (x 0).val = j := by
  rw [set_planeRow, Rect.mem_set_unit, Fin.forall_fin_two]
  have h1 : (x 1).val < 128 := (x 1).isLt
  show (j ≤ (x 0).val ∧ (x 0).val < j + 1) ∧ (0 ≤ (x 1).val ∧ (x 1).val < 0 + 128) ↔ _
  omega

theorem row_inb (j : Fin 49) : ∀ a, (![j.val, 0] : Fin 2 → ℕ) a + S1x128.size a ≤ S49x128.size a := by
  intro a; have := j.isLt
  match a with
  | 0 => show j.val + 1 ≤ 49; omega
  | 1 => show 0 + 128 ≤ 128; omega

abbrev rK (j : Fin 49) : Finset S49x128.Idx := (planeRow ![j.val, 0] (row_inb j)).view.set

theorem rK_disjoint (s : Finset (Fin 49)) : ∀ t ∈ s, ∀ t' ∈ s, t ≠ t' → Disjoint (rK t) (rK t') := by
  intro t _ t' _ hne
  rw [Finset.disjoint_left]; intro x hx hx'
  rw [mem_planeRow] at hx hx'
  exact hne (Fin.ext (hx.symm.trans hx'))

theorem rK_cover : (Finset.univ : Finset (Fin 49)).biUnion rK = Finset.univ := by
  ext x; simp only [Finset.mem_biUnion, Finset.mem_univ, true_and, iff_true]
  exact ⟨⟨(x 0).val, (x 0).isLt⟩, (mem_planeRow _ _ x).mpr rfl⟩

section Rows

variable (f : S49x128.Idx → Elt F .i32)

/-- A family of rows of the plane buffer is the points-to on their union. -/
theorem rows_of (s : Finset (Fin 49)) :
    ((b3).view.loc (V d (cV L) (jV L)) ↦[s.biUnion rK]{fullShare} f : sProp 𝕄) = bigSep s fun j => pRow d L f j := by
  rw [pointsTo_biUnion s (ℓ := (b3).view.loc (V d (cV L) (jV L))) rK (rK_disjoint s)]
  exact bigSep_congr fun j _ => by unfold pRow; rfl

theorem rows_split : ((b3).view.loc (V d (cV L) (jV L)) ↦{fullShare} f : sProp 𝕄) = bigSep (Finset.univ : Finset (Fin 49)) fun j => pRow d L f j := by
  rw [← rows_of d L f Finset.univ, rK_cover]; try rfl

theorem rows_split4 : ((b3).view.loc (V d (cV L) (jV L)) ↦{fullShare} f : sProp 𝕄)
    = iprop((bigSep (Finset.univ.filter fun j : Fin 49 => j.val < 4) fun j => pRow d L f j)
        ∗ bigSep (Finset.univ.filter fun j : Fin 49 => 4 ≤ j.val) fun j => pRow d L f j) := by
  have hu : (Finset.univ : Finset (Fin 49)) = (Finset.univ.filter fun j : Fin 49 => j.val < 4) ∪ (Finset.univ.filter fun j : Fin 49 => 4 ≤ j.val) := by
    ext j; simp only [Finset.mem_univ, Finset.mem_union, Finset.mem_filter, true_and, true_iff]; omega
  rw [rows_split]
  conv_lhs => rw [hu]
  exact bigSep_union (Finset.disjoint_left.mpr fun j hj hj' => by
    have h1 := (Finset.mem_filter.mp hj).2; have h2 := (Finset.mem_filter.mp hj').2; omega)

/-- The plane buffer without its rows 0 to 3. -/
abbrev R4 : Finset S49x128.Idx :=
  (((Finset.univ \ (planeRow ![0, 0] inb_S49x128_S1x128_0_0).view.set) \ (planeRow ![1, 0] inb_S49x128_S1x128_1_0).view.set)
    \ (planeRow ![2, 0] inb_S49x128_S1x128_2_0).view.set) \ (planeRow ![3, 0] inb_S49x128_S1x128_3_0).view.set

theorem R4_eq : R4 = (Finset.univ.filter fun j : Fin 49 => 0 + 4 ≤ j.val).biUnion rK := by
  ext x
  have hx0 : (x 0).val < 49 := (x 0).isLt
  have hR : x ∈ R4 ↔ ((((x 0).val ≠ 0) ∧ (x 0).val ≠ 1) ∧ (x 0).val ≠ 2) ∧ (x 0).val ≠ 3 := by
    delta R4
    rw [Finset.mem_sdiff, Finset.mem_sdiff, Finset.mem_sdiff, Finset.mem_sdiff, mem_planeRow, mem_planeRow, mem_planeRow, mem_planeRow]
    simp only [Finset.mem_univ, true_and, ne_eq]
  rw [hR, Finset.mem_biUnion]
  constructor
  · rintro ⟨⟨⟨h0, h1⟩, h2⟩, h3⟩
    refine ⟨⟨(x 0).val, hx0⟩, Finset.mem_filter.mpr ⟨Finset.mem_univ _, ?_⟩, (mem_planeRow _ _ x).mpr rfl⟩
    show 0 + 4 ≤ (x 0).val; omega
  · rintro ⟨j, hj, hx⟩
    have hj' : 0 + 4 ≤ j.val := (Finset.mem_filter.mp hj).2
    have hx' : (x 0).val = j.val := (mem_planeRow _ _ x).mp hx
    refine ⟨⟨⟨?_, ?_⟩, ?_⟩, ?_⟩ <;> omega

theorem rows_rest4 : ((b3).view.loc (V d (cV L) (jV L)) ↦[R4]{fullShare} f : sProp 𝕄) = rTodo d L f 0 := by
  rw [R4_eq, rows_of]; rfl

theorem rows_top4 : ((b3).view.loc (V d (cV L) (jV L)) ↦{fullShare} f : sProp 𝕄)
    = iprop(pRow d L f 0 ∗ pRow d L f 1 ∗ pRow d L f 2 ∗ pRow d L f 3 ∗ ((b3).view.loc (V d (cV L) (jV L)) ↦[R4]{fullShare} f)) := by
  rw [rows_split, rows_rest4,
    show (Finset.univ : Finset (Fin 49)) = insert 0 (insert 1 (insert 2 (insert 3 (Finset.univ.filter fun j : Fin 49 => 0 + 4 ≤ j.val)))) from by decide,
    bigSep_insert (by decide), bigSep_insert (by decide), bigSep_insert (by decide), bigSep_insert (by decide)]
  rfl

end Rows

/-! ## The ring buffer is its six layers -/

theorem set_slotM (o : Fin 3 → ℕ) (h : ∀ a, o a + S1x128x128.size a ≤ S6x128x128.size a) :
    (slotM o h).view.set = (Rect.unit (s := S6x128x128) o S1x128x128.size h).set := by
  show (((View.whole (cc0_scratch5 : Ref sig .scVector)).slice (Rect.unit (s := S6x128x128) o S1x128x128.size h)).reshape S128x128
      squeezes_S1x128x128_S128x128.numel_eq).set = _
  rw [View.set_reshape, View.set_slice]; exact Finset.map_refl

/-- Layer `b` of the ring buffer is the elements whose first coordinate is `b`. -/
theorem mem_slotM (b : ℕ) (h : ∀ a, (![b, 0, 0] : Fin 3 → ℕ) a + S1x128x128.size a ≤ S6x128x128.size a) (x : S6x128x128.Idx) :
    x ∈ (slotM ![b, 0, 0] h).view.set ↔ (x 0).val = b := by
  rw [set_slotM, Rect.mem_set_unit]
  have h1 : (x 1).val < 128 := (x 1).isLt
  have h2 : (x 2).val < 128 := (x 2).isLt
  constructor
  · intro hh
    have h0 : b ≤ (x 0).val ∧ (x 0).val < b + 1 := hh 0
    omega
  · intro e a
    match a with
    | ⟨0, _⟩ => show b ≤ (x 0).val ∧ (x 0).val < b + 1; omega
    | ⟨1, _⟩ => show 0 ≤ (x 1).val ∧ (x 1).val < 0 + 128; omega
    | ⟨2, _⟩ => show 0 ≤ (x 2).val ∧ (x 2).val < 0 + 128; omega

theorem slot_inb (b : Fin 6) : ∀ a, (![b.val, 0, 0] : Fin 3 → ℕ) a + S1x128x128.size a ≤ S6x128x128.size a := by
  intro a; have := b.isLt
  match a with
  | ⟨0, _⟩ => show b.val + 1 ≤ 6; omega
  | ⟨1, _⟩ => show 0 + 128 ≤ 128; omega
  | ⟨2, _⟩ => show 0 + 128 ≤ 128; omega

abbrev sK (b : Fin 6) : Finset S6x128x128.Idx := (slotM ![b.val, 0, 0] (slot_inb b)).view.set

theorem sK_disjoint : ∀ t ∈ (Finset.univ : Finset (Fin 6)), ∀ t' ∈ (Finset.univ : Finset (Fin 6)), t ≠ t' → Disjoint (sK t) (sK t') := by
  intro t _ t' _ hne
  rw [Finset.disjoint_left]; intro x hx hx'
  rw [mem_slotM] at hx hx'
  exact hne (Fin.ext (hx.symm.trans hx'))

theorem sK_cover : (Finset.univ : Finset (Fin 6)).biUnion sK = Finset.univ := by
  ext x; simp only [Finset.mem_biUnion, Finset.mem_univ, true_and, iff_true]
  exact ⟨⟨(x 0).val, (x 0).isLt⟩, (mem_slotM _ _ x).mpr rfl⟩

theorem ring_split (f : Buf (Elt F) ((b5).view.loc (V d (cV L) (jV L)))) :
    ((b5).view.loc (V d (cV L) (jV L)) ↦{fullShare} f : sProp 𝕄)
      = iprop(((slotM ![0, 0, 0] inb_S6x128x128_S1x128x128_0_0_0).view.loc (V d (cV L) (jV L)) ↦[(slotM ![0, 0, 0] inb_S6x128x128_S1x128x128_0_0_0).view.set]{fullShare} f)
          ∗ ((slotM ![1, 0, 0] inb_S6x128x128_S1x128x128_1_0_0).view.loc (V d (cV L) (jV L)) ↦[(slotM ![1, 0, 0] inb_S6x128x128_S1x128x128_1_0_0).view.set]{fullShare} f)
          ∗ ((slotM ![2, 0, 0] inb_S6x128x128_S1x128x128_2_0_0).view.loc (V d (cV L) (jV L)) ↦[(slotM ![2, 0, 0] inb_S6x128x128_S1x128x128_2_0_0).view.set]{fullShare} f)
          ∗ ((slotM ![3, 0, 0] inb_S6x128x128_S1x128x128_3_0_0).view.loc (V d (cV L) (jV L)) ↦[(slotM ![3, 0, 0] inb_S6x128x128_S1x128x128_3_0_0).view.set]{fullShare} f)
          ∗ ((slotM ![4, 0, 0] inb_S6x128x128_S1x128x128_4_0_0).view.loc (V d (cV L) (jV L)) ↦[(slotM ![4, 0, 0] inb_S6x128x128_S1x128x128_4_0_0).view.set]{fullShare} f)
          ∗ ((slotM ![5, 0, 0] inb_S6x128x128_S1x128x128_5_0_0).view.loc (V d (cV L) (jV L)) ↦[(slotM ![5, 0, 0] inb_S6x128x128_S1x128x128_5_0_0).view.set]{fullShare} f)) := by
  have h : ((b5).view.loc (V d (cV L) (jV L)) ↦{fullShare} f : sProp 𝕄)
      = bigSep Finset.univ fun b : Fin 6 => ((b5).view.loc (V d (cV L) (jV L)) ↦[sK b]{fullShare} f : sProp 𝕄) := by
    rw [← pointsTo_biUnion Finset.univ (ℓ := (b5).view.loc (V d (cV L) (jV L))) sK sK_disjoint, sK_cover]; try rfl
  rw [h, show (Finset.univ : Finset (Fin 6)) = {0, 1, 2, 3, 4, 5} from by decide,
    bigSep_insert (by decide), bigSep_insert (by decide), bigSep_insert (by decide), bigSep_insert (by decide), bigSep_insert (by decide),
    bigSep_singleton]
  rfl

/-- The six layers, each at its own contents, are the ring buffer at some contents. -/
theorem ring_join (g0 g1 g2 g3 g4 g5 : Buf (Elt F) ((b5).view.loc (V d (cV L) (jV L)))) :
    iprop(((slotM ![0, 0, 0] inb_S6x128x128_S1x128x128_0_0_0).view.loc (V d (cV L) (jV L)) ↦[(slotM ![0, 0, 0] inb_S6x128x128_S1x128x128_0_0_0).view.set]{fullShare} g0)
          ∗ ((slotM ![1, 0, 0] inb_S6x128x128_S1x128x128_1_0_0).view.loc (V d (cV L) (jV L)) ↦[(slotM ![1, 0, 0] inb_S6x128x128_S1x128x128_1_0_0).view.set]{fullShare} g1)
          ∗ ((slotM ![2, 0, 0] inb_S6x128x128_S1x128x128_2_0_0).view.loc (V d (cV L) (jV L)) ↦[(slotM ![2, 0, 0] inb_S6x128x128_S1x128x128_2_0_0).view.set]{fullShare} g2)
          ∗ ((slotM ![3, 0, 0] inb_S6x128x128_S1x128x128_3_0_0).view.loc (V d (cV L) (jV L)) ↦[(slotM ![3, 0, 0] inb_S6x128x128_S1x128x128_3_0_0).view.set]{fullShare} g3)
          ∗ ((slotM ![4, 0, 0] inb_S6x128x128_S1x128x128_4_0_0).view.loc (V d (cV L) (jV L)) ↦[(slotM ![4, 0, 0] inb_S6x128x128_S1x128x128_4_0_0).view.set]{fullShare} g4)
          ∗ ((slotM ![5, 0, 0] inb_S6x128x128_S1x128x128_5_0_0).view.loc (V d (cV L) (jV L)) ↦[(slotM ![5, 0, 0] inb_S6x128x128_S1x128x128_5_0_0).view.set]{fullShare} g5))
      ⊢ (iprop(∃ g, (b5).view.loc (V d (cV L) (jV L)) ↦{fullShare} g) : sProp 𝕄) := by
  have e : bigSep (Finset.univ : Finset (Fin 6)) (fun b => ((b5).view.loc (V d (cV L) (jV L)) ↦[sK b]{fullShare}
        (![g0, g1, g2, g3, g4, g5] : Fin 6 → Buf (Elt F) ((b5).view.loc (V d (cV L) (jV L)))) b : sProp 𝕄))
      = iprop(((slotM ![0, 0, 0] inb_S6x128x128_S1x128x128_0_0_0).view.loc (V d (cV L) (jV L)) ↦[(slotM ![0, 0, 0] inb_S6x128x128_S1x128x128_0_0_0).view.set]{fullShare} g0)
          ∗ ((slotM ![1, 0, 0] inb_S6x128x128_S1x128x128_1_0_0).view.loc (V d (cV L) (jV L)) ↦[(slotM ![1, 0, 0] inb_S6x128x128_S1x128x128_1_0_0).view.set]{fullShare} g1)
          ∗ ((slotM ![2, 0, 0] inb_S6x128x128_S1x128x128_2_0_0).view.loc (V d (cV L) (jV L)) ↦[(slotM ![2, 0, 0] inb_S6x128x128_S1x128x128_2_0_0).view.set]{fullShare} g2)
          ∗ ((slotM ![3, 0, 0] inb_S6x128x128_S1x128x128_3_0_0).view.loc (V d (cV L) (jV L)) ↦[(slotM ![3, 0, 0] inb_S6x128x128_S1x128x128_3_0_0).view.set]{fullShare} g3)
          ∗ ((slotM ![4, 0, 0] inb_S6x128x128_S1x128x128_4_0_0).view.loc (V d (cV L) (jV L)) ↦[(slotM ![4, 0, 0] inb_S6x128x128_S1x128x128_4_0_0).view.set]{fullShare} g4)
          ∗ ((slotM ![5, 0, 0] inb_S6x128x128_S1x128x128_5_0_0).view.loc (V d (cV L) (jV L)) ↦[(slotM ![5, 0, 0] inb_S6x128x128_S1x128x128_5_0_0).view.set]{fullShare} g5)) := by
    rw [show (Finset.univ : Finset (Fin 6)) = {0, 1, 2, 3, 4, 5} from by decide,
      bigSep_insert (by decide), bigSep_insert (by decide), bigSep_insert (by decide), bigSep_insert (by decide), bigSep_insert (by decide),
      bigSep_singleton]
    rfl
  rw [← e]
  refine (pointsTo_biUnion_join (ℓ := (b5).view.loc (V d (cV L) (jV L))) (q := fullShare) (Val := Elt F) Finset.univ sK
    (![g0, g1, g2, g3, g4, g5] : Fin 6 → Buf (Elt F) ((b5).view.loc (V d (cV L) (jV L)))) g0 sK_disjoint).trans ?_
  iintro ⟨%g, -, Hg⟩
  rw [sK_cover]
  iexists g; iexact Hg

end Cert.KK

end
-- ==== Proof.Ring3RK.lean ====
/-
  One trip of the ring loop keeps its invariant: six ring steps; in step `c` the gather of plane `6 k + c` is awaited and
  the plane sent out, the copy-out of plane `6 k + c - 2` is awaited and, if a plane `6 k + c + 4` exists, its gather
  started in the slot just freed.
-/
import proofs.«210835_g78632261255710_cont_9to1_m_350_20_alg».proof.Proof.Ring3K
import proofs.«210835_g78632261255710_cont_9to1_m_350_20_alg».proof.Proof.RingGK
import proofs.«210835_g78632261255710_cont_9to1_m_350_20_alg».proof.Proof.RingDK
import proofs.«210835_g78632261255710_cont_9to1_m_350_20_alg».proof.Proof.RingSplitK

noncomputable section

namespace Cert.KK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aV" => (Memref.whole Cert.Kernel.main_arg0_scv : Memref Cert.Kernel.sig Kind.scVector Space.hbm Cert.Kernel.S4096 EltTy.i32)
local notation "vV" => (Memref.whole Cert.Kernel.main_arg1_scv : Memref Cert.Kernel.sig Kind.scVector Space.hbm Cert.Kernel.S4096 EltTy.i32)
local notation "tV" => (Memref.whole Cert.Kernel.main_v1_scv : Memref Cert.Kernel.sig Kind.scVector Space.hbm Cert.Kernel.S100000x128 EltTy.f32)
local notation "pV" => (Memref.whole Cert.Kernel.main_v2_0_scv : Memref Cert.Kernel.sig Kind.scVector Space.hbm Cert.Kernel.S4096x128 EltTy.f32)
local notation "nV" => (Memref.whole Cert.Kernel.main_v2_1_scv : Memref Cert.Kernel.sig Kind.scVector Space.hbm Cert.Kernel.S200704x128 EltTy.f32)
local notation "b0" => (Memref.whole Cert.Kernel.cc0_scratch0 : Memref Cert.Kernel.sig Kind.scVector Space.vmem Cert.Kernel.S128 EltTy.i32)
local notation "b1" => (Memref.whole Cert.Kernel.cc0_scratch1 : Memref Cert.Kernel.sig Kind.scVector Space.vmem Cert.Kernel.S128 EltTy.i32)
local notation "b2" => (Memref.whole Cert.Kernel.cc0_scratch2 : Memref Cert.Kernel.sig Kind.scVector Space.vmem Cert.Kernel.S128 EltTy.i32)
local notation "b3" => (Memref.whole Cert.Kernel.cc0_scratch3 : Memref Cert.Kernel.sig Kind.scVector Space.vmem Cert.Kernel.S49x128 EltTy.i32)
local notation "b4" => (Memref.whole Cert.Kernel.cc0_scratch4 : Memref Cert.Kernel.sig Kind.scVector Space.vmem Cert.Kernel.S128x128 EltTy.f32)
local notation "b5" => (Memref.whole Cert.Kernel.cc0_scratch5 : Memref Cert.Kernel.sig Kind.scVector Space.vmem Cert.Kernel.S6x128x128 EltTy.f32)

variable (m : (ℓ : Loc nD τ sig) → Buf (Elt F) ℓ) (d : Dev nD) (L : grid0.Coords)

variable [FloatOps F]

set_option maxHeartbeats 8000000 in
theorem region3 (q : PosShare TreeShare) (f3 : S49x128.Idx → Elt F .i32) (fa fv : S128.Idx → Elt F .i32)
    (hfa : ∀ s : Fin 128, fa (ValueIdx.ix1 s) = m (aLoc d) (ValueIdx.ix1 (⟨base L + s.val, base_add_lt L s⟩ : Fin 4096)))
    (hfv : ∀ s : Fin 128, fv (ValueIdx.ix1 s) = m (vLoc d) (ValueIdx.ix1 (⟨base L + s.val, base_add_lt L s⟩ : Fin 4096)))
    (hA : ∀ s, (fa s).toNat ≤ 1999) (hV : ∀ s, (fv s).toNat ≤ 49) (h3 : planesOK fa fv 0 49 f3)
    (O : CellTallies nD τ sig (HIx 1)) (W : Waits sig (HIx 1)) (v2 : BitVec 32) (v90 : IVec S16 32) (v91 : Vec F S16 .i32)
    (k : Fin k0_t3_loop.trips) :
    inv3 m d L q f3 O W k.val ⟨⟩
      ⊢ wp frame (wpE (defs₀ (F := F)) 𝒱₀ (V d (cV L) (jV L)) none) Set.univ
          (k0_t3_body L aV (Memref.isWhole_whole _) vV (Memref.isWhole_whole _) tV (Memref.isWhole_whole _) pV (Memref.isWhole_whole _) nV (Memref.isWhole_whole _) b0 (Memref.isWhole_whole _) b1 (Memref.isWhole_whole _) b2 (Memref.isWhole_whole _) b3 (Memref.isWhole_whole _) b4 (Memref.isWhole_whole _) b5 (Memref.isWhole_whole _)
            cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 cc0_scoped1 cc0_scoped2 v2 v90 v91 k ⟨⟩)
          fun _ => inv3 m d L q f3 O W (k.val + 1) ⟨⟩ := by
  have hk8 : k.val < 8 := trips3 ▸ k.isLt
  have c3 : k0_cond3 k = 1#1 := cond3_true k
  unfold inv3 k0_t3_body
  iintro ⟨#Hmw, HOW, HnD, HnT, HrD, HrT, HS0, HS1, HS2, HS3, HS4, HS5⟩
  ihave HS0 := (Entails.of_eq (stG_pos (m := m) (d := d) (L := L) (q := q) (f3 := f3) 0 k.val (6 * k.val + 0) (by omega) rfl)) $$ HS0
  ihave HS1 := (Entails.of_eq (stG_pos (m := m) (d := d) (L := L) (q := q) (f3 := f3) 1 k.val (6 * k.val + 1) (by omega) rfl)) $$ HS1
  ihave HS2 := (Entails.of_eq (stG_pos (m := m) (d := d) (L := L) (q := q) (f3 := f3) 2 k.val (6 * k.val + 2) (by omega) rfl)) $$ HS2
  ihave HS3 := (Entails.of_eq (stG_pos (m := m) (d := d) (L := L) (q := q) (f3 := f3) 3 k.val (6 * k.val + 3) (by omega) rfl)) $$ HS3
  rcases Nat.eq_zero_or_pos k.val with hr0 | hr1
  · -- the first trip: slots 4 and 5 are idle
    have c1 : ¬ k0_cond1 k = 1#1 := fun h => absurd ((cond1_iff k).mp h) (by omega)
    have c2 : ¬ k0_cond2 k = 1#1 := fun h => absurd ((cond2_iff k).mp h) (by omega)
    have c4 : k0_cond4 k = 1#1 := (cond4_iff k).mpr (by omega)
    have c5 : k0_cond5 k = 1#1 := (cond5_iff k).mpr (by omega)
    have c6 : k0_cond6 k = 1#1 := (cond6_iff k).mpr (by omega)
    ihave HI4 := (Entails.of_eq (stD_zero' (m := m) (d := d) (L := L) (q := q) 4 k.val hr0)) $$ HS4
    ihave HI5 := (Entails.of_eq (stD_zero' (m := m) (d := d) (L := L) (q := q) 5 k.val hr0)) $$ HS5
    -- ring step 0: plane 6 k + 0 arrives in slot 0 and leaves for the output; slot 4 is refilled
    sl_exec
    iapply (gwait m d L (slotK q 0) ⟨6 * k.val + 0, by omega⟩ f3 O W _ _ _) $$ [HS0 HOW]
    · isplitl [HS0]; · iexact HS0
      isplitl [HOW]; · iexact HOW
      iexact Hmw
    iintro ⟨⟨%fd0, %hfd0, HR0⟩, Hrow, HOW⟩
    ihave HrD := (Entails.of_eq (rDone_put d L f3 (6 * k.val + 0) (by omega)).symm) $$ [Hrow HrD]
    · isplitl [Hrow] <;> iassumption
    sl_exec
    ihave Hx := (Entails.of_eq (nTodo_take m d L (6 * k.val + 0) (by omega))) $$ HnT
    icases Hx with ⟨Hblk, HnT⟩
    iapply (dissue m d L (slotK q 0) ⟨6 * k.val + 0, by omega⟩ _ _ (off19_n L k 0 (6 * k.val + 0) (by omega) rfl) fd0 hfd0 _ _ _) $$ [HR0 Hblk]
    · isplitl [HR0] <;> iassumption
    iintro HS0
    sl_exec
    ihave HnD := (Entails.of_eq (nDone_small m d L (6 * k.val + 0) (by omega)).symm) $$ HnD
    ihave Hx := (Entails.of_eq (rTodo_take d L f3 (6 * k.val + 0) (by omega))) $$ HrT
    icases Hx with ⟨Hrow, HrT⟩
    ihave Hx := (Entails.of_eq (show Idle d L (tbl m d) (slotK q 4) = (iprop(∃ fd, Ready d L (tbl m d) (slotK q 4) fd) : sProp 𝕄) from rfl)) $$ HI4
    icases Hx with ⟨%fz4, HR4⟩
    iapply (gissue m d L (slotK q 4) ⟨6 * k.val + 0 + 4, by omega⟩ _ _ (off21_n k 0 (6 * k.val + 0 + 4) rfl) f3 fa fv hfa hfv hA hV 0 49 (Nat.zero_le _) (by show 6 * k.val + 0 + 4 < 49; omega) h3 fz4 _ _ _ _ _ _ _) $$ [HR4 Hrow]
    · isplitl [HR4] <;> iassumption
    iintro HS4
    -- ring step 1: plane 6 k + 1 arrives in slot 1 and leaves for the output; slot 5 is refilled
    sl_exec
    iapply (gwait m d L (slotK q 1) ⟨6 * k.val + 1, by omega⟩ f3 O W _ _ _) $$ [HS1 HOW]
    · isplitl [HS1]; · iexact HS1
      isplitl [HOW]; · iexact HOW
      iexact Hmw
    iintro ⟨⟨%fd1, %hfd1, HR1⟩, Hrow, HOW⟩
    ihave HrD := (Entails.of_eq (rDone_put d L f3 (6 * k.val + 1) (by omega)).symm) $$ [Hrow HrD]
    · isplitl [Hrow] <;> iassumption
    sl_exec
    ihave Hx := (Entails.of_eq (nTodo_take m d L (6 * k.val + 1) (by omega))) $$ HnT
    icases Hx with ⟨Hblk, HnT⟩
    iapply (dissue m d L (slotK q 1) ⟨6 * k.val + 1, by omega⟩ _ _ (off19_n L k 1 (6 * k.val + 1) (by omega) rfl) fd1 hfd1 _ _ _) $$ [HR1 Hblk]
    · isplitl [HR1] <;> iassumption
    iintro HS1
    sl_exec
    ihave HnD := (Entails.of_eq (nDone_small m d L (6 * k.val + 1) (by omega)).symm) $$ HnD
    ihave Hx := (Entails.of_eq (rTodo_take d L f3 (6 * k.val + 1) (by omega))) $$ HrT
    icases Hx with ⟨Hrow, HrT⟩
    ihave Hx := (Entails.of_eq (show Idle d L (tbl m d) (slotK q 5) = (iprop(∃ fd, Ready d L (tbl m d) (slotK q 5) fd) : sProp 𝕄) from rfl)) $$ HI5
    icases Hx with ⟨%fz5, HR5⟩
    iapply (gissue m d L (slotK q 5) ⟨6 * k.val + 1 + 4, by omega⟩ _ _ (off21_n k 1 (6 * k.val + 1 + 4) rfl) f3 fa fv hfa hfv hA hV 0 49 (Nat.zero_le _) (by show 6 * k.val + 1 + 4 < 49; omega) h3 fz5 _ _ _ _ _ _ _) $$ [HR5 Hrow]
    · isplitl [HR5] <;> iassumption
    iintro HS5
    -- ring step 2: plane 6 k + 2 arrives in slot 2 and leaves for the output; slot 0 is refilled
    sl_exec
    iapply (gwait m d L (slotK q 2) ⟨6 * k.val + 2, by omega⟩ f3 O W _ _ _) $$ [HS2 HOW]
    · isplitl [HS2]; · iexact HS2
      isplitl [HOW]; · iexact HOW
      iexact Hmw
    iintro ⟨⟨%fd2, %hfd2, HR2⟩, Hrow, HOW⟩
    ihave HrD := (Entails.of_eq (rDone_put d L f3 (6 * k.val + 2) (by omega)).symm) $$ [Hrow HrD]
    · isplitl [Hrow] <;> iassumption
    sl_exec
    ihave Hx := (Entails.of_eq (nTodo_take m d L (6 * k.val + 2) (by omega))) $$ HnT
    icases Hx with ⟨Hblk, HnT⟩
    iapply (dissue m d L (slotK q 2) ⟨6 * k.val + 2, by omega⟩ _ _ (off19_n L k 2 (6 * k.val + 2) (by omega) rfl) fd2 hfd2 _ _ _) $$ [HR2 Hblk]
    · isplitl [HR2] <;> iassumption
    iintro HS2
    sl_exec
    iapply (dwait m d L (slotK q 0) ⟨6 * k.val + 2 - 2, by omega⟩ O W _ _ (off23_n L k 0 (6 * k.val + 2 - 2) (by omega) (by show 6 * k.val + 0 = _; omega)) _ _) $$ [HS0 HOW]
    · isplitl [HS0]; · iexact HS0
      isplitl [HOW]; · iexact HOW
      iexact Hmw
    iintro ⟨HI0, Hdone, HOW⟩
    ihave HnD := (Entails.of_eq (nDone_put m d L (6 * k.val + 2) (by omega) (by omega)).symm) $$ [Hdone HnD]
    · isplitl [Hdone] <;> iassumption
    sl_exec
    ihave Hx := (Entails.of_eq (rTodo_take d L f3 (6 * k.val + 2) (by omega))) $$ HrT
    icases Hx with ⟨Hrow, HrT⟩
    ihave Hx := (Entails.of_eq (show Idle d L (tbl m d) (slotK q 0) = (iprop(∃ fd, Ready d L (tbl m d) (slotK q 0) fd) : sProp 𝕄) from rfl)) $$ HI0
    icases Hx with ⟨%fz0, HR0⟩
    iapply (gissue m d L (slotK q 0) ⟨6 * k.val + 2 + 4, by omega⟩ _ _ (off24_n k (6 * k.val + 2 + 4) (by omega)) f3 fa fv hfa hfv hA hV 0 49 (Nat.zero_le _) (by show 6 * k.val + 2 + 4 < 49; omega) h3 fz0 _ _ _ _ _ _ _) $$ [HR0 Hrow]
    · isplitl [HR0] <;> iassumption
    iintro HS0
    -- ring step 3: plane 6 k + 3 arrives in slot 3 and leaves for the output; slot 1 is refilled
    sl_exec
    iapply (gwait m d L (slotK q 3) ⟨6 * k.val + 3, by omega⟩ f3 O W _ _ _) $$ [HS3 HOW]
    · isplitl [HS3]; · iexact HS3
      isplitl [HOW]; · iexact HOW
      iexact Hmw
    iintro ⟨⟨%fd3, %hfd3, HR3⟩, Hrow, HOW⟩
    ihave HrD := (Entails.of_eq (rDone_put d L f3 (6 * k.val + 3) (by omega)).symm) $$ [Hrow HrD]
    · isplitl [Hrow] <;> iassumption
    sl_exec
    ihave Hx := (Entails.of_eq (nTodo_take m d L (6 * k.val + 3) (by omega))) $$ HnT
    icases Hx with ⟨Hblk, HnT⟩
    iapply (dissue m d L (slotK q 3) ⟨6 * k.val + 3, by omega⟩ _ _ (off19_n L k 3 (6 * k.val + 3) (by omega) rfl) fd3 hfd3 _ _ _) $$ [HR3 Hblk]
    · isplitl [HR3] <;> iassumption
    iintro HS3
    sl_exec
    iapply (dwait m d L (slotK q 1) ⟨6 * k.val + 3 - 2, by omega⟩ O W _ _ (off23_n L k 1 (6 * k.val + 3 - 2) (by omega) (by show 6 * k.val + 1 = _; omega)) _ _) $$ [HS1 HOW]
    · isplitl [HS1]; · iexact HS1
      isplitl [HOW]; · iexact HOW
      iexact Hmw
    iintro ⟨HI1, Hdone, HOW⟩
    ihave HnD := (Entails.of_eq (nDone_put m d L (6 * k.val + 3) (by omega) (by omega)).symm) $$ [Hdone HnD]
    · isplitl [Hdone] <;> iassumption
    sl_exec
    ihave Hx := (Entails.of_eq (rTodo_take d L f3 (6 * k.val + 3) (by omega))) $$ HrT
    icases Hx with ⟨Hrow, HrT⟩
    ihave Hx := (Entails.of_eq (show Idle d L (tbl m d) (slotK q 1) = (iprop(∃ fd, Ready d L (tbl m d) (slotK q 1) fd) : sProp 𝕄) from rfl)) $$ HI1
    icases Hx with ⟨%fz1, HR1⟩
    iapply (gissue m d L (slotK q 1) ⟨6 * k.val + 3 + 4, by omega⟩ _ _ (off25_n k (6 * k.val + 3 + 4) (by omega)) f3 fa fv hfa hfv hA hV 0 49 (Nat.zero_le _) (by show 6 * k.val + 3 + 4 < 49; omega) h3 fz1 _ _ _ _ _ _ _) $$ [HR1 Hrow]
    · isplitl [HR1] <;> iassumption
    iintro HS1
    -- ring step 4: plane 6 k + 4 arrives in slot 4 and leaves for the output; slot 2 is refilled
    sl_exec
    iapply (gwait m d L (slotK q 4) ⟨6 * k.val + 4, by omega⟩ f3 O W _ _ _) $$ [HS4 HOW]
    · isplitl [HS4]; · iexact HS4
      isplitl [HOW]; · iexact HOW
      iexact Hmw
    iintro ⟨⟨%fd4, %hfd4, HR4⟩, Hrow, HOW⟩
    ihave HrD := (Entails.of_eq (rDone_put d L f3 (6 * k.val + 4) (by omega)).symm) $$ [Hrow HrD]
    · isplitl [Hrow] <;> iassumption
    sl_exec
    ihave Hx := (Entails.of_eq (nTodo_take m d L (6 * k.val + 4) (by omega))) $$ HnT
    icases Hx with ⟨Hblk, HnT⟩
    iapply (dissue m d L (slotK q 4) ⟨6 * k.val + 4, by omega⟩ _ _ (off19_n L k 4 (6 * k.val + 4) (by omega) rfl) fd4 hfd4 _ _ _) $$ [HR4 Hblk]
    · isplitl [HR4] <;> iassumption
    iintro HS4
    sl_exec
    iapply (dwait m d L (slotK q 2) ⟨6 * k.val + 4 - 2, by omega⟩ O W _ _ (off23_n L k 2 (6 * k.val + 4 - 2) (by omega) (by show 6 * k.val + 2 = _; omega)) _ _) $$ [HS2 HOW]
    · isplitl [HS2]; · iexact HS2
      isplitl [HOW]; · iexact HOW
      iexact Hmw
    iintro ⟨HI2, Hdone, HOW⟩
    ihave HnD := (Entails.of_eq (nDone_put m d L (6 * k.val + 4) (by omega) (by omega)).symm) $$ [Hdone HnD]
    · isplitl [Hdone] <;> iassumption
    sl_exec
    ihave Hx := (Entails.of_eq (rTodo_take d L f3 (6 * k.val + 4) (by omega))) $$ HrT
    icases Hx with ⟨Hrow, HrT⟩
    ihave Hx := (Entails.of_eq (show Idle d L (tbl m d) (slotK q 2) = (iprop(∃ fd, Ready d L (tbl m d) (slotK q 2) fd) : sProp 𝕄) from rfl)) $$ HI2
    icases Hx with ⟨%fz2, HR2⟩
    iapply (gissue m d L (slotK q 2) ⟨6 * k.val + 4 + 4, by omega⟩ _ _ (off26_n k (6 * k.val + 4 + 4) (by omega)) f3 fa fv hfa hfv hA hV 0 49 (Nat.zero_le _) (by show 6 * k.val + 4 + 4 < 49; omega) h3 fz2 _ _ _ _ _ _ _) $$ [HR2 Hrow]
    · isplitl [HR2] <;> iassumption
    iintro HS2
    -- ring step 5: plane 6 k + 5 arrives in slot 5 and leaves for the output; slot 3 is refilled
    sl_exec
    iapply (gwait m d L (slotK q 5) ⟨6 * k.val + 5, by omega⟩ f3 O W _ _ _) $$ [HS5 HOW]
    · isplitl [HS5]; · iexact HS5
      isplitl [HOW]; · iexact HOW
      iexact Hmw
    iintro ⟨⟨%fd5, %hfd5, HR5⟩, Hrow, HOW⟩
    ihave HrD := (Entails.of_eq (rDone_put d L f3 (6 * k.val + 5) (by omega)).symm) $$ [Hrow HrD]
    · isplitl [Hrow] <;> iassumption
    sl_exec
    ihave Hx := (Entails.of_eq (nTodo_take m d L (6 * k.val + 5) (by omega))) $$ HnT
    icases Hx with ⟨Hblk, HnT⟩
    iapply (dissue m d L (slotK q 5) ⟨6 * k.val + 5, by omega⟩ _ _ (off19_n L k 5 (6 * k.val + 5) (by omega) rfl) fd5 hfd5 _ _ _) $$ [HR5 Hblk]
    · isplitl [HR5] <;> iassumption
    iintro HS5
    sl_exec
    iapply (dwait m d L (slotK q 3) ⟨6 * k.val + 5 - 2, by omega⟩ O W _ _ (off23_n L k 3 (6 * k.val + 5 - 2) (by omega) (by show 6 * k.val + 3 = _; omega)) _ _) $$ [HS3 HOW]
    · isplitl [HS3]; · iexact HS3
      isplitl [HOW]; · iexact HOW
      iexact Hmw
    iintro ⟨HI3, Hdone, HOW⟩
    ihave HnD := (Entails.of_eq (nDone_put m d L (6 * k.val + 5) (by omega) (by omega)).symm) $$ [Hdone HnD]
    · isplitl [Hdone] <;> iassumption
    sl_exec
    ihave Hx := (Entails.of_eq (rTodo_take d L f3 (6 * k.val + 5) (by omega))) $$ HrT
    icases Hx with ⟨Hrow, HrT⟩
    ihave Hx := (Entails.of_eq (show Idle d L (tbl m d) (slotK q 3) = (iprop(∃ fd, Ready d L (tbl m d) (slotK q 3) fd) : sProp 𝕄) from rfl)) $$ HI3
    icases Hx with ⟨%fz3, HR3⟩
    iapply (gissue m d L (slotK q 3) ⟨6 * k.val + 5 + 4, by omega⟩ _ _ (off27_n k (6 * k.val + 5 + 4) (by omega)) f3 fa fv hfa hfv hA hV 0 49 (Nat.zero_le _) (by show 6 * k.val + 5 + 4 < 49; omega) h3 fz3 _ _ _ _ _ _ _) $$ [HR3 Hrow]
    · isplitl [HR3] <;> iassumption
    iintro HS3
    sl_exec
    sl_step
    isplitr; · iexact Hmw
    isplitl [HOW]; · iexact HOW
    isplitl [HnD]; · iapply (Entails.of_eq (congrArg (nDone m d L) (show 6 * k.val + 5 + 1 = 6 * (k.val + 1) by omega))); iexact HnD
    isplitl [HnT]; · iapply (Entails.of_eq (congrArg (nTodo m d L) (show 6 * k.val + 5 + 1 = 6 * (k.val + 1) by omega))); iexact HnT
    isplitl [HrD]; · iapply (Entails.of_eq (congrArg (rDone d L f3) (show 6 * k.val + 5 + 1 = 6 * (k.val + 1) by omega))); iexact HrD
    isplitl [HrT]; · iapply (Entails.of_eq (congrArg (rTodo d L f3) (show 6 * k.val + 5 + 1 = 6 * (k.val + 1) by omega))); iexact HrT
    isplitl [HS0]; · iapply (Entails.of_eq (stG_pos (m := m) (d := d) (L := L) (q := q) (f3 := f3) 0 (k.val + 1) (6 * k.val + 2 + 4) (by omega) (by show 6 * (k.val + 1) + _ = _; omega)).symm); iexact HS0
    isplitl [HS1]; · iapply (Entails.of_eq (stG_pos (m := m) (d := d) (L := L) (q := q) (f3 := f3) 1 (k.val + 1) (6 * k.val + 3 + 4) (by omega) (by show 6 * (k.val + 1) + _ = _; omega)).symm); iexact HS1
    isplitl [HS2]; · iapply (Entails.of_eq (stG_pos (m := m) (d := d) (L := L) (q := q) (f3 := f3) 2 (k.val + 1) (6 * k.val + 4 + 4) (by omega) (by show 6 * (k.val + 1) + _ = _; omega)).symm); iexact HS2
    isplitl [HS3]; · iapply (Entails.of_eq (stG_pos (m := m) (d := d) (L := L) (q := q) (f3 := f3) 3 (k.val + 1) (6 * k.val + 5 + 4) (by omega) (by show 6 * (k.val + 1) + _ = _; omega)).symm); iexact HS3
    isplitl [HS4]; · iapply (Entails.of_eq (stD_pos (m := m) (d := d) (L := L) (q := q) 4 (k.val + 1) (6 * k.val + 4) (by omega) (by omega) (by show 6 * (k.val + 1) + 4 - 6 = _; omega)).symm); iexact HS4
    iapply (Entails.of_eq (stD_pos (m := m) (d := d) (L := L) (q := q) 5 (k.val + 1) (6 * k.val + 5) (by omega) (by omega) (by show 6 * (k.val + 1) + 5 - 6 = _; omega)).symm); iexact HS5

  · by_cases h6 : k.val ≤ 6
    · -- a middle trip
      have c1 : k0_cond1 k = 1#1 := (cond1_iff k).mpr (by omega)
      have c2 : k0_cond2 k = 1#1 := (cond2_iff k).mpr (by omega)
      have c4 : k0_cond4 k = 1#1 := (cond4_iff k).mpr (by omega)
      have c5 : k0_cond5 k = 1#1 := (cond5_iff k).mpr (by omega)
      have c6 : k0_cond6 k = 1#1 := (cond6_iff k).mpr (by omega)
      ihave HS4 := (Entails.of_eq (stD_pos (m := m) (d := d) (L := L) (q := q) 4 k.val (6 * k.val + 0 - 2) (by omega) (by omega) (by show 6 * k.val + 4 - 6 = _; omega))) $$ HS4
      ihave HS5 := (Entails.of_eq (stD_pos (m := m) (d := d) (L := L) (q := q) 5 k.val (6 * k.val + 1 - 2) (by omega) (by omega) (by show 6 * k.val + 5 - 6 = _; omega))) $$ HS5
      -- ring step 0: plane 6 k + 0 arrives in slot 0 and leaves for the output; slot 4 is refilled
      sl_exec
      iapply (gwait m d L (slotK q 0) ⟨6 * k.val + 0, by omega⟩ f3 O W _ _ _) $$ [HS0 HOW]
      · isplitl [HS0]; · iexact HS0
        isplitl [HOW]; · iexact HOW
        iexact Hmw
      iintro ⟨⟨%fd0, %hfd0, HR0⟩, Hrow, HOW⟩
      ihave HrD := (Entails.of_eq (rDone_put d L f3 (6 * k.val + 0) (by omega)).symm) $$ [Hrow HrD]
      · isplitl [Hrow] <;> iassumption
      sl_exec
      ihave Hx := (Entails.of_eq (nTodo_take m d L (6 * k.val + 0) (by omega))) $$ HnT
      icases Hx with ⟨Hblk, HnT⟩
      iapply (dissue m d L (slotK q 0) ⟨6 * k.val + 0, by omega⟩ _ _ (off19_n L k 0 (6 * k.val + 0) (by omega) rfl) fd0 hfd0 _ _ _) $$ [HR0 Hblk]
      · isplitl [HR0] <;> iassumption
      iintro HS0
      sl_exec
      iapply (dwait m d L (slotK q 4) ⟨6 * k.val + 0 - 2, by omega⟩ O W _ _ (off20_n L k c1 (6 * k.val + 0 - 2) (by omega) (by omega)) _ _) $$ [HS4 HOW]
      · isplitl [HS4]; · iexact HS4
        isplitl [HOW]; · iexact HOW
        iexact Hmw
      iintro ⟨HI4, Hdone, HOW⟩
      ihave HnD := (Entails.of_eq (nDone_put m d L (6 * k.val + 0) (by omega) (by omega)).symm) $$ [Hdone HnD]
      · isplitl [Hdone] <;> iassumption
      sl_exec
      ihave Hx := (Entails.of_eq (rTodo_take d L f3 (6 * k.val + 0) (by omega))) $$ HrT
      icases Hx with ⟨Hrow, HrT⟩
      ihave Hx := (Entails.of_eq (show Idle d L (tbl m d) (slotK q 4) = (iprop(∃ fd, Ready d L (tbl m d) (slotK q 4) fd) : sProp 𝕄) from rfl)) $$ HI4
      icases Hx with ⟨%fz4, HR4⟩
      iapply (gissue m d L (slotK q 4) ⟨6 * k.val + 0 + 4, by omega⟩ _ _ (off21_n k 0 (6 * k.val + 0 + 4) rfl) f3 fa fv hfa hfv hA hV 0 49 (Nat.zero_le _) (by show 6 * k.val + 0 + 4 < 49; omega) h3 fz4 _ _ _ _ _ _ _) $$ [HR4 Hrow]
      · isplitl [HR4] <;> iassumption
      iintro HS4
      -- ring step 1: plane 6 k + 1 arrives in slot 1 and leaves for the output; slot 5 is refilled
      sl_exec
      iapply (gwait m d L (slotK q 1) ⟨6 * k.val + 1, by omega⟩ f3 O W _ _ _) $$ [HS1 HOW]
      · isplitl [HS1]; · iexact HS1
        isplitl [HOW]; · iexact HOW
        iexact Hmw
      iintro ⟨⟨%fd1, %hfd1, HR1⟩, Hrow, HOW⟩
      ihave HrD := (Entails.of_eq (rDone_put d L f3 (6 * k.val + 1) (by omega)).symm) $$ [Hrow HrD]
      · isplitl [Hrow] <;> iassumption
      sl_exec
      ihave Hx := (Entails.of_eq (nTodo_take m d L (6 * k.val + 1) (by omega))) $$ HnT
      icases Hx with ⟨Hblk, HnT⟩
      iapply (dissue m d L (slotK q 1) ⟨6 * k.val + 1, by omega⟩ _ _ (off19_n L k 1 (6 * k.val + 1) (by omega) rfl) fd1 hfd1 _ _ _) $$ [HR1 Hblk]
      · isplitl [HR1] <;> iassumption
      iintro HS1
      sl_exec
      iapply (dwait m d L (slotK q 5) ⟨6 * k.val + 1 - 2, by omega⟩ O W _ _ (off22_n L k c2 (6 * k.val + 1 - 2) (by omega) (by omega)) _ _) $$ [HS5 HOW]
      · isplitl [HS5]; · iexact HS5
        isplitl [HOW]; · iexact HOW
        iexact Hmw
      iintro ⟨HI5, Hdone, HOW⟩
      ihave HnD := (Entails.of_eq (nDone_put m d L (6 * k.val + 1) (by omega) (by omega)).symm) $$ [Hdone HnD]
      · isplitl [Hdone] <;> iassumption
      sl_exec
      ihave Hx := (Entails.of_eq (rTodo_take d L f3 (6 * k.val + 1) (by omega))) $$ HrT
      icases Hx with ⟨Hrow, HrT⟩
      ihave Hx := (Entails.of_eq (show Idle d L (tbl m d) (slotK q 5) = (iprop(∃ fd, Ready d L (tbl m d) (slotK q 5) fd) : sProp 𝕄) from rfl)) $$ HI5
      icases Hx with ⟨%fz5, HR5⟩
      iapply (gissue m d L (slotK q 5) ⟨6 * k.val + 1 + 4, by omega⟩ _ _ (off21_n k 1 (6 * k.val + 1 + 4) rfl) f3 fa fv hfa hfv hA hV 0 49 (Nat.zero_le _) (by show 6 * k.val + 1 + 4 < 49; omega) h3 fz5 _ _ _ _ _ _ _) $$ [HR5 Hrow]
      · isplitl [HR5] <;> iassumption
      iintro HS5
      -- ring step 2: plane 6 k + 2 arrives in slot 2 and leaves for the output; slot 0 is refilled
      sl_exec
      iapply (gwait m d L (slotK q 2) ⟨6 * k.val + 2, by omega⟩ f3 O W _ _ _) $$ [HS2 HOW]
      · isplitl [HS2]; · iexact HS2
        isplitl [HOW]; · iexact HOW
        iexact Hmw
      iintro ⟨⟨%fd2, %hfd2, HR2⟩, Hrow, HOW⟩
      ihave HrD := (Entails.of_eq (rDone_put d L f3 (6 * k.val + 2) (by omega)).symm) $$ [Hrow HrD]
      · isplitl [Hrow] <;> iassumption
      sl_exec
      ihave Hx := (Entails.of_eq (nTodo_take m d L (6 * k.val + 2) (by omega))) $$ HnT
      icases Hx with ⟨Hblk, HnT⟩
      iapply (dissue m d L (slotK q 2) ⟨6 * k.val + 2, by omega⟩ _ _ (off19_n L k 2 (6 * k.val + 2) (by omega) rfl) fd2 hfd2 _ _ _) $$ [HR2 Hblk]
      · isplitl [HR2] <;> iassumption
      iintro HS2
      sl_exec
      iapply (dwait m d L (slotK q 0) ⟨6 * k.val + 2 - 2, by omega⟩ O W _ _ (off23_n L k 0 (6 * k.val + 2 - 2) (by omega) (by show 6 * k.val + 0 = _; omega)) _ _) $$ [HS0 HOW]
      · isplitl [HS0]; · iexact HS0
        isplitl [HOW]; · iexact HOW
        iexact Hmw
      iintro ⟨HI0, Hdone, HOW⟩
      ihave HnD := (Entails.of_eq (nDone_put m d L (6 * k.val + 2) (by omega) (by omega)).symm) $$ [Hdone HnD]
      · isplitl [Hdone] <;> iassumption
      sl_exec
      ihave Hx := (Entails.of_eq (rTodo_take d L f3 (6 * k.val + 2) (by omega))) $$ HrT
      icases Hx with ⟨Hrow, HrT⟩
      ihave Hx := (Entails.of_eq (show Idle d L (tbl m d) (slotK q 0) = (iprop(∃ fd, Ready d L (tbl m d) (slotK q 0) fd) : sProp 𝕄) from rfl)) $$ HI0
      icases Hx with ⟨%fz0, HR0⟩
      iapply (gissue m d L (slotK q 0) ⟨6 * k.val + 2 + 4, by omega⟩ _ _ (off24_n k (6 * k.val + 2 + 4) (by omega)) f3 fa fv hfa hfv hA hV 0 49 (Nat.zero_le _) (by show 6 * k.val + 2 + 4 < 49; omega) h3 fz0 _ _ _ _ _ _ _) $$ [HR0 Hrow]
      · isplitl [HR0] <;> iassumption
      iintro HS0
      -- ring step 3: plane 6 k + 3 arrives in slot 3 and leaves for the output; slot 1 is refilled
      sl_exec
      iapply (gwait m d L (slotK q 3) ⟨6 * k.val + 3, by omega⟩ f3 O W _ _ _) $$ [HS3 HOW]
      · isplitl [HS3]; · iexact HS3
        isplitl [HOW]; · iexact HOW
        iexact Hmw
      iintro ⟨⟨%fd3, %hfd3, HR3⟩, Hrow, HOW⟩
      ihave HrD := (Entails.of_eq (rDone_put d L f3 (6 * k.val + 3) (by omega)).symm) $$ [Hrow HrD]
      · isplitl [Hrow] <;> iassumption
      sl_exec
      ihave Hx := (Entails.of_eq (nTodo_take m d L (6 * k.val + 3) (by omega))) $$ HnT
      icases Hx with ⟨Hblk, HnT⟩
      iapply (dissue m d L (slotK q 3) ⟨6 * k.val + 3, by omega⟩ _ _ (off19_n L k 3 (6 * k.val + 3) (by omega) rfl) fd3 hfd3 _ _ _) $$ [HR3 Hblk]
      · isplitl [HR3] <;> iassumption
      iintro HS3
      sl_exec
      iapply (dwait m d L (slotK q 1) ⟨6 * k.val + 3 - 2, by omega⟩ O W _ _ (off23_n L k 1 (6 * k.val + 3 - 2) (by omega) (by show 6 * k.val + 1 = _; omega)) _ _) $$ [HS1 HOW]
      · isplitl [HS1]; · iexact HS1
        isplitl [HOW]; · iexact HOW
        iexact Hmw
      iintro ⟨HI1, Hdone, HOW⟩
      ihave HnD := (Entails.of_eq (nDone_put m d L (6 * k.val + 3) (by omega) (by omega)).symm) $$ [Hdone HnD]
      · isplitl [Hdone] <;> iassumption
      sl_exec
      ihave Hx := (Entails.of_eq (rTodo_take d L f3 (6 * k.val + 3) (by omega))) $$ HrT
      icases Hx with ⟨Hrow, HrT⟩
      ihave Hx := (Entails.of_eq (show Idle d L (tbl m d) (slotK q 1) = (iprop(∃ fd, Ready d L (tbl m d) (slotK q 1) fd) : sProp 𝕄) from rfl)) $$ HI1
      icases Hx with ⟨%fz1, HR1⟩
      iapply (gissue m d L (slotK q 1) ⟨6 * k.val + 3 + 4, by omega⟩ _ _ (off25_n k (6 * k.val + 3 + 4) (by omega)) f3 fa fv hfa hfv hA hV 0 49 (Nat.zero_le _) (by show 6 * k.val + 3 + 4 < 49; omega) h3 fz1 _ _ _ _ _ _ _) $$ [HR1 Hrow]
      · isplitl [HR1] <;> iassumption
      iintro HS1
      -- ring step 4: plane 6 k + 4 arrives in slot 4 and leaves for the output; slot 2 is refilled
      sl_exec
      iapply (gwait m d L (slotK q 4) ⟨6 * k.val + 4, by omega⟩ f3 O W _ _ _) $$ [HS4 HOW]
      · isplitl [HS4]; · iexact HS4
        isplitl [HOW]; · iexact HOW
        iexact Hmw
      iintro ⟨⟨%fd4, %hfd4, HR4⟩, Hrow, HOW⟩
      ihave HrD := (Entails.of_eq (rDone_put d L f3 (6 * k.val + 4) (by omega)).symm) $$ [Hrow HrD]
      · isplitl [Hrow] <;> iassumption
      sl_exec
      ihave Hx := (Entails.of_eq (nTodo_take m d L (6 * k.val + 4) (by omega))) $$ HnT
      icases Hx with ⟨Hblk, HnT⟩
      iapply (dissue m d L (slotK q 4) ⟨6 * k.val + 4, by omega⟩ _ _ (off19_n L k 4 (6 * k.val + 4) (by omega) rfl) fd4 hfd4 _ _ _) $$ [HR4 Hblk]
      · isplitl [HR4] <;> iassumption
      iintro HS4
      sl_exec
      iapply (dwait m d L (slotK q 2) ⟨6 * k.val + 4 - 2, by omega⟩ O W _ _ (off23_n L k 2 (6 * k.val + 4 - 2) (by omega) (by show 6 * k.val + 2 = _; omega)) _ _) $$ [HS2 HOW]
      · isplitl [HS2]; · iexact HS2
        isplitl [HOW]; · iexact HOW
        iexact Hmw
      iintro ⟨HI2, Hdone, HOW⟩
      ihave HnD := (Entails.of_eq (nDone_put m d L (6 * k.val + 4) (by omega) (by omega)).symm) $$ [Hdone HnD]
      · isplitl [Hdone] <;> iassumption
      sl_exec
      ihave Hx := (Entails.of_eq (rTodo_take d L f3 (6 * k.val + 4) (by omega))) $$ HrT
      icases Hx with ⟨Hrow, HrT⟩
      ihave Hx := (Entails.of_eq (show Idle d L (tbl m d) (slotK q 2) = (iprop(∃ fd, Ready d L (tbl m d) (slotK q 2) fd) : sProp 𝕄) from rfl)) $$ HI2
      icases Hx with ⟨%fz2, HR2⟩
      iapply (gissue m d L (slotK q 2) ⟨6 * k.val + 4 + 4, by omega⟩ _ _ (off26_n k (6 * k.val + 4 + 4) (by omega)) f3 fa fv hfa hfv hA hV 0 49 (Nat.zero_le _) (by show 6 * k.val + 4 + 4 < 49; omega) h3 fz2 _ _ _ _ _ _ _) $$ [HR2 Hrow]
      · isplitl [HR2] <;> iassumption
      iintro HS2
      -- ring step 5: plane 6 k + 5 arrives in slot 5 and leaves for the output; slot 3 is refilled
      sl_exec
      iapply (gwait m d L (slotK q 5) ⟨6 * k.val + 5, by omega⟩ f3 O W _ _ _) $$ [HS5 HOW]
      · isplitl [HS5]; · iexact HS5
        isplitl [HOW]; · iexact HOW
        iexact Hmw
      iintro ⟨⟨%fd5, %hfd5, HR5⟩, Hrow, HOW⟩
      ihave HrD := (Entails.of_eq (rDone_put d L f3 (6 * k.val + 5) (by omega)).symm) $$ [Hrow HrD]
      · isplitl [Hrow] <;> iassumption
      sl_exec
      ihave Hx := (Entails.of_eq (nTodo_take m d L (6 * k.val + 5) (by omega))) $$ HnT
      icases Hx with ⟨Hblk, HnT⟩
      iapply (dissue m d L (slotK q 5) ⟨6 * k.val + 5, by omega⟩ _ _ (off19_n L k 5 (6 * k.val + 5) (by omega) rfl) fd5 hfd5 _ _ _) $$ [HR5 Hblk]
      · isplitl [HR5] <;> iassumption
      iintro HS5
      sl_exec
      iapply (dwait m d L (slotK q 3) ⟨6 * k.val + 5 - 2, by omega⟩ O W _ _ (off23_n L k 3 (6 * k.val + 5 - 2) (by omega) (by show 6 * k.val + 3 = _; omega)) _ _) $$ [HS3 HOW]
      · isplitl [HS3]; · iexact HS3
        isplitl [HOW]; · iexact HOW
        iexact Hmw
      iintro ⟨HI3, Hdone, HOW⟩
      ihave HnD := (Entails.of_eq (nDone_put m d L (6 * k.val + 5) (by omega) (by omega)).symm) $$ [Hdone HnD]
      · isplitl [Hdone] <;> iassumption
      sl_exec
      ihave Hx := (Entails.of_eq (rTodo_take d L f3 (6 * k.val + 5) (by omega))) $$ HrT
      icases Hx with ⟨Hrow, HrT⟩
      ihave Hx := (Entails.of_eq (show Idle d L (tbl m d) (slotK q 3) = (iprop(∃ fd, Ready d L (tbl m d) (slotK q 3) fd) : sProp 𝕄) from rfl)) $$ HI3
      icases Hx with ⟨%fz3, HR3⟩
      iapply (gissue m d L (slotK q 3) ⟨6 * k.val + 5 + 4, by omega⟩ _ _ (off27_n k (6 * k.val + 5 + 4) (by omega)) f3 fa fv hfa hfv hA hV 0 49 (Nat.zero_le _) (by show 6 * k.val + 5 + 4 < 49; omega) h3 fz3 _ _ _ _ _ _ _) $$ [HR3 Hrow]
      · isplitl [HR3] <;> iassumption
      iintro HS3
      sl_exec
      sl_step
      isplitr; · iexact Hmw
      isplitl [HOW]; · iexact HOW
      isplitl [HnD]; · iapply (Entails.of_eq (congrArg (nDone m d L) (show 6 * k.val + 5 + 1 = 6 * (k.val + 1) by omega))); iexact HnD
      isplitl [HnT]; · iapply (Entails.of_eq (congrArg (nTodo m d L) (show 6 * k.val + 5 + 1 = 6 * (k.val + 1) by omega))); iexact HnT
      isplitl [HrD]; · iapply (Entails.of_eq (congrArg (rDone d L f3) (show 6 * k.val + 5 + 1 = 6 * (k.val + 1) by omega))); iexact HrD
      isplitl [HrT]; · iapply (Entails.of_eq (congrArg (rTodo d L f3) (show 6 * k.val + 5 + 1 = 6 * (k.val + 1) by omega))); iexact HrT
      isplitl [HS0]; · iapply (Entails.of_eq (stG_pos (m := m) (d := d) (L := L) (q := q) (f3 := f3) 0 (k.val + 1) (6 * k.val + 2 + 4) (by omega) (by show 6 * (k.val + 1) + _ = _; omega)).symm); iexact HS0
      isplitl [HS1]; · iapply (Entails.of_eq (stG_pos (m := m) (d := d) (L := L) (q := q) (f3 := f3) 1 (k.val + 1) (6 * k.val + 3 + 4) (by omega) (by show 6 * (k.val + 1) + _ = _; omega)).symm); iexact HS1
      isplitl [HS2]; · iapply (Entails.of_eq (stG_pos (m := m) (d := d) (L := L) (q := q) (f3 := f3) 2 (k.val + 1) (6 * k.val + 4 + 4) (by omega) (by show 6 * (k.val + 1) + _ = _; omega)).symm); iexact HS2
      isplitl [HS3]; · iapply (Entails.of_eq (stG_pos (m := m) (d := d) (L := L) (q := q) (f3 := f3) 3 (k.val + 1) (6 * k.val + 5 + 4) (by omega) (by show 6 * (k.val + 1) + _ = _; omega)).symm); iexact HS3
      isplitl [HS4]; · iapply (Entails.of_eq (stD_pos (m := m) (d := d) (L := L) (q := q) 4 (k.val + 1) (6 * k.val + 4) (by omega) (by omega) (by show 6 * (k.val + 1) + 4 - 6 = _; omega)).symm); iexact HS4
      iapply (Entails.of_eq (stD_pos (m := m) (d := d) (L := L) (q := q) 5 (k.val + 1) (6 * k.val + 5) (by omega) (by omega) (by show 6 * (k.val + 1) + 5 - 6 = _; omega)).symm); iexact HS5

    · -- the last trip: no planes 49, 50, 51 to gather
      have c1 : k0_cond1 k = 1#1 := (cond1_iff k).mpr (by omega)
      have c2 : k0_cond2 k = 1#1 := (cond2_iff k).mpr (by omega)
      have c4 : ¬ k0_cond4 k = 1#1 := fun h => absurd ((cond4_iff k).mp h) (by omega)
      have c5 : ¬ k0_cond5 k = 1#1 := fun h => absurd ((cond5_iff k).mp h) (by omega)
      have c6 : ¬ k0_cond6 k = 1#1 := fun h => absurd ((cond6_iff k).mp h) (by omega)
      ihave HS4 := (Entails.of_eq (stD_pos (m := m) (d := d) (L := L) (q := q) 4 k.val (6 * k.val + 0 - 2) (by omega) (by omega) (by show 6 * k.val + 4 - 6 = _; omega))) $$ HS4
      ihave HS5 := (Entails.of_eq (stD_pos (m := m) (d := d) (L := L) (q := q) 5 k.val (6 * k.val + 1 - 2) (by omega) (by omega) (by show 6 * k.val + 5 - 6 = _; omega))) $$ HS5
      -- ring step 0: plane 6 k + 0 arrives in slot 0 and leaves for the output; slot 4 is refilled
      sl_exec
      iapply (gwait m d L (slotK q 0) ⟨6 * k.val + 0, by omega⟩ f3 O W _ _ _) $$ [HS0 HOW]
      · isplitl [HS0]; · iexact HS0
        isplitl [HOW]; · iexact HOW
        iexact Hmw
      iintro ⟨⟨%fd0, %hfd0, HR0⟩, Hrow, HOW⟩
      ihave HrD := (Entails.of_eq (rDone_put d L f3 (6 * k.val + 0) (by omega)).symm) $$ [Hrow HrD]
      · isplitl [Hrow] <;> iassumption
      sl_exec
      ihave Hx := (Entails.of_eq (nTodo_take m d L (6 * k.val + 0) (by omega))) $$ HnT
      icases Hx with ⟨Hblk, HnT⟩
      iapply (dissue m d L (slotK q 0) ⟨6 * k.val + 0, by omega⟩ _ _ (off19_n L k 0 (6 * k.val + 0) (by omega) rfl) fd0 hfd0 _ _ _) $$ [HR0 Hblk]
      · isplitl [HR0] <;> iassumption
      iintro HS0
      sl_exec
      iapply (dwait m d L (slotK q 4) ⟨6 * k.val + 0 - 2, by omega⟩ O W _ _ (off20_n L k c1 (6 * k.val + 0 - 2) (by omega) (by omega)) _ _) $$ [HS4 HOW]
      · isplitl [HS4]; · iexact HS4
        isplitl [HOW]; · iexact HOW
        iexact Hmw
      iintro ⟨HI4, Hdone, HOW⟩
      ihave HnD := (Entails.of_eq (nDone_put m d L (6 * k.val + 0) (by omega) (by omega)).symm) $$ [Hdone HnD]
      · isplitl [Hdone] <;> iassumption
      sl_exec
      ihave Hx := (Entails.of_eq (rTodo_take d L f3 (6 * k.val + 0) (by omega))) $$ HrT
      icases Hx with ⟨Hrow, HrT⟩
      ihave Hx := (Entails.of_eq (show Idle d L (tbl m d) (slotK q 4) = (iprop(∃ fd, Ready d L (tbl m d) (slotK q 4) fd) : sProp 𝕄) from rfl)) $$ HI4
      icases Hx with ⟨%fz4, HR4⟩
      iapply (gissue m d L (slotK q 4) ⟨6 * k.val + 0 + 4, by omega⟩ _ _ (off21_n k 0 (6 * k.val + 0 + 4) rfl) f3 fa fv hfa hfv hA hV 0 49 (Nat.zero_le _) (by show 6 * k.val + 0 + 4 < 49; omega) h3 fz4 _ _ _ _ _ _ _) $$ [HR4 Hrow]
      · isplitl [HR4] <;> iassumption
      iintro HS4
      -- ring step 1: plane 6 k + 1 arrives in slot 1 and leaves for the output; slot 5 is refilled
      sl_exec
      iapply (gwait m d L (slotK q 1) ⟨6 * k.val + 1, by omega⟩ f3 O W _ _ _) $$ [HS1 HOW]
      · isplitl [HS1]; · iexact HS1
        isplitl [HOW]; · iexact HOW
        iexact Hmw
      iintro ⟨⟨%fd1, %hfd1, HR1⟩, Hrow, HOW⟩
      ihave HrD := (Entails.of_eq (rDone_put d L f3 (6 * k.val + 1) (by omega)).symm) $$ [Hrow HrD]
      · isplitl [Hrow] <;> iassumption
      sl_exec
      ihave Hx := (Entails.of_eq (nTodo_take m d L (6 * k.val + 1) (by omega))) $$ HnT
      icases Hx with ⟨Hblk, HnT⟩
      iapply (dissue m d L (slotK q 1) ⟨6 * k.val + 1, by omega⟩ _ _ (off19_n L k 1 (6 * k.val + 1) (by omega) rfl) fd1 hfd1 _ _ _) $$ [HR1 Hblk]
      · isplitl [HR1] <;> iassumption
      iintro HS1
      sl_exec
      iapply (dwait m d L (slotK q 5) ⟨6 * k.val + 1 - 2, by omega⟩ O W _ _ (off22_n L k c2 (6 * k.val + 1 - 2) (by omega) (by omega)) _ _) $$ [HS5 HOW]
      · isplitl [HS5]; · iexact HS5
        isplitl [HOW]; · iexact HOW
        iexact Hmw
      iintro ⟨HI5, Hdone, HOW⟩
      ihave HnD := (Entails.of_eq (nDone_put m d L (6 * k.val + 1) (by omega) (by omega)).symm) $$ [Hdone HnD]
      · isplitl [Hdone] <;> iassumption
      sl_exec
      ihave Hx := (Entails.of_eq (rTodo_take d L f3 (6 * k.val + 1) (by omega))) $$ HrT
      icases Hx with ⟨Hrow, HrT⟩
      ihave Hx := (Entails.of_eq (show Idle d L (tbl m d) (slotK q 5) = (iprop(∃ fd, Ready d L (tbl m d) (slotK q 5) fd) : sProp 𝕄) from rfl)) $$ HI5
      icases Hx with ⟨%fz5, HR5⟩
      iapply (gissue m d L (slotK q 5) ⟨6 * k.val + 1 + 4, by omega⟩ _ _ (off21_n k 1 (6 * k.val + 1 + 4) rfl) f3 fa fv hfa hfv hA hV 0 49 (Nat.zero_le _) (by show 6 * k.val + 1 + 4 < 49; omega) h3 fz5 _ _ _ _ _ _ _) $$ [HR5 Hrow]
      · isplitl [HR5] <;> iassumption
      iintro HS5
      -- ring step 2: plane 6 k + 2 arrives in slot 2 and leaves for the output; slot 0 is refilled
      sl_exec
      iapply (gwait m d L (slotK q 2) ⟨6 * k.val + 2, by omega⟩ f3 O W _ _ _) $$ [HS2 HOW]
      · isplitl [HS2]; · iexact HS2
        isplitl [HOW]; · iexact HOW
        iexact Hmw
      iintro ⟨⟨%fd2, %hfd2, HR2⟩, Hrow, HOW⟩
      ihave HrD := (Entails.of_eq (rDone_put d L f3 (6 * k.val + 2) (by omega)).symm) $$ [Hrow HrD]
      · isplitl [Hrow] <;> iassumption
      sl_exec
      ihave Hx := (Entails.of_eq (nTodo_take m d L (6 * k.val + 2) (by omega))) $$ HnT
      icases Hx with ⟨Hblk, HnT⟩
      iapply (dissue m d L (slotK q 2) ⟨6 * k.val + 2, by omega⟩ _ _ (off19_n L k 2 (6 * k.val + 2) (by omega) rfl) fd2 hfd2 _ _ _) $$ [HR2 Hblk]
      · isplitl [HR2] <;> iassumption
      iintro HS2
      sl_exec
      iapply (dwait m d L (slotK q 0) ⟨6 * k.val + 2 - 2, by omega⟩ O W _ _ (off23_n L k 0 (6 * k.val + 2 - 2) (by omega) (by show 6 * k.val + 0 = _; omega)) _ _) $$ [HS0 HOW]
      · isplitl [HS0]; · iexact HS0
        isplitl [HOW]; · iexact HOW
        iexact Hmw
      iintro ⟨HI0, Hdone, HOW⟩
      ihave HnD := (Entails.of_eq (nDone_put m d L (6 * k.val + 2) (by omega) (by omega)).symm) $$ [Hdone HnD]
      · isplitl [Hdone] <;> iassumption
      sl_exec
      ihave Hx := (Entails.of_eq (rTodo_take d L f3 (6 * k.val + 2) (by omega))) $$ HrT
      icases Hx with ⟨Hrow, HrT⟩
      ihave Hx := (Entails.of_eq (show Idle d L (tbl m d) (slotK q 0) = (iprop(∃ fd, Ready d L (tbl m d) (slotK q 0) fd) : sProp 𝕄) from rfl)) $$ HI0
      icases Hx with ⟨%fz0, HR0⟩
      iapply (gissue m d L (slotK q 0) ⟨6 * k.val + 2 + 4, by omega⟩ _ _ (off24_n k (6 * k.val + 2 + 4) (by omega)) f3 fa fv hfa hfv hA hV 0 49 (Nat.zero_le _) (by show 6 * k.val + 2 + 4 < 49; omega) h3 fz0 _ _ _ _ _ _ _) $$ [HR0 Hrow]
      · isplitl [HR0] <;> iassumption
      iintro HS0
      -- ring step 3: plane 6 k + 3 arrives in slot 3 and leaves for the output; slot 1 is refilled
      sl_exec
      iapply (gwait m d L (slotK q 3) ⟨6 * k.val + 3, by omega⟩ f3 O W _ _ _) $$ [HS3 HOW]
      · isplitl [HS3]; · iexact HS3
        isplitl [HOW]; · iexact HOW
        iexact Hmw
      iintro ⟨⟨%fd3, %hfd3, HR3⟩, Hrow, HOW⟩
      ihave HrD := (Entails.of_eq (rDone_put d L f3 (6 * k.val + 3) (by omega)).symm) $$ [Hrow HrD]
      · isplitl [Hrow] <;> iassumption
      sl_exec
      ihave Hx := (Entails.of_eq (nTodo_take m d L (6 * k.val + 3) (by omega))) $$ HnT
      icases Hx with ⟨Hblk, HnT⟩
      iapply (dissue m d L (slotK q 3) ⟨6 * k.val + 3, by omega⟩ _ _ (off19_n L k 3 (6 * k.val + 3) (by omega) rfl) fd3 hfd3 _ _ _) $$ [HR3 Hblk]
      · isplitl [HR3] <;> iassumption
      iintro HS3
      sl_exec
      iapply (dwait m d L (slotK q 1) ⟨6 * k.val + 3 - 2, by omega⟩ O W _ _ (off23_n L k 1 (6 * k.val + 3 - 2) (by omega) (by show 6 * k.val + 1 = _; omega)) _ _) $$ [HS1 HOW]
      · isplitl [HS1]; · iexact HS1
        isplitl [HOW]; · iexact HOW
        iexact Hmw
      iintro ⟨HI1, Hdone, HOW⟩
      ihave HnD := (Entails.of_eq (nDone_put m d L (6 * k.val + 3) (by omega) (by omega)).symm) $$ [Hdone HnD]
      · isplitl [Hdone] <;> iassumption
      ihave HrT := (Entails.of_eq (rTodo_last d L f3 (6 * k.val + 3) (by omega))) $$ HrT
      -- ring step 4: plane 6 k + 4 arrives in slot 4 and leaves for the output; slot 2 is refilled
      sl_exec
      iapply (gwait m d L (slotK q 4) ⟨6 * k.val + 4, by omega⟩ f3 O W _ _ _) $$ [HS4 HOW]
      · isplitl [HS4]; · iexact HS4
        isplitl [HOW]; · iexact HOW
        iexact Hmw
      iintro ⟨⟨%fd4, %hfd4, HR4⟩, Hrow, HOW⟩
      ihave HrD := (Entails.of_eq (rDone_put d L f3 (6 * k.val + 4) (by omega)).symm) $$ [Hrow HrD]
      · isplitl [Hrow] <;> iassumption
      sl_exec
      ihave Hx := (Entails.of_eq (nTodo_take m d L (6 * k.val + 4) (by omega))) $$ HnT
      icases Hx with ⟨Hblk, HnT⟩
      iapply (dissue m d L (slotK q 4) ⟨6 * k.val + 4, by omega⟩ _ _ (off19_n L k 4 (6 * k.val + 4) (by omega) rfl) fd4 hfd4 _ _ _) $$ [HR4 Hblk]
      · isplitl [HR4] <;> iassumption
      iintro HS4
      sl_exec
      iapply (dwait m d L (slotK q 2) ⟨6 * k.val + 4 - 2, by omega⟩ O W _ _ (off23_n L k 2 (6 * k.val + 4 - 2) (by omega) (by show 6 * k.val + 2 = _; omega)) _ _) $$ [HS2 HOW]
      · isplitl [HS2]; · iexact HS2
        isplitl [HOW]; · iexact HOW
        iexact Hmw
      iintro ⟨HI2, Hdone, HOW⟩
      ihave HnD := (Entails.of_eq (nDone_put m d L (6 * k.val + 4) (by omega) (by omega)).symm) $$ [Hdone HnD]
      · isplitl [Hdone] <;> iassumption
      ihave HrT := (Entails.of_eq (rTodo_last d L f3 (6 * k.val + 4) (by omega))) $$ HrT
      -- ring step 5: plane 6 k + 5 arrives in slot 5 and leaves for the output; slot 3 is refilled
      sl_exec
      iapply (gwait m d L (slotK q 5) ⟨6 * k.val + 5, by omega⟩ f3 O W _ _ _) $$ [HS5 HOW]
      · isplitl [HS5]; · iexact HS5
        isplitl [HOW]; · iexact HOW
        iexact Hmw
      iintro ⟨⟨%fd5, %hfd5, HR5⟩, Hrow, HOW⟩
      ihave HrD := (Entails.of_eq (rDone_put d L f3 (6 * k.val + 5) (by omega)).symm) $$ [Hrow HrD]
      · isplitl [Hrow] <;> iassumption
      sl_exec
      ihave Hx := (Entails.of_eq (nTodo_take m d L (6 * k.val + 5) (by omega))) $$ HnT
      icases Hx with ⟨Hblk, HnT⟩
      iapply (dissue m d L (slotK q 5) ⟨6 * k.val + 5, by omega⟩ _ _ (off19_n L k 5 (6 * k.val + 5) (by omega) rfl) fd5 hfd5 _ _ _) $$ [HR5 Hblk]
      · isplitl [HR5] <;> iassumption
      iintro HS5
      sl_exec
      iapply (dwait m d L (slotK q 3) ⟨6 * k.val + 5 - 2, by omega⟩ O W _ _ (off23_n L k 3 (6 * k.val + 5 - 2) (by omega) (by show 6 * k.val + 3 = _; omega)) _ _) $$ [HS3 HOW]
      · isplitl [HS3]; · iexact HS3
        isplitl [HOW]; · iexact HOW
        iexact Hmw
      iintro ⟨HI3, Hdone, HOW⟩
      ihave HnD := (Entails.of_eq (nDone_put m d L (6 * k.val + 5) (by omega) (by omega)).symm) $$ [Hdone HnD]
      · isplitl [Hdone] <;> iassumption
      ihave HrT := (Entails.of_eq (rTodo_last d L f3 (6 * k.val + 5) (by omega))) $$ HrT
      sl_exec
      sl_step
      isplitr; · iexact Hmw
      isplitl [HOW]; · iexact HOW
      isplitl [HnD]; · iapply (Entails.of_eq (congrArg (nDone m d L) (show 6 * k.val + 5 + 1 = 6 * (k.val + 1) by omega))); iexact HnD
      isplitl [HnT]; · iapply (Entails.of_eq (congrArg (nTodo m d L) (show 6 * k.val + 5 + 1 = 6 * (k.val + 1) by omega))); iexact HnT
      isplitl [HrD]; · iapply (Entails.of_eq (congrArg (rDone d L f3) (show 6 * k.val + 5 + 1 = 6 * (k.val + 1) by omega))); iexact HrD
      isplitl [HrT]; · iapply (Entails.of_eq (congrArg (rTodo d L f3) (show 6 * k.val + 5 + 1 = 6 * (k.val + 1) by omega))); iexact HrT
      isplitl [HS0]; · iapply (Entails.of_eq (stG_pos (m := m) (d := d) (L := L) (q := q) (f3 := f3) 0 (k.val + 1) (6 * k.val + 2 + 4) (by omega) (by show 6 * (k.val + 1) + _ = _; omega)).symm); iexact HS0
      isplitl [HI1]; · iapply (Entails.of_eq (stG_neg (m := m) (d := d) (L := L) (q := q) (f3 := f3) 1 (k.val + 1) (by show ¬ 6 * (k.val + 1) + _ < 49; omega)).symm); iexact HI1
      isplitl [HI2]; · iapply (Entails.of_eq (stG_neg (m := m) (d := d) (L := L) (q := q) (f3 := f3) 2 (k.val + 1) (by show ¬ 6 * (k.val + 1) + _ < 49; omega)).symm); iexact HI2
      isplitl [HI3]; · iapply (Entails.of_eq (stG_neg (m := m) (d := d) (L := L) (q := q) (f3 := f3) 3 (k.val + 1) (by show ¬ 6 * (k.val + 1) + _ < 49; omega)).symm); iexact HI3
      isplitl [HS4]; · iapply (Entails.of_eq (stD_pos (m := m) (d := d) (L := L) (q := q) 4 (k.val + 1) (6 * k.val + 4) (by omega) (by omega) (by show 6 * (k.val + 1) + 4 - 6 = _; omega)).symm); iexact HS4
      iapply (Entails.of_eq (stD_pos (m := m) (d := d) (L := L) (q := q) 5 (k.val + 1) (6 * k.val + 5) (by omega) (by omega) (by show 6 * (k.val + 1) + 5 - 6 = _; omega)).symm); iexact HS5

end Cert.KK

end
-- ==== Proof.RingEndsK.lean ====
import proofs.«210835_g78632261255710_cont_9to1_m_350_20_alg».proof.Proof.RingDefsK

/-! Small facts at the joints of a subcore's task: a gather in flight and an index row depend on the plane buffer's
    contents only on their own row; the vectors copied in are the subcore's samples' words, within the ranges; the
    families of output blocks and index rows at the two ends of the ring's walk. -/

noncomputable section

namespace Cert.KK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aV" => (Memref.whole Cert.Kernel.main_arg0_scv : Memref Cert.Kernel.sig Kind.scVector Space.hbm Cert.Kernel.S4096 EltTy.i32)
local notation "vV" => (Memref.whole Cert.Kernel.main_arg1_scv : Memref Cert.Kernel.sig Kind.scVector Space.hbm Cert.Kernel.S4096 EltTy.i32)
local notation "tV" => (Memref.whole Cert.Kernel.main_v1_scv : Memref Cert.Kernel.sig Kind.scVector Space.hbm Cert.Kernel.S100000x128 EltTy.f32)
local notation "pV" => (Memref.whole Cert.Kernel.main_v2_0_scv : Memref Cert.Kernel.sig Kind.scVector Space.hbm Cert.Kernel.S4096x128 EltTy.f32)
local notation "nV" => (Memref.whole Cert.Kernel.main_v2_1_scv : Memref Cert.Kernel.sig Kind.scVector Space.hbm Cert.Kernel.S200704x128 EltTy.f32)
local notation "b0" => (Memref.whole Cert.Kernel.cc0_scratch0 : Memref Cert.Kernel.sig Kind.scVector Space.vmem Cert.Kernel.S128 EltTy.i32)
local notation "b1" => (Memref.whole Cert.Kernel.cc0_scratch1 : Memref Cert.Kernel.sig Kind.scVector Space.vmem Cert.Kernel.S128 EltTy.i32)
local notation "b2" => (Memref.whole Cert.Kernel.cc0_scratch2 : Memref Cert.Kernel.sig Kind.scVector Space.vmem Cert.Kernel.S128 EltTy.i32)
local notation "b3" => (Memref.whole Cert.Kernel.cc0_scratch3 : Memref Cert.Kernel.sig Kind.scVector Space.vmem Cert.Kernel.S49x128 EltTy.i32)
local notation "b4" => (Memref.whole Cert.Kernel.cc0_scratch4 : Memref Cert.Kernel.sig Kind.scVector Space.vmem Cert.Kernel.S128x128 EltTy.f32)
local notation "b5" => (Memref.whole Cert.Kernel.cc0_scratch5 : Memref Cert.Kernel.sig Kind.scVector Space.vmem Cert.Kernel.S6x128x128 EltTy.f32)

variable (m : (ℓ : Loc nD τ sig) → Buf (Elt F) ℓ) (d : Dev nD) (L : grid0.Coords)

open Idealize.ShloMosaic.ValueIdx

local notation "thr" => (V d (cV L) (jV L))

/-! ## A row of the plane buffer as a set of its elements -/

/-- The elements of the plane buffer that its row at offsets `o` names. -/
theorem planeRow_set (o : Fin 2 → ℕ) (h : ∀ a, o a + S1x128.size a ≤ S49x128.size a) :
    (planeRow o h).view.set = (Rect.unit (s := S49x128) o S1x128.size h).set := by
  show ((((b3).view.slice (Rect.unit (s := S49x128) o S1x128.size h)).reshape S128 squeezes_S1x128_S128.numel_eq).set) = _
  rw [View.set_reshape]; exact View.set_slice_whole _ _

/-- They are the elements of row `o 0`. -/
theorem mem_planeRow_set (o : Fin 2 → ℕ) (h : ∀ a, o a + S1x128.size a ≤ S49x128.size a) (ho1 : o 1 = 0) (i : S49x128.Idx) :
    i ∈ (planeRow o h).view.set ↔ (i 0).val = o 0 := by
  rw [planeRow_set, Rect.mem_set_unit]
  have h128 : (i 1).val < 128 := (i 1).isLt
  constructor
  · intro hm
    have h0 := hm 0
    change o 0 ≤ (i 0).val ∧ (i 0).val < o 0 + 1 at h0
    omega
  · intro hi a
    match a with
    | ⟨0, _⟩ => show o 0 ≤ (i 0).val ∧ (i 0).val < o 0 + 1; omega
    | ⟨1, _⟩ => show o 1 ≤ (i 1).val ∧ (i 1).val < o 1 + 128; omega

/-! ## Dependence on the plane buffer's contents -/

/-- Row `j` of the plane buffer at contents that agree on row `j`. -/
theorem pRow_congr (j : Fin 49) (f g : S49x128.Idx → Elt F .i32) (hfg : ∀ i : S49x128.Idx, (i 0).val = j.val → f i = g i) :
    (pRow d L f j : sProp 𝕄) = pRow d L g j := by
  unfold pRow
  exact pointsTo_congr fun i hi => hfg i ((mem_planeRow_set _ _ rfl i).1 hi)

/-- A gather in flight holds the plane buffer's contents only on its plane's row. -/
theorem Gath_f3 (Tb : Buf (Elt F) (tLoc d)) (K : SlotK) (j : Fin 49) (f g : S49x128.Idx → Elt F .i32)
    (hfg : ∀ i : S49x128.Idx, (i 0).val = j.val → f i = g i) :
    (Gath m d L Tb f K j : sProp 𝕄) ⊢ Gath m d L Tb g K j := by
  unfold Gath
  iintro ⟨Hdm, %o, %h, %fd, %ho, %hok, Hfl⟩
  isplitl [Hdm]; · iexact Hdm
  iexists o, h, fd
  isplitr
  · ipureintro; exact ho
  isplitr
  · ipureintro; exact hok
  have e : ((planeRow o h).view.loc (V d (cV L) (jV L)) ↦[(planeRow o h).view.set]{fullShare} f : sProp 𝕄)
      = ((planeRow o h).view.loc (V d (cV L) (jV L)) ↦[(planeRow o h).view.set]{fullShare} g) :=
    pointsTo_congr fun i hi => hfg i (by
      have := (mem_planeRow_set o h (by rw [ho]; rfl) i).1 hi
      rw [this, ho]; rfl)
  rw [← e]
  iexact Hfl

/-- The plane buffer less its first four rows, at contents that agree from row 4 on. -/
theorem rest4_congr (f g : S49x128.Idx → Elt F .i32) (hfg : ∀ i : S49x128.Idx, 4 ≤ (i 0).val → f i = g i) :
    ((b3).view.loc thr ↦[((((Finset.univ \ (planeRow ![0, 0] inb_S49x128_S1x128_0_0).view.set) \ (planeRow ![1, 0] inb_S49x128_S1x128_1_0).view.set)
        \ (planeRow ![2, 0] inb_S49x128_S1x128_2_0).view.set) \ (planeRow ![3, 0] inb_S49x128_S1x128_3_0).view.set)]{fullShare} f : sProp 𝕄)
      = ((b3).view.loc thr ↦[((((Finset.univ \ (planeRow ![0, 0] inb_S49x128_S1x128_0_0).view.set) \ (planeRow ![1, 0] inb_S49x128_S1x128_1_0).view.set)
        \ (planeRow ![2, 0] inb_S49x128_S1x128_2_0).view.set) \ (planeRow ![3, 0] inb_S49x128_S1x128_3_0).view.set)]{fullShare} g) := by
  refine pointsTo_congr fun i hi => hfg i ?_
  simp only [Finset.mem_sdiff, Finset.mem_univ, true_and] at hi
  obtain ⟨⟨⟨h0, h1⟩, h2⟩, h3⟩ := hi
  have k0 : (i 0).val ≠ 0 := fun e => h0 ((mem_planeRow_set _ _ rfl i).2 e)
  have k1 : (i 0).val ≠ 1 := fun e => h1 ((mem_planeRow_set _ _ rfl i).2 e)
  have k2 : (i 0).val ≠ 2 := fun e => h2 ((mem_planeRow_set _ _ rfl i).2 e)
  have k3 : (i 0).val ≠ 3 := fun e => h3 ((mem_planeRow_set _ _ rfl i).2 e)
  omega

/-! ## The vectors copied in -/

/-- The attributes as copied in: word `s` is the attribute of the subcore's sample `s`. -/
theorem fa_val (f0 : S128.Idx → Elt F .i32) (s : Fin 128) :
    View.write (Elt F) (b0).view f0 (ReadAs.same.apply ((aRowK L).view.read (Elt F) (m (aLoc d)))) Finset.univ (ix1 s)
      = m (aLoc d) (ix1 (⟨base L + s.val, base_add_lt L s⟩ : Fin 4096)) := by
  rw [View.write_whole_univ]
  exact aRow_read m d L s

/-- … within the attributes' range. -/
theorem fa_le (hpre : PreOK m) (f0 : S128.Idx → Elt F .i32) (s : S128.Idx) :
    (View.write (Elt F) (b0).view f0 (ReadAs.same.apply ((aRowK L).view.read (Elt F) (m (aLoc d)))) Finset.univ s).toNat ≤ 1999 := by
  rw [View.write_whole_univ]
  show ((aRowK L).view.read (Elt F) (m (aLoc d)) s).toNat ≤ 1999
  rw [View.read_apply]
  exact (hpre d).1 _

/-- The values as copied in: word `s` is the value of the subcore's sample `s`. -/
theorem fv_val (f1 : S128.Idx → Elt F .i32) (s : Fin 128) :
    View.write (Elt F) (b1).view f1 (ReadAs.same.apply ((vRowK L).view.read (Elt F) (m (vLoc d)))) Finset.univ (ix1 s)
      = m (vLoc d) (ix1 (⟨base L + s.val, base_add_lt L s⟩ : Fin 4096)) := by
  rw [View.write_whole_univ]
  exact vRow_read m d L s

/-- … within the values' range. -/
theorem fv_le (hpre : PreOK m) (f1 : S128.Idx → Elt F .i32) (s : S128.Idx) :
    (View.write (Elt F) (b1).view f1 (ReadAs.same.apply ((vRowK L).view.read (Elt F) (m (vLoc d)))) Finset.univ s).toNat ≤ 49 := by
  rw [View.write_whole_univ]
  show ((vRowK L).view.read (Elt F) (m (vLoc d)) s).toNat ≤ 49
  rw [View.read_apply]
  exact (hpre d).2 _

/-! ## The ends of the ring's walk -/

theorem nTodo_zero : (nTodo m d L 0 : sProp 𝕄) = bigSep Finset.univ fun j : Fin 49 => nBlock d L j (m (nLoc d)) := by
  unfold nTodo
  rw [Finset.filter_true_of_mem (fun j _ => Nat.zero_le _)]

theorem rTodo_end (f3 : S49x128.Idx → Elt F .i32) (n : ℕ) (h : 45 ≤ n) : (rTodo d L f3 n : sProp 𝕄) = (iprop(emp) : sProp 𝕄) := by
  unfold rTodo
  rw [Finset.filter_false_of_mem (fun j _ => by have := j.isLt; omega)]
  rfl

theorem nDone_all (n : ℕ) (h : 51 ≤ n) : (nDone m d L n : sProp 𝕄) = bigSep Finset.univ fun j : Fin 49 => nBlock d L j (negOf m d) := by
  unfold nDone
  rw [Finset.filter_true_of_mem (fun j _ => by have := j.isLt; omega)]

theorem rDone_all (f3 : S49x128.Idx → Elt F .i32) (n : ℕ) (h : 49 ≤ n) : (rDone d L f3 n : sProp 𝕄) = bigSep Finset.univ fun j : Fin 49 => pRow d L f3 j := by
  unfold rDone
  rw [Finset.filter_true_of_mem (fun j _ => by have := j.isLt; omega)]

end Cert.KK

end
-- ==== Proof.BodyK.lean ====
/-
  One vector subcore's task of the lookup kernel, at a symbolic subcore: it copies in its 128 attributes and values,
  fills the 49 index planes and the positive index row, streams the table's rows through a ring of six row buffers out to
  its block of each negative plane, and the positive rows out to its block of the positives.
-/
import proofs.«210835_g78632261255710_cont_9to1_m_350_20_alg».proof.Proof.BodyPreK
import proofs.«210835_g78632261255710_cont_9to1_m_350_20_alg».proof.Proof.Ring3RK
import proofs.«210835_g78632261255710_cont_9to1_m_350_20_alg».proof.Proof.RingEndsK

noncomputable section

namespace Cert.KK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aV" => (Memref.whole Cert.Kernel.main_arg0_scv : Memref Cert.Kernel.sig Kind.scVector Space.hbm Cert.Kernel.S4096 EltTy.i32)
local notation "vV" => (Memref.whole Cert.Kernel.main_arg1_scv : Memref Cert.Kernel.sig Kind.scVector Space.hbm Cert.Kernel.S4096 EltTy.i32)
local notation "tV" => (Memref.whole Cert.Kernel.main_v1_scv : Memref Cert.Kernel.sig Kind.scVector Space.hbm Cert.Kernel.S100000x128 EltTy.f32)
local notation "pV" => (Memref.whole Cert.Kernel.main_v2_0_scv : Memref Cert.Kernel.sig Kind.scVector Space.hbm Cert.Kernel.S4096x128 EltTy.f32)
local notation "nV" => (Memref.whole Cert.Kernel.main_v2_1_scv : Memref Cert.Kernel.sig Kind.scVector Space.hbm Cert.Kernel.S200704x128 EltTy.f32)
local notation "b0" => (Memref.whole Cert.Kernel.cc0_scratch0 : Memref Cert.Kernel.sig Kind.scVector Space.vmem Cert.Kernel.S128 EltTy.i32)
local notation "b1" => (Memref.whole Cert.Kernel.cc0_scratch1 : Memref Cert.Kernel.sig Kind.scVector Space.vmem Cert.Kernel.S128 EltTy.i32)
local notation "b2" => (Memref.whole Cert.Kernel.cc0_scratch2 : Memref Cert.Kernel.sig Kind.scVector Space.vmem Cert.Kernel.S128 EltTy.i32)
local notation "b3" => (Memref.whole Cert.Kernel.cc0_scratch3 : Memref Cert.Kernel.sig Kind.scVector Space.vmem Cert.Kernel.S49x128 EltTy.i32)
local notation "b4" => (Memref.whole Cert.Kernel.cc0_scratch4 : Memref Cert.Kernel.sig Kind.scVector Space.vmem Cert.Kernel.S128x128 EltTy.f32)
local notation "b5" => (Memref.whole Cert.Kernel.cc0_scratch5 : Memref Cert.Kernel.sig Kind.scVector Space.vmem Cert.Kernel.S6x128x128 EltTy.f32)

variable (m : (ℓ : Loc nD τ sig) → Buf (Elt F) ℓ)

variable [FloatOps F]

set_option maxHeartbeats 16000000 in
theorem tile_run (hpre : PreOK m) : TileBody m := by
  intro hF d L O W hO q
  simp only [cc0_sc_kernel_eq_skeleton]; unfold cc0_sc_kernel_skel
  rw [(K (F := F)).scopedBufs_V hF d (cV L) (jV L), SparseCore.Cfg.scopedSems0_V (Val := Elt F) d (cV L) (jV L), ownSems0_V, sems16, ownBufs_V]
  unfold tileRes
  iintro ⟨#Hlv, -, ⟨Ha, Hv, Ht, Hp, Hn⟩, ⟨⟨%f0, Hb0⟩, ⟨%f1, Hb1⟩, ⟨%f2, Hb2⟩, ⟨%f3, Hb3⟩, ⟨%f4, Hb4⟩, ⟨%f5, Hb5⟩, Hbufs⟩, ⟨Hps, Hg0, Hg1, Hg2, Hg3, Hg4, Hg5, Hd0, Hd1, Hd2, Hd3, Hd4, Hd5, Hr0, Hr1, Hr2⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hb0' := (Entails.of_eq (show (((V d (cV L) (jV L)).loc cc0_scratch0 ↦{fullShare} f0) : sProp 𝕄) = ((b0).view.loc (V d (cV L) (jV L)) ↦{fullShare} f0) from rfl)) $$ Hb0
  ihave Hb1' := (Entails.of_eq (show (((V d (cV L) (jV L)).loc cc0_scratch1 ↦{fullShare} f1) : sProp 𝕄) = ((b1).view.loc (V d (cV L) (jV L)) ↦{fullShare} f1) from rfl)) $$ Hb1
  ihave Hb2' := (Entails.of_eq (show (((V d (cV L) (jV L)).loc cc0_scratch2 ↦{fullShare} f2) : sProp 𝕄) = ((b2).view.loc (V d (cV L) (jV L)) ↦{fullShare} f2) from rfl)) $$ Hb2
  ihave Hb3' := (Entails.of_eq (show (((V d (cV L) (jV L)).loc cc0_scratch3 ↦{fullShare} f3) : sProp 𝕄) = ((b3).view.loc (V d (cV L) (jV L)) ↦{fullShare} f3) from rfl)) $$ Hb3
  ihave Hb4' := (Entails.of_eq (show (((V d (cV L) (jV L)).loc cc0_scratch4 ↦{fullShare} f4) : sProp 𝕄) = ((b4).view.loc (V d (cV L) (jV L)) ↦{fullShare} f4) from rfl)) $$ Hb4
  ihave Hb5' := (Entails.of_eq (show (((V d (cV L) (jV L)).loc cc0_scratch5 ↦{fullShare} f5) : sProp 𝕄) = ((b5).view.loc (V d (cV L) (jV L)) ↦{fullShare} f5) from rfl)) $$ Hb5
  ihave Ha' := (Entails.of_eq (show (_ : sProp 𝕄) = ((aRowK L).view.loc (V d (cV L) (jV L)) ↦[(aRowK L).view.set]{fullShare} m (aLoc d)) from rfl)) $$ Ha
  ihave Hv' := (Entails.of_eq (show (_ : sProp 𝕄) = ((vRowK L).view.loc (V d (cV L) (jV L)) ↦[(vRowK L).view.set]{fullShare} m (vLoc d)) from rfl)) $$ Hv
  ihave Hp' := (Entails.of_eq (show (_ : sProp 𝕄) = ((pRowK L).view.loc (V d (cV L) (jV L)) ↦[(pRowK L).view.set]{fullShare} m (pLoc d)) from rfl)) $$ Hp
  -- the two blocking copies, then the first four planes
  sl_exec
  sl_for (inv1 (F := F) d L (View.write (Elt F) (b0).view f0 (tile_run.sl.dma0 m d L) Finset.univ) (View.write (Elt F) (b1).view f1 (tile_run.sl.dma0_1 m d L) Finset.univ)) $$ [Hb0' Hb1' Hb3']
  case region =>
    intro k _
    unfold inv1
    iintro ⟨Hb0, Hb1, %f3', Hb3, %hok⟩
    sl_exec
    sl_step
    isplitl [Hb0]; · iexact Hb0
    isplitl [Hb1]; · iexact Hb1
    iexists _; isplitl [Hb3]; · iexact Hb3
    ipureintro
    have hk : k.val < 49 := by have := lt_of_lt_of_le k.isLt k0_t1_abs.2.1; omega
    refine planes_step8 (View.write (Elt F) (b0).view f0 (tile_run.sl.dma0 m d L) Finset.univ) (View.write (Elt F) (b1).view f1 (tile_run.sl.dma0_1 m d L) Finset.univ) 0 (k.val) hk f3' hok _ _ _ _ _ _ _ _
      (k0_off2_eq k) (k0_off3_eq k) (k0_off4_eq k) (k0_off5_eq k) (k0_off6_eq k) (k0_off7_eq k) (k0_off8_eq k) (k0_off9_eq k)
      _ _ _ _ _ _ _ _ ![tile_run.sl.v157 m d L f0 f1 k, tile_run.sl.v174 m d L f0 f1 k, tile_run.sl.v191 m d L f0 f1 k, tile_run.sl.v208 m d L f0 f1 k, tile_run.sl.v225 m d L f0 f1 k, tile_run.sl.v242 m d L f0 f1 k, tile_run.sl.v259 m d L f0 f1 k, tile_run.sl.v276 m d L f0 f1 k] ?_
    intro c x
    fin_cases c
    · show tile_run.sl.v157 m d L f0 f1 k x = _
      refine (chunk_val (Scf.iv 0#32 1#32 k.val) _ _ _ _ _ x).trans ?_
      rw [iv0, load16_val0 0 (by omega), load16_val1 0 (by omega)]
      rfl
    · show tile_run.sl.v174 m d L f0 f1 k x = _
      refine (chunk_val (Scf.iv 0#32 1#32 k.val) _ _ _ _ _ x).trans ?_
      rw [iv0, load16_val0 16 (by omega), load16_val1 16 (by omega)]
      rfl
    · show tile_run.sl.v191 m d L f0 f1 k x = _
      refine (chunk_val (Scf.iv 0#32 1#32 k.val) _ _ _ _ _ x).trans ?_
      rw [iv0, load16_val0 32 (by omega), load16_val1 32 (by omega)]
      rfl
    · show tile_run.sl.v208 m d L f0 f1 k x = _
      refine (chunk_val (Scf.iv 0#32 1#32 k.val) _ _ _ _ _ x).trans ?_
      rw [iv0, load16_val0 48 (by omega), load16_val1 48 (by omega)]
      rfl
    · show tile_run.sl.v225 m d L f0 f1 k x = _
      refine (chunk_val (Scf.iv 0#32 1#32 k.val) _ _ _ _ _ x).trans ?_
      rw [iv0, load16_val0 64 (by omega), load16_val1 64 (by omega)]
      rfl
    · show tile_run.sl.v242 m d L f0 f1 k x = _
      refine (chunk_val (Scf.iv 0#32 1#32 k.val) _ _ _ _ _ x).trans ?_
      rw [iv0, load16_val0 80 (by omega), load16_val1 80 (by omega)]
      rfl
    · show tile_run.sl.v259 m d L f0 f1 k x = _
      refine (chunk_val (Scf.iv 0#32 1#32 k.val) _ _ _ _ _ x).trans ?_
      rw [iv0, load16_val0 96 (by omega), load16_val1 96 (by omega)]
      rfl
    · show tile_run.sl.v276 m d L f0 f1 k x = _
      refine (chunk_val (Scf.iv 0#32 1#32 k.val) _ _ _ _ _ x).trans ?_
      rw [iv0, load16_val0 112 (by omega), load16_val1 112 (by omega)]
      rfl
  · unfold inv1
    isplitl [Hb0']; · iexact Hb0'
    isplitl [Hb1']; · iexact Hb1'
    iexists _; isplitl [Hb3']; · iexact Hb3'
    ipureintro; intro i _ h; exact absurd h (Nat.not_lt_zero _)
  iintro %_ HI
  unfold inv1
  icases HI with ⟨Hb0, Hb1, %f3a, Hb3, %hok4⟩
  -- what the subcore copied in: its slices of the attributes and values, within the ranges
  have hfa : ∀ s : Fin 128, (View.write (Elt F) (b0).view f0 (tile_run.sl.dma0 m d L) Finset.univ) (ValueIdx.ix1 s) = m (aLoc d) (ValueIdx.ix1 (⟨base L + s.val, base_add_lt L s⟩ : Fin 4096)) := fa_val m d L f0
  have hfv : ∀ s : Fin 128, (View.write (Elt F) (b1).view f1 (tile_run.sl.dma0_1 m d L) Finset.univ) (ValueIdx.ix1 s) = m (vLoc d) (ValueIdx.ix1 (⟨base L + s.val, base_add_lt L s⟩ : Fin 4096)) := fv_val m d L f1
  have hA : ∀ s, ((View.write (Elt F) (b0).view f0 (tile_run.sl.dma0 m d L) Finset.univ) s).toNat ≤ 1999 := fa_le m d L hpre f0
  have hV : ∀ s, ((View.write (Elt F) (b1).view f1 (tile_run.sl.dma0_1 m d L) Finset.univ) s).toNat ≤ 49 := fv_le m d L hpre f1
  have hok4' : planesOK (View.write (Elt F) (b0).view f0 (tile_run.sl.dma0 m d L) Finset.univ) (View.write (Elt F) (b1).view f1 (tile_run.sl.dma0_1 m d L) Finset.univ) 0 4 f3a := hok4
  -- the table's share in seven parts, the ring in its six slots, the first four index rows apart
  ihave Ht' := (Entails.of_eq (show (_ : sProp 𝕄) = ((tS).view.loc (V d (cV L) (jV L)) ↦{q} (tbl m d)) from rfl)) $$ Ht
  ihave Hts := (pointsTo_split_subset (ℓ := (tS).view.loc (V d (cV L) (jV L))) (q := q) (f := (tbl m d)) (S := Finset.univ) (Finset.subset_univ (tS).view.set)).1 $$ Ht'
  icases Hts with ⟨Hts, Htr⟩
  ihave Hx := (pointsTo_share (ℓ := (tS).view.loc (V d (cV L) (jV L))) (I := (tS).view.set) (f := (tbl m d)) (PosShare.mem_left_op_right (q))).1 $$ Hts
  icases Hx with ⟨Ht0, Hts⟩
  ihave Hx := (pointsTo_share (ℓ := (tS).view.loc (V d (cV L) (jV L))) (I := (tS).view.set) (f := (tbl m d)) (PosShare.mem_left_op_right (q.right))).1 $$ Hts
  icases Hx with ⟨Ht1, Hts⟩
  ihave Hx := (pointsTo_share (ℓ := (tS).view.loc (V d (cV L) (jV L))) (I := (tS).view.set) (f := (tbl m d)) (PosShare.mem_left_op_right (q.right.right))).1 $$ Hts
  icases Hx with ⟨Ht2, Hts⟩
  ihave Hx := (pointsTo_share (ℓ := (tS).view.loc (V d (cV L) (jV L))) (I := (tS).view.set) (f := (tbl m d)) (PosShare.mem_left_op_right (q.right.right.right))).1 $$ Hts
  icases Hx with ⟨Ht3, Hts⟩
  ihave Hx := (pointsTo_share (ℓ := (tS).view.loc (V d (cV L) (jV L))) (I := (tS).view.set) (f := (tbl m d)) (PosShare.mem_left_op_right (q.right.right.right.right))).1 $$ Hts
  icases Hx with ⟨Ht4, Hts⟩
  ihave Hx := (pointsTo_share (ℓ := (tS).view.loc (V d (cV L) (jV L))) (I := (tS).view.set) (f := (tbl m d)) (PosShare.mem_left_op_right (q.right.right.right.right.right))).1 $$ Hts
  icases Hx with ⟨Ht5, Ht6⟩
  ihave Hx := (Entails.of_eq (ring_split d L f5)) $$ Hb5'
  icases Hx with ⟨Hs0, Hs1, Hs2, Hs3, Hs4, Hs5⟩
  ihave Hx := (Entails.of_eq (rows_top4 d L f3a)) $$ Hb3
  icases Hx with ⟨Hw0, Hw1, Hw2, Hw3, Hb3⟩
  ihave HS4 := ((Entails.of_eq (Ready_def d L (tbl m d) (slotK q 4) f5).symm).trans (Idle_intro d L (tbl m d) (slotK q 4) f5)) $$ [Hg4 Hd4 Hs4 Ht4]
  · isplitl [Hg4]; · iexact Hg4
    isplitl [Hd4]; · iexact Hd4
    isplitl [Hs4]; · iexact Hs4
    iexact Ht4
  ihave HS5 := ((Entails.of_eq (Ready_def d L (tbl m d) (slotK q 5) f5).symm).trans (Idle_intro d L (tbl m d) (slotK q 5) f5)) $$ [Hg5 Hd5 Hs5 Ht5]
  · isplitl [Hg5]; · iexact Hg5
    isplitl [Hd5]; · iexact Hd5
    isplitl [Hs5]; · iexact Hs5
    iexact Ht5
  -- the first four gathers
  sl_exec
  iapply (gissue m d L (slotK q 0) ⟨0, by omega⟩ _ _ rfl f3a (View.write (Elt F) (b0).view f0 (tile_run.sl.dma0 m d L) Finset.univ) (View.write (Elt F) (b1).view f1 (tile_run.sl.dma0_1 m d L) Finset.univ) hfa hfv hA hV 0 4 (Nat.zero_le _) (by show 0 < 4; omega) hok4' f5 _ _ _ _ _ _ _) $$ [Hg0 Hd0 Hs0 Ht0 Hw0]
  · isplitr [Hw0]
    · rw [Ready_def]
      isplitl [Hg0]; · iexact Hg0
      isplitl [Hd0]; · iexact Hd0
      isplitl [Hs0]; · iexact Hs0
      iexact Ht0
    · iexact Hw0
  iintro HS0
  sl_exec
  iapply (gissue m d L (slotK q 1) ⟨1, by omega⟩ _ _ rfl f3a (View.write (Elt F) (b0).view f0 (tile_run.sl.dma0 m d L) Finset.univ) (View.write (Elt F) (b1).view f1 (tile_run.sl.dma0_1 m d L) Finset.univ) hfa hfv hA hV 0 4 (Nat.zero_le _) (by show 1 < 4; omega) hok4' f5 _ _ _ _ _ _ _) $$ [Hg1 Hd1 Hs1 Ht1 Hw1]
  · isplitr [Hw1]
    · rw [Ready_def]
      isplitl [Hg1]; · iexact Hg1
      isplitl [Hd1]; · iexact Hd1
      isplitl [Hs1]; · iexact Hs1
      iexact Ht1
    · iexact Hw1
  iintro HS1
  sl_exec
  iapply (gissue m d L (slotK q 2) ⟨2, by omega⟩ _ _ rfl f3a (View.write (Elt F) (b0).view f0 (tile_run.sl.dma0 m d L) Finset.univ) (View.write (Elt F) (b1).view f1 (tile_run.sl.dma0_1 m d L) Finset.univ) hfa hfv hA hV 0 4 (Nat.zero_le _) (by show 2 < 4; omega) hok4' f5 _ _ _ _ _ _ _) $$ [Hg2 Hd2 Hs2 Ht2 Hw2]
  · isplitr [Hw2]
    · rw [Ready_def]
      isplitl [Hg2]; · iexact Hg2
      isplitl [Hd2]; · iexact Hd2
      isplitl [Hs2]; · iexact Hs2
      iexact Ht2
    · iexact Hw2
  iintro HS2
  sl_exec
  iapply (gissue m d L (slotK q 3) ⟨3, by omega⟩ _ _ rfl f3a (View.write (Elt F) (b0).view f0 (tile_run.sl.dma0 m d L) Finset.univ) (View.write (Elt F) (b1).view f1 (tile_run.sl.dma0_1 m d L) Finset.univ) hfa hfv hA hV 0 4 (Nat.zero_le _) (by show 3 < 4; omega) hok4' f5 _ _ _ _ _ _ _) $$ [Hg3 Hd3 Hs3 Ht3 Hw3]
  · isplitr [Hw3]
    · rw [Ready_def]
      isplitl [Hg3]; · iexact Hg3
      isplitl [Hd3]; · iexact Hd3
      isplitl [Hs3]; · iexact Hs3
      iexact Ht3
    · iexact Hw3
  iintro HS3
  sl_exec
  -- the positive index row, then its gather
  have hp2 : ∀ s : S128.Idx, ((b2).view.writes (Elt F) (b2).view.junk (tile_run.sl.Hb2'_8 m d L f0 f1)) s = pidxW ((View.write (Elt F) (b0).view f0 (tile_run.sl.dma0 m d L) Finset.univ) s) ((View.write (Elt F) (b1).view f1 (tile_run.sl.dma0_1 m d L) Finset.univ) s) := by
    intro s
    refine pidx_row (View.write (Elt F) (b0).view f0 (tile_run.sl.dma0 m d L) Finset.univ) (View.write (Elt F) (b1).view f1 (tile_run.sl.dma0_1 m d L) Finset.univ) ![![0], ![16], ![32], ![48], ![64], ![80], ![96], ![112]] (by intro c; fin_cases c <;> rfl)
      (by intro c a; fin_cases c <;> fin_cases a <;> decide) ![tile_run.sl.v33 m d L f0 f1, tile_run.sl.v43 m d L f0 f1, tile_run.sl.v53 m d L f0 f1, tile_run.sl.v63 m d L f0 f1, tile_run.sl.v73 m d L f0 f1, tile_run.sl.v83 m d L f0 f1, tile_run.sl.v93 m d L f0 f1, tile_run.sl.v103 m d L f0 f1] ?_ _ s
    intro c y
    fin_cases c
    · show tile_run.sl.v33 m d L f0 f1 y = _
      refine (pchunk_val _ _ _ _ _ y).trans ?_
      rw [load16_val0 0 (by omega), load16_val1 0 (by omega)]
      rfl
    · show tile_run.sl.v43 m d L f0 f1 y = _
      refine (pchunk_val _ _ _ _ _ y).trans ?_
      rw [load16_val0 16 (by omega), load16_val1 16 (by omega)]
      rfl
    · show tile_run.sl.v53 m d L f0 f1 y = _
      refine (pchunk_val _ _ _ _ _ y).trans ?_
      rw [load16_val0 32 (by omega), load16_val1 32 (by omega)]
      rfl
    · show tile_run.sl.v63 m d L f0 f1 y = _
      refine (pchunk_val _ _ _ _ _ y).trans ?_
      rw [load16_val0 48 (by omega), load16_val1 48 (by omega)]
      rfl
    · show tile_run.sl.v73 m d L f0 f1 y = _
      refine (pchunk_val _ _ _ _ _ y).trans ?_
      rw [load16_val0 64 (by omega), load16_val1 64 (by omega)]
      rfl
    · show tile_run.sl.v83 m d L f0 f1 y = _
      refine (pchunk_val _ _ _ _ _ y).trans ?_
      rw [load16_val0 80 (by omega), load16_val1 80 (by omega)]
      rfl
    · show tile_run.sl.v93 m d L f0 f1 y = _
      refine (pchunk_val _ _ _ _ _ y).trans ?_
      rw [load16_val0 96 (by omega), load16_val1 96 (by omega)]
      rfl
    · show tile_run.sl.v103 m d L f0 f1 y = _
      refine (pchunk_val _ _ _ _ _ y).trans ?_
      rw [load16_val0 112 (by omega), load16_val1 112 (by omega)]
      rfl
  have hinp : ∀ x, ((b2).view.read (Elt F) ((b2).view.writes (Elt F) (b2).view.junk (tile_run.sl.Hb2'_8 m d L f0 f1)) x).toNat < S100000x128.size gathers_S100000x128_S128x128.axis := by
    intro x
    have h := pidxW_lt ((View.write (Elt F) (b0).view f0 (tile_run.sl.dma0 m d L) Finset.univ) x) ((View.write (Elt F) (b1).view f1 (tile_run.sl.dma0_1 m d L) Finset.univ) x) (hA x) (hV x)
    rw [← hp2 x] at h
    exact h
  sl_exec
  -- planes 4 .. 48, written around the four rows on loan
  sl_for (inv2 (F := F) d L (View.write (Elt F) (b0).view f0 (tile_run.sl.dma0 m d L) Finset.univ) (View.write (Elt F) (b1).view f1 (tile_run.sl.dma0_1 m d L) Finset.univ)) $$ [Hb0 Hb1 Hb3]
  case region =>
    intro k _
    unfold inv2
    iintro ⟨Hb0, Hb1, %f3', Hb3, %hok⟩
    have hdl_10_0 : Disjoint ((b3).view.setOn (Rect.unit (s := S49x128) (k0_off10 k) S1x16.size (k0_off10_inb k)).set) ((((b3).slice (Rect.unit (s := S49x128) ![0, 0] S1x128.size inb_S49x128_S1x128_0_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_10_0 : Disjoint ((b3).access (Rect.unit (s := S49x128) (k0_off10 k) S1x16.size (k0_off10_inb k))).set ((((b3).slice (Rect.unit (s := S49x128) ![0, 0] S1x128.size inb_S49x128_S1x128_0_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_10_1 : Disjoint ((b3).view.setOn (Rect.unit (s := S49x128) (k0_off10 k) S1x16.size (k0_off10_inb k)).set) ((((b3).slice (Rect.unit (s := S49x128) ![1, 0] S1x128.size inb_S49x128_S1x128_1_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_10_1 : Disjoint ((b3).access (Rect.unit (s := S49x128) (k0_off10 k) S1x16.size (k0_off10_inb k))).set ((((b3).slice (Rect.unit (s := S49x128) ![1, 0] S1x128.size inb_S49x128_S1x128_1_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_10_2 : Disjoint ((b3).view.setOn (Rect.unit (s := S49x128) (k0_off10 k) S1x16.size (k0_off10_inb k)).set) ((((b3).slice (Rect.unit (s := S49x128) ![2, 0] S1x128.size inb_S49x128_S1x128_2_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_10_2 : Disjoint ((b3).access (Rect.unit (s := S49x128) (k0_off10 k) S1x16.size (k0_off10_inb k))).set ((((b3).slice (Rect.unit (s := S49x128) ![2, 0] S1x128.size inb_S49x128_S1x128_2_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_10_3 : Disjoint ((b3).view.setOn (Rect.unit (s := S49x128) (k0_off10 k) S1x16.size (k0_off10_inb k)).set) ((((b3).slice (Rect.unit (s := S49x128) ![3, 0] S1x128.size inb_S49x128_S1x128_3_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_10_3 : Disjoint ((b3).access (Rect.unit (s := S49x128) (k0_off10 k) S1x16.size (k0_off10_inb k))).set ((((b3).slice (Rect.unit (s := S49x128) ![3, 0] S1x128.size inb_S49x128_S1x128_3_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_11_0 : Disjoint ((b3).view.setOn (Rect.unit (s := S49x128) (k0_off11 k) S1x16.size (k0_off11_inb k)).set) ((((b3).slice (Rect.unit (s := S49x128) ![0, 0] S1x128.size inb_S49x128_S1x128_0_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_11_0 : Disjoint ((b3).access (Rect.unit (s := S49x128) (k0_off11 k) S1x16.size (k0_off11_inb k))).set ((((b3).slice (Rect.unit (s := S49x128) ![0, 0] S1x128.size inb_S49x128_S1x128_0_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_11_1 : Disjoint ((b3).view.setOn (Rect.unit (s := S49x128) (k0_off11 k) S1x16.size (k0_off11_inb k)).set) ((((b3).slice (Rect.unit (s := S49x128) ![1, 0] S1x128.size inb_S49x128_S1x128_1_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_11_1 : Disjoint ((b3).access (Rect.unit (s := S49x128) (k0_off11 k) S1x16.size (k0_off11_inb k))).set ((((b3).slice (Rect.unit (s := S49x128) ![1, 0] S1x128.size inb_S49x128_S1x128_1_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_11_2 : Disjoint ((b3).view.setOn (Rect.unit (s := S49x128) (k0_off11 k) S1x16.size (k0_off11_inb k)).set) ((((b3).slice (Rect.unit (s := S49x128) ![2, 0] S1x128.size inb_S49x128_S1x128_2_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_11_2 : Disjoint ((b3).access (Rect.unit (s := S49x128) (k0_off11 k) S1x16.size (k0_off11_inb k))).set ((((b3).slice (Rect.unit (s := S49x128) ![2, 0] S1x128.size inb_S49x128_S1x128_2_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_11_3 : Disjoint ((b3).view.setOn (Rect.unit (s := S49x128) (k0_off11 k) S1x16.size (k0_off11_inb k)).set) ((((b3).slice (Rect.unit (s := S49x128) ![3, 0] S1x128.size inb_S49x128_S1x128_3_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_11_3 : Disjoint ((b3).access (Rect.unit (s := S49x128) (k0_off11 k) S1x16.size (k0_off11_inb k))).set ((((b3).slice (Rect.unit (s := S49x128) ![3, 0] S1x128.size inb_S49x128_S1x128_3_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_12_0 : Disjoint ((b3).view.setOn (Rect.unit (s := S49x128) (k0_off12 k) S1x16.size (k0_off12_inb k)).set) ((((b3).slice (Rect.unit (s := S49x128) ![0, 0] S1x128.size inb_S49x128_S1x128_0_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_12_0 : Disjoint ((b3).access (Rect.unit (s := S49x128) (k0_off12 k) S1x16.size (k0_off12_inb k))).set ((((b3).slice (Rect.unit (s := S49x128) ![0, 0] S1x128.size inb_S49x128_S1x128_0_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_12_1 : Disjoint ((b3).view.setOn (Rect.unit (s := S49x128) (k0_off12 k) S1x16.size (k0_off12_inb k)).set) ((((b3).slice (Rect.unit (s := S49x128) ![1, 0] S1x128.size inb_S49x128_S1x128_1_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_12_1 : Disjoint ((b3).access (Rect.unit (s := S49x128) (k0_off12 k) S1x16.size (k0_off12_inb k))).set ((((b3).slice (Rect.unit (s := S49x128) ![1, 0] S1x128.size inb_S49x128_S1x128_1_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_12_2 : Disjoint ((b3).view.setOn (Rect.unit (s := S49x128) (k0_off12 k) S1x16.size (k0_off12_inb k)).set) ((((b3).slice (Rect.unit (s := S49x128) ![2, 0] S1x128.size inb_S49x128_S1x128_2_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_12_2 : Disjoint ((b3).access (Rect.unit (s := S49x128) (k0_off12 k) S1x16.size (k0_off12_inb k))).set ((((b3).slice (Rect.unit (s := S49x128) ![2, 0] S1x128.size inb_S49x128_S1x128_2_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_12_3 : Disjoint ((b3).view.setOn (Rect.unit (s := S49x128) (k0_off12 k) S1x16.size (k0_off12_inb k)).set) ((((b3).slice (Rect.unit (s := S49x128) ![3, 0] S1x128.size inb_S49x128_S1x128_3_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_12_3 : Disjoint ((b3).access (Rect.unit (s := S49x128) (k0_off12 k) S1x16.size (k0_off12_inb k))).set ((((b3).slice (Rect.unit (s := S49x128) ![3, 0] S1x128.size inb_S49x128_S1x128_3_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_13_0 : Disjoint ((b3).view.setOn (Rect.unit (s := S49x128) (k0_off13 k) S1x16.size (k0_off13_inb k)).set) ((((b3).slice (Rect.unit (s := S49x128) ![0, 0] S1x128.size inb_S49x128_S1x128_0_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_13_0 : Disjoint ((b3).access (Rect.unit (s := S49x128) (k0_off13 k) S1x16.size (k0_off13_inb k))).set ((((b3).slice (Rect.unit (s := S49x128) ![0, 0] S1x128.size inb_S49x128_S1x128_0_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_13_1 : Disjoint ((b3).view.setOn (Rect.unit (s := S49x128) (k0_off13 k) S1x16.size (k0_off13_inb k)).set) ((((b3).slice (Rect.unit (s := S49x128) ![1, 0] S1x128.size inb_S49x128_S1x128_1_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_13_1 : Disjoint ((b3).access (Rect.unit (s := S49x128) (k0_off13 k) S1x16.size (k0_off13_inb k))).set ((((b3).slice (Rect.unit (s := S49x128) ![1, 0] S1x128.size inb_S49x128_S1x128_1_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_13_2 : Disjoint ((b3).view.setOn (Rect.unit (s := S49x128) (k0_off13 k) S1x16.size (k0_off13_inb k)).set) ((((b3).slice (Rect.unit (s := S49x128) ![2, 0] S1x128.size inb_S49x128_S1x128_2_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_13_2 : Disjoint ((b3).access (Rect.unit (s := S49x128) (k0_off13 k) S1x16.size (k0_off13_inb k))).set ((((b3).slice (Rect.unit (s := S49x128) ![2, 0] S1x128.size inb_S49x128_S1x128_2_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_13_3 : Disjoint ((b3).view.setOn (Rect.unit (s := S49x128) (k0_off13 k) S1x16.size (k0_off13_inb k)).set) ((((b3).slice (Rect.unit (s := S49x128) ![3, 0] S1x128.size inb_S49x128_S1x128_3_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_13_3 : Disjoint ((b3).access (Rect.unit (s := S49x128) (k0_off13 k) S1x16.size (k0_off13_inb k))).set ((((b3).slice (Rect.unit (s := S49x128) ![3, 0] S1x128.size inb_S49x128_S1x128_3_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_14_0 : Disjoint ((b3).view.setOn (Rect.unit (s := S49x128) (k0_off14 k) S1x16.size (k0_off14_inb k)).set) ((((b3).slice (Rect.unit (s := S49x128) ![0, 0] S1x128.size inb_S49x128_S1x128_0_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_14_0 : Disjoint ((b3).access (Rect.unit (s := S49x128) (k0_off14 k) S1x16.size (k0_off14_inb k))).set ((((b3).slice (Rect.unit (s := S49x128) ![0, 0] S1x128.size inb_S49x128_S1x128_0_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_14_1 : Disjoint ((b3).view.setOn (Rect.unit (s := S49x128) (k0_off14 k) S1x16.size (k0_off14_inb k)).set) ((((b3).slice (Rect.unit (s := S49x128) ![1, 0] S1x128.size inb_S49x128_S1x128_1_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_14_1 : Disjoint ((b3).access (Rect.unit (s := S49x128) (k0_off14 k) S1x16.size (k0_off14_inb k))).set ((((b3).slice (Rect.unit (s := S49x128) ![1, 0] S1x128.size inb_S49x128_S1x128_1_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_14_2 : Disjoint ((b3).view.setOn (Rect.unit (s := S49x128) (k0_off14 k) S1x16.size (k0_off14_inb k)).set) ((((b3).slice (Rect.unit (s := S49x128) ![2, 0] S1x128.size inb_S49x128_S1x128_2_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_14_2 : Disjoint ((b3).access (Rect.unit (s := S49x128) (k0_off14 k) S1x16.size (k0_off14_inb k))).set ((((b3).slice (Rect.unit (s := S49x128) ![2, 0] S1x128.size inb_S49x128_S1x128_2_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_14_3 : Disjoint ((b3).view.setOn (Rect.unit (s := S49x128) (k0_off14 k) S1x16.size (k0_off14_inb k)).set) ((((b3).slice (Rect.unit (s := S49x128) ![3, 0] S1x128.size inb_S49x128_S1x128_3_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_14_3 : Disjoint ((b3).access (Rect.unit (s := S49x128) (k0_off14 k) S1x16.size (k0_off14_inb k))).set ((((b3).slice (Rect.unit (s := S49x128) ![3, 0] S1x128.size inb_S49x128_S1x128_3_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_15_0 : Disjoint ((b3).view.setOn (Rect.unit (s := S49x128) (k0_off15 k) S1x16.size (k0_off15_inb k)).set) ((((b3).slice (Rect.unit (s := S49x128) ![0, 0] S1x128.size inb_S49x128_S1x128_0_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_15_0 : Disjoint ((b3).access (Rect.unit (s := S49x128) (k0_off15 k) S1x16.size (k0_off15_inb k))).set ((((b3).slice (Rect.unit (s := S49x128) ![0, 0] S1x128.size inb_S49x128_S1x128_0_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_15_1 : Disjoint ((b3).view.setOn (Rect.unit (s := S49x128) (k0_off15 k) S1x16.size (k0_off15_inb k)).set) ((((b3).slice (Rect.unit (s := S49x128) ![1, 0] S1x128.size inb_S49x128_S1x128_1_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_15_1 : Disjoint ((b3).access (Rect.unit (s := S49x128) (k0_off15 k) S1x16.size (k0_off15_inb k))).set ((((b3).slice (Rect.unit (s := S49x128) ![1, 0] S1x128.size inb_S49x128_S1x128_1_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_15_2 : Disjoint ((b3).view.setOn (Rect.unit (s := S49x128) (k0_off15 k) S1x16.size (k0_off15_inb k)).set) ((((b3).slice (Rect.unit (s := S49x128) ![2, 0] S1x128.size inb_S49x128_S1x128_2_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_15_2 : Disjoint ((b3).access (Rect.unit (s := S49x128) (k0_off15 k) S1x16.size (k0_off15_inb k))).set ((((b3).slice (Rect.unit (s := S49x128) ![2, 0] S1x128.size inb_S49x128_S1x128_2_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_15_3 : Disjoint ((b3).view.setOn (Rect.unit (s := S49x128) (k0_off15 k) S1x16.size (k0_off15_inb k)).set) ((((b3).slice (Rect.unit (s := S49x128) ![3, 0] S1x128.size inb_S49x128_S1x128_3_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_15_3 : Disjoint ((b3).access (Rect.unit (s := S49x128) (k0_off15 k) S1x16.size (k0_off15_inb k))).set ((((b3).slice (Rect.unit (s := S49x128) ![3, 0] S1x128.size inb_S49x128_S1x128_3_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_16_0 : Disjoint ((b3).view.setOn (Rect.unit (s := S49x128) (k0_off16 k) S1x16.size (k0_off16_inb k)).set) ((((b3).slice (Rect.unit (s := S49x128) ![0, 0] S1x128.size inb_S49x128_S1x128_0_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_16_0 : Disjoint ((b3).access (Rect.unit (s := S49x128) (k0_off16 k) S1x16.size (k0_off16_inb k))).set ((((b3).slice (Rect.unit (s := S49x128) ![0, 0] S1x128.size inb_S49x128_S1x128_0_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_16_1 : Disjoint ((b3).view.setOn (Rect.unit (s := S49x128) (k0_off16 k) S1x16.size (k0_off16_inb k)).set) ((((b3).slice (Rect.unit (s := S49x128) ![1, 0] S1x128.size inb_S49x128_S1x128_1_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_16_1 : Disjoint ((b3).access (Rect.unit (s := S49x128) (k0_off16 k) S1x16.size (k0_off16_inb k))).set ((((b3).slice (Rect.unit (s := S49x128) ![1, 0] S1x128.size inb_S49x128_S1x128_1_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_16_2 : Disjoint ((b3).view.setOn (Rect.unit (s := S49x128) (k0_off16 k) S1x16.size (k0_off16_inb k)).set) ((((b3).slice (Rect.unit (s := S49x128) ![2, 0] S1x128.size inb_S49x128_S1x128_2_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_16_2 : Disjoint ((b3).access (Rect.unit (s := S49x128) (k0_off16 k) S1x16.size (k0_off16_inb k))).set ((((b3).slice (Rect.unit (s := S49x128) ![2, 0] S1x128.size inb_S49x128_S1x128_2_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_16_3 : Disjoint ((b3).view.setOn (Rect.unit (s := S49x128) (k0_off16 k) S1x16.size (k0_off16_inb k)).set) ((((b3).slice (Rect.unit (s := S49x128) ![3, 0] S1x128.size inb_S49x128_S1x128_3_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_16_3 : Disjoint ((b3).access (Rect.unit (s := S49x128) (k0_off16 k) S1x16.size (k0_off16_inb k))).set ((((b3).slice (Rect.unit (s := S49x128) ![3, 0] S1x128.size inb_S49x128_S1x128_3_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_17_0 : Disjoint ((b3).view.setOn (Rect.unit (s := S49x128) (k0_off17 k) S1x16.size (k0_off17_inb k)).set) ((((b3).slice (Rect.unit (s := S49x128) ![0, 0] S1x128.size inb_S49x128_S1x128_0_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_17_0 : Disjoint ((b3).access (Rect.unit (s := S49x128) (k0_off17 k) S1x16.size (k0_off17_inb k))).set ((((b3).slice (Rect.unit (s := S49x128) ![0, 0] S1x128.size inb_S49x128_S1x128_0_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_17_1 : Disjoint ((b3).view.setOn (Rect.unit (s := S49x128) (k0_off17 k) S1x16.size (k0_off17_inb k)).set) ((((b3).slice (Rect.unit (s := S49x128) ![1, 0] S1x128.size inb_S49x128_S1x128_1_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_17_1 : Disjoint ((b3).access (Rect.unit (s := S49x128) (k0_off17 k) S1x16.size (k0_off17_inb k))).set ((((b3).slice (Rect.unit (s := S49x128) ![1, 0] S1x128.size inb_S49x128_S1x128_1_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_17_2 : Disjoint ((b3).view.setOn (Rect.unit (s := S49x128) (k0_off17 k) S1x16.size (k0_off17_inb k)).set) ((((b3).slice (Rect.unit (s := S49x128) ![2, 0] S1x128.size inb_S49x128_S1x128_2_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_17_2 : Disjoint ((b3).access (Rect.unit (s := S49x128) (k0_off17 k) S1x16.size (k0_off17_inb k))).set ((((b3).slice (Rect.unit (s := S49x128) ![2, 0] S1x128.size inb_S49x128_S1x128_2_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    have hdl_17_3 : Disjoint ((b3).view.setOn (Rect.unit (s := S49x128) (k0_off17 k) S1x16.size (k0_off17_inb k)).set) ((((b3).slice (Rect.unit (s := S49x128) ![3, 0] S1x128.size inb_S49x128_S1x128_3_0) (fun _ => rfl)).squeeze S128 squeezes_S1x128_S128)).view.set := by
      refine plane_row_disj _ _ _ _ (Or.inl ?_); simp only [k0_off10_eq, k0_off11_eq, k0_off12_eq, k0_off13_eq, k0_off14_eq, k0_off15_eq, k0_off16_eq, k0_off17_eq, Matrix.cons_val_zero]; omega
    have hds_17_3 : Disjoint ((b3).access (Rect.unit (s := S49x128) (k0_off17 k) S1x16.size (k0_off17_inb k))).set ((((b3).slice (Rect.unit (s := S49x128) ![3, 0] S1x128.size inb_S49x128_S1x128_3_0) (fun _ => rfl)).squeeze S128 squeezes_S1x128_S128)).view.set := by
      refine plane_row_disj' _ _ _ _ (Or.inl ?_); simp only [k0_off10_eq, k0_off11_eq, k0_off12_eq, k0_off13_eq, k0_off14_eq, k0_off15_eq, k0_off16_eq, k0_off17_eq, Matrix.cons_val_zero]; omega
    sl_exec
    sl_step
    isplitl [Hb0]; · iexact Hb0
    isplitl [Hb1]; · iexact Hb1
    iexists _; isplitl [Hb3]; · iexact Hb3
    ipureintro
    have hk : k.val + 4 < 49 := by have := lt_of_lt_of_le k.isLt k0_t2_abs.2.1; omega
    have hok' : planesOK (View.write (Elt F) (b0).view f0 (tile_run.sl.dma0 m d L) Finset.univ) (View.write (Elt F) (b1).view f1 (tile_run.sl.dma0_1 m d L) Finset.univ) 4 (k.val + 4) f3' := by rw [Nat.add_comm]; exact hok
    refine (show planesOK (View.write (Elt F) (b0).view f0 (tile_run.sl.dma0 m d L) Finset.univ) (View.write (Elt F) (b1).view f1 (tile_run.sl.dma0_1 m d L) Finset.univ) 4 (k.val + 4 + 1) _ → planesOK (View.write (Elt F) (b0).view f0 (tile_run.sl.dma0 m d L) Finset.univ) (View.write (Elt F) (b1).view f1 (tile_run.sl.dma0_1 m d L) Finset.univ) 4 (4 + (k.val + 1)) _ from fun h => by rw [show 4 + (k.val + 1) = k.val + 4 + 1 by omega]; exact h) ?_
    refine planes_step8 (View.write (Elt F) (b0).view f0 (tile_run.sl.dma0 m d L) Finset.univ) (View.write (Elt F) (b1).view f1 (tile_run.sl.dma0_1 m d L) Finset.univ) 4 (k.val + 4) hk f3' hok' _ _ _ _ _ _ _ _
      (k0_off10_eq k) (k0_off11_eq k) (k0_off12_eq k) (k0_off13_eq k) (k0_off14_eq k) (k0_off15_eq k) (k0_off16_eq k) (k0_off17_eq k)
      _ _ _ _ _ _ _ _ ![tile_run.sl.v157_1 m d L f0 f1 k, tile_run.sl.v174_1 m d L f0 f1 k, tile_run.sl.v191_1 m d L f0 f1 k, tile_run.sl.v208_1 m d L f0 f1 k, tile_run.sl.v225_1 m d L f0 f1 k, tile_run.sl.v242_1 m d L f0 f1 k, tile_run.sl.v259_1 m d L f0 f1 k, tile_run.sl.v276_1 m d L f0 f1 k] ?_
    intro c x
    fin_cases c
    · show tile_run.sl.v157_1 m d L f0 f1 k x = _
      refine (chunk_val (Scf.iv 4#32 1#32 k.val) _ _ _ _ _ x).trans ?_
      rw [iv4, load16_val0 0 (by omega), load16_val1 0 (by omega)]
      rfl
    · show tile_run.sl.v174_1 m d L f0 f1 k x = _
      refine (chunk_val (Scf.iv 4#32 1#32 k.val) _ _ _ _ _ x).trans ?_
      rw [iv4, load16_val0 16 (by omega), load16_val1 16 (by omega)]
      rfl
    · show tile_run.sl.v191_1 m d L f0 f1 k x = _
      refine (chunk_val (Scf.iv 4#32 1#32 k.val) _ _ _ _ _ x).trans ?_
      rw [iv4, load16_val0 32 (by omega), load16_val1 32 (by omega)]
      rfl
    · show tile_run.sl.v208_1 m d L f0 f1 k x = _
      refine (chunk_val (Scf.iv 4#32 1#32 k.val) _ _ _ _ _ x).trans ?_
      rw [iv4, load16_val0 48 (by omega), load16_val1 48 (by omega)]
      rfl
    · show tile_run.sl.v225_1 m d L f0 f1 k x = _
      refine (chunk_val (Scf.iv 4#32 1#32 k.val) _ _ _ _ _ x).trans ?_
      rw [iv4, load16_val0 64 (by omega), load16_val1 64 (by omega)]
      rfl
    · show tile_run.sl.v242_1 m d L f0 f1 k x = _
      refine (chunk_val (Scf.iv 4#32 1#32 k.val) _ _ _ _ _ x).trans ?_
      rw [iv4, load16_val0 80 (by omega), load16_val1 80 (by omega)]
      rfl
    · show tile_run.sl.v259_1 m d L f0 f1 k x = _
      refine (chunk_val (Scf.iv 4#32 1#32 k.val) _ _ _ _ _ x).trans ?_
      rw [iv4, load16_val0 96 (by omega), load16_val1 96 (by omega)]
      rfl
    · show tile_run.sl.v276_1 m d L f0 f1 k x = _
      refine (chunk_val (Scf.iv 4#32 1#32 k.val) _ _ _ _ _ x).trans ?_
      rw [iv4, load16_val0 112 (by omega), load16_val1 112 (by omega)]
      rfl
  · unfold inv2
    isplitl [Hb0]; · iexact Hb0
    isplitl [Hb1]; · iexact Hb1
    iexists _; isplitl [Hb3]; · iexact Hb3
    ipureintro; intro i h1 h2; omega
  iintro %_ HI
  unfold inv2
  icases HI with ⟨Hb0, Hb1, %f3b, Hb3, %hokb⟩
  -- one contents for the whole plane buffer: rows 0..3 as the first loop left them, the others as the second did
  have hokb' : planesOK (View.write (Elt F) (b0).view f0 (tile_run.sl.dma0 m d L) Finset.univ) (View.write (Elt F) (b1).view f1 (tile_run.sl.dma0_1 m d L) Finset.univ) 4 49 f3b := by
    have e : 4 + Scf.trips k0_t2_loop.lb k0_t2_loop.ub k0_t2_loop.st = 49 := by decide
    rw [← e]; exact hokb
  obtain ⟨f3c, hf3c⟩ : ∃ f : S49x128.Idx → Elt F .i32, ∀ i, f i = if (i 0).val < 4 then f3a i else f3b i := ⟨_, fun _ => rfl⟩
  have h3c : planesOK (View.write (Elt F) (b0).view f0 (tile_run.sl.dma0 m d L) Finset.univ) (View.write (Elt F) (b1).view f1 (tile_run.sl.dma0_1 m d L) Finset.univ) 0 49 f3c := by
    intro i _ hi
    rw [hf3c i]
    by_cases h : (i 0).val < 4
    · rw [if_pos h]; exact hok4' i (Nat.zero_le _) h
    · rw [if_neg h]; exact hokb' i (by omega) hi
  have hlt0 : (0 : ℕ) < 49 := by decide
  have hlt1 : (1 : ℕ) < 49 := by decide
  have hlt2 : (2 : ℕ) < 49 := by decide
  have hlt3 : (3 : ℕ) < 49 := by decide
  ihave HS0 := (Gath_f3 m d L (tbl m d) (slotK q 0) (⟨0, hlt0⟩ : Fin 49) f3a f3c (fun i hi => by rw [hf3c i, if_pos (by have : (i 0).val = 0 := hi; omega)])) $$ HS0
  ihave HS1 := (Gath_f3 m d L (tbl m d) (slotK q 1) (⟨1, hlt1⟩ : Fin 49) f3a f3c (fun i hi => by rw [hf3c i, if_pos (by have : (i 0).val = 1 := hi; omega)])) $$ HS1
  ihave HS2 := (Gath_f3 m d L (tbl m d) (slotK q 2) (⟨2, hlt2⟩ : Fin 49) f3a f3c (fun i hi => by rw [hf3c i, if_pos (by have : (i 0).val = 2 := hi; omega)])) $$ HS2
  ihave HS3 := (Gath_f3 m d L (tbl m d) (slotK q 3) (⟨3, hlt3⟩ : Fin 49) f3a f3c (fun i hi => by rw [hf3c i, if_pos (by have : (i 0).val = 3 := hi; omega)])) $$ HS3
  ihave Hb3 := (Entails.of_eq (rest4_congr d L f3b f3c (fun i hi => by rw [hf3c i, if_neg (by omega)]))) $$ Hb3
  ihave HrT := (Entails.of_eq (rows_rest4 d L f3c)) $$ Hb3
  ihave HnT := (Entails.of_eq ((show (bigSep Finset.univ fun j : Fin 49 => ((nRowK L j).view.loc (V d (cV L) (jV L)) ↦[(nRowK L j).view.set]{fullShare} m (nLoc d) : sProp 𝕄))
      = bigSep Finset.univ fun j : Fin 49 => nBlock d L j (m (nLoc d)) from rfl).trans (nTodo_zero m d L).symm)) $$ Hn
  -- the ring
  sl_exec
  sl_for (inv3 m d L q f3c O W) $$ [HO HnT HrT HS0 HS1 HS2 HS3 HS4 HS5]
  case region =>
    intro k _
    exact region3 m d L q f3c (View.write (Elt F) (b0).view f0 (tile_run.sl.dma0 m d L) Finset.univ) (View.write (Elt F) (b1).view f1 (tile_run.sl.dma0_1 m d L) Finset.univ) hfa hfv hA hV h3c O W _ (fun _ => 0#32) (fun _ => 0#32) k
  · unfold inv3
    isplitr; · iexact Hmw
    isplitl [HO]
    · unfold owesW; iexists _; isplitr
      swap; · iexact HO
      ipureintro; intro p hp
      rcases Finset.mem_insert.mp hp with hp | hp; · exact .inr (hp ▸ rfl)
      rcases Finset.mem_insert.mp hp with hp | hp; · exact .inr (hp ▸ rfl)
      exact .inl hp
    isplitr; · rw [show 6 * 0 = 0 from rfl, nDone_zero]; iempintro
    isplitl [HnT]; · iexact HnT
    isplitr; · rw [show 6 * 0 = 0 from rfl, rDone_zero]; iempintro
    isplitl [HrT]; · iexact HrT
    isplitl [HS0]; · iapply (Entails.of_eq (stG_pos (m := m) (d := d) (L := L) (q := q) (f3 := f3c) 0 0 0 (by omega) rfl).symm); iexact HS0
    isplitl [HS1]; · iapply (Entails.of_eq (stG_pos (m := m) (d := d) (L := L) (q := q) (f3 := f3c) 1 0 1 (by omega) rfl).symm); iexact HS1
    isplitl [HS2]; · iapply (Entails.of_eq (stG_pos (m := m) (d := d) (L := L) (q := q) (f3 := f3c) 2 0 2 (by omega) rfl).symm); iexact HS2
    isplitl [HS3]; · iapply (Entails.of_eq (stG_pos (m := m) (d := d) (L := L) (q := q) (f3 := f3c) 3 0 3 (by omega) rfl).symm); iexact HS3
    isplitl [HS4]; · iapply (Entails.of_eq (stD_zero (m := m) (d := d) (L := L) (q := q) 4).symm); iexact HS4
    iapply (Entails.of_eq (stD_zero (m := m) (d := d) (L := L) (q := q) 5).symm); iexact HS5
  iintro %_ HI
  unfold inv3
  icases HI with ⟨-, HOW, HnD, HnT, HrD, HrT, HS0, HS1, HS2, HS3, HS4, HS5⟩
  -- after the last trip: plane 48's gather in flight in slot 0, planes 46 and 47 on their way out of slots 4 and 5
  have e8 : Scf.trips k0_t3_loop.lb k0_t3_loop.ub k0_t3_loop.st = 8 := by decide
  ihave HS0 := (Entails.of_eq (stG_pos (m := m) (d := d) (L := L) (q := q) (f3 := f3c) 0 _ 48 (by omega) (by rw [e8]; try rfl))) $$ HS0
  ihave HI1 := (Entails.of_eq (stG_neg (m := m) (d := d) (L := L) (q := q) (f3 := f3c) 1 _ (by rw [e8]; try decide))) $$ HS1
  ihave HI2 := (Entails.of_eq (stG_neg (m := m) (d := d) (L := L) (q := q) (f3 := f3c) 2 _ (by rw [e8]; try decide))) $$ HS2
  ihave HI3 := (Entails.of_eq (stG_neg (m := m) (d := d) (L := L) (q := q) (f3 := f3c) 3 _ (by rw [e8]; try decide))) $$ HS3
  ihave HS4 := (Entails.of_eq (stD_pos (m := m) (d := d) (L := L) (q := q) 4 _ 46 (by omega) (by rw [e8]; try decide) (by rw [e8]; try rfl))) $$ HS4
  ihave HS5 := (Entails.of_eq (stD_pos (m := m) (d := d) (L := L) (q := q) 5 _ 47 (by omega) (by rw [e8]; try decide) (by rw [e8]; try rfl))) $$ HS5
  ihave HnD := (Entails.of_eq (congrArg (nDone m d L) (show 6 * Scf.trips k0_t3_loop.lb k0_t3_loop.ub k0_t3_loop.st = 48 by rw [e8]))) $$ HnD
  ihave HnT := (Entails.of_eq (congrArg (nTodo m d L) (show 6 * Scf.trips k0_t3_loop.lb k0_t3_loop.ub k0_t3_loop.st = 48 by rw [e8]))) $$ HnT
  ihave HrD := (Entails.of_eq (congrArg (rDone d L f3c) (show 6 * Scf.trips k0_t3_loop.lb k0_t3_loop.ub k0_t3_loop.st = 48 by rw [e8]))) $$ HrD
  sl_exec
  iapply (dwait m d L (slotK q 4) ⟨46, by omega⟩ O W _ _ (off28_n L 0 46 (by omega) rfl) _ _) $$ [HS4 HOW]
  · isplitl [HS4]; · iexact HS4
    isplitl [HOW]; · iexact HOW
    iexact Hmw
  iintro ⟨HI4, Hdone, HOW⟩
  ihave HnD := (Entails.of_eq (nDone_put m d L 48 (by omega) (by omega)).symm) $$ [Hdone HnD]
  · isplitl [Hdone] <;> iassumption
  sl_exec
  iapply (dwait m d L (slotK q 5) ⟨47, by omega⟩ O W _ _ (off28_n L 1 47 (by omega) rfl) _ _) $$ [HS5 HOW]
  · isplitl [HS5]; · iexact HS5
    isplitl [HOW]; · iexact HOW
    iexact Hmw
  iintro ⟨HI5, Hdone, HOW⟩
  ihave HnD := (Entails.of_eq (nDone_put m d L 49 (by omega) (by omega)).symm) $$ [Hdone HnD]
  · isplitl [Hdone] <;> iassumption
  sl_exec
  iapply (gwait m d L (slotK q 0) ⟨48, by omega⟩ f3c O W _ _ _) $$ [HS0 HOW]
  · isplitl [HS0]; · iexact HS0
    isplitl [HOW]; · iexact HOW
    iexact Hmw
  iintro ⟨⟨%fe0, %hfe0, HR0⟩, Hrow, HOW⟩
  ihave HrD := (Entails.of_eq (rDone_put d L f3c 48 (by omega)).symm) $$ [Hrow HrD]
  · isplitl [Hrow] <;> iassumption
  sl_exec
  ihave Hx := (Entails.of_eq (nTodo_take m d L 48 (by omega))) $$ HnT
  icases Hx with ⟨Hblk, HnT⟩
  iapply (dissue m d L (slotK q 0) ⟨48, by omega⟩ _ _ (off28_n L 2 48 (by omega) rfl) fe0 hfe0 _ _ _) $$ [HR0 Hblk]
  · isplitl [HR0] <;> iassumption
  iintro HS0
  -- the positives: their gather's wait, then the blocking copy out
  ihave Hx := (Entails.of_eq (show owesW d L O W = (iprop(∃ W', ⌜∀ p ∈ W', p ∈ W ∨ p.2 = none⌝ ∗ owes (V d (cV L) (jV L)) O W') : sProp 𝕄) from rfl)) $$ HOW
  icases Hx with ⟨%W1, %hW1, HO⟩
  sl_exec
  ihave HOW := (show owes (V d (cV L) (jV L)) O _ ⊢ owesW d L O W from by
      unfold owesW; iintro H; iexists _; isplitr
      swap; · iexact H
      ipureintro; intro p hp
      rcases Finset.mem_insert.mp hp with hp | hp; · exact .inr (hp ▸ rfl)
      rcases Finset.mem_insert.mp hp with hp | hp; · exact .inr (hp ▸ rfl)
      exact hW1 p hp) $$ HO
  iapply (dwait m d L (slotK q 0) ⟨48, by omega⟩ O W _ _ (off28_n L 2 48 (by omega) rfl) _ _) $$ [HS0 HOW]
  · isplitl [HS0]; · iexact HS0
    isplitl [HOW]; · iexact HOW
    iexact Hmw
  iintro ⟨HI0, Hdone, HOW⟩
  ihave HnD := (Entails.of_eq (nDone_put m d L 50 (by omega) (by omega)).symm) $$ [Hdone HnD]
  · isplitl [Hdone] <;> iassumption
  sl_exec
  sl_step
  -- the positives' rows hold the looked-up rows
  have hpos : ∀ i ∈ (pRowK L).view.set, ((pRowK L).view.writes (Elt F) (m (pLoc d)) [⟨Rect.whole S128x128, tile_run.sl.dma0_2 m d L f0 f1 f4 hinp⟩]) i = posOf m d i := by
    intro i hi
    obtain ⟨x, -, rfl⟩ := Finset.mem_map.mp hi
    have e1 := View.read_writes_cons_emb (v := (pRowK L).view) (Val := Elt F) (f := m (pLoc d)) (Rect.whole S128x128) (tile_run.sl.dma0_2 m d L f0 f1 f4 hinp) [] x
    rw [Rect.emb_whole_apply] at e1
    refine (((View.read_apply _ _).trans (cast_eq _ _)).symm.trans e1).trans ?_
    have e2 := View.read_writes_cons_emb (v := (b4).view) (Val := Elt F) (f := f4) (Rect.whole _) (tile_run.sl.gather0 m d L f0 f1 hinp) [] x
    rw [Rect.emb_whole_apply] at e2
    refine (show tile_run.sl.dma0_2 m d L f0 f1 f4 hinp x = tile_run.sl.gather0 m d L f0 f1 hinp x from e2).trans ?_
    show SparseCore.gatherPayload _ ((tS).view.read (Elt F) (tbl m d)) (SparseCore.rows ((b2).view.read (Elt F) ((b2).view.writes (Elt F) (b2).view.junk (tile_run.sl.Hb2'_8 m d L f0 f1))) _ hinp) x = _
    rw [tS_read]
    exact pos_gather_val m d L (View.write (Elt F) (b0).view f0 (tile_run.sl.dma0 m d L) Finset.univ) (View.write (Elt F) (b1).view f1 (tile_run.sl.dma0_1 m d L) Finset.univ) _ hfa hfv hp2 _ _ hinp x
  ihave Hp := (Entails.of_eq (pointsTo_congr hpos)) $$ Hp'
  ihave Hn := (Entails.of_eq (nDone_all m d L (50 + 1) (by omega))) $$ HnD
  ihave Hb3 := (Entails.of_eq ((rDone_all d L f3c (48 + 1) (by omega)).trans (rows_split d L f3c).symm)) $$ HrD
  -- the slots back to the ring, the table's shares back to one
  ihave Hx := (Entails.of_eq (show Idle d L (tbl m d) (slotK q 0) = (iprop(∃ fd, Ready d L (tbl m d) (slotK q 0) fd) : sProp 𝕄) from rfl)) $$ HI0
  icases Hx with ⟨%gz0, HR0⟩
  ihave Hx := (Entails.of_eq (Ready_def d L (tbl m d) (slotK q 0) gz0)) $$ HR0
  icases Hx with ⟨Hg0, Hd0, Hs0, Ht0⟩
  ihave Hx := (Entails.of_eq (show Idle d L (tbl m d) (slotK q 1) = (iprop(∃ fd, Ready d L (tbl m d) (slotK q 1) fd) : sProp 𝕄) from rfl)) $$ HI1
  icases Hx with ⟨%gz1, HR1⟩
  ihave Hx := (Entails.of_eq (Ready_def d L (tbl m d) (slotK q 1) gz1)) $$ HR1
  icases Hx with ⟨Hg1, Hd1, Hs1, Ht1⟩
  ihave Hx := (Entails.of_eq (show Idle d L (tbl m d) (slotK q 2) = (iprop(∃ fd, Ready d L (tbl m d) (slotK q 2) fd) : sProp 𝕄) from rfl)) $$ HI2
  icases Hx with ⟨%gz2, HR2⟩
  ihave Hx := (Entails.of_eq (Ready_def d L (tbl m d) (slotK q 2) gz2)) $$ HR2
  icases Hx with ⟨Hg2, Hd2, Hs2, Ht2⟩
  ihave Hx := (Entails.of_eq (show Idle d L (tbl m d) (slotK q 3) = (iprop(∃ fd, Ready d L (tbl m d) (slotK q 3) fd) : sProp 𝕄) from rfl)) $$ HI3
  icases Hx with ⟨%gz3, HR3⟩
  ihave Hx := (Entails.of_eq (Ready_def d L (tbl m d) (slotK q 3) gz3)) $$ HR3
  icases Hx with ⟨Hg3, Hd3, Hs3, Ht3⟩
  ihave Hx := (Entails.of_eq (show Idle d L (tbl m d) (slotK q 4) = (iprop(∃ fd, Ready d L (tbl m d) (slotK q 4) fd) : sProp 𝕄) from rfl)) $$ HI4
  icases Hx with ⟨%gz4, HR4⟩
  ihave Hx := (Entails.of_eq (Ready_def d L (tbl m d) (slotK q 4) gz4)) $$ HR4
  icases Hx with ⟨Hg4, Hd4, Hs4, Ht4⟩
  ihave Hx := (Entails.of_eq (show Idle d L (tbl m d) (slotK q 5) = (iprop(∃ fd, Ready d L (tbl m d) (slotK q 5) fd) : sProp 𝕄) from rfl)) $$ HI5
  icases Hx with ⟨%gz5, HR5⟩
  ihave Hx := (Entails.of_eq (Ready_def d L (tbl m d) (slotK q 5) gz5)) $$ HR5
  icases Hx with ⟨Hg5, Hd5, Hs5, Ht5⟩
  ihave Hb5 := (ring_join d L gz0 gz1 gz2 gz3 gz4 gz5) $$ [Hs0 Hs1 Hs2 Hs3 Hs4 Hs5]
  · isplitl [Hs0]; · iexact Hs0
    isplitl [Hs1]; · iexact Hs1
    isplitl [Hs2]; · iexact Hs2
    isplitl [Hs3]; · iexact Hs3
    isplitl [Hs4]; · iexact Hs4
    iexact Hs5
  ihave Hts := (pointsTo_share (ℓ := (tS).view.loc (V d (cV L) (jV L))) (I := (tS).view.set) (f := (tbl m d)) (PosShare.mem_left_op_right (q.right.right.right.right.right))).2 $$ [Ht5 Ht6]
  · isplitl [Ht5]; · iexact Ht5
    iexact Ht6
  ihave Hts := (pointsTo_share (ℓ := (tS).view.loc (V d (cV L) (jV L))) (I := (tS).view.set) (f := (tbl m d)) (PosShare.mem_left_op_right (q.right.right.right.right))).2 $$ [Ht4 Hts]
  · isplitl [Ht4]; · iexact Ht4
    iexact Hts
  ihave Hts := (pointsTo_share (ℓ := (tS).view.loc (V d (cV L) (jV L))) (I := (tS).view.set) (f := (tbl m d)) (PosShare.mem_left_op_right (q.right.right.right))).2 $$ [Ht3 Hts]
  · isplitl [Ht3]; · iexact Ht3
    iexact Hts
  ihave Hts := (pointsTo_share (ℓ := (tS).view.loc (V d (cV L) (jV L))) (I := (tS).view.set) (f := (tbl m d)) (PosShare.mem_left_op_right (q.right.right))).2 $$ [Ht2 Hts]
  · isplitl [Ht2]; · iexact Ht2
    iexact Hts
  ihave Hts := (pointsTo_share (ℓ := (tS).view.loc (V d (cV L) (jV L))) (I := (tS).view.set) (f := (tbl m d)) (PosShare.mem_left_op_right (q.right))).2 $$ [Ht1 Hts]
  · isplitl [Ht1]; · iexact Ht1
    iexact Hts
  ihave Hts := (pointsTo_share (ℓ := (tS).view.loc (V d (cV L) (jV L))) (I := (tS).view.set) (f := (tbl m d)) (PosShare.mem_left_op_right (q))).2 $$ [Ht0 Hts]
  · isplitl [Ht0]; · iexact Ht0
    iexact Hts
  ihave Ht := (pointsTo_split_subset (ℓ := (tS).view.loc (V d (cV L) (jV L))) (q := q) (f := (tbl m d)) (S := Finset.univ) (Finset.subset_univ (tS).view.set)).2 $$ [Hts Htr]
  · isplitl [Hts] <;> iassumption
  isplitl [Ha' Hv' Ht Hp Hn]
  · isplitl [Ha']; · iexact Ha'
    isplitl [Hv']; · iexact Hv'
    isplitl [Ht]; · iexact Ht
    isplitl [Hp]; · iexact Hp
    iexact Hn
  isplitl [Hb0 Hb1 Hb2' Hb3 Hb4' Hb5 Hbufs]
  · isplitl [Hb0]; · iexists _; iexact Hb0
    isplitl [Hb1]; · iexists _; iexact Hb1
    isplitl [Hb2']; · iexists _; iexact Hb2'
    isplitl [Hb3]; · iexists _; iexact Hb3
    isplitl [Hb4']; · iexists _; iexact Hb4'
    isplitl [Hb5]; · iexact Hb5
    iexact Hbufs
  isplitl [Hps Hg0 Hg1 Hg2 Hg3 Hg4 Hg5 Hd0 Hd1 Hd2 Hd3 Hd4 Hd5 Hr0 Hr1 Hr2]
  · isplitl [Hps]; · iexact Hps
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hr0]; · iexact Hr0
    isplitl [Hr1]; · iexact Hr1
    iexact Hr2
  iapply (Entails.of_eq (show owesW d L O W = (iprop(∃ W', ⌜∀ p ∈ W', p ∈ W ∨ p.2 = none⌝ ∗ owes (V d (cV L) (jV L)) O W') : sProp 𝕄) from rfl))
  iexact HOW

/-- The body obligation of one vector subcore. -/
theorem tile_body (hpre : PreOK m) : TileBody m := tile_run m hpre

end Cert.KK

end
-- ==== Proof.lean ====
/- The proof of `Cert.Claim`.

   The kernel is a table lookup. The host re-lays the prototype bank `X : [2000, 50, 128]` as a table of 100000 rows,
   row `v * 2000 + a` holding `X[a, v, :]`. For sample `b` with attribute `a` and value `v` the vector subcores copy
   out, by indexed row copies, the row `v * 2000 + a` (the positive) and, for each `j < 49`, the row
   `(j + [v ≤ j]) * 2000 + a` (the negatives: the prototypes of the 49 values other than `v`, in order), plane `j` of the
   negatives at rows `4096 j + b`; the host then moves the planes to the middle axis. The reference computes
   `X[a, v, :]` and `X[a, j + [v ≤ j], :]` by gathers. Under the precondition (`0 ≤ a ≤ 1999`, `0 ≤ v ≤ 49`) no index
   word wraps or is out of range, and the two sides are equal index by index because both are the same rows of the
   bank: nothing is computed on the floats, so the equality holds at the ideal reading as at any other.

   `frame_Kernel`, `frame_KernelIdeal`: the kernel's run with the argument arrays unchanged, at the two readings of the
   floats. `frame_ReferenceIdeal`: the reference's run. `algebraic`: both runs end with the same two results. -/
import proofs.«210835_g78632261255710_cont_9to1_m_350_20_alg».proof.Defs
import proofs.«210835_g78632261255710_cont_9to1_m_350_20_alg».proof.Proof.Gen.Kernel
import proofs.«210835_g78632261255710_cont_9to1_m_350_20_alg».proof.Proof.Gen.Kernel.Skeleton
import proofs.«210835_g78632261255710_cont_9to1_m_350_20_alg».proof.Proof.Gen.KernelIdeal
import proofs.«210835_g78632261255710_cont_9to1_m_350_20_alg».proof.Proof.Gen.KernelIdeal.Skeleton
import proofs.«210835_g78632261255710_cont_9to1_m_350_20_alg».proof.Proof.Gen.ReferenceIdeal
import proofs.«210835_g78632261255710_cont_9to1_m_350_20_alg».proof.Proof.Gen.Pre_input_domain
import proofs.«210835_g78632261255710_cont_9to1_m_350_20_alg».proof.Proof.RefSide
import proofs.«210835_g78632261255710_cont_9to1_m_350_20_alg».proof.Proof.RefPre
import proofs.«210835_g78632261255710_cont_9to1_m_350_20_alg».proof.Proof.Bridge
import proofs.«210835_g78632261255710_cont_9to1_m_350_20_alg».proof.Proof.Launch
import proofs.«210835_g78632261255710_cont_9to1_m_350_20_alg».proof.Proof.Body
import proofs.«210835_g78632261255710_cont_9to1_m_350_20_alg».proof.Proof.LaunchK
import proofs.«210835_g78632261255710_cont_9to1_m_350_20_alg».proof.Proof.BodyK
import Idealize.ShloMosaic.Adequacy
import Idealize.ShloMosaic.Init

noncomputable section

namespace Cert.Proof

open Idealize.ShloMosaic Idealize.SL.Sem

/-- The precondition gives the kernel's proof its ranges, at the ideal reading … -/
theorem preOK_KI (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : Cert.KI.PreOK m :=
  fun d => Cert.RefSide.ranges_of_pre _ _ _ (h d)

/-- … and at the bit-exact one. -/
theorem preOK_KK (m : (ℓ : Loc Cert.Kernel.nD Cert.Kernel.τ Cert.Kernel.sig) → Buf (Elt Bits) ℓ)
    (h : Cert.Pre_Kernel (hPre_input_domain := Cert.Pre_input_domain.Gen.facts) m) : Cert.KK.PreOK m :=
  fun d => Cert.RefSide.ranges_of_pre _ _ _ (h d)

theorem frame_Kernel :
    Cert.frame_Kernel (hKernel := Cert.Kernel.Gen.facts) (hPre_input_domain := Cert.Pre_input_domain.Gen.facts) :=
  fun m g hpre => (θ_run Cert.Kernel.defs _ _).mono (fun _ h c => (h c).2.2)
    (Cert.KK.run_main (F := Bits) m g (preOK_KK m hpre) (Cert.KK.tile_body m (preOK_KK m hpre)))

theorem frame_KernelIdeal :
    Cert.frame_KernelIdeal (hKernelIdeal := Cert.KernelIdeal.Gen.facts) (hPre_input_domain := Cert.Pre_input_domain.Gen.facts) :=
  fun m g hpre => (θ_run Cert.KernelIdeal.defs _ _).mono (fun _ h c => (h c).2.2)
    (Cert.KI.run_main (F := Ideal) m g (preOK_KI m hpre) (Cert.KI.tile_body m (preOK_KI m hpre)))

theorem frame_ReferenceIdeal :
    Cert.frame_ReferenceIdeal (hReferenceIdeal := Cert.ReferenceIdeal.Gen.facts) (hPre_input_domain := Cert.Pre_input_domain.Gen.facts) :=
  fun m g _ => (θ_run Cert.ReferenceIdeal.defs _ _).mono (fun _ h c => (h c).2.2) (Cert.RefSide.run (F := Ideal) m g)

theorem algebraic :
    Cert.algebraic_KernelIdeal_ReferenceIdeal (hKernelIdeal := Cert.KernelIdeal.Gen.facts)
      (hReferenceIdeal := Cert.ReferenceIdeal.Gen.facts) (hPre_input_domain := Cert.Pre_input_domain.Gen.facts) :=
  fun m g m' g' hpre hagree =>
    have hok := preOK_KI m hpre
    ⟨fun c => Cert.KI.posOf m c, fun c => Cert.KI.negOut (Cert.KI.negOf m c),
      (θ_run Cert.KernelIdeal.defs _ _).mono (fun _ h c => h c)
        (Cert.KI.run_main (F := Ideal) m g hok (Cert.KI.tile_body m hok)),
      (θ_run Cert.ReferenceIdeal.defs _ _).mono (fun _ h c =>
          ⟨(h c).1.trans (by
              rw [(hagree c).1, (hagree c).2.1, (hagree c).2.2]
              exact (Cert.KI.kernel_eq_ref _ _ _ (hok c).1 (hok c).2).1.symm),
            (h c).2.1.trans (by
              rw [(hagree c).1, (hagree c).2.1, (hagree c).2.2]
              exact (Cert.KI.kernel_eq_ref _ _ _ (hok c).1 (hok c).2).2.symm),
            (h c).2.2⟩)
        (Cert.RefSide.run (F := Ideal) m' g')⟩

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial, algebraic⟩

end Cert.Proof

end
